-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x64x64 : Shape := ⟨4, ![64, 64, 64, 64]⟩
abbrev S64x64x5x1 : Shape := ⟨4, ![64, 64, 5, 1]⟩
abbrev S64 : Shape := ⟨1, ![64]⟩
abbrev S64x64x1x5 : Shape := ⟨4, ![64, 64, 1, 5]⟩
abbrev S_ : Shape := ⟨0, ![]⟩

class Facts : Prop where
  bcast_S_S64x64x64x64 : S_.BroadcastsInDim S64x64x64x64 (![] : Fin 0 → Fin S64x64x64x64.rank)
  reducesTo_S64x64x64x64_S_d0_1_2_3 : S64x64x64x64.ReducesTo [0, 1, 2, 3] S_
  h_S_ : 0 < S_.numel
  bcast_S_S64x64x5x1 : S_.BroadcastsInDim S64x64x5x1 (![] : Fin 0 → Fin S64x64x5x1.rank)
  reducesTo_S64x64x5x1_S_d0_1_2_3 : S64x64x5x1.ReducesTo [0, 1, 2, 3] S_
  bcast_S_S64 : S_.BroadcastsInDim S64 (![] : Fin 0 → Fin S64.rank)
  reducesTo_S64_S_d0 : S64.ReducesTo [0] S_
  bcast_S_S64x64x1x5 : S_.BroadcastsInDim S64x64x1x5 (![] : Fin 0 → Fin S64x64x1x5.rank)
  reducesTo_S64x64x1x5_S_d0_1_2_3 : S64x64x1x5.ReducesTo [0, 1, 2, 3] S_

variable [Facts]

def fn_part2 {F : FTy → Type} [FloatOps F] (main_arg7 : FVec F S64x64x5x1 .f32) (main_arg8 : FVec F S64 .f32) (main_v33 : IVec S_ 1) : IVec S_ 1 :=
  let main_v34 : FVec F S64x64x5x1 .f32 := Host.absf main_arg7
  let main_cst_12 : FVec F S_ .f32 := constant S_ .f32 0x7F800000#32
  let main_v35 : FVec F S64x64x5x1 .f32 := broadcastInDim S64x64x5x1 ![] bcast_S_S64x64x5x1 main_cst_12
  let main_v36 : IVec S64x64x5x1 1 := cmpf .olt main_v34 main_v35
  let main_c_13 : IVec S_ 1 := constantI S_ 1 1#1
  let main_v37 : IVec S_ 1 := (fun x v => Host.reduce IntOp.andi x v reducesTo_S64x64x5x1_S_d0_1_2_3 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S64x64x1x5 .f32) (main_arg6 : FVec F S64 .f32) (main_arg7 : FVec F S64x64x5x1 .f32) (main_arg8 : FVec F S64 .f32) (main_v13 : IVec S_ 1) (main_v16 : IVec S64x64x1x5 1) : IVec S_ 1 :=
  let main_c_5 : IVec S_ 1 := constantI S_ 1 1#1
  let main_v17 : IVec S_ 1 := (fun x v => Host.reduce IntOp.andi x v reducesTo_S64x64x1x5_S_d0_1_2_3 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64x1x5 .f32 := Host.absf main_arg5
  let main_cst_8 : FVec F S_ .f32 := constant S_ .f32 0x7F800000#32
  let main_v25 : FVec F S64x64x1x5 .f32 := broadcastInDim S64x64x1x5 ![] bcast_S_S64x64x1x5 main_cst_8
  let main_v26 : IVec S64x64x1x5 1 := cmpf .olt main_v24 main_v25
  let main_c_9 : IVec S_ 1 := constantI S_ 1 1#1
  let main_v27 : IVec S_ 1 := (fun x v => Host.reduce IntOp.andi x v reducesTo_S64x64x1x5_S_d0_1_2_3 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S64x64x64x64 .f32) (main_arg1 : FVec F S64x64x5x1 .f32) (main_arg2 : FVec F S64 .f32) (main_arg3 : FVec F S64x64x1x5 .f32) (main_arg4 : FVec F S64 .f32) (main_arg5 : FVec F S64x64x1x5 .f32) (main_arg6 : FVec F S64 .f32) (main_arg7 : FVec F S64x64x5x1 .f32) (main_arg8 : FVec F S64 .f32) : IVec S_ 1 :=
  let main_v0 : FVec F S64x64x64x64 .f32 := Host.absf main_arg0
  let main_cst : FVec F S_ .f32 := constant S_ .f32 0x7F800000#32
  let main_v1 : FVec F S64x64x64x64 .f32 := broadcastInDim S64x64x64x64 ![] bcast_S_S64x64x64x64 main_cst
  let main_v2 : IVec S64x64x64x64 1 := cmpf .olt main_v0 main_v1
  let main_c : IVec S_ 1 := constantI S_ 1 1#1
  let main_v3 : IVec S_ 1 := (fun x v => Host.reduce IntOp.andi x v reducesTo_S64x64x64x64_S_d0_1_2_3 h_S_) main_v2 main_c
  let main_v4 : FVec F S64x64x5x1 .f32 := Host.absf main_arg1
  let main_cst_0 : FVec F S_ .f32 := constant S_ .f32 0x7F800000#32
  let main_v5 : FVec F S64x64x5x1 .f32 := broadcastInDim S64x64x5x1 ![] bcast_S_S64x64x5x1 main_cst_0
  let main_v6 : IVec S64x64x5x1 1 := cmpf .olt main_v4 main_v5
  let main_c_1 : IVec S_ 1 := constantI S_ 1 1#1
  let main_v7 : IVec S_ 1 := (fun x v => Host.reduce IntOp.andi x v reducesTo_S64x64x5x1_S_d0_1_2_3 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64x1x5 .f32 := Host.absf main_arg3
  let main_cst_4 : FVec F S_ .f32 := constant S_ .f32 0x7F800000#32
  let main_v15 : FVec F S64x64x1x5 .f32 := broadcastInDim S64x64x1x5 ![] bcast_S_S64x64x1x5 main_cst_4
  let main_v16 : IVec S64x64x1x5 1 := cmpf .olt main_v14 main_v15
  fn_part1 (F := F) main_arg4 main_arg5 main_arg6 main_arg7 main_arg8 main_v13 main_v16
-- ==== Kernel.lean ====
abbrev S64x64x64x64 : Shape := ⟨4, ![64, 64, 64, 64]⟩
abbrev S64x64x5x1 : Shape := ⟨4, ![64, 64, 5, 1]⟩
abbrev S64 : Shape := ⟨1, ![64]⟩
abbrev S64x64x1x5 : Shape := ⟨4, ![64, 64, 1, 5]⟩
abbrev S64x64x5 : Shape := ⟨3, ![64, 64, 5]⟩
abbrev S64x5x64 : Shape := ⟨3, ![64, 5, 64]⟩
abbrev S64x320 : Shape := ⟨2, ![64, 320]⟩
abbrev S64x640 : Shape := ⟨2, ![64, 640]⟩
abbrev S64x1 : Shape := ⟨2, ![64, 1]⟩
abbrev S4352 : Shape := ⟨1, ![4352]⟩
abbrev S_ : Shape := ⟨0, ![]⟩
abbrev S1x4352 : Shape := ⟨2, ![1, 4352]⟩
abbrev S4624 : Shape := ⟨1, ![4624]⟩
abbrev S1x4624 : Shape := ⟨2, ![1, 4624]⟩
abbrev S64x64x4096 : Shape := ⟨3, ![64, 64, 4096]⟩
abbrev S1x64x4096 : Shape := ⟨3, ![1, 64, 4096]⟩
abbrev S64x4628 : Shape := ⟨2, ![64, 4628]⟩
abbrev S64x4356 : Shape := ⟨2, ![64, 4356]⟩
abbrev S64x4624 : Shape := ⟨2, ![64, 4624]⟩
abbrev S64x4096 : Shape := ⟨2, ![64, 4096]⟩
abbrev S64x64 : Shape := ⟨2, ![64, 64]⟩
abbrev S64x2176 : Shape := ⟨2, ![64, 2176]⟩
abbrev S320x2176 : Shape := ⟨2, ![320, 2176]⟩
abbrev S64x4352 : Shape := ⟨2, ![64, 4352]⟩
abbrev S320x4624 : Shape := ⟨2, ![320, 4624]⟩
abbrev S64x2 : Shape := ⟨2, ![64, 2]⟩
abbrev S320x4352 : Shape := ⟨2, ![320, 4352]⟩
abbrev S640x4352 : Shape := ⟨2, ![640, 4352]⟩
abbrev S1x64x64 : Shape := ⟨3, ![1, 64, 64]⟩

abbrev nBuf : Space → Nat
  | .hbm => 93
  | .vmem => 15
  | .smem => 0
  | _ => 0

abbrev bufTy : (tb : Table) → Fin (tcTables nBuf tb) → BufTy
  | .hbm, ⟨0, _⟩ => ⟨S64x64x64x64, .f32⟩
  | .hbm, ⟨1, _⟩ => ⟨S64x64x5x1, .f32⟩
  | .hbm, ⟨2, _⟩ => ⟨S64, .f32⟩
  | .hbm, ⟨3, _⟩ => ⟨S64x64x1x5, .f32⟩
  | .hbm, ⟨4, _⟩ => ⟨S64, .f32⟩
  | .hbm, ⟨5, _⟩ => ⟨S64x64x1x5, .f32⟩
  | .hbm, ⟨6, _⟩ => ⟨S64, .f32⟩
  | .hbm, ⟨7, _⟩ => ⟨S64x64x5x1, .f32⟩
  | .hbm, ⟨8, _⟩ => ⟨S64, .f32⟩
  | .hbm, ⟨9, _⟩ => ⟨S64x64x5, .f32⟩
  | .hbm, ⟨10, _⟩ => ⟨S64x5x64, .f32⟩
  | .hbm, ⟨11, _⟩ => ⟨S64x320, .f32⟩
  | .hbm, ⟨12, _⟩ => ⟨S64x320, .bf16⟩
  | .hbm, ⟨13, _⟩ => ⟨S64x64x5, .f32⟩
  | .hbm, ⟨14, _⟩ => ⟨S64x5x64, .f32⟩
  | .hbm, ⟨15, _⟩ => ⟨S64x320, .f32⟩
  | .hbm, ⟨16, _⟩ => ⟨S64x320, .bf16⟩
  | .hbm, ⟨17, _⟩ => ⟨S64x64x5, .f32⟩
  | .hbm, ⟨18, _⟩ => ⟨S64x5x64, .f32⟩
  | .hbm, ⟨19, _⟩ => ⟨S64x320, .f32⟩
  | .hbm, ⟨20, _⟩ => ⟨S64x320, .bf16⟩
  | .hbm, ⟨21, _⟩ => ⟨S64x64x5, .f32⟩
  | .hbm, ⟨22, _⟩ => ⟨S64x5x64, .f32⟩
  | .hbm, ⟨23, _⟩ => ⟨S64x320, .f32⟩
  | .hbm, ⟨24, _⟩ => ⟨S64x320, .bf16⟩
  | .hbm, ⟨25, _⟩ => ⟨S64x640, .bf16⟩
  | .hbm, ⟨26, _⟩ => ⟨S64x1, .f32⟩
  | .hbm, ⟨27, _⟩ => ⟨S64x1, .f32⟩
  | .hbm, ⟨28, _⟩ => ⟨S64, .f32⟩
  | .hbm, ⟨29, _⟩ => ⟨S64x1, .f32⟩
  | .hbm, ⟨30, _⟩ => ⟨S4352, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S4352, .i32⟩
  | .hbm, ⟨38, _⟩ => ⟨S4352, .i32⟩
  | .hbm, ⟨39, _⟩ => ⟨S_, .i32⟩
  | .hbm, ⟨40, _⟩ => ⟨S4352, .i32⟩
  | .hbm, ⟨41, _⟩ => ⟨S4352, .i1⟩
  | .hbm, ⟨42, _⟩ => ⟨S_, .i32⟩
  | .hbm, ⟨43, _⟩ => ⟨S4352, .i32⟩
  | .hbm, ⟨44, _⟩ => ⟨S4352, .i1⟩
  | .hbm, ⟨45, _⟩ => ⟨S_, .i32⟩
  | .hbm, ⟨46, _⟩ => ⟨S_, .i1⟩
  | .hbm, ⟨47, _⟩ => ⟨S4352, .i1⟩
  | .hbm, ⟨48, _⟩ => ⟨S4352, .i1⟩
  | .hbm, ⟨49, _⟩ => ⟨S4352, .i1⟩
  | .hbm, ⟨50, _⟩ => ⟨S4352, .i32⟩
  | .hbm, ⟨51, _⟩ => ⟨S4352, .i32⟩
  | .hbm, ⟨52, _⟩ => ⟨S4352, .i32⟩
  | .hbm, ⟨53, _⟩ => ⟨S_, .i32⟩
  | .hbm, ⟨54, _⟩ => ⟨S4352, .i32⟩
  | .hbm, ⟨55, _⟩ => ⟨S4352, .i1⟩
  | .hbm, ⟨56, _⟩ => ⟨S_, .i32⟩
  | .hbm, ⟨57, _⟩ => ⟨S4352, .i32⟩
  | .hbm, ⟨58, _⟩ => ⟨S4352, .i1⟩
  | .hbm, ⟨59, _⟩ => ⟨S4352, .i1⟩
  | .hbm, ⟨60, _⟩ => ⟨S4352, .f32⟩
  | .hbm, ⟨61, _⟩ => ⟨S1x4352, .f32⟩
  | .hbm, ⟨62, _⟩ => ⟨S4624, .i32⟩
  | .hbm, ⟨63, _⟩ => ⟨S_, .i32⟩
  | .hbm, ⟨64, _⟩ => ⟨S_, .i32⟩
  | .hbm, ⟨65, _⟩ => ⟨S4624, .i32⟩
  | .hbm, ⟨66, _⟩ => ⟨S4624, .i32⟩
  | .hbm, ⟨67, _⟩ => ⟨S4624, .i32⟩
  | .hbm, ⟨68, _⟩ => ⟨S_, .i32⟩
  | .hbm, ⟨69, _⟩ => ⟨S4624, .i32⟩
  | .hbm, ⟨70, _⟩ => ⟨S4624, .i1⟩
  | .hbm, ⟨71, _⟩ => ⟨S4624, .i32⟩
  | .hbm, ⟨72, _⟩ => ⟨S4624, .i32⟩
  | .hbm, ⟨73, _⟩ => ⟨S_, .i32⟩
  | .hbm, ⟨74, _⟩ => ⟨S4624, .i32⟩
  | .hbm, ⟨75, _⟩ => ⟨S4624, .i1⟩
  | .hbm, ⟨76, _⟩ => ⟨S4624, .i1⟩
  | .hbm, ⟨77, _⟩ => ⟨S_, .i32⟩
  | .hbm, ⟨78, _⟩ => ⟨S4624, .i32⟩
  | .hbm, ⟨79, _⟩ => ⟨S4624, .i32⟩
  | .hbm, ⟨80, _⟩ => ⟨S4624, .i32⟩
  | .hbm, ⟨81, _⟩ => ⟨S_, .i32⟩
  | .hbm, ⟨82, _⟩ => ⟨S4624, .i32⟩
  | .hbm, ⟨83, _⟩ => ⟨S4624, .i1⟩
  | .hbm, ⟨84, _⟩ => ⟨S_, .i32⟩
  | .hbm, ⟨85, _⟩ => ⟨S4624, .i32⟩
  | .hbm, ⟨86, _⟩ => ⟨S4624, .i1⟩
  | .hbm, ⟨87, _⟩ => ⟨S4624, .i1⟩
  | .hbm, ⟨88, _⟩ => ⟨S4624, .f32⟩
  | .hbm, ⟨89, _⟩ => ⟨S1x4624, .f32⟩
  | .hbm, ⟨90, _⟩ => ⟨S64x64x4096, .f32⟩
  | .hbm, ⟨91, _⟩ => ⟨S64x64x4096, .f32⟩
  | .hbm, ⟨92, _⟩ => ⟨S64x64x64x64, .f32⟩
  | .local _ .vmem, ⟨0, _⟩ => ⟨S1x64x4096, .f32⟩
  | .local _ .vmem, ⟨1, _⟩ => ⟨S1x64x4096, .f32⟩
  | .local _ .vmem, ⟨2, _⟩ => ⟨S64x320, .bf16⟩
  | .local _ .vmem, ⟨3, _⟩ => ⟨S64x320, .bf16⟩
  | .local _ .vmem, ⟨4, _⟩ => ⟨S64x640, .bf16⟩
  | .local _ .vmem, ⟨5, _⟩ => ⟨S64x1, .f32⟩
  | .local _ .vmem, ⟨6, _⟩ => ⟨S64x1, .f32⟩
  | .local _ .vmem, ⟨7, _⟩ => ⟨S64x1, .f32⟩
  | .local _ .vmem, ⟨8, _⟩ => ⟨S1x4352, .f32⟩
  | .local _ .vmem, ⟨9, _⟩ => ⟨S1x4624, .f32⟩
  | .local _ .vmem, ⟨10, _⟩ => ⟨S1x64x4096, .f32⟩
  | .local _ .vmem, ⟨11, _⟩ => ⟨S1x64x4096, .f32⟩
  | .local _ .vmem, ⟨12, _⟩ => ⟨S64x4628, .bf16⟩
  | .local _ .vmem, ⟨13, _⟩ => ⟨S64x4356, .bf16⟩
  | .local _ .vmem, ⟨14, _⟩ => ⟨S64x4624, .bf16⟩
  | _, _ => ⟨S64x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_call0_v18 : Ref sig .tc := ⟨.hbm, 27, rfl⟩
abbrev main_call0_v19 : Ref sig .tc := ⟨.hbm, 28, rfl⟩
abbrev main_call0_v20 : Ref sig .tc := ⟨.hbm, 29, rfl⟩
abbrev main_call0_v21 : Ref sig .tc := ⟨.hbm, 30, rfl⟩
abbrev main_call0_c : Ref sig .tc := ⟨.hbm, 31, rfl⟩
abbrev main_call0_call0_v0 : Ref sig .tc := ⟨.hbm, 32, rfl⟩
abbrev main_call0_call0_c : Ref sig .tc := ⟨.hbm, 33, rfl⟩
abbrev main_call0_call0_v1 : Ref sig .tc := ⟨.hbm, 34, rfl⟩
abbrev main_call0_call0_c_0 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_call0_c_1 : Ref sig .tc := ⟨.hbm, 39, rfl⟩
abbrev main_call0_call0_v5 : Ref sig .tc := ⟨.hbm, 40, rfl⟩
abbrev main_call0_call0_v6 : Ref sig .tc := ⟨.hbm, 41, rfl⟩
abbrev main_call0_call0_c_2 : Ref sig .tc := ⟨.hbm, 42, rfl⟩
abbrev main_call0_call0_v7 : Ref sig .tc := ⟨.hbm, 43, rfl⟩
abbrev main_call0_call0_v8 : Ref sig .tc := ⟨.hbm, 44, rfl⟩
abbrev main_call0_call0_c_3 : Ref sig .tc := ⟨.hbm, 45, rfl⟩
abbrev main_call0_call0_v9 : Ref sig .tc := ⟨.hbm, 46, rfl⟩
abbrev main_call0_call0_v10 : Ref sig .tc := ⟨.hbm, 47, rfl⟩
abbrev main_call0_call0_v11 : Ref sig .tc := ⟨.hbm, 48, rfl⟩
abbrev main_call0_call0_v12 : Ref sig .tc := ⟨.hbm, 49, rfl⟩
abbrev main_call0_call0_v13 : Ref sig .tc := ⟨.hbm, 50, rfl⟩
abbrev main_call0_call0_v14 : Ref sig .tc := ⟨.hbm, 51, rfl⟩
abbrev main_call0_v22 : Ref sig .tc := ⟨.hbm, 52, rfl⟩
abbrev main_call0_c_0 : Ref sig .tc := ⟨.hbm, 53, rfl⟩
abbrev main_call0_v23 : Ref sig .tc := ⟨.hbm, 54, rfl⟩
abbrev main_call0_v24 : Ref sig .tc := ⟨.hbm, 55, rfl⟩
abbrev main_call0_c_1 : Ref sig .tc := ⟨.hbm, 56, rfl⟩
abbrev main_call0_v25 : Ref sig .tc := ⟨.hbm, 57, rfl⟩
abbrev main_call0_v26 : Ref sig .tc := ⟨.hbm, 58, rfl⟩
abbrev main_call0_v27 : Ref sig .tc := ⟨.hbm, 59, rfl⟩
abbrev main_call0_v28 : Ref sig .tc := ⟨.hbm, 60, rfl⟩
abbrev main_call0_v29 : Ref sig .tc := ⟨.hbm, 61, rfl⟩
abbrev main_call0_v30 : Ref sig .tc := ⟨.hbm, 62, rfl⟩
abbrev main_call0_c_2 : Ref sig .tc := ⟨.hbm, 63, rfl⟩
abbrev main_call0_call1_v0 : Ref sig .tc := ⟨.hbm, 64, rfl⟩
abbrev main_call0_call1_v1 : Ref sig .tc := ⟨.hbm, 65, rfl⟩
abbrev main_call0_call1_v2 : Ref sig .tc := ⟨.hbm, 66, rfl⟩
abbrev main_call0_call1_v3 : Ref sig .tc := ⟨.hbm, 67, rfl⟩
abbrev main_call0_call1_v4 : Ref sig .tc := ⟨.hbm, 68, rfl⟩
abbrev main_call0_call1_v5 : Ref sig .tc := ⟨.hbm, 69, rfl⟩
abbrev main_call0_call1_v6 : Ref sig .tc := ⟨.hbm, 70, rfl⟩
abbrev main_call0_call1_v7 : Ref sig .tc := ⟨.hbm, 71, rfl⟩
abbrev main_call0_call1_v8 : Ref sig .tc := ⟨.hbm, 72, rfl⟩
abbrev main_call0_call1_c : Ref sig .tc := ⟨.hbm, 73, rfl⟩
abbrev main_call0_call1_v9 : Ref sig .tc := ⟨.hbm, 74, rfl⟩
abbrev main_call0_call1_v10 : Ref sig .tc := ⟨.hbm, 75, rfl⟩
abbrev main_call0_call1_v11 : Ref sig .tc := ⟨.hbm, 76, rfl⟩
abbrev main_call0_call1_c_0 : Ref sig .tc := ⟨.hbm, 77, rfl⟩
abbrev main_call0_call1_v12 : Ref sig .tc := ⟨.hbm, 78, rfl⟩
abbrev main_call0_call1_v13 : Ref sig .tc := ⟨.hbm, 79, rfl⟩
abbrev main_call0_v31 : Ref sig .tc := ⟨.hbm, 80, rfl⟩
abbrev main_call0_c_3 : Ref sig .tc := ⟨.hbm, 81, rfl⟩
abbrev main_call0_v32 : Ref sig .tc := ⟨.hbm, 82, rfl⟩
abbrev main_call0_v33 : Ref sig .tc := ⟨.hbm, 83, rfl⟩
abbrev main_call0_c_4 : Ref sig .tc := ⟨.hbm, 84, rfl⟩
abbrev main_call0_v34 : Ref sig .tc := ⟨.hbm, 85, rfl⟩
abbrev main_call0_v35 : Ref sig .tc := ⟨.hbm, 86, rfl⟩
abbrev main_call0_v36 : Ref sig .tc := ⟨.hbm, 87, rfl⟩
abbrev main_call0_v37 : Ref sig .tc := ⟨.hbm, 88, rfl⟩
abbrev main_call0_v38 : Ref sig .tc := ⟨.hbm, 89, rfl⟩
abbrev main_call0_v39 : Ref sig .tc := ⟨.hbm, 90, rfl⟩
abbrev main_call0_v40 : Ref sig .tc := ⟨.hbm, 91, rfl⟩
abbrev main_v0 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x320 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x320 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4352 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4624 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x64x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S64x64x5x1_S64x64x5 : S64x64x5x1.ShapeCasts S64x64x5
  transposes_S64x64x5_S64x5x64_0_2_1 : S64x64x5.Transposes [0, 2, 1] S64x5x64
  shapeCasts_S64x5x64_S64x320 : S64x5x64.ShapeCasts S64x320
  bitsLt_bf16_f32 : FTy.bits .bf16 < FTy.bits .f32
  shapeCasts_S64x64x1x5_S64x64x5 : S64x64x1x5.ShapeCasts S64x64x5
  concatenates_S64x320_S64x320_S64x640_d1 : Shape.Concatenates [S64x320, S64x320] S64x640 1
  bcast_S64_S64x1_0 : S64.BroadcastsInDim S64x1 (![0] : Fin 1 → Fin S64x1.rank)
  bcast_S_S4352 : S_.BroadcastsInDim S4352 (![] : Fin 0 → Fin S4352.rank)
  bcast_S4352_S1x4352_1 : S4352.BroadcastsInDim S1x4352 (![1] : Fin 1 → Fin S1x4352.rank)
  bcast_S_S4624 : S_.BroadcastsInDim S4624 (![] : Fin 0 → Fin S4624.rank)
  bcast_S4624_S1x4624_1 : S4624.BroadcastsInDim S1x4624 (![1] : Fin 1 → Fin S1x4624.rank)
  shapeCasts_S64x64x64x64_S64x64x4096 : S64x64x64x64.ShapeCasts S64x64x4096
  shapeCasts_S64x64x4096_S64x64x64x64 : S64x64x4096.ShapeCasts S64x64x64x64
  inb_S64x4628_S64x4628_0_0 : ∀ a, (![0, 0] : Fin 2 → Nat) a + S64x4628.size a ≤ S64x4628.size a
  h_S64x4628 : 0 < S64x4628.numel
  shapeCasts_S64x4628_S64x4628 : S64x4628.ShapeCasts S64x4628
  packedbf16_S64x4628_S64x4628_0_0 : (Rect.unit (s := S64x4628) ![0, 0] S64x4628.size inb_S64x4628_S64x4628_0_0).PackedRows (EltTy.packing .bf16)
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  slices_S64x4096_o0_0_S64x64 : S64x4096.Slices ![0, 0] S64x64
  inb_S64x4628_S64x64_0_140 : ∀ a, (![0, 140] : Fin 2 → Nat) a + S64x64.size a ≤ S64x4628.size a
  h_S64x64 : 0 < S64x64.numel
  shapeCasts_S64x64_S64x64 : S64x64.ShapeCasts S64x64
  packedbf16_S64x4628_S64x64_0_140 : (Rect.unit (s := S64x4628) ![0, 140] S64x64.size inb_S64x4628_S64x64_0_140).PackedRows (EltTy.packing .bf16)
  slices_S64x4096_o0_64_S64x64 : S64x4096.Slices ![0, 64] S64x64
  inb_S64x4628_S64x64_0_208 : ∀ a, (![0, 208] : Fin 2 → Nat) a + S64x64.size a ≤ S64x4628.size a
  packedbf16_S64x4628_S64x64_0_208 : (Rect.unit (s := S64x4628) ![0, 208] S64x64.size inb_S64x4628_S64x64_0_208).PackedRows (EltTy.packing .bf16)
  slices_S64x4096_o0_128_S64x64 : S64x4096.Slices ![0, 128] S64x64
  inb_S64x4628_S64x64_0_276 : ∀ a, (![0, 276] : Fin 2 → Nat) a + S64x64.size a ≤ S64x4628.size a
  packedbf16_S64x4628_S64x64_0_276 : (Rect.unit (s := S64x4628) ![0, 276] S64x64.size inb_S64x4628_S64x64_0_276).PackedRows (EltTy.packing .bf16)
  slices_S64x4096_o0_192_S64x64 : S64x4096.Slices ![0, 192] S64x64
  inb_S64x4628_S64x64_0_344 : ∀ a, (![0, 344] : Fin 2 → Nat) a + S64x64.size a ≤ S64x4628.size a
  packedbf16_S64x4628_S64x64_0_344 : (Rect.unit (s := S64x4628) ![0, 344] S64x64.size inb_S64x4628_S64x64_0_344).PackedRows (EltTy.packing .bf16)
  slices_S64x4096_o0_256_S64x64 : S64x4096.Slices ![0, 256] S64x64
  inb_S64x4628_S64x64_0_412 : ∀ a, (![0, 412] : Fin 2 → Nat) a + S64x64.size a ≤ S64x4628.size a
  packedbf16_S64x4628_S64x64_0_412 : (Rect.unit (s := S64x4628) ![0, 412] S64x64.size inb_S64x4628_S64x64_0_412).PackedRows (EltTy.packing .bf16)
  slices_S64x4096_o0_320_S64x64 : S64x4096.Slices ![0, 320] S64x64
  inb_S64x4628_S64x64_0_480 : ∀ a, (![0, 480] : Fin 2 → Nat) a + S64x64.size a ≤ S64x4628.size a
  packedbf16_S64x4628_S64x64_0_480 : (Rect.unit (s := S64x4628) ![0, 480] S64x64.size inb_S64x4628_S64x64_0_480).PackedRows (EltTy.packing .bf16)
  slices_S64x4096_o0_384_S64x64 : S64x4096.Slices ![0, 384] S64x64
  inb_S64x4628_S64x64_0_548 : ∀ a, (![0, 548] : Fin 2 → Nat) a + S64x64.size a ≤ S64x4628.size a
  packedbf16_S64x4628_S64x64_0_548 : (Rect.unit (s := S64x4628) ![0, 548] S64x64.size inb_S64x4628_S64x64_0_548).PackedRows (EltTy.packing .bf16)
  slices_S64x4096_o0_448_S64x64 : S64x4096.Slices ![0, 448] S64x64
  inb_S64x4628_S64x64_0_616 : ∀ a, (![0, 616] : Fin 2 → Nat) a + S64x64.size a ≤ S64x4628.size a
  packedbf16_S64x4628_S64x64_0_616 : (Rect.unit (s := S64x4628) ![0, 616] S64x64.size inb_S64x4628_S64x64_0_616).PackedRows (EltTy.packing .bf16)
  slices_S64x4096_o0_512_S64x64 : S64x4096.Slices ![0, 512] S64x64
  inb_S64x4628_S64x64_0_684 : ∀ a, (![0, 684] : Fin 2 → Nat) a + S64x64.size a ≤ S64x4628.size a
  packedbf16_S64x4628_S64x64_0_684 : (Rect.unit (s := S64x4628) ![0, 684] S64x64.size inb_S64x4628_S64x64_0_684).PackedRows (EltTy.packing .bf16)
  slices_S64x4096_o0_576_S64x64 : S64x4096.Slices ![0, 576] S64x64
  inb_S64x4628_S64x64_0_752 : ∀ a, (![0, 752] : Fin 2 → Nat) a + S64x64.size a ≤ S64x4628.size a
  packedbf16_S64x4628_S64x64_0_752 : (Rect.unit (s := S64x4628) ![0, 752] S64x64.size inb_S64x4628_S64x64_0_752).PackedRows (EltTy.packing .bf16)
  slices_S64x4096_o0_640_S64x64 : S64x4096.Slices ![0, 640] S64x64
  inb_S64x4628_S64x64_0_820 : ∀ a, (![0, 820] : Fin 2 → Nat) a + S64x64.size a ≤ S64x4628.size a
  packedbf16_S64x4628_S64x64_0_820 : (Rect.unit (s := S64x4628) ![0, 820] S64x64.size inb_S64x4628_S64x64_0_820).PackedRows (EltTy.packing .bf16)
  slices_S64x4096_o0_704_S64x64 : S64x4096.Slices ![0, 704] S64x64
  inb_S64x4628_S64x64_0_888 : ∀ a, (![0, 888] : Fin 2 → Nat) a + S64x64.size a ≤ S64x4628.size a
  packedbf16_S64x4628_S64x64_0_888 : (Rect.unit (s := S64x4628) ![0, 888] S64x64.size inb_S64x4628_S64x64_0_888).PackedRows (EltTy.packing .bf16)
  slices_S64x4096_o0_768_S64x64 : S64x4096.Slices ![0, 768] S64x64
  inb_S64x4628_S64x64_0_956 : ∀ a, (![0, 956] : Fin 2 → Nat) a + S64x64.size a ≤ S64x4628.size a
  packedbf16_S64x4628_S64x64_0_956 : (Rect.unit (s := S64x4628) ![0, 956] S64x64.size inb_S64x4628_S64x64_0_956).PackedRows (EltTy.packing .bf16)
  slices_S64x4096_o0_832_S64x64 : S64x4096.Slices ![0, 832] S64x64
  inb_S64x4628_S64x64_0_1024 : ∀ a, (![0, 1024] : Fin 2 → Nat) a + S64x64.size a ≤ S64x4628.size a
  packedbf16_S64x4628_S64x64_0_1024 : (Rect.unit (s := S64x4628) ![0, 1024] S64x64.size inb_S64x4628_S64x64_0_1024).PackedRows (EltTy.packing .bf16)
  slices_S64x4096_o0_896_S64x64 : S64x4096.Slices ![0, 896] S64x64
  inb_S64x4628_S64x64_0_1092 : ∀ a, (![0, 1092] : Fin 2 → Nat) a + S64x64.size a ≤ S64x4628.size a
  packedbf16_S64x4628_S64x64_0_1092 : (Rect.unit (s := S64x4628) ![0, 1092] S64x64.size inb_S64x4628_S64x64_0_1092).PackedRows (EltTy.packing .bf16)
  slices_S64x4096_o0_960_S64x64 : S64x4096.Slices ![0, 960] S64x64
  inb_S64x4628_S64x64_0_1160 : ∀ a, (![0, 1160] : Fin 2 → Nat) a + S64x64.size a ≤ S64x4628.size a
  packedbf16_S64x4628_S64x64_0_1160 : (Rect.unit (s := S64x4628) ![0, 1160] S64x64.size inb_S64x4628_S64x64_0_1160).PackedRows (EltTy.packing .bf16)
  slices_S64x4096_o0_1024_S64x64 : S64x4096.Slices ![0, 1024] S64x64
  inb_S64x4628_S64x64_0_1228 : ∀ a, (![0, 1228] : Fin 2 → Nat) a + S64x64.size a ≤ S64x4628.size a
  packedbf16_S64x4628_S64x64_0_1228 : (Rect.unit (s := S64x4628) ![0, 1228] S64x64.size inb_S64x4628_S64x64_0_1228).PackedRows (EltTy.packing .bf16)
  slices_S64x4096_o0_1088_S64x64 : S64x4096.Slices ![0, 1088] S64x64
  inb_S64x4628_S64x64_0_1296 : ∀ a, (![0, 1296] : Fin 2 → Nat) a + S64x64.size a ≤ S64x4628.size a
  packedbf16_S64x4628_S64x64_0_1296 : (Rect.unit (s := S64x4628) ![0, 1296] S64x64.size inb_S64x4628_S64x64_0_1296).PackedRows (EltTy.packing .bf16)
  slices_S64x4096_o0_1152_S64x64 : S64x4096.Slices ![0, 1152] S64x64
  inb_S64x4628_S64x64_0_1364 : ∀ a, (![0, 1364] : Fin 2 → Nat) a + S64x64.size a ≤ S64x4628.size a
  packedbf16_S64x4628_S64x64_0_1364 : (Rect.unit (s := S64x4628) ![0, 1364] S64x64.size inb_S64x4628_S64x64_0_1364).PackedRows (EltTy.packing .bf16)
  slices_S64x4096_o0_1216_S64x64 : S64x4096.Slices ![0, 1216] S64x64
  inb_S64x4628_S64x64_0_1432 : ∀ a, (![0, 1432] : Fin 2 → Nat) a + S64x64.size a ≤ S64x4628.size a
  packedbf16_S64x4628_S64x64_0_1432 : (Rect.unit (s := S64x4628) ![0, 1432] S64x64.size inb_S64x4628_S64x64_0_1432).PackedRows (EltTy.packing .bf16)
  slices_S64x4096_o0_1280_S64x64 : S64x4096.Slices ![0, 1280] S64x64
  inb_S64x4628_S64x64_0_1500 : ∀ a, (![0, 1500] : Fin 2 → Nat) a + S64x64.size a ≤ S64x4628.size a
  packedbf16_S64x4628_S64x64_0_1500 : (Rect.unit (s := S64x4628) ![0, 1500] S64x64.size inb_S64x4628_S64x64_0_1500).PackedRows (EltTy.packing .bf16)
  slices_S64x4096_o0_1344_S64x64 : S64x4096.Slices ![0, 1344] S64x64
  inb_S64x4628_S64x64_0_1568 : ∀ a, (![0, 1568] : Fin 2 → Nat) a + S64x64.size a ≤ S64x4628.size a
  packedbf16_S64x4628_S64x64_0_1568 : (Rect.unit (s := S64x4628) ![0, 1568] S64x64.size inb_S64x4628_S64x64_0_1568).PackedRows (EltTy.packing .bf16)
  slices_S64x4096_o0_1408_S64x64 : S64x4096.Slices ![0, 1408] S64x64
  inb_S64x4628_S64x64_0_1636 : ∀ a, (![0, 1636] : Fin 2 → Nat) a + S64x64.size a ≤ S64x4628.size a
  packedbf16_S64x4628_S64x64_0_1636 : (Rect.unit (s := S64x4628) ![0, 1636] S64x64.size inb_S64x4628_S64x64_0_1636).PackedRows (EltTy.packing .bf16)
  slices_S64x4096_o0_1472_S64x64 : S64x4096.Slices ![0, 1472] S64x64
  inb_S64x4628_S64x64_0_1704 : ∀ a, (![0, 1704] : Fin 2 → Nat) a + S64x64.size a ≤ S64x4628.size a
  packedbf16_S64x4628_S64x64_0_1704 : (Rect.unit (s := S64x4628) ![0, 1704] S64x64.size inb_S64x4628_S64x64_0_1704).PackedRows (EltTy.packing .bf16)
  slices_S64x4096_o0_1536_S64x64 : S64x4096.Slices ![0, 1536] S64x64
  inb_S64x4628_S64x64_0_1772 : ∀ a, (![0, 1772] : Fin 2 → Nat) a + S64x64.size a ≤ S64x4628.size a
  packedbf16_S64x4628_S64x64_0_1772 : (Rect.unit (s := S64x4628) ![0, 1772] S64x64.size inb_S64x4628_S64x64_0_1772).PackedRows (EltTy.packing .bf16)
  slices_S64x4096_o0_1600_S64x64 : S64x4096.Slices ![0, 1600] S64x64
  inb_S64x4628_S64x64_0_1840 : ∀ a, (![0, 1840] : Fin 2 → Nat) a + S64x64.size a ≤ S64x4628.size a
  packedbf16_S64x4628_S64x64_0_1840 : (Rect.unit (s := S64x4628) ![0, 1840] S64x64.size inb_S64x4628_S64x64_0_1840).PackedRows (EltTy.packing .bf16)
  slices_S64x4096_o0_1664_S64x64 : S64x4096.Slices ![0, 1664] S64x64
  inb_S64x4628_S64x64_0_1908 : ∀ a, (![0, 1908] : Fin 2 → Nat) a + S64x64.size a ≤ S64x4628.size a
  packedbf16_S64x4628_S64x64_0_1908 : (Rect.unit (s := S64x4628) ![0, 1908] S64x64.size inb_S64x4628_S64x64_0_1908).PackedRows (EltTy.packing .bf16)
  slices_S64x4096_o0_1728_S64x64 : S64x4096.Slices ![0, 1728] S64x64
  inb_S64x4628_S64x64_0_1976 : ∀ a, (![0, 1976] : Fin 2 → Nat) a + S64x64.size a ≤ S64x4628.size a
  packedbf16_S64x4628_S64x64_0_1976 : (Rect.unit (s := S64x4628) ![0, 1976] S64x64.size inb_S64x4628_S64x64_0_1976).PackedRows (EltTy.packing .bf16)
  slices_S64x4096_o0_1792_S64x64 : S64x4096.Slices ![0, 1792] S64x64
  inb_S64x4628_S64x64_0_2044 : ∀ a, (![0, 2044] : Fin 2 → Nat) a + S64x64.size a ≤ S64x4628.size a
  packedbf16_S64x4628_S64x64_0_2044 : (Rect.unit (s := S64x4628) ![0, 2044] S64x64.size inb_S64x4628_S64x64_0_2044).PackedRows (EltTy.packing .bf16)
  slices_S64x4096_o0_1856_S64x64 : S64x4096.Slices ![0, 1856] S64x64
  inb_S64x4628_S64x64_0_2112 : ∀ a, (![0, 2112] : Fin 2 → Nat) a + S64x64.size a ≤ S64x4628.size a
  packedbf16_S64x4628_S64x64_0_2112 : (Rect.unit (s := S64x4628) ![0, 2112] S64x64.size inb_S64x4628_S64x64_0_2112).PackedRows (EltTy.packing .bf16)
  slices_S64x4096_o0_1920_S64x64 : S64x4096.Slices ![0, 1920] S64x64
  inb_S64x4628_S64x64_0_2180 : ∀ a, (![0, 2180] : Fin 2 → Nat) a + S64x64.size a ≤ S64x4628.size a
  packedbf16_S64x4628_S64x64_0_2180 : (Rect.unit (s := S64x4628) ![0, 2180] S64x64.size inb_S64x4628_S64x64_0_2180).PackedRows (EltTy.packing .bf16)
  slices_S64x4096_o0_1984_S64x64 : S64x4096.Slices ![0, 1984] S64x64
  inb_S64x4628_S64x64_0_2248 : ∀ a, (![0, 2248] : Fin 2 → Nat) a + S64x64.size a ≤ S64x4628.size a
  packedbf16_S64x4628_S64x64_0_2248 : (Rect.unit (s := S64x4628) ![0, 2248] S64x64.size inb_S64x4628_S64x64_0_2248).PackedRows (EltTy.packing .bf16)
  slices_S64x4096_o0_2048_S64x64 : S64x4096.Slices ![0, 2048] S64x64
  inb_S64x4628_S64x64_0_2316 : ∀ a, (![0, 2316] : Fin 2 → Nat) a + S64x64.size a ≤ S64x4628.size a
  packedbf16_S64x4628_S64x64_0_2316 : (Rect.unit (s := S64x4628) ![0, 2316] S64x64.size inb_S64x4628_S64x64_0_2316).PackedRows (EltTy.packing .bf16)
  slices_S64x4096_o0_2112_S64x64 : S64x4096.Slices ![0, 2112] S64x64
  inb_S64x4628_S64x64_0_2384 : ∀ a, (![0, 2384] : Fin 2 → Nat) a + S64x64.size a ≤ S64x4628.size a
  packedbf16_S64x4628_S64x64_0_2384 : (Rect.unit (s := S64x4628) ![0, 2384] S64x64.size inb_S64x4628_S64x64_0_2384).PackedRows (EltTy.packing .bf16)
  slices_S64x4096_o0_2176_S64x64 : S64x4096.Slices ![0, 2176] S64x64
  inb_S64x4628_S64x64_0_2452 : ∀ a, (![0, 2452] : Fin 2 → Nat) a + S64x64.size a ≤ S64x4628.size a
  packedbf16_S64x4628_S64x64_0_2452 : (Rect.unit (s := S64x4628) ![0, 2452] S64x64.size inb_S64x4628_S64x64_0_2452).PackedRows (EltTy.packing .bf16)
  slices_S64x4096_o0_2240_S64x64 : S64x4096.Slices ![0, 2240] S64x64
  inb_S64x4628_S64x64_0_2520 : ∀ a, (![0, 2520] : Fin 2 → Nat) a + S64x64.size a ≤ S64x4628.size a
  packedbf16_S64x4628_S64x64_0_2520 : (Rect.unit (s := S64x4628) ![0, 2520] S64x64.size inb_S64x4628_S64x64_0_2520).PackedRows (EltTy.packing .bf16)
  slices_S64x4096_o0_2304_S64x64 : S64x4096.Slices ![0, 2304] S64x64
  inb_S64x4628_S64x64_0_2588 : ∀ a, (![0, 2588] : Fin 2 → Nat) a + S64x64.size a ≤ S64x4628.size a
  packedbf16_S64x4628_S64x64_0_2588 : (Rect.unit (s := S64x4628) ![0, 2588] S64x64.size inb_S64x4628_S64x64_0_2588).PackedRows (EltTy.packing .bf16)
  slices_S64x4096_o0_2368_S64x64 : S64x4096.Slices ![0, 2368] S64x64
  inb_S64x4628_S64x64_0_2656 : ∀ a, (![0, 2656] : Fin 2 → Nat) a + S64x64.size a ≤ S64x4628.size a
  packedbf16_S64x4628_S64x64_0_2656 : (Rect.unit (s := S64x4628) ![0, 2656] S64x64.size inb_S64x4628_S64x64_0_2656).PackedRows (EltTy.packing .bf16)
  slices_S64x4096_o0_2432_S64x64 : S64x4096.Slices ![0, 2432] S64x64
  inb_S64x4628_S64x64_0_2724 : ∀ a, (![0, 2724] : Fin 2 → Nat) a + S64x64.size a ≤ S64x4628.size a
  packedbf16_S64x4628_S64x64_0_2724 : (Rect.unit (s := S64x4628) ![0, 2724] S64x64.size inb_S64x4628_S64x64_0_2724).PackedRows (EltTy.packing .bf16)
  slices_S64x4096_o0_2496_S64x64 : S64x4096.Slices ![0, 2496] S64x64
  inb_S64x4628_S64x64_0_2792 : ∀ a, (![0, 2792] : Fin 2 → Nat) a + S64x64.size a ≤ S64x4628.size a
  packedbf16_S64x4628_S64x64_0_2792 : (Rect.unit (s := S64x4628) ![0, 2792] S64x64.size inb_S64x4628_S64x64_0_2792).PackedRows (EltTy.packing .bf16)
  slices_S64x4096_o0_2560_S64x64 : S64x4096.Slices ![0, 2560] S64x64
  inb_S64x4628_S64x64_0_2860 : ∀ a, (![0, 2860] : Fin 2 → Nat) a + S64x64.size a ≤ S64x4628.size a
  packedbf16_S64x4628_S64x64_0_2860 : (Rect.unit (s := S64x4628) ![0, 2860] S64x64.size inb_S64x4628_S64x64_0_2860).PackedRows (EltTy.packing .bf16)
  slices_S64x4096_o0_2624_S64x64 : S64x4096.Slices ![0, 2624] S64x64
  inb_S64x4628_S64x64_0_2928 : ∀ a, (![0, 2928] : Fin 2 → Nat) a + S64x64.size a ≤ S64x4628.size a
  packedbf16_S64x4628_S64x64_0_2928 : (Rect.unit (s := S64x4628) ![0, 2928] S64x64.size inb_S64x4628_S64x64_0_2928).PackedRows (EltTy.packing .bf16)
  slices_S64x4096_o0_2688_S64x64 : S64x4096.Slices ![0, 2688] S64x64
  inb_S64x4628_S64x64_0_2996 : ∀ a, (![0, 2996] : Fin 2 → Nat) a + S64x64.size a ≤ S64x4628.size a
  packedbf16_S64x4628_S64x64_0_2996 : (Rect.unit (s := S64x4628) ![0, 2996] S64x64.size inb_S64x4628_S64x64_0_2996).PackedRows (EltTy.packing .bf16)
  slices_S64x4096_o0_2752_S64x64 : S64x4096.Slices ![0, 2752] S64x64
  inb_S64x4628_S64x64_0_3064 : ∀ a, (![0, 3064] : Fin 2 → Nat) a + S64x64.size a ≤ S64x4628.size a
  packedbf16_S64x4628_S64x64_0_3064 : (Rect.unit (s := S64x4628) ![0, 3064] S64x64.size inb_S64x4628_S64x64_0_3064).PackedRows (EltTy.packing .bf16)
  slices_S64x4096_o0_2816_S64x64 : S64x4096.Slices ![0, 2816] S64x64
  inb_S64x4628_S64x64_0_3132 : ∀ a, (![0, 3132] : Fin 2 → Nat) a + S64x64.size a ≤ S64x4628.size a
  packedbf16_S64x4628_S64x64_0_3132 : (Rect.unit (s := S64x4628) ![0, 3132] S64x64.size inb_S64x4628_S64x64_0_3132).PackedRows (EltTy.packing .bf16)
  slices_S64x4096_o0_2880_S64x64 : S64x4096.Slices ![0, 2880] S64x64
  inb_S64x4628_S64x64_0_3200 : ∀ a, (![0, 3200] : Fin 2 → Nat) a + S64x64.size a ≤ S64x4628.size a
  packedbf16_S64x4628_S64x64_0_3200 : (Rect.unit (s := S64x4628) ![0, 3200] S64x64.size inb_S64x4628_S64x64_0_3200).PackedRows (EltTy.packing .bf16)
  slices_S64x4096_o0_2944_S64x64 : S64x4096.Slices ![0, 2944] S64x64
  inb_S64x4628_S64x64_0_3268 : ∀ a, (![0, 3268] : Fin 2 → Nat) a + S64x64.size a ≤ S64x4628.size a
  packedbf16_S64x4628_S64x64_0_3268 : (Rect.unit (s := S64x4628) ![0, 3268] S64x64.size inb_S64x4628_S64x64_0_3268).PackedRows (EltTy.packing .bf16)
  slices_S64x4096_o0_3008_S64x64 : S64x4096.Slices ![0, 3008] S64x64
  inb_S64x4628_S64x64_0_3336 : ∀ a, (![0, 3336] : Fin 2 → Nat) a + S64x64.size a ≤ S64x4628.size a
  packedbf16_S64x4628_S64x64_0_3336 : (Rect.unit (s := S64x4628) ![0, 3336] S64x64.size inb_S64x4628_S64x64_0_3336).PackedRows (EltTy.packing .bf16)
  slices_S64x4096_o0_3072_S64x64 : S64x4096.Slices ![0, 3072] S64x64
  inb_S64x4628_S64x64_0_3404 : ∀ a, (![0, 3404] : Fin 2 → Nat) a + S64x64.size a ≤ S64x4628.size a
  packedbf16_S64x4628_S64x64_0_3404 : (Rect.unit (s := S64x4628) ![0, 3404] S64x64.size inb_S64x4628_S64x64_0_3404).PackedRows (EltTy.packing .bf16)
  slices_S64x4096_o0_3136_S64x64 : S64x4096.Slices ![0, 3136] S64x64
  inb_S64x4628_S64x64_0_3472 : ∀ a, (![0, 3472] : Fin 2 → Nat) a + S64x64.size a ≤ S64x4628.size a
  packedbf16_S64x4628_S64x64_0_3472 : (Rect.unit (s := S64x4628) ![0, 3472] S64x64.size inb_S64x4628_S64x64_0_3472).PackedRows (EltTy.packing .bf16)
  slices_S64x4096_o0_3200_S64x64 : S64x4096.Slices ![0, 3200] S64x64
  inb_S64x4628_S64x64_0_3540 : ∀ a, (![0, 3540] : Fin 2 → Nat) a + S64x64.size a ≤ S64x4628.size a
  packedbf16_S64x4628_S64x64_0_3540 : (Rect.unit (s := S64x4628) ![0, 3540] S64x64.size inb_S64x4628_S64x64_0_3540).PackedRows (EltTy.packing .bf16)
  slices_S64x4096_o0_3264_S64x64 : S64x4096.Slices ![0, 3264] S64x64
  inb_S64x4628_S64x64_0_3608 : ∀ a, (![0, 3608] : Fin 2 → Nat) a + S64x64.size a ≤ S64x4628.size a
  packedbf16_S64x4628_S64x64_0_3608 : (Rect.unit (s := S64x4628) ![0, 3608] S64x64.size inb_S64x4628_S64x64_0_3608).PackedRows (EltTy.packing .bf16)
  slices_S64x4096_o0_3328_S64x64 : S64x4096.Slices ![0, 3328] S64x64
  inb_S64x4628_S64x64_0_3676 : ∀ a, (![0, 3676] : Fin 2 → Nat) a + S64x64.size a ≤ S64x4628.size a
  packedbf16_S64x4628_S64x64_0_3676 : (Rect.unit (s := S64x4628) ![0, 3676] S64x64.size inb_S64x4628_S64x64_0_3676).PackedRows (EltTy.packing .bf16)
  slices_S64x4096_o0_3392_S64x64 : S64x4096.Slices ![0, 3392] S64x64
  inb_S64x4628_S64x64_0_3744 : ∀ a, (![0, 3744] : Fin 2 → Nat) a + S64x64.size a ≤ S64x4628.size a
  packedbf16_S64x4628_S64x64_0_3744 : (Rect.unit (s := S64x4628) ![0, 3744] S64x64.size inb_S64x4628_S64x64_0_3744).PackedRows (EltTy.packing .bf16)
  slices_S64x4096_o0_3456_S64x64 : S64x4096.Slices ![0, 3456] S64x64
  inb_S64x4628_S64x64_0_3812 : ∀ a, (![0, 3812] : Fin 2 → Nat) a + S64x64.size a ≤ S64x4628.size a
  packedbf16_S64x4628_S64x64_0_3812 : (Rect.unit (s := S64x4628) ![0, 3812] S64x64.size inb_S64x4628_S64x64_0_3812).PackedRows (EltTy.packing .bf16)
  slices_S64x4096_o0_3520_S64x64 : S64x4096.Slices ![0, 3520] S64x64
  inb_S64x4628_S64x64_0_3880 : ∀ a, (![0, 3880] : Fin 2 → Nat) a + S64x64.size a ≤ S64x4628.size a
  packedbf16_S64x4628_S64x64_0_3880 : (Rect.unit (s := S64x4628) ![0, 3880] S64x64.size inb_S64x4628_S64x64_0_3880).PackedRows (EltTy.packing .bf16)
  slices_S64x4096_o0_3584_S64x64 : S64x4096.Slices ![0, 3584] S64x64
  inb_S64x4628_S64x64_0_3948 : ∀ a, (![0, 3948] : Fin 2 → Nat) a + S64x64.size a ≤ S64x4628.size a
  packedbf16_S64x4628_S64x64_0_3948 : (Rect.unit (s := S64x4628) ![0, 3948] S64x64.size inb_S64x4628_S64x64_0_3948).PackedRows (EltTy.packing .bf16)
  slices_S64x4096_o0_3648_S64x64 : S64x4096.Slices ![0, 3648] S64x64
  inb_S64x4628_S64x64_0_4016 : ∀ a, (![0, 4016] : Fin 2 → Nat) a + S64x64.size a ≤ S64x4628.size a
  packedbf16_S64x4628_S64x64_0_4016 : (Rect.unit (s := S64x4628) ![0, 4016] S64x64.size inb_S64x4628_S64x64_0_4016).PackedRows (EltTy.packing .bf16)
  slices_S64x4096_o0_3712_S64x64 : S64x4096.Slices ![0, 3712] S64x64
  inb_S64x4628_S64x64_0_4084 : ∀ a, (![0, 4084] : Fin 2 → Nat) a + S64x64.size a ≤ S64x4628.size a
  packedbf16_S64x4628_S64x64_0_4084 : (Rect.unit (s := S64x4628) ![0, 4084] S64x64.size inb_S64x4628_S64x64_0_4084).PackedRows (EltTy.packing .bf16)
  slices_S64x4096_o0_3776_S64x64 : S64x4096.Slices ![0, 3776] S64x64
  inb_S64x4628_S64x64_0_4152 : ∀ a, (![0, 4152] : Fin 2 → Nat) a + S64x64.size a ≤ S64x4628.size a
  packedbf16_S64x4628_S64x64_0_4152 : (Rect.unit (s := S64x4628) ![0, 4152] S64x64.size inb_S64x4628_S64x64_0_4152).PackedRows (EltTy.packing .bf16)
  slices_S64x4096_o0_3840_S64x64 : S64x4096.Slices ![0, 3840] S64x64
  inb_S64x4628_S64x64_0_4220 : ∀ a, (![0, 4220] : Fin 2 → Nat) a + S64x64.size a ≤ S64x4628.size a
  packedbf16_S64x4628_S64x64_0_4220 : (Rect.unit (s := S64x4628) ![0, 4220] S64x64.size inb_S64x4628_S64x64_0_4220).PackedRows (EltTy.packing .bf16)
  slices_S64x4096_o0_3904_S64x64 : S64x4096.Slices ![0, 3904] S64x64
  inb_S64x4628_S64x64_0_4288 : ∀ a, (![0, 4288] : Fin 2 → Nat) a + S64x64.size a ≤ S64x4628.size a
  packedbf16_S64x4628_S64x64_0_4288 : (Rect.unit (s := S64x4628) ![0, 4288] S64x64.size inb_S64x4628_S64x64_0_4288).PackedRows (EltTy.packing .bf16)
  slices_S64x4096_o0_3968_S64x64 : S64x4096.Slices ![0, 3968] S64x64
  inb_S64x4628_S64x64_0_4356 : ∀ a, (![0, 4356] : Fin 2 → Nat) a + S64x64.size a ≤ S64x4628.size a
  packedbf16_S64x4628_S64x64_0_4356 : (Rect.unit (s := S64x4628) ![0, 4356] S64x64.size inb_S64x4628_S64x64_0_4356).PackedRows (EltTy.packing .bf16)
  slices_S64x4096_o0_4032_S64x64 : S64x4096.Slices ![0, 4032] S64x64
  inb_S64x4628_S64x64_0_4424 : ∀ a, (![0, 4424] : Fin 2 → Nat) a + S64x64.size a ≤ S64x4628.size a
  packedbf16_S64x4628_S64x64_0_4424 : (Rect.unit (s := S64x4628) ![0, 4424] S64x64.size inb_S64x4628_S64x64_0_4424).PackedRows (EltTy.packing .bf16)
  inb_S64x4628_S64x2176_0_2 : ∀ a, (![0, 2] : Fin 2 → Nat) a + S64x2176.size a ≤ S64x4628.size a
  h_S64x2176 : 0 < S64x2176.numel
  inb_S64x4628_S64x2176_0_70 : ∀ a, (![0, 70] : Fin 2 → Nat) a + S64x2176.size a ≤ S64x4628.size a
  inb_S64x4628_S64x2176_0_138 : ∀ a, (![0, 138] : Fin 2 → Nat) a + S64x2176.size a ≤ S64x4628.size a
  inb_S64x4628_S64x2176_0_206 : ∀ a, (![0, 206] : Fin 2 → Nat) a + S64x2176.size a ≤ S64x4628.size a
  inb_S64x4628_S64x2176_0_274 : ∀ a, (![0, 274] : Fin 2 → Nat) a + S64x2176.size a ≤ S64x4628.size a
  concatenates_S64x2176_S64x2176_S64x2176_S64x2176_S64x2176_S320x2176_d0 : Shape.Concatenates [S64x2176, S64x2176, S64x2176, S64x2176, S64x2176] S320x2176 0
  inb_S64x320_S64x320_0_0 : ∀ a, (![0, 0] : Fin 2 → Nat) a + S64x320.size a ≤ S64x320.size a
  h_S64x320 : 0 < S64x320.numel
  shapeCasts_S64x320_S64x320 : S64x320.ShapeCasts S64x320
  inb_S64x4628_S64x2176_0_2178 : ∀ a, (![0, 2178] : Fin 2 → Nat) a + S64x2176.size a ≤ S64x4628.size a
  inb_S64x4628_S64x2176_0_2246 : ∀ a, (![0, 2246] : Fin 2 → Nat) a + S64x2176.size a ≤ S64x4628.size a
  inb_S64x4628_S64x2176_0_2314 : ∀ a, (![0, 2314] : Fin 2 → Nat) a + S64x2176.size a ≤ S64x4628.size a
  inb_S64x4628_S64x2176_0_2382 : ∀ a, (![0, 2382] : Fin 2 → Nat) a + S64x2176.size a ≤ S64x4628.size a
  inb_S64x4628_S64x2176_0_2450 : ∀ a, (![0, 2450] : Fin 2 → Nat) a + S64x2176.size a ≤ S64x4628.size a
  concatenates_S64x2176_S64x2176_S64x4352_d1 : Shape.Concatenates [S64x2176, S64x2176] S64x4352 1
  inb_S64x4628_S64x4624_0_0 : ∀ a, (![0, 0] : Fin 2 → Nat) a + S64x4624.size a ≤ S64x4628.size a
  h_S64x4624 : 0 < S64x4624.numel
  inb_S64x4628_S64x4624_0_1 : ∀ a, (![0, 1] : Fin 2 → Nat) a + S64x4624.size a ≤ S64x4628.size a
  inb_S64x4628_S64x4624_0_2 : ∀ a, (![0, 2] : Fin 2 → Nat) a + S64x4624.size a ≤ S64x4628.size a
  inb_S64x4628_S64x4624_0_3 : ∀ a, (![0, 3] : Fin 2 → Nat) a + S64x4624.size a ≤ S64x4628.size a
  inb_S64x4628_S64x4624_0_4 : ∀ a, (![0, 4] : Fin 2 → Nat) a + S64x4624.size a ≤ S64x4628.size a
  concatenates_S64x4624_S64x4624_S64x4624_S64x4624_S64x4624_S320x4624_d0 : Shape.Concatenates [S64x4624, S64x4624, S64x4624, S64x4624, S64x4624] S320x4624 0
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x4352_S1x4352_0_0 : ∀ a, (![0, 0] : Fin 2 → Nat) a + S1x4352.size a ≤ S1x4352.size a
  h_S1x4352 : 0 < S1x4352.numel
  shapeCasts_S1x4352_S1x4352 : S1x4352.ShapeCasts S1x4352
  broadcasts_S64x1_S64x4352 : S64x1.Broadcasts S64x4352
  broadcasts_S1x4352_S64x4352 : S1x4352.Broadcasts S64x4352
  inb_S64x4356_S64x2_0_0 : ∀ a, (![0, 0] : Fin 2 → Nat) a + S64x2.size a ≤ S64x4356.size a
  h_S64x2 : 0 < S64x2.numel
  shapeCasts_S64x2_S64x2 : S64x2.ShapeCasts S64x2
  packedbf16_S64x4356_S64x2_0_0 : (Rect.unit (s := S64x4356) ![0, 0] S64x2.size inb_S64x4356_S64x2_0_0).PackedRows (EltTy.packing .bf16)
  inb_S64x4356_S64x4352_0_2 : ∀ a, (![0, 2] : Fin 2 → Nat) a + S64x4352.size a ≤ S64x4356.size a
  h_S64x4352 : 0 < S64x4352.numel
  shapeCasts_S64x4352_S64x4352 : S64x4352.ShapeCasts S64x4352
  packedbf16_S64x4356_S64x4352_0_2 : (Rect.unit (s := S64x4356) ![0, 2] S64x4352.size inb_S64x4356_S64x4352_0_2).PackedRows (EltTy.packing .bf16)
  inb_S64x4356_S64x2_0_4354 : ∀ a, (![0, 4354] : Fin 2 → Nat) a + S64x2.size a ≤ S64x4356.size a
  packedbf16_S64x4356_S64x2_0_4354 : (Rect.unit (s := S64x4356) ![0, 4354] S64x2.size inb_S64x4356_S64x2_0_4354).PackedRows (EltTy.packing .bf16)
  inb_S64x4356_S64x4352_0_0 : ∀ a, (![0, 0] : Fin 2 → Nat) a + S64x4352.size a ≤ S64x4356.size a
  inb_S64x4356_S64x4352_0_1 : ∀ a, (![0, 1] : Fin 2 → Nat) a + S64x4352.size a ≤ S64x4356.size a
  inb_S64x4356_S64x4352_0_3 : ∀ a, (![0, 3] : Fin 2 → Nat) a + S64x4352.size a ≤ S64x4356.size a
  inb_S64x4356_S64x4352_0_4 : ∀ a, (![0, 4] : Fin 2 → Nat) a + S64x4352.size a ≤ S64x4356.size a
  concatenates_S64x4352_S64x4352_S64x4352_S64x4352_S64x4352_S320x4352_d0 : Shape.Concatenates [S64x4352, S64x4352, S64x4352, S64x4352, S64x4352] S320x4352 0
  inb_S1x4624_S1x4624_0_0 : ∀ a, (![0, 0] : Fin 2 → Nat) a + S1x4624.size a ≤ S1x4624.size a
  h_S1x4624 : 0 < S1x4624.numel
  shapeCasts_S1x4624_S1x4624 : S1x4624.ShapeCasts S1x4624
  broadcasts_S64x1_S64x4624 : S64x1.Broadcasts S64x4624
  broadcasts_S1x4624_S64x4624 : S1x4624.Broadcasts S64x4624
  inb_S64x4624_S64x4624_0_0 : ∀ a, (![0, 0] : Fin 2 → Nat) a + S64x4624.size a ≤ S64x4624.size a
  shapeCasts_S64x4624_S64x4624 : S64x4624.ShapeCasts S64x4624
  packedbf16_S64x4624_S64x4624_0_0 : (Rect.unit (s := S64x4624) ![0, 0] S64x4624.size inb_S64x4624_S64x4624_0_0).PackedRows (EltTy.packing .bf16)
  inb_S64x4624_S64x4352_0_0 : ∀ a, (![0, 0] : Fin 2 → Nat) a + S64x4352.size a ≤ S64x4624.size a
  inb_S64x4624_S64x4352_0_68 : ∀ a, (![0, 68] : Fin 2 → Nat) a + S64x4352.size a ≤ S64x4624.size a
  inb_S64x4624_S64x4352_0_136 : ∀ a, (![0, 136] : Fin 2 → Nat) a + S64x4352.size a ≤ S64x4624.size a
  inb_S64x4624_S64x4352_0_204 : ∀ a, (![0, 204] : Fin 2 → Nat) a + S64x4352.size a ≤ S64x4624.size a
  inb_S64x4624_S64x4352_0_272 : ∀ a, (![0, 272] : Fin 2 → Nat) a + S64x4352.size a ≤ S64x4624.size a
  concatenates_S320x4352_S64x4352_S64x4352_S64x4352_S64x4352_S64x4352_S640x4352_d0 : Shape.Concatenates [S320x4352, S64x4352, S64x4352, S64x4352, S64x4352, S64x4352] S640x4352 0
  inb_S64x640_S64x640_0_0 : ∀ a, (![0, 0] : Fin 2 → Nat) a + S64x640.size a ≤ S64x640.size a
  h_S64x640 : 0 < S64x640.numel
  shapeCasts_S64x640_S64x640 : S64x640.ShapeCasts S64x640
  slices_S64x4352_o0_2_S64x64 : S64x4352.Slices ![0, 2] S64x64
  inb_S1x64x4096_S1x64x64_0_0_0 : ∀ a, (![0, 0, 0] : Fin 3 → Nat) a + S1x64x64.size a ≤ S1x64x4096.size a
  h_S1x64x64 : 0 < S1x64x64.numel
  shapeCasts_S1x64x64_S64x64 : S1x64x64.ShapeCasts S64x64
  shapeCasts_S64x64_S1x64x64 : S64x64.ShapeCasts S1x64x64
  slices_S64x4352_o0_70_S64x64 : S64x4352.Slices ![0, 70] S64x64
  inb_S1x64x4096_S1x64x64_0_0_64 : ∀ a, (![0, 0, 64] : Fin 3 → Nat) a + S1x64x64.size a ≤ S1x64x4096.size a
  slices_S64x4352_o0_138_S64x64 : S64x4352.Slices ![0, 138] S64x64
  inb_S1x64x4096_S1x64x64_0_0_128 : ∀ a, (![0, 0, 128] : Fin 3 → Nat) a + S1x64x64.size a ≤ S1x64x4096.size a
  slices_S64x4352_o0_206_S64x64 : S64x4352.Slices ![0, 206] S64x64
  inb_S1x64x4096_S1x64x64_0_0_192 : ∀ a, (![0, 0, 192] : Fin 3 → Nat) a + S1x64x64.size a ≤ S1x64x4096.size a
  slices_S64x4352_o0_274_S64x64 : S64x4352.Slices ![0, 274] S64x64
  inb_S1x64x4096_S1x64x64_0_0_256 : ∀ a, (![0, 0, 256] : Fin 3 → Nat) a + S1x64x64.size a ≤ S1x64x4096.size a
  slices_S64x4352_o0_342_S64x64 : S64x4352.Slices ![0, 342] S64x64
  inb_S1x64x4096_S1x64x64_0_0_320 : ∀ a, (![0, 0, 320] : Fin 3 → Nat) a + S1x64x64.size a ≤ S1x64x4096.size a
  slices_S64x4352_o0_410_S64x64 : S64x4352.Slices ![0, 410] S64x64
  inb_S1x64x4096_S1x64x64_0_0_384 : ∀ a, (![0, 0, 384] : Fin 3 → Nat) a + S1x64x64.size a ≤ S1x64x4096.size a
  slices_S64x4352_o0_478_S64x64 : S64x4352.Slices ![0, 478] S64x64
  inb_S1x64x4096_S1x64x64_0_0_448 : ∀ a, (![0, 0, 448] : Fin 3 → Nat) a + S1x64x64.size a ≤ S1x64x4096.size a
  slices_S64x4352_o0_546_S64x64 : S64x4352.Slices ![0, 546] S64x64
  inb_S1x64x4096_S1x64x64_0_0_512 : ∀ a, (![0, 0, 512] : Fin 3 → Nat) a + S1x64x64.size a ≤ S1x64x4096.size a
  slices_S64x4352_o0_614_S64x64 : S64x4352.Slices ![0, 614] S64x64
  inb_S1x64x4096_S1x64x64_0_0_576 : ∀ a, (![0, 0, 576] : Fin 3 → Nat) a + S1x64x64.size a ≤ S1x64x4096.size a
  slices_S64x4352_o0_682_S64x64 : S64x4352.Slices ![0, 682] S64x64
  inb_S1x64x4096_S1x64x64_0_0_640 : ∀ a, (![0, 0, 640] : Fin 3 → Nat) a + S1x64x64.size a ≤ S1x64x4096.size a
  slices_S64x4352_o0_750_S64x64 : S64x4352.Slices ![0, 750] S64x64
  inb_S1x64x4096_S1x64x64_0_0_704 : ∀ a, (![0, 0, 704] : Fin 3 → Nat) a + S1x64x64.size a ≤ S1x64x4096.size a
  slices_S64x4352_o0_818_S64x64 : S64x4352.Slices ![0, 818] S64x64
  inb_S1x64x4096_S1x64x64_0_0_768 : ∀ a, (![0, 0, 768] : Fin 3 → Nat) a + S1x64x64.size a ≤ S1x64x4096.size a
  slices_S64x4352_o0_886_S64x64 : S64x4352.Slices ![0, 886] S64x64
  inb_S1x64x4096_S1x64x64_0_0_832 : ∀ a, (![0, 0, 832] : Fin 3 → Nat) a + S1x64x64.size a ≤ S1x64x4096.size a
  slices_S64x4352_o0_954_S64x64 : S64x4352.Slices ![0, 954] S64x64
  inb_S1x64x4096_S1x64x64_0_0_896 : ∀ a, (![0, 0, 896] : Fin 3 → Nat) a + S1x64x64.size a ≤ S1x64x4096.size a
  slices_S64x4352_o0_1022_S64x64 : S64x4352.Slices ![0, 1022] S64x64
  inb_S1x64x4096_S1x64x64_0_0_960 : ∀ a, (![0, 0, 960] : Fin 3 → Nat) a + S1x64x64.size a ≤ S1x64x4096.size a
  slices_S64x4352_o0_1090_S64x64 : S64x4352.Slices ![0, 1090] S64x64
  inb_S1x64x4096_S1x64x64_0_0_1024 : ∀ a, (![0, 0, 1024] : Fin 3 → Nat) a + S1x64x64.size a ≤ S1x64x4096.size a
  slices_S64x4352_o0_1158_S64x64 : S64x4352.Slices ![0, 1158] S64x64
  inb_S1x64x4096_S1x64x64_0_0_1088 : ∀ a, (![0, 0, 1088] : Fin 3 → Nat) a + S1x64x64.size a ≤ S1x64x4096.size a
  slices_S64x4352_o0_1226_S64x64 : S64x4352.Slices ![0, 1226] S64x64
  inb_S1x64x4096_S1x64x64_0_0_1152 : ∀ a, (![0, 0, 1152] : Fin 3 → Nat) a + S1x64x64.size a ≤ S1x64x4096.size a
  slices_S64x4352_o0_1294_S64x64 : S64x4352.Slices ![0, 1294] S64x64
  inb_S1x64x4096_S1x64x64_0_0_1216 : ∀ a, (![0, 0, 1216] : Fin 3 → Nat) a + S1x64x64.size a ≤ S1x64x4096.size a
  slices_S64x4352_o0_1362_S64x64 : S64x4352.Slices ![0, 1362] S64x64
  inb_S1x64x4096_S1x64x64_0_0_1280 : ∀ a, (![0, 0, 1280] : Fin 3 → Nat) a + S1x64x64.size a ≤ S1x64x4096.size a
  slices_S64x4352_o0_1430_S64x64 : S64x4352.Slices ![0, 1430] S64x64
  inb_S1x64x4096_S1x64x64_0_0_1344 : ∀ a, (![0, 0, 1344] : Fin 3 → Nat) a + S1x64x64.size a ≤ S1x64x4096.size a
  slices_S64x4352_o0_1498_S64x64 : S64x4352.Slices ![0, 1498] S64x64
  inb_S1x64x4096_S1x64x64_0_0_1408 : ∀ a, (![0, 0, 1408] : Fin 3 → Nat) a + S1x64x64.size a ≤ S1x64x4096.size a
  slices_S64x4352_o0_1566_S64x64 : S64x4352.Slices ![0, 1566] S64x64
  inb_S1x64x4096_S1x64x64_0_0_1472 : ∀ a, (![0, 0, 1472] : Fin 3 → Nat) a + S1x64x64.size a ≤ S1x64x4096.size a
  slices_S64x4352_o0_1634_S64x64 : S64x4352.Slices ![0, 1634] S64x64
  inb_S1x64x4096_S1x64x64_0_0_1536 : ∀ a, (![0, 0, 1536] : Fin 3 → Nat) a + S1x64x64.size a ≤ S1x64x4096.size a
  slices_S64x4352_o0_1702_S64x64 : S64x4352.Slices ![0, 1702] S64x64
  inb_S1x64x4096_S1x64x64_0_0_1600 : ∀ a, (![0, 0, 1600] : Fin 3 → Nat) a + S1x64x64.size a ≤ S1x64x4096.size a
  slices_S64x4352_o0_1770_S64x64 : S64x4352.Slices ![0, 1770] S64x64
  inb_S1x64x4096_S1x64x64_0_0_1664 : ∀ a, (![0, 0, 1664] : Fin 3 → Nat) a + S1x64x64.size a ≤ S1x64x4096.size a
  slices_S64x4352_o0_1838_S64x64 : S64x4352.Slices ![0, 1838] S64x64
  inb_S1x64x4096_S1x64x64_0_0_1728 : ∀ a, (![0, 0, 1728] : Fin 3 → Nat) a + S1x64x64.size a ≤ S1x64x4096.size a
  slices_S64x4352_o0_1906_S64x64 : S64x4352.Slices ![0, 1906] S64x64
  inb_S1x64x4096_S1x64x64_0_0_1792 : ∀ a, (![0, 0, 1792] : Fin 3 → Nat) a + S1x64x64.size a ≤ S1x64x4096.size a
  slices_S64x4352_o0_1974_S64x64 : S64x4352.Slices ![0, 1974] S64x64
  inb_S1x64x4096_S1x64x64_0_0_1856 : ∀ a, (![0, 0, 1856] : Fin 3 → Nat) a + S1x64x64.size a ≤ S1x64x4096.size a
  slices_S64x4352_o0_2042_S64x64 : S64x4352.Slices ![0, 2042] S64x64
  inb_S1x64x4096_S1x64x64_0_0_1920 : ∀ a, (![0, 0, 1920] : Fin 3 → Nat) a + S1x64x64.size a ≤ S1x64x4096.size a
  slices_S64x4352_o0_2110_S64x64 : S64x4352.Slices ![0, 2110] S64x64
  inb_S1x64x4096_S1x64x64_0_0_1984 : ∀ a, (![0, 0, 1984] : Fin 3 → Nat) a + S1x64x64.size a ≤ S1x64x4096.size a
  slices_S64x4352_o0_2178_S64x64 : S64x4352.Slices ![0, 2178] S64x64
  inb_S1x64x4096_S1x64x64_0_0_2048 : ∀ a, (![0, 0, 2048] : Fin 3 → Nat) a + S1x64x64.size a ≤ S1x64x4096.size a
  slices_S64x4352_o0_2246_S64x64 : S64x4352.Slices ![0, 2246] S64x64
  inb_S1x64x4096_S1x64x64_0_0_2112 : ∀ a, (![0, 0, 2112] : Fin 3 → Nat) a + S1x64x64.size a ≤ S1x64x4096.size a
  slices_S64x4352_o0_2314_S64x64 : S64x4352.Slices ![0, 2314] S64x64
  inb_S1x64x4096_S1x64x64_0_0_2176 : ∀ a, (![0, 0, 2176] : Fin 3 → Nat) a + S1x64x64.size a ≤ S1x64x4096.size a
  slices_S64x4352_o0_2382_S64x64 : S64x4352.Slices ![0, 2382] S64x64
  inb_S1x64x4096_S1x64x64_0_0_2240 : ∀ a, (![0, 0, 2240] : Fin 3 → Nat) a + S1x64x64.size a ≤ S1x64x4096.size a
  slices_S64x4352_o0_2450_S64x64 : S64x4352.Slices ![0, 2450] S64x64
  inb_S1x64x4096_S1x64x64_0_0_2304 : ∀ a, (![0, 0, 2304] : Fin 3 → Nat) a + S1x64x64.size a ≤ S1x64x4096.size a
  slices_S64x4352_o0_2518_S64x64 : S64x4352.Slices ![0, 2518] S64x64
  inb_S1x64x4096_S1x64x64_0_0_2368 : ∀ a, (![0, 0, 2368] : Fin 3 → Nat) a + S1x64x64.size a ≤ S1x64x4096.size a
  slices_S64x4352_o0_2586_S64x64 : S64x4352.Slices ![0, 2586] S64x64
  inb_S1x64x4096_S1x64x64_0_0_2432 : ∀ a, (![0, 0, 2432] : Fin 3 → Nat) a + S1x64x64.size a ≤ S1x64x4096.size a
  slices_S64x4352_o0_2654_S64x64 : S64x4352.Slices ![0, 2654] S64x64
  inb_S1x64x4096_S1x64x64_0_0_2496 : ∀ a, (![0, 0, 2496] : Fin 3 → Nat) a + S1x64x64.size a ≤ S1x64x4096.size a
  slices_S64x4352_o0_2722_S64x64 : S64x4352.Slices ![0, 2722] S64x64
  inb_S1x64x4096_S1x64x64_0_0_2560 : ∀ a, (![0, 0, 2560] : Fin 3 → Nat) a + S1x64x64.size a ≤ S1x64x4096.size a
  slices_S64x4352_o0_2790_S64x64 : S64x4352.Slices ![0, 2790] S64x64
  inb_S1x64x4096_S1x64x64_0_0_2624 : ∀ a, (![0, 0, 2624] : Fin 3 → Nat) a + S1x64x64.size a ≤ S1x64x4096.size a
  slices_S64x4352_o0_2858_S64x64 : S64x4352.Slices ![0, 2858] S64x64
  inb_S1x64x4096_S1x64x64_0_0_2688 : ∀ a, (![0, 0, 2688] : Fin 3 → Nat) a + S1x64x64.size a ≤ S1x64x4096.size a
  slices_S64x4352_o0_2926_S64x64 : S64x4352.Slices ![0, 2926] S64x64
  inb_S1x64x4096_S1x64x64_0_0_2752 : ∀ a, (![0, 0, 2752] : Fin 3 → Nat) a + S1x64x64.size a ≤ S1x64x4096.size a
  slices_S64x4352_o0_2994_S64x64 : S64x4352.Slices ![0, 2994] S64x64
  inb_S1x64x4096_S1x64x64_0_0_2816 : ∀ a, (![0, 0, 2816] : Fin 3 → Nat) a + S1x64x64.size a ≤ S1x64x4096.size a
  slices_S64x4352_o0_3062_S64x64 : S64x4352.Slices ![0, 3062] S64x64
  inb_S1x64x4096_S1x64x64_0_0_2880 : ∀ a, (![0, 0, 2880] : Fin 3 → Nat) a + S1x64x64.size a ≤ S1x64x4096.size a
  slices_S64x4352_o0_3130_S64x64 : S64x4352.Slices ![0, 3130] S64x64
  inb_S1x64x4096_S1x64x64_0_0_2944 : ∀ a, (![0, 0, 2944] : Fin 3 → Nat) a + S1x64x64.size a ≤ S1x64x4096.size a
  slices_S64x4352_o0_3198_S64x64 : S64x4352.Slices ![0, 3198] S64x64
  inb_S1x64x4096_S1x64x64_0_0_3008 : ∀ a, (![0, 0, 3008] : Fin 3 → Nat) a + S1x64x64.size a ≤ S1x64x4096.size a
  slices_S64x4352_o0_3266_S64x64 : S64x4352.Slices ![0, 3266] S64x64
  inb_S1x64x4096_S1x64x64_0_0_3072 : ∀ a, (![0, 0, 3072] : Fin 3 → Nat) a + S1x64x64.size a ≤ S1x64x4096.size a
  slices_S64x4352_o0_3334_S64x64 : S64x4352.Slices ![0, 3334] S64x64
  inb_S1x64x4096_S1x64x64_0_0_3136 : ∀ a, (![0, 0, 3136] : Fin 3 → Nat) a + S1x64x64.size a ≤ S1x64x4096.size a
  slices_S64x4352_o0_3402_S64x64 : S64x4352.Slices ![0, 3402] S64x64
  inb_S1x64x4096_S1x64x64_0_0_3200 : ∀ a, (![0, 0, 3200] : Fin 3 → Nat) a + S1x64x64.size a ≤ S1x64x4096.size a
  slices_S64x4352_o0_3470_S64x64 : S64x4352.Slices ![0, 3470] S64x64
  inb_S1x64x4096_S1x64x64_0_0_3264 : ∀ a, (![0, 0, 3264] : Fin 3 → Nat) a + S1x64x64.size a ≤ S1x64x4096.size a
  slices_S64x4352_o0_3538_S64x64 : S64x4352.Slices ![0, 3538] S64x64
  inb_S1x64x4096_S1x64x64_0_0_3328 : ∀ a, (![0, 0, 3328] : Fin 3 → Nat) a + S1x64x64.size a ≤ S1x64x4096.size a
  slices_S64x4352_o0_3606_S64x64 : S64x4352.Slices ![0, 3606] S64x64
  inb_S1x64x4096_S1x64x64_0_0_3392 : ∀ a, (![0, 0, 3392] : Fin 3 → Nat) a + S1x64x64.size a ≤ S1x64x4096.size a
  slices_S64x4352_o0_3674_S64x64 : S64x4352.Slices ![0, 3674] S64x64
  inb_S1x64x4096_S1x64x64_0_0_3456 : ∀ a, (![0, 0, 3456] : Fin 3 → Nat) a + S1x64x64.size a ≤ S1x64x4096.size a
  slices_S64x4352_o0_3742_S64x64 : S64x4352.Slices ![0, 3742] S64x64
  inb_S1x64x4096_S1x64x64_0_0_3520 : ∀ a, (![0, 0, 3520] : Fin 3 → Nat) a + S1x64x64.size a ≤ S1x64x4096.size a
  slices_S64x4352_o0_3810_S64x64 : S64x4352.Slices ![0, 3810] S64x64
  inb_S1x64x4096_S1x64x64_0_0_3584 : ∀ a, (![0, 0, 3584] : Fin 3 → Nat) a + S1x64x64.size a ≤ S1x64x4096.size a
  slices_S64x4352_o0_3878_S64x64 : S64x4352.Slices ![0, 3878] S64x64
  inb_S1x64x4096_S1x64x64_0_0_3648 : ∀ a, (![0, 0, 3648] : Fin 3 → Nat) a + S1x64x64.size a ≤ S1x64x4096.size a
  slices_S64x4352_o0_3946_S64x64 : S64x4352.Slices ![0, 3946] S64x64
  inb_S1x64x4096_S1x64x64_0_0_3712 : ∀ a, (![0, 0, 3712] : Fin 3 → Nat) a + S1x64x64.size a ≤ S1x64x4096.size a
  slices_S64x4352_o0_4014_S64x64 : S64x4352.Slices ![0, 4014] S64x64
  inb_S1x64x4096_S1x64x64_0_0_3776 : ∀ a, (![0, 0, 3776] : Fin 3 → Nat) a + S1x64x64.size a ≤ S1x64x4096.size a
  slices_S64x4352_o0_4082_S64x64 : S64x4352.Slices ![0, 4082] S64x64
  inb_S1x64x4096_S1x64x64_0_0_3840 : ∀ a, (![0, 0, 3840] : Fin 3 → Nat) a + S1x64x64.size a ≤ S1x64x4096.size a
  slices_S64x4352_o0_4150_S64x64 : S64x4352.Slices ![0, 4150] S64x64
  inb_S1x64x4096_S1x64x64_0_0_3904 : ∀ a, (![0, 0, 3904] : Fin 3 → Nat) a + S1x64x64.size a ≤ S1x64x4096.size a
  slices_S64x4352_o0_4218_S64x64 : S64x4352.Slices ![0, 4218] S64x64
  inb_S1x64x4096_S1x64x64_0_0_3968 : ∀ a, (![0, 0, 3968] : Fin 3 → Nat) a + S1x64x64.size a ≤ S1x64x4096.size a
  slices_S64x4352_o0_4286_S64x64 : S64x4352.Slices ![0, 4286] S64x64
  inb_S1x64x4096_S1x64x64_0_0_4032 : ∀ a, (![0, 0, 4032] : Fin 3 → Nat) a + S1x64x64.size a ≤ S1x64x4096.size a
  dot_S64x320_S320x2176_S64x2176_1_0_0_1_n_n_wf : DotDims.WF S64x320 S320x2176 S64x2176 [1] [0] [0] [1] [] []
  dot_S64x320_S320x4624_S64x4624_1_0_0_1_n_n_wf : DotDims.WF S64x320 S320x4624 S64x4624 [1] [0] [0] [1] [] []
  dot_S64x640_S640x4352_S64x4352_1_0_0_1_n_n_wf : DotDims.WF S64x640 S640x4352 S64x4352 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x4096.size a ≤ S64x64x4096.size a
  hwx0_0 : ∀ i : grid0.Coords, EltTy.bits .f32 = 32 ∨ (Rect.block (s := S64x64x4096) S1x64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x320.size a ≤ S64x320.size a
  hwx0_1 : ∀ i : grid0.Coords, EltTy.bits .bf16 = 32 ∨ (Rect.block (s := S64x320) S64x320.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x320.size a ≤ S64x320.size a
  hwx0_2 : ∀ i : grid0.Coords, EltTy.bits .bf16 = 32 ∨ (Rect.block (s := S64x320) S64x320.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x640.size a ≤ S64x640.size a
  hwx0_3 : ∀ i : grid0.Coords, EltTy.bits .bf16 = 32 ∨ (Rect.block (s := S64x640) S64x640.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4352.size a ≤ S1x4352.size a
  hwx0_7 : ∀ i : grid0.Coords, EltTy.bits .f32 = 32 ∨ (Rect.block (s := S1x4352) S1x4352.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x4624.size a ≤ S1x4624.size a
  hwx0_8 : ∀ i : grid0.Coords, EltTy.bits .f32 = 32 ∨ (Rect.block (s := S1x4624) S1x4624.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x64x4096.size a ≤ S64x64x4096.size a
  hwx0_9 : ∀ i : grid0.Coords, EltTy.bits .f32 = 32 ∨ (Rect.block (s := S64x64x4096) S1x64x4096.size (cc0_transform_9 i) (hinb0_9 i)).WholeWords (EltTy.packing .f32)

variable [Facts₀]

def dot_S64x320_S320x2176_S64x2176_1_0_0_1_n_n : DotDims S64x320 S320x2176 S64x2176 where
  lhsContracting := [1]
  rhsContracting := [0]
  lhsNonContracting := [0]
  rhsNonContracting := [1]
  lhsBatch := []
  rhsBatch := []
  wf := dot_S64x320_S320x2176_S64x2176_1_0_0_1_n_n_wf
def dot_S64x320_S320x4624_S64x4624_1_0_0_1_n_n : DotDims S64x320 S320x4624 S64x4624 where
  lhsContracting := [1]
  rhsContracting := [0]
  lhsNonContracting := [0]
  rhsNonContracting := [1]
  lhsBatch := []
  rhsBatch := []
  wf := dot_S64x320_S320x4624_S64x4624_1_0_0_1_n_n_wf
def dot_S64x640_S640x4352_S64x4352_1_0_0_1_n_n : DotDims S64x640 S640x4352 S64x4352 where
  lhsContracting := [1]
  rhsContracting := [0]
  lhsNonContracting := [0]
  rhsNonContracting := [1]
  lhsBatch := []
  rhsBatch := []
  wf := dot_S64x640_S640x4352_S64x4352_1_0_0_1_n_n_wf

abbrev win0_0 : Pipeline.Window sig grid0 :=
  Pipeline.Window.ofSpec (Memref.whole main_call0_v39) S1x64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S64x320.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v7) S64x320.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v16) S64x640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v17) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v18) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v20) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v29) S1x4352.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v38) S1x4624.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v40) S1x64x4096.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S64x64x64x64 : Shape := ⟨4, ![64, 64, 64, 64]⟩
abbrev S64x64x5x1 : Shape := ⟨4, ![64, 64, 5, 1]⟩
abbrev S64 : Shape := ⟨1, ![64]⟩
abbrev S64x64x1x5 : Shape := ⟨4, ![64, 64, 1, 5]⟩
abbrev S64x64x5 : Shape := ⟨3, ![64, 64, 5]⟩
abbrev S64x5x64 : Shape := ⟨3, ![64, 5, 64]⟩
abbrev S64x320 : Shape := ⟨2, ![64, 320]⟩
abbrev S_ : Shape := ⟨0, ![]⟩
abbrev S64x68 : Shape := ⟨2, ![64, 68]⟩
abbrev S1 : Shape := ⟨1, ![1]⟩
abbrev S64x64 : Shape := ⟨2, ![64, 64]⟩
abbrev S1x4352 : Shape := ⟨2, ![1, 4352]⟩
abbrev S68x68 : Shape := ⟨2, ![68, 68]⟩
abbrev S1x4624 : Shape := ⟨2, ![1, 4624]⟩
abbrev S64x1 : Shape := ⟨2, ![64, 1]⟩
abbrev S64x4352 : Shape := ⟨2, ![64, 4352]⟩
abbrev S64x4624 : Shape := ⟨2, ![64, 4624]⟩
abbrev S64x64x68x68 : Shape := ⟨4, ![64, 64, 68, 68]⟩
abbrev S64x64x4624 : Shape := ⟨3, ![64, 64, 4624]⟩
abbrev S64x64x4628 : Shape := ⟨3, ![64, 64, 4628]⟩
abbrev S64x64x4352 : Shape := ⟨3, ![64, 64, 4352]⟩
abbrev S64x64x64x68 : Shape := ⟨4, ![64, 64, 64, 68]⟩
abbrev S1x64x4628 : Shape := ⟨3, ![1, 64, 4628]⟩
abbrev S1x64x4352 : Shape := ⟨3, ![1, 64, 4352]⟩
abbrev S320x4352 : Shape := ⟨2, ![320, 4352]⟩
abbrev S64x2 : Shape := ⟨2, ![64, 2]⟩
abbrev S1x64x4624 : Shape := ⟨3, ![1, 64, 4624]⟩
abbrev S320x4624 : Shape := ⟨2, ![320, 4624]⟩

abbrev nBuf : Space → Nat
  | .hbm => 57
  | .vmem => 12
  | .smem => 0
  | _ => 0

abbrev bufTy : (tb : Table) → Fin (tcTables nBuf tb) → BufTy
  | .hbm, ⟨0, _⟩ => ⟨S64x64x64x64, .f32⟩
  | .hbm, ⟨1, _⟩ => ⟨S64x64x5x1, .f32⟩
  | .hbm, ⟨2, _⟩ => ⟨S64, .f32⟩
  | .hbm, ⟨3, _⟩ => ⟨S64x64x1x5, .f32⟩
  | .hbm, ⟨4, _⟩ => ⟨S64, .f32⟩
  | .hbm, ⟨5, _⟩ => ⟨S64x64x1x5, .f32⟩
  | .hbm, ⟨6, _⟩ => ⟨S64, .f32⟩
  | .hbm, ⟨7, _⟩ => ⟨S64x64x5x1, .f32⟩
  | .hbm, ⟨8, _⟩ => ⟨S64, .f32⟩
  | .hbm, ⟨9, _⟩ => ⟨S64x64x5, .f32⟩
  | .hbm, ⟨10, _⟩ => ⟨S64x5x64, .f32⟩
  | .hbm, ⟨11, _⟩ => ⟨S64x320, .f32⟩
  | .hbm, ⟨12, _⟩ => ⟨S64x64x5, .f32⟩
  | .hbm, ⟨13, _⟩ => ⟨S64x5x64, .f32⟩
  | .hbm, ⟨14, _⟩ => ⟨S64x320, .f32⟩
  | .hbm, ⟨15, _⟩ => ⟨S64x64x5, .f32⟩
  | .hbm, ⟨16, _⟩ => ⟨S64x5x64, .f32⟩
  | .hbm, ⟨17, _⟩ => ⟨S64x320, .f32⟩
  | .hbm, ⟨18, _⟩ => ⟨S64x64x5, .f32⟩
  | .hbm, ⟨19, _⟩ => ⟨S64x5x64, .f32⟩
  | .hbm, ⟨20, _⟩ => ⟨S64x320, .f32⟩
  | .hbm, ⟨21, _⟩ => ⟨S_, .f32⟩
  | .hbm, ⟨22, _⟩ => ⟨S64x68, .f32⟩
  | .hbm, ⟨23, _⟩ => ⟨S_, .i32⟩
  | .hbm, ⟨24, _⟩ => ⟨S1, .i32⟩
  | .hbm, ⟨25, _⟩ => ⟨S_, .f32⟩
  | .hbm, ⟨26, _⟩ => ⟨S64x64, .f32⟩
  | .hbm, ⟨27, _⟩ => ⟨S64x68, .f32⟩
  | .hbm, ⟨28, _⟩ => ⟨S1x4352, .f32⟩
  | .hbm, ⟨29, _⟩ => ⟨S_, .f32⟩
  | .hbm, ⟨30, _⟩ => ⟨S68x68, .f32⟩
  | .hbm, ⟨31, _⟩ => ⟨S_, .i32⟩
  | .hbm, ⟨32, _⟩ => ⟨S1, .i32⟩
  | .hbm, ⟨33, _⟩ => ⟨S_, .f32⟩
  | .hbm, ⟨34, _⟩ => ⟨S64x68, .f32⟩
  | .hbm, ⟨35, _⟩ => ⟨S68x68, .f32⟩
  | .hbm, ⟨36, _⟩ => ⟨S1x4624, .f32⟩
  | .hbm, ⟨37, _⟩ => ⟨S64x1, .f32⟩
  | .hbm, ⟨38, _⟩ => ⟨S64x4352, .f32⟩
  | .hbm, ⟨39, _⟩ => ⟨S64x4352, .f32⟩
  | .hbm, ⟨40, _⟩ => ⟨S64x4352, .f32⟩
  | .hbm, ⟨41, _⟩ => ⟨S64x1, .f32⟩
  | .hbm, ⟨42, _⟩ => ⟨S64x4624, .f32⟩
  | .hbm, ⟨43, _⟩ => ⟨S64x4624, .f32⟩
  | .hbm, ⟨44, _⟩ => ⟨S64x4624, .f32⟩
  | .hbm, ⟨45, _⟩ => ⟨S64, .f32⟩
  | .hbm, ⟨46, _⟩ => ⟨S64x1, .f32⟩
  | .hbm, ⟨47, _⟩ => ⟨S_, .i32⟩
  | .hbm, ⟨48, _⟩ => ⟨S_, .f32⟩
  | .hbm, ⟨49, _⟩ => ⟨S64x64x68x68, .f32⟩
  | .hbm, ⟨50, _⟩ => ⟨S64x64x4624, .f32⟩
  | .hbm, ⟨51, _⟩ => ⟨S_, .i32⟩
  | .hbm, ⟨52, _⟩ => ⟨S_, .f32⟩
  | .hbm, ⟨53, _⟩ => ⟨S64x64x4628, .f32⟩
  | .hbm, ⟨54, _⟩ => ⟨S64x64x4352, .f32⟩
  | .hbm, ⟨55, _⟩ => ⟨S64x64x64x68, .f32⟩
  | .hbm, ⟨56, _⟩ => ⟨S64x64x64x64, .f32⟩
  | .local _ .vmem, ⟨0, _⟩ => ⟨S1x64x4628, .f32⟩
  | .local _ .vmem, ⟨1, _⟩ => ⟨S1x64x4628, .f32⟩
  | .local _ .vmem, ⟨2, _⟩ => ⟨S64x320, .f32⟩
  | .local _ .vmem, ⟨3, _⟩ => ⟨S64x320, .f32⟩
  | .local _ .vmem, ⟨4, _⟩ => ⟨S64x320, .f32⟩
  | .local _ .vmem, ⟨5, _⟩ => ⟨S64x320, .f32⟩
  | .local _ .vmem, ⟨6, _⟩ => ⟨S64x4352, .f32⟩
  | .local _ .vmem, ⟨7, _⟩ => ⟨S64x4624, .f32⟩
  | .local _ .vmem, ⟨8, _⟩ => ⟨S64x1, .f32⟩
  | .local _ .vmem, ⟨9, _⟩ => ⟨S1x64x4352, .f32⟩
  | .local _ .vmem, ⟨10, _⟩ => ⟨S1x64x4352, .f32⟩
  | .local _ .vmem, ⟨11, _⟩ => ⟨S64x4624, .f32⟩
  | _, _ => ⟨S64x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_cst : Ref sig .tc := ⟨.hbm, 21, rfl⟩
abbrev main_call0_v12 : Ref sig .tc := ⟨.hbm, 22, rfl⟩
abbrev main_call0_c : Ref sig .tc := ⟨.hbm, 23, rfl⟩
abbrev main_call0_v13 : Ref sig .tc := ⟨.hbm, 24, rfl⟩
abbrev main_call0_cst_0 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_call0_cst_1 : Ref sig .tc := ⟨.hbm, 29, rfl⟩
abbrev main_call0_v17 : Ref sig .tc := ⟨.hbm, 30, rfl⟩
abbrev main_call0_c_2 : Ref sig .tc := ⟨.hbm, 31, rfl⟩
abbrev main_call0_v18 : Ref sig .tc := ⟨.hbm, 32, rfl⟩
abbrev main_call0_cst_3 : Ref sig .tc := ⟨.hbm, 33, rfl⟩
abbrev main_call0_v19 : Ref sig .tc := ⟨.hbm, 34, rfl⟩
abbrev main_call0_v20 : Ref sig .tc := ⟨.hbm, 35, rfl⟩
abbrev main_call0_v21 : Ref sig .tc := ⟨.hbm, 36, rfl⟩
abbrev main_call0_v22 : Ref sig .tc := ⟨.hbm, 37, rfl⟩
abbrev main_call0_v23 : Ref sig .tc := ⟨.hbm, 38, rfl⟩
abbrev main_call0_v24 : Ref sig .tc := ⟨.hbm, 39, rfl⟩
abbrev main_call0_v25 : Ref sig .tc := ⟨.hbm, 40, rfl⟩
abbrev main_call0_v26 : Ref sig .tc := ⟨.hbm, 41, rfl⟩
abbrev main_call0_v27 : Ref sig .tc := ⟨.hbm, 42, rfl⟩
abbrev main_call0_v28 : Ref sig .tc := ⟨.hbm, 43, rfl⟩
abbrev main_call0_v29 : Ref sig .tc := ⟨.hbm, 44, rfl⟩
abbrev main_call0_v30 : Ref sig .tc := ⟨.hbm, 45, rfl⟩
abbrev main_call0_v31 : Ref sig .tc := ⟨.hbm, 46, rfl⟩
abbrev main_call0_c_4 : Ref sig .tc := ⟨.hbm, 47, rfl⟩
abbrev main_call0_call0_v0 : Ref sig .tc := ⟨.hbm, 48, rfl⟩
abbrev main_call0_v32 : Ref sig .tc := ⟨.hbm, 49, rfl⟩
abbrev main_call0_v33 : Ref sig .tc := ⟨.hbm, 50, rfl⟩
abbrev main_call0_c_5 : Ref sig .tc := ⟨.hbm, 51, rfl⟩
abbrev main_call0_call1_v0 : Ref sig .tc := ⟨.hbm, 52, rfl⟩
abbrev main_call0_v34 : Ref sig .tc := ⟨.hbm, 53, rfl⟩
abbrev main_call0_v35 : Ref sig .tc := ⟨.hbm, 54, rfl⟩
abbrev main_call0_v36 : Ref sig .tc := ⟨.hbm, 55, rfl⟩
abbrev main_v0 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x4628 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x4352 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x4624 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x64x4352 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S64x64x5x1_S64x64x5 : S64x64x5x1.ShapeCasts S64x64x5
  transposes_S64x64x5_S64x5x64_0_2_1 : S64x64x5.Transposes [0, 2, 1] S64x5x64
  shapeCasts_S64x5x64_S64x320 : S64x5x64.ShapeCasts S64x320
  shapeCasts_S64x64x1x5_S64x64x5 : S64x64x1x5.ShapeCasts S64x64x5
  bcast_S_S64x68 : S_.BroadcastsInDim S64x68 (![] : Fin 0 → Fin S64x68.rank)
  bcast_S_S1 : S_.BroadcastsInDim S1 (![] : Fin 0 → Fin S1.rank)
  bcast_S_S64x64 : S_.BroadcastsInDim S64x64 (![] : Fin 0 → Fin S64x64.rank)
  shapeCasts_S64x68_S1x4352 : S64x68.ShapeCasts S1x4352
  bcast_S_S68x68 : S_.BroadcastsInDim S68x68 (![] : Fin 0 → Fin S68x68.rank)
  shapeCasts_S68x68_S1x4624 : S68x68.ShapeCasts S1x4624
  bcast_S64_S64x1_0 : S64.BroadcastsInDim S64x1 (![0] : Fin 1 → Fin S64x1.rank)
  bcast_S64x1_S64x4352_0_1 : S64x1.BroadcastsInDim S64x4352 (![0, 1] : Fin 2 → Fin S64x4352.rank)
  bcast_S1x4352_S64x4352_0_1 : S1x4352.BroadcastsInDim S64x4352 (![0, 1] : Fin 2 → Fin S64x4352.rank)
  bcast_S64x1_S64x4624_0_1 : S64x1.BroadcastsInDim S64x4624 (![0, 1] : Fin 2 → Fin S64x4624.rank)
  bcast_S1x4624_S64x4624_0_1 : S1x4624.BroadcastsInDim S64x4624 (![0, 1] : Fin 2 → Fin S64x4624.rank)
  pads_S64x64x64x64_S64x64x68x68_000_000_220_220 : S64x64x64x64.Pads (![0, 0, 2, 2] : Fin 4 → Nat) ![0, 0, 2, 2] ![0, 0, 0, 0] S64x64x68x68
  h_S_ : 0 < S_.numel
  shapeCasts_S64x64x68x68_S64x64x4624 : S64x64x68x68.ShapeCasts S64x64x4624
  pads_S64x64x4624_S64x64x4628_000_000_220 : S64x64x4624.Pads (![0, 0, 2] : Fin 3 → Nat) ![0, 0, 2] ![0, 0, 0] S64x64x4628
  shapeCasts_S64x64x4352_S64x64x64x68 : S64x64x4352.ShapeCasts S64x64x64x68
  slices_S64x64x64x68_S64x64x64x64_0_0_0_2 : S64x64x64x68.Slices ![0, 0, 0, 2] S64x64x64x64
  inb_S1x64x4628_S1x64x4352_0_0_2 : ∀ a, (![0, 0, 2] : Fin 3 → Nat) a + S1x64x4352.size a ≤ S1x64x4628.size a
  h_S1x64x4352 : 0 < S1x64x4352.numel
  shapeCasts_S1x64x4352_S64x4352 : S1x64x4352.ShapeCasts S64x4352
  inb_S1x64x4628_S1x64x4352_0_0_70 : ∀ a, (![0, 0, 70] : Fin 3 → Nat) a + S1x64x4352.size a ≤ S1x64x4628.size a
  inb_S1x64x4628_S1x64x4352_0_0_138 : ∀ a, (![0, 0, 138] : Fin 3 → Nat) a + S1x64x4352.size a ≤ S1x64x4628.size a
  inb_S1x64x4628_S1x64x4352_0_0_206 : ∀ a, (![0, 0, 206] : Fin 3 → Nat) a + S1x64x4352.size a ≤ S1x64x4628.size a
  inb_S1x64x4628_S1x64x4352_0_0_274 : ∀ a, (![0, 0, 274] : Fin 3 → Nat) a + S1x64x4352.size a ≤ S1x64x4628.size a
  concatenates_S64x4352_S64x4352_S64x4352_S64x4352_S64x4352_S320x4352_d0 : Shape.Concatenates [S64x4352, S64x4352, S64x4352, S64x4352, S64x4352] S320x4352 0
  inb_S64x320_S64x320_0_0 : ∀ a, (![0, 0] : Fin 2 → Nat) a + S64x320.size a ≤ S64x320.size a
  h_S64x320 : 0 < S64x320.numel
  shapeCasts_S64x320_S64x320 : S64x320.ShapeCasts S64x320
  inb_S64x4352_S64x4352_0_0 : ∀ a, (![0, 0] : Fin 2 → Nat) a + S64x4352.size a ≤ S64x4352.size a
  h_S64x4352 : 0 < S64x4352.numel
  shapeCasts_S64x4352_S64x4352 : S64x4352.ShapeCasts S64x4352
  inb_S64x4624_S64x2_0_0 : ∀ a, (![0, 0] : Fin 2 → Nat) a + S64x2.size a ≤ S64x4624.size a
  h_S64x2 : 0 < S64x2.numel
  shapeCasts_S64x2_S64x2 : S64x2.ShapeCasts S64x2
  inb_S64x4624_S64x4352_0_2 : ∀ a, (![0, 2] : Fin 2 → Nat) a + S64x4352.size a ≤ S64x4624.size a
  inb_S64x4624_S64x2_0_4354 : ∀ a, (![0, 4354] : Fin 2 → Nat) a + S64x2.size a ≤ S64x4624.size a
  inb_S64x4624_S64x4352_0_0 : ∀ a, (![0, 0] : Fin 2 → Nat) a + S64x4352.size a ≤ S64x4624.size a
  inb_S64x4624_S64x4352_0_1 : ∀ a, (![0, 1] : Fin 2 → Nat) a + S64x4352.size a ≤ S64x4624.size a
  inb_S64x4624_S64x4352_0_3 : ∀ a, (![0, 3] : Fin 2 → Nat) a + S64x4352.size a ≤ S64x4624.size a
  inb_S64x4624_S64x4352_0_4 : ∀ a, (![0, 4] : Fin 2 → Nat) a + S64x4352.size a ≤ S64x4624.size a
  inb_S1x64x4628_S1x64x4624_0_0_0 : ∀ a, (![0, 0, 0] : Fin 3 → Nat) a + S1x64x4624.size a ≤ S1x64x4628.size a
  h_S1x64x4624 : 0 < S1x64x4624.numel
  shapeCasts_S1x64x4624_S64x4624 : S1x64x4624.ShapeCasts S64x4624
  inb_S1x64x4628_S1x64x4624_0_0_1 : ∀ a, (![0, 0, 1] : Fin 3 → Nat) a + S1x64x4624.size a ≤ S1x64x4628.size a
  inb_S1x64x4628_S1x64x4624_0_0_2 : ∀ a, (![0, 0, 2] : Fin 3 → Nat) a + S1x64x4624.size a ≤ S1x64x4628.size a
  inb_S1x64x4628_S1x64x4624_0_0_3 : ∀ a, (![0, 0, 3] : Fin 3 → Nat) a + S1x64x4624.size a ≤ S1x64x4628.size a
  inb_S1x64x4628_S1x64x4624_0_0_4 : ∀ a, (![0, 0, 4] : Fin 3 → Nat) a + S1x64x4624.size a ≤ S1x64x4628.size a
  concatenates_S64x4624_S64x4624_S64x4624_S64x4624_S64x4624_S320x4624_d0 : Shape.Concatenates [S64x4624, S64x4624, S64x4624, S64x4624, S64x4624] S320x4624 0
  inb_S64x4624_S64x4624_0_0 : ∀ a, (![0, 0] : Fin 2 → Nat) a + S64x4624.size a ≤ S64x4624.size a
  h_S64x4624 : 0 < S64x4624.numel
  shapeCasts_S64x4624_S64x4624 : S64x4624.ShapeCasts S64x4624
  inb_S64x4624_S64x4352_0_68 : ∀ a, (![0, 68] : Fin 2 → Nat) a + S64x4352.size a ≤ S64x4624.size a
  inb_S64x4624_S64x4352_0_136 : ∀ a, (![0, 136] : Fin 2 → Nat) a + S64x4352.size a ≤ S64x4624.size a
  inb_S64x4624_S64x4352_0_204 : ∀ a, (![0, 204] : Fin 2 → Nat) a + S64x4352.size a ≤ S64x4624.size a
  inb_S64x4624_S64x4352_0_272 : ∀ a, (![0, 272] : Fin 2 → Nat) a + S64x4352.size a ≤ S64x4624.size a
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x4352 : S64x1.Broadcasts S64x4352
  inb_S1x64x4352_S1x64x4352_0_0_0 : ∀ a, (![0, 0, 0] : Fin 3 → Nat) a + S1x64x4352.size a ≤ S1x64x4352.size a
  shapeCasts_S64x4352_S1x64x4352 : S64x4352.ShapeCasts S1x64x4352
  scatter_S64x68_S1_S64x64_01_n_1_0_wf : ScatterDims.WF S64x68 S1 S64x64 [0, 1] [] [1] 0
  scatter_S68x68_S1_S64x68_01_n_0_0_wf : ScatterDims.WF S68x68 S1 S64x68 [0, 1] [] [0] 0
  dot_S64x320_S320x4352_S64x4352_1_0_0_1_n_n_wf : DotDims.WF S64x320 S320x4352 S64x4352 [1] [0] [0] [1] [] []
  dot_S64x320_S320x4624_S64x4624_1_0_0_1_n_n_wf : DotDims.WF S64x320 S320x4624 S64x4624 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x4628.size a ≤ S64x64x4628.size a
  hwx0_0 : ∀ i : grid0.Coords, EltTy.bits .f32 = 32 ∨ (Rect.block (s := S64x64x4628) S1x64x4628.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x320.size a ≤ S64x320.size a
  hwx0_1 : ∀ i : grid0.Coords, EltTy.bits .f32 = 32 ∨ (Rect.block (s := S64x320) S64x320.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x320.size a ≤ S64x320.size a
  hwx0_2 : ∀ i : grid0.Coords, EltTy.bits .f32 = 32 ∨ (Rect.block (s := S64x320) S64x320.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x320.size a ≤ S64x320.size a
  hwx0_3 : ∀ i : grid0.Coords, EltTy.bits .f32 = 32 ∨ (Rect.block (s := S64x320) S64x320.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x320.size a ≤ S64x320.size a
  hwx0_4 : ∀ i : grid0.Coords, EltTy.bits .f32 = 32 ∨ (Rect.block (s := S64x320) S64x320.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x4352.size a ≤ S64x4352.size a
  hwx0_5 : ∀ i : grid0.Coords, EltTy.bits .f32 = 32 ∨ (Rect.block (s := S64x4352) S64x4352.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x4624.size a ≤ S64x4624.size a
  hwx0_6 : ∀ i : grid0.Coords, EltTy.bits .f32 = 32 ∨ (Rect.block (s := S64x4624) S64x4624.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S64x1.size a
  hwx0_7 : ∀ i : grid0.Coords, EltTy.bits .f32 = 32 ∨ (Rect.block (s := S64x1) S64x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x4352.size a ≤ S64x64x4352.size a
  hwx0_8 : ∀ i : grid0.Coords, EltTy.bits .f32 = 32 ∨ (Rect.block (s := S64x64x4352) S1x64x4352.size (cc0_transform_8 i) (hinb0_8 i)).WholeWords (EltTy.packing .f32)

variable [Facts₀]

def scatter_S64x68_S1_S64x64_01_n_1_0 : ScatterDims S64x68 S1 S64x64 where
  updateWindowDims := [0, 1]
  insertedWindowDims := []
  scatterDimsToOperandDims := [1]
  indexVectorDim := 0
  wf := scatter_S64x68_S1_S64x64_01_n_1_0_wf
def scatter_S68x68_S1_S64x68_01_n_0_0 : ScatterDims S68x68 S1 S64x68 where
  updateWindowDims := [0, 1]
  insertedWindowDims := []
  scatterDimsToOperandDims := [0]
  indexVectorDim := 0
  wf := scatter_S68x68_S1_S64x68_01_n_0_0_wf
def dot_S64x320_S320x4352_S64x4352_1_0_0_1_n_n : DotDims S64x320 S320x4352 S64x4352 where
  lhsContracting := [1]
  rhsContracting := [0]
  lhsNonContracting := [0]
  rhsNonContracting := [1]
  lhsBatch := []
  rhsBatch := []
  wf := dot_S64x320_S320x4352_S64x4352_1_0_0_1_n_n_wf
def dot_S64x320_S320x4624_S64x4624_1_0_0_1_n_n : DotDims S64x320 S320x4624 S64x4624 where
  lhsContracting := [1]
  rhsContracting := [0]
  lhsNonContracting := [0]
  rhsNonContracting := [1]
  lhsBatch := []
  rhsBatch := []
  wf := dot_S64x320_S320x4624_S64x4624_1_0_0_1_n_n_wf

abbrev win0_0 : Pipeline.Window sig grid0 :=
  Pipeline.Window.ofSpec (Memref.whole main_call0_v34) S1x64x4628.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S64x320.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v5) S64x320.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v8) S64x320.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v11) S64x320.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v25) S64x4352.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v29) S64x4624.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v31) S64x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v35) S1x64x4352.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== Proof.Spec.lean ====
/-
  The mathematics both programs compute, stated once over plain functions.

  An image of 64 channels and 64 x 64 positions is zero-padded by 2 on each side of both spatial axes to 68 x 68,
  flattened row by row, and given 2 more zeros at each flat end: a row of 4628 numbers per channel, in which every
  tap of a 5-tap convolution along a spatial axis is a plain shift of the flat position (by one for the width
  axis, by 68 for the height axis). Two branches are summed: the left one convolves along the height (weights
  `W1L`) and then along the width (`W2L`), the right one along the width (`W1R`) and then along the height
  (`W2R`). Every convolution contracts over 320 = 5 taps x 64 channels, position `k` of the contraction being
  tap `k / 64` of channel `k % 64`. The first stage of each branch adds a bias plane that vanishes on the padding
  ring, so that the intermediate images keep exact zero padding; the second stages add one bias per output
  channel, and the sum goes through a leaky rectifier of slope 0.1 (the slope being whatever the f32 word of 0.1
  denotes; it is the same word in both programs and is never evaluated).

  `core` states this over abstract inputs given as functions of natural coordinates; `result` instantiates it at
  the nine argument arrays. Arrays are read at natural coordinates by `at1` ... `at4`, which are zero outside the
  array's box: two ways of laying out the same data can then be compared as whole functions.
-/
import Idealize.ShloMosaic.PureOps.Ideal
import Idealize.ShloMosaic.PureOps.Ideal.Laws
import Idealize.ShloMosaic.Lib.ValueIdx

noncomputable section

namespace SepConv

open Idealize.ShloMosaic Idealize.ShloMosaic.ValueIdx Finset

/-! ## Arrays read at natural coordinates -/

/-- A one-axis array at a natural coordinate, zero outside. -/
def at1 {A : ℕ} (v : (⟨1, ![A]⟩ : Shape).Idx → EReal) (a : ℕ) : EReal :=
  if h : a < A then v (ix1 ⟨a, h⟩) else 0

/-- A two-axis array at natural coordinates, zero outside. -/
def at2 {A B : ℕ} (v : (⟨2, ![A, B]⟩ : Shape).Idx → EReal) (a b : ℕ) : EReal :=
  if h : a < A ∧ b < B then v (ix2 ⟨a, h.1⟩ ⟨b, h.2⟩) else 0

/-- A three-axis array at natural coordinates, zero outside. -/
def at3 {A B C : ℕ} (v : (⟨3, ![A, B, C]⟩ : Shape).Idx → EReal) (a b c : ℕ) : EReal :=
  if h : a < A ∧ b < B ∧ c < C then v (ix3 ⟨a, h.1⟩ ⟨b, h.2.1⟩ ⟨c, h.2.2⟩) else 0

/-- A four-axis array at natural coordinates, zero outside. -/
def at4 {A B C D : ℕ} (v : (⟨4, ![A, B, C, D]⟩ : Shape).Idx → EReal) (a b c d : ℕ) : EReal :=
  if h : a < A ∧ b < B ∧ c < C ∧ d < D then v (ix4 ⟨a, h.1⟩ ⟨b, h.2.1⟩ ⟨c, h.2.2.1⟩ ⟨d, h.2.2.2⟩) else 0

theorem at1_ix1 {A : ℕ} (v : (⟨1, ![A]⟩ : Shape).Idx → EReal) (a : Fin A) : at1 v a.val = v (ix1 a) := by
  unfold at1; rw [dif_pos a.isLt]

theorem at2_ix2 {A B : ℕ} (v : (⟨2, ![A, B]⟩ : Shape).Idx → EReal) (a : Fin A) (b : Fin B) :
    at2 v a.val b.val = v (ix2 a b) := by
  unfold at2; rw [dif_pos ⟨a.isLt, b.isLt⟩]

theorem at3_ix3 {A B C : ℕ} (v : (⟨3, ![A, B, C]⟩ : Shape).Idx → EReal) (a : Fin A) (b : Fin B) (c : Fin C) :
    at3 v a.val b.val c.val = v (ix3 a b c) := by
  unfold at3; rw [dif_pos ⟨a.isLt, b.isLt, c.isLt⟩]

theorem at4_ix4 {A B C D : ℕ} (v : (⟨4, ![A, B, C, D]⟩ : Shape).Idx → EReal) (a : Fin A) (b : Fin B) (c : Fin C)
    (d : Fin D) : at4 v a.val b.val c.val d.val = v (ix4 a b c d) := by
  unfold at4; rw [dif_pos ⟨a.isLt, b.isLt, c.isLt, d.isLt⟩]

/-- Inside the box the reading is the entry: the form used when the coordinates are naturals with bounds. -/
theorem at2_of_lt {A B : ℕ} (v : (⟨2, ![A, B]⟩ : Shape).Idx → EReal) {a b : ℕ} (ha : a < A) (hb : b < B) :
    at2 v a b = v (ix2 ⟨a, ha⟩ ⟨b, hb⟩) := by
  unfold at2; rw [dif_pos ⟨ha, hb⟩]

theorem at3_of_lt {A B C : ℕ} (v : (⟨3, ![A, B, C]⟩ : Shape).Idx → EReal) {a b c : ℕ} (ha : a < A) (hb : b < B)
    (hc : c < C) : at3 v a b c = v (ix3 ⟨a, ha⟩ ⟨b, hb⟩ ⟨c, hc⟩) := by
  unfold at3; rw [dif_pos ⟨ha, hb, hc⟩]

theorem at4_of_lt {A B C D : ℕ} (v : (⟨4, ![A, B, C, D]⟩ : Shape).Idx → EReal) {a b c d : ℕ} (ha : a < A)
    (hb : b < B) (hc : c < C) (hd : d < D) : at4 v a b c d = v (ix4 ⟨a, ha⟩ ⟨b, hb⟩ ⟨c, hc⟩ ⟨d, hd⟩) := by
  unfold at4; rw [dif_pos ⟨ha, hb, hc, hd⟩]

theorem at1_of_lt {A : ℕ} (v : (⟨1, ![A]⟩ : Shape).Idx → EReal) {a : ℕ} (ha : a < A) :
    at1 v a = v (ix1 ⟨a, ha⟩) := by
  unfold at1; rw [dif_pos ha]

/-- Outside the box the reading is zero. -/
theorem at2_of_not {A B : ℕ} (v : (⟨2, ![A, B]⟩ : Shape).Idx → EReal) {a b : ℕ} (h : ¬(a < A ∧ b < B)) :
    at2 v a b = 0 := by
  unfold at2; rw [dif_neg h]

theorem at3_of_not {A B C : ℕ} (v : (⟨3, ![A, B, C]⟩ : Shape).Idx → EReal) {a b c : ℕ}
    (h : ¬(a < A ∧ b < B ∧ c < C)) : at3 v a b c = 0 := by
  unfold at3; rw [dif_neg h]

/-! ## The core, over abstract inputs -/

/-- The leaky rectifier as both programs spell it: the entry where it is at least zero, else the slope times it. -/
def leaky (a : EReal) : EReal :=
  Scalar.select (FloatOps.cmpf (F := Ideal) (φ := .f32) .oge a (Ideal.ofBits .f32 0x00000000#32)) a
    (Ideal.ofBits .f32 0x3DCCCCCD#32 * a)

section Core

variable (XP : ℕ → ℕ → EReal) (W1L W1R W2L W2R : ℕ → ℕ → EReal) (BL BR : ℕ → ℕ → EReal) (B2 : ℕ → EReal)

/-- First stage of the left branch at output channel `o` and flat position `p` of the 64 x 68 grid: the five
    taps along the height are the shifts by 68 of the padded image, started 2 in. -/
def firstL (o p : ℕ) : EReal :=
  ∑ k ∈ range 320, W1L o k * XP (k % 64) (2 + k / 64 * 68 + p) + BL o p

/-- The same with two zeros put before and after its 4352 positions. -/
def haloL (o j : ℕ) : EReal :=
  if 2 ≤ j ∧ j < 4354 then firstL XP W1L BL o (j - 2) else 0

/-- First stage of the right branch at flat position `q` of the 68 x 68 grid: the five taps along the width are
    the shifts by one. -/
def firstR (o q : ℕ) : EReal :=
  ∑ k ∈ range 320, W1R o k * XP (k % 64) (k / 64 + q) + BR o q

/-- Both second stages, summed, plus the second-stage bias. -/
def second (o p : ℕ) : EReal :=
  (∑ k ∈ range 320, W2L o k * haloL XP W1L BL (k % 64) (k / 64 + p))
    + (∑ k ∈ range 320, W2R o k * firstR XP W1R BR (k % 64) (k / 64 * 68 + p))
    + B2 o

/-- The block's value at output channel `o` and flat position `p` of the 64 x 68 grid. -/
def core (o p : ℕ) : EReal := leaky (second XP W1L W1R W2L W2R BL BR B2 o p)

end Core

/-! ## The result over the argument arrays -/

section Result

variable (x : (⟨4, ![64, 64, 64, 64]⟩ : Shape).Idx → EReal)
  (wl1 : (⟨4, ![64, 64, 5, 1]⟩ : Shape).Idx → EReal) (bl1 : (⟨1, ![64]⟩ : Shape).Idx → EReal)
  (wl2 : (⟨4, ![64, 64, 1, 5]⟩ : Shape).Idx → EReal) (bl2 : (⟨1, ![64]⟩ : Shape).Idx → EReal)
  (wr1 : (⟨4, ![64, 64, 1, 5]⟩ : Shape).Idx → EReal) (br1 : (⟨1, ![64]⟩ : Shape).Idx → EReal)
  (wr2 : (⟨4, ![64, 64, 5, 1]⟩ : Shape).Idx → EReal) (br2 : (⟨1, ![64]⟩ : Shape).Idx → EReal)

/-- Image `n`, channel `c`, at flat position `j` of the padded row of 4628: row `(j - 2) / 68` and column
    `(j - 2) % 68` of the 68 x 68 padded image, which is the image 2 in on both axes and zero on the ring. -/
def padded (n c j : ℕ) : EReal :=
  if 2 ≤ j ∧ 2 ≤ (j - 2) / 68 ∧ (j - 2) / 68 < 66 ∧ 2 ≤ (j - 2) % 68 ∧ (j - 2) % 68 < 66 then
    at4 x n c ((j - 2) / 68 - 2) ((j - 2) % 68 - 2)
  else 0

/-- One on the 64 valid columns of each row of 68 of the 64 x 68 grid, zero on the 2 + 2 padding columns. -/
def maskW (p : ℕ) : EReal := if p < 4352 ∧ 2 ≤ p % 68 ∧ p % 68 < 66 then 1 else 0

/-- One on the 64 valid rows of the 68 x 68 grid, zero on the 2 + 2 padding rows. -/
def maskH (q : ℕ) : EReal := if q < 4624 ∧ 2 ≤ q / 68 ∧ q / 68 < 66 then 1 else 0

/-- The weights as matrices of 320 columns: column `k` is tap `k / 64` of input channel `k % 64`. -/
def tapsL1 (o k : ℕ) : EReal := at4 wl1 o (k % 64) (k / 64) 0
def tapsR1 (o k : ℕ) : EReal := at4 wr1 o (k % 64) 0 (k / 64)
def tapsL2 (o k : ℕ) : EReal := at4 wl2 o (k % 64) 0 (k / 64)
def tapsR2 (o k : ℕ) : EReal := at4 wr2 o (k % 64) (k / 64) 0

/-- Entry (n, o, h, w) of the result: the core of image `n` at flat position `h * 68 + 2 + w`, the W-padding
    columns being dropped. -/
def result (j : (⟨4, ![64, 64, 64, 64]⟩ : Shape).Idx) : EReal :=
  core (padded x (j 0).val) (tapsL1 wl1) (tapsR1 wr1) (tapsL2 wl2) (tapsR2 wr2)
    (fun o p => at1 bl1 o * maskW p) (fun o q => at1 br1 o * maskH q) (fun o => at1 bl2 o + at1 br2 o)
    (j 1).val ((j 2).val * 68 + 2 + (j 3).val)

end Result

end SepConv

end
-- ==== Proof.KerArray.lean ====
/- From the blocks to the program's result. The program is one kernel on a grid of 64 points, one image per point: point t
   writes block t of a [64, 64, 4096] array — image t's whole [1, 64, 4096] slab —, and the one operation after the
   kernel reshapes that array to [64, 64, 64, 64]. If block t holds, at channel o and flat position h * 64 + w, the value
   R (t, o, h, w), then the array after the kernel is (n, o, x) ↦ R (n, o, x / 64, x % 64), the reshape of it is R, and the run
   ends with the result array at R and the arguments unchanged. -/
import proofs.«149304_g2000302748725897_pallasbulk_1061_49_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.KerArray

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The [64, 64, 4096] array whose entry (n, o, x) is the [64, 64, 64, 64] array's entry (n, o, x / 64, x % 64). -/
def flat (R4 : S64x64x64x64.Idx → EReal) : S64x64x4096.Idx → EReal := fun i =>
  R4 (ValueIdx.ix4 (i 0 : Fin 64) (i 1 : Fin 64)
    (⟨(i 2).val / 64, by have h : (i 2).val < 4096 := (i 2).isLt; omega⟩ : Fin 64)
    (⟨(i 2).val % 64, Nat.mod_lt _ (by decide)⟩ : Fin 64))

/-- A grid point is below 64. -/
theorem point_lt (t : Fin cfg0.N) : t.val < 64 :=
  Nat.lt_of_lt_of_eq t.isLt (show cfg0.N = 64 from N_0)

/-- What every block holds: block t, at channel o and flat position h * 64 + w, is R at (t, o, h, w). -/
def BlocksAre (R : Dev nD → S64x64x64x64.Idx → EReal) : Prop :=
  ∀ (c : Dev nD) (t : Fin cfg0.N) (o h w : Fin 64),
    outsAt0 (F := Ideal) m c t (ValueIdx.ix3 (0 : Fin 1) o (⟨h.val * 64 + w.val, by omega⟩ : Fin 4096))
      = R c (ValueIdx.ix4 (⟨t.val, point_lt t⟩ : Fin 64) o h w)

/-- The output window's block index at grid point t is (t, 0, 0). -/
theorem idx_facts : ∀ t : Fin cfg0.N, win0_9.index t (0 : Fin 3) = t.val ∧ win0_9.index t (1 : Fin 3) = 0
    ∧ win0_9.index t (2 : Fin 3) = 0 :=
  (by decide +kernel : ∀ t : Fin grid0.N, _)
theorem flushed_eq (R : Dev nD → S64x64x64x64.Idx → EReal) (hblk : BlocksAre m R) (c : Dev nD) (t : Fin cfg0.N) :
    (dats m 0 c).flushed 9 t = ((cfg0.win 9).blk t).view.read (Elt Ideal) (flat (R c)) := by
  show (cfg0.win 9).cut (grid0.coords t) ((dats m 0 c).after 9 t) = _
  rw [after0_9]
  funext j
  have hj0 : (j 0).val < 1 := (j 0).isLt
  have hj1 : (j 1).val < 64 := (j 1).isLt
  have hj2 : (j 2).val < 4096 := (j 2).isLt
  obtain ⟨e0, e1, e2⟩ := idx_facts t
  have hL : (cfg0.win 9).cut (grid0.coords t) (outsAt0 m c t) j
      = outsAt0 m c t (ValueIdx.ix3 (0 : Fin 1) (⟨(j 1).val, hj1⟩ : Fin 64)
          (⟨(⟨(j 2).val / 64, by omega⟩ : Fin 64).val * 64 + (⟨(j 2).val % 64, by omega⟩ : Fin 64).val, by
            show (j 2).val / 64 * 64 + (j 2).val % 64 < 4096; omega⟩ : Fin 4096)) := by
    show outsAt0 m c t _ = outsAt0 m c t _
    refine congrArg (outsAt0 m c t) (funext fun a => Fin.ext ?_)
    match a with
    | ⟨0, _⟩ => show (j 0).val = 0; omega
    | ⟨1, _⟩ => rfl
    | ⟨2, _⟩ => show (j 2).val = (j 2).val / 64 * 64 + (j 2).val % 64; omega
  rw [hL, hblk c t, View.read_apply]
  unfold flat
  refine congrArg (R c) (funext fun a => Fin.ext ?_)
  match a with
  | ⟨0, _⟩ => show t.val = win0_9.index t (0 : Fin 3) * 1 + 1 * (j 0).val; omega
  | ⟨1, _⟩ => show (j 1).val = win0_9.index t (1 : Fin 3) * 64 + 1 * (j 1).val; omega
  | ⟨2, _⟩ => show (j 2).val / 64 = (win0_9.index t (2 : Fin 3) * 4096 + 1 * (j 2).val) / 64; rw [e2]; omega
  | ⟨3, _⟩ => show (j 2).val % 64 = (win0_9.index t (2 : Fin 3) * 4096 + 1 * (j 2).val) % 64; rw [e2]; omega

/-- An index of the array is in point t's block iff each coordinate is in the block's range on its axis. -/
theorem mem_blk (t : Fin cfg0.N) (i : S64x64x4096.Idx) :
    i ∈ ((cfg0.win 9).blk t).view.set ↔ ∀ a : Fin 3, win0_9.index t a * S1x64x4096.size a ≤ (i a).val
      ∧ (i a).val < win0_9.index t a * S1x64x4096.size a + S1x64x4096.size a := by
  show i ∈ ((View.whole main_call0_v40).slice (win0_9.rect t)).set ↔ _
  rw [View.set_slice_whole, Rect.mem_set_unit]
  exact Iff.rfl

/-- Every index (n, o, x) of the array is in the block of point n: block n is image n's whole [1, 64, 4096] slab. -/
theorem covered (i : S64x64x4096.Idx) :
    ∃ t : Fin cfg0.N, (cfg0.win 9).flush t = true ∧ i ∈ ((cfg0.win 9).blk t).view.set := by
  have hi0 : (i 0).val < 64 := (i 0).isLt
  have hi1 : (i 1).val < 64 := (i 1).isLt
  have hi2 : (i 2).val < 4096 := (i 2).isLt
  have hlt : (i 0).val < cfg0.N := Nat.lt_of_lt_of_eq hi0 (show cfg0.N = 64 from N_0).symm
  refine ⟨⟨(i 0).val, hlt⟩, flush0_9 _, ?_⟩
  rw [mem_blk]
  obtain ⟨e0, e1, e2⟩ := idx_facts ⟨(i 0).val, hlt⟩
  have e0' : win0_9.index ⟨(i 0).val, hlt⟩ (0 : Fin 3) = (i 0).val := e0
  intro a
  match a with
  | ⟨0, _⟩ =>
    show win0_9.index ⟨(i 0).val, _⟩ (0 : Fin 3) * 1 ≤ (i 0).val ∧ (i 0).val < win0_9.index ⟨(i 0).val, _⟩ (0 : Fin 3) * 1 + 1
    omega
  | ⟨1, _⟩ =>
    show win0_9.index ⟨(i 0).val, _⟩ (1 : Fin 3) * 64 ≤ (i 1).val ∧ (i 1).val < win0_9.index ⟨(i 0).val, _⟩ (1 : Fin 3) * 64 + 64
    omega
  | ⟨2, _⟩ =>
    show win0_9.index ⟨(i 0).val, _⟩ (2 : Fin 3) * 4096 ≤ (i 2).val ∧ (i 2).val < win0_9.index ⟨(i 0).val, _⟩ (2 : Fin 3) * 4096 + 4096
    omega

/-- THE OUTPUT ARRAY after the region: entry (n, o, x) is R at (n, o, x / 64, x % 64). -/
theorem final (R : Dev nD → S64x64x64x64.Idx → EReal) (hblk : BlocksAre m R) (c : Dev nD) :
    (dats m 0 c).arrAt 9 cfg0.N = flat (R c) :=
  (dats m 0 c).arrAt_eq_of_cover 9 (flat (R c)) (fun t _ => flushed_eq m R hblk c t) covered

/-- The reshape of the [64, 64, 4096] array to [64, 64, 64, 64] gives R back: (n, o, h, w) and (n, o, h * 64 + w) have the
    same row-major position. -/
theorem shapeCast_flat (R4 : S64x64x64x64.Idx → EReal) (hc : S64x64x4096.ShapeCasts S64x64x64x64) :
    shapeCast S64x64x64x64 (flat R4) hc = R4 := by
  funext i
  obtain ⟨a, b, p, q, rfl⟩ : ∃ (a b p q : Fin 64), i = ValueIdx.ix4 a b p q :=
    ⟨i 0, i 1, i 2, i 3, ValueIdx.eq_ix4 i⟩
  have ha : a.val < 64 := a.isLt
  have hb : b.val < 64 := b.isLt
  have hp : p.val < 64 := p.isLt
  have hq : q.val < 64 := q.isLt
  refine (shapeCast_apply (flat R4) hc _ (ValueIdx.ix3 a b (⟨p.val * 64 + q.val, by omega⟩ : Fin 4096)) ?_).trans ?_
  · rw [Shape.rowMajor_val_three, Shape.rowMajor_val_four]
    show (a.val * 64 + b.val) * 4096 + (p.val * 64 + q.val) = ((a.val * 64 + b.val) * 64 + p.val) * 64 + q.val
    omega
  · unfold flat
    refine congrArg R4 (funext fun e => Fin.ext ?_)
    match e with
    | ⟨0, _⟩ => rfl
    | ⟨1, _⟩ => rfl
    | ⟨2, _⟩ => show (p.val * 64 + q.val) / 64 = p.val; omega
    | ⟨3, _⟩ => show (p.val * 64 + q.val) % 64 = q.val; omega

/-- THE RESULT after the operation that follows the kernel: the reshape of the output array, which is R. -/
theorem tail_eq (R : Dev nD → S64x64x64x64.Idx → EReal) (hblk : BlocksAre m R) (c : Dev nD) :
    Pipeline.afterTail₀ cfgs (dats m) 0 (V0 m) [hostOps1] c main_v0 = R c := by
  have hW : Pipeline.withArrays spec0 c (V0 m c) (fun w => (dats m 0 c).arrAt w cfg0.N)
      (Proc.devRef .tc (Pipeline.arrRef spec0 9)) = flat (R c) :=
    (Pipeline.withArrays_arr spec0 launch0.win.arr_inj c _ _ 9).trans (final m R hblk c)
  unfold Pipeline.afterTail₀
  show StableHlo.after hostOps1 _ (Proc.devRef .tc main_v0) = _
  after_results
  show shapeCast S64x64x64x64 (Pipeline.withArrays spec0 c (V0 m c) (fun w => (dats m 0 c).arrAt w cfg0.N)
      (Proc.devRef .tc (Pipeline.arrRef spec0 9))) shapeCasts_S64x64x4096_S64x64x64x64 = R c
  rw [hW]
  exact shapeCast_flat (R c) _

/-- THE RUN: if block t holds, at channel o and flat position h * 64 + w, the value R (t, o, h, w), the program's run (the
    generated frame run, its post read at the result and at the arguments) ends with the result array at R and the
    arguments unchanged. -/
theorem run_of_blocks (R : Dev nD → S64x64x64x64.Idx → EReal)
    (hblk : ∀ (c : Dev nD) (t : Fin cfg0.N) (o h w : Fin 64),
      outsAt0 (F := Ideal) m c t (ValueIdx.ix3 (0 : Fin 1) o (⟨h.val * 64 + w.val, by omega⟩ : Fin 4096))
        = R c (ValueIdx.ix4 (⟨t.val, point_lt t⟩ : Fin 64) o h w)) :
    θ_run (defs (F := Ideal)) (onTc (τ := τ) (main (F := Ideal))) ⟨m, fun _ => 0, ρ⟩ (fun r => ∀ c : Dev nD,
      r.2.mem ((c.tc : Thread nD τ).loc main_v0) = R c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v0 (Pipeline.mem_restRefs_of main_v0 (by decide) (by decide))).trans (tail_eq m R hblk c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.KerArray
end
-- ==== Proof.RefArray.lean ====
/-
  From the blocks of the region's output to the program's result.

  The program runs one region over 64 points, one image per point, between host operations. Point `t` writes the
  whole [1, 64, 4352] slab of image `t` of a [64, 64, 4352] array; a row of 4352 is 64 rows of 68, each row keeping 2
  padding columns on either side of its 64 positions. After the region the host reshapes the array to
  [64, 64, 64, 68] and keeps columns 2 .. 65 of every row. So the program's result at `(t, o, h, w)` is block `t`
  at output channel `o` and flat position `h * 68 + 2 + w`. This module proves that passage for an arbitrary target
  function `R`: if every block holds `R` at those positions, every run of the program ends with its result buffer
  at `R` and its nine arguments unchanged.
-/
import proofs.«149304_g2000302748725897_pallasbulk_1061_49_alg».proof.Proof.Gen.ReferenceIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.ReferenceIdeal.RefArray

open Cert.ReferenceIdeal Cert.ReferenceIdeal.Gen Idealize.ShloMosaic Idealize.ShloMosaic.TcCoe Idealize.SL.Sem
open Idealize.ShloMosaic.Pipeline (Dat)
open Idealize.ShloMosaic.ValueIdx

section AnyF

variable {F : FTy → Type} [FloatOps F]
variable (m : (ℓ : Loc nD τ sig) → Buf (Elt F) ℓ) (ρ : Dev nD → PrngReg)

/-! ## From the blocks to the array

The region runs over 64 points; point `t` writes image `t` of the [64, 64, 4352] output array, the whole
[1, 64, 4352] slab, and nothing else. So the array after the region is the 64 blocks stacked along the first axis. -/

/-- The output's block index at point `t` is `(t, 0, 0)`. -/
theorem idx_facts : ∀ t : Fin cfg0.N, win0_8.index t (0 : Fin 3) = t.val ∧ win0_8.index t (1 : Fin 3) = 0
    ∧ win0_8.index t (2 : Fin 3) = 0 :=
  (by decide +kernel : ∀ t : Fin grid0.N, win0_8.index t (0 : Fin 3) = t.val ∧ win0_8.index t (1 : Fin 3) = 0
    ∧ win0_8.index t (2 : Fin 3) = 0)

/-- The first coordinate of an index of the array is a point of the grid. -/
theorem image_lt (i : S64x64x4352.Idx) : (i 0).val < cfg0.N := by
  rw [show cfg0.N = 64 from N_0]; exact (i 0).isLt

/-- The [64, 64, 4352] array whose image `n` is block `n`: at `(n, o, x)` it reads block `n` at `(0, o, x)`. -/
def assemble {α : Type} (B : Fin cfg0.N → S1x64x4352.Idx → α) : S64x64x4352.Idx → α :=
  fun i => B ⟨(i 0).val, image_lt i⟩
    (ix3 (0 : Fin 1) (⟨(i 1).val, (i 1).isLt⟩ : Fin 64) (⟨(i 2).val, (i 2).isLt⟩ : Fin 4352))

/-- The assembled array at an index whose image is `t` and whose other coordinates are `j`'s is block `t` at `j`. -/
theorem assemble_at {α : Type} (B : Fin cfg0.N → S1x64x4352.Idx → α) (t : Fin cfg0.N) (i : S64x64x4352.Idx)
    (j : S1x64x4352.Idx) (h0 : (i 0).val = t.val) (h1 : (i 1).val = (j 1).val) (h2 : (i 2).val = (j 2).val) :
    assemble B i = B t j := by
  unfold assemble
  have et : (⟨(i 0).val, image_lt i⟩ : Fin cfg0.N) = t := Fin.ext h0
  have ej : ix3 (0 : Fin 1) (⟨(i 1).val, (i 1).isLt⟩ : Fin 64) (⟨(i 2).val, (i 2).isLt⟩ : Fin 4352) = j :=
    funext fun a => Fin.ext (by
      match a with
      | ⟨0, _⟩ => show (0 : Fin 1).val = (j 0).val; have hj : (j 0).val < 1 := (j 0).isLt; simp only [Fin.val_zero]; omega
      | ⟨1, _⟩ => exact h1
      | ⟨2, _⟩ => exact h2)
  rw [et]
  exact congrArg (B t) ej

/-- Block `t` of the assembled array, read through the window at point `t`, is the block function at `t`. -/
theorem read_assemble (B : Fin cfg0.N → S1x64x4352.Idx → Elt F .f32) (t : Fin cfg0.N) :
    ((cfg0.win 8).blk t).view.read (Elt F) (assemble B) = (cfg0.win 8).cut (grid0.coords t) (B t) := by
  funext y
  show assemble B (((cfg0.win 8).blk t).view.emb y) = B t ((cfg0.win 8).xinj (grid0.coords t) y)
  obtain ⟨e0, e1, e2⟩ := idx_facts t
  refine assemble_at B t _ _ ?_ ?_ ?_
  · show win0_8.index t (0 : Fin 3) * 1 + 1 * (y 0).val = t.val
    have hy : (y 0).val < 1 := (y 0).isLt
    omega
  · show win0_8.index t (1 : Fin 3) * 64 + 1 * (y 1).val = (y 1).val
    omega
  · show win0_8.index t (2 : Fin 3) * 4352 + 1 * (y 2).val = (y 2).val
    omega

/-- What point `t` writes back is block `t` of the assembled array. -/
theorem flushed_eq (c : Dev nD) (t : Fin cfg0.N) :
    (dats m 0 c).flushed 8 t = ((cfg0.win 8).blk t).view.read (Elt F) (assemble (outsAt0 m c)) := by
  show (cfg0.win 8).cut (grid0.coords t) ((dats m 0 c).after 8 t) = _
  rw [after0_8]
  exact (read_assemble (outsAt0 m c) t).symm

/-- An index of the array is in point `t`'s block iff each coordinate is in the block's range on its axis. -/
theorem mem_blk (t : Fin cfg0.N) (i : S64x64x4352.Idx) :
    i ∈ ((cfg0.win 8).blk t).view.set ↔ ∀ a : Fin 3, win0_8.index t a * S1x64x4352.size a ≤ (i a).val
      ∧ (i a).val < win0_8.index t a * S1x64x4352.size a + S1x64x4352.size a := by
  show i ∈ ((View.whole main_call0_v35).slice (win0_8.rect t)).set ↔ _
  rw [View.set_slice_whole, Rect.mem_set_unit]
  exact Iff.rfl

/-- Every index of the array is in the block of the point that is its image. -/
theorem cover (i : S64x64x4352.Idx) :
    ∃ t : Fin cfg0.N, (cfg0.win 8).flush t = true ∧ i ∈ ((cfg0.win 8).blk t).view.set := by
  obtain ⟨t, ht⟩ : ∃ t : Fin cfg0.N, t.val = (i 0).val := ⟨⟨(i 0).val, image_lt i⟩, rfl⟩
  have h1 : (i 1).val < 64 := (i 1).isLt
  have h2 : (i 2).val < 4352 := (i 2).isLt
  refine ⟨t, flush0_8 t, ?_⟩
  rw [mem_blk]
  obtain ⟨e0, e1, e2⟩ := idx_facts t
  intro a
  match a with
  | ⟨0, _⟩ =>
    show win0_8.index t (0 : Fin 3) * 1 ≤ (i 0).val ∧ (i 0).val < win0_8.index t (0 : Fin 3) * 1 + 1
    omega
  | ⟨1, _⟩ =>
    show win0_8.index t (1 : Fin 3) * 64 ≤ (i 1).val ∧ (i 1).val < win0_8.index t (1 : Fin 3) * 64 + 64
    omega
  | ⟨2, _⟩ =>
    show win0_8.index t (2 : Fin 3) * 4352 ≤ (i 2).val ∧ (i 2).val < win0_8.index t (2 : Fin 3) * 4352 + 4352
    omega

/-- The output array after the region is the blocks assembled. -/
theorem final (c : Dev nD) : (dats m 0 c).arrAt 8 cfg0.N = assemble (outsAt0 m c) :=
  (dats m 0 c).arrAt_eq_of_cover 8 (assemble (outsAt0 m c)) (fun t _ => flushed_eq m c t) cover

/-! ## The host tail at an index

After the region the program reshapes the [64, 64, 4352] array to [64, 64, 64, 68] (a row of 4352 is 64 rows of
68) and keeps columns 2 .. 65 of every row of 68. -/

/-- The reshaped and sliced array at (n, o, h, w) is the flat array at (n, o, h * 68 + 2 + w). -/
theorem tail_apply {α : Type} (A : S64x64x4352.Idx → α) (h1 : S64x64x4352.ShapeCasts S64x64x64x68)
    (h2 : S64x64x64x68.Slices ![0, 0, 0, 2] S64x64x64x64) (n o h w : Fin 64) :
    extractStridedSlice S64x64x64x64 ![0, 0, 0, 2] (shapeCast S64x64x64x68 A h1) h2 (ix4 n o h w)
      = A (ix3 n o ⟨h.val * 68 + 2 + w.val, by omega⟩) := by
  refine (extractStridedSlice_apply ![0, 0, 0, 2] _ h2 (ix4 n o h w) (ix4 n o h ⟨2 + w.val, by omega⟩) ?_).trans ?_
  · intro a
    match a with
    | ⟨0, _⟩ => show n.val = 0 + n.val; omega
    | ⟨1, _⟩ => show o.val = 0 + o.val; omega
    | ⟨2, _⟩ => show h.val = 0 + h.val; omega
    | ⟨3, _⟩ => show 2 + w.val = 2 + w.val; rfl
  · refine shapeCast_apply A h1 _ _ ?_
    rw [Shape.rowMajor_val_three, Shape.rowMajor_val_four]
    show (n.val * 64 + o.val) * 4352 + (h.val * 68 + 2 + w.val) = ((n.val * 64 + o.val) * 64 + h.val) * 68 + (2 + w.val)
    omega

/-! ## The program's result

After the region the host reshapes the output array and slices it (`tail_apply`); every other buffer the program
returns is an argument no operation writes. -/

/-- The result buffer after the host tail is the reshaped and sliced output array of the region. -/
theorem result_arr (c : Dev nD) :
    Pipeline.afterTail₀ cfgs (dats m) 0 (V0 m) [hostOps1] c main_v0
      = extractStridedSlice S64x64x64x64 ![0, 0, 0, 2]
          (shapeCast S64x64x64x68 ((dats m 0 c).arrAt 8 cfg0.N) Gen.shapeCasts_S64x64x4352_S64x64x64x68)
          Gen.slices_S64x64x64x68_S64x64x64x64_0_0_0_2 := by
  unfold Pipeline.afterTail₀
  show StableHlo.after hostOps1 _ (Proc.devRef .tc main_v0) = _
  after_results
  show extractStridedSlice S64x64x64x64 ![0, 0, 0, 2]
      (shapeCast S64x64x64x68
        (Pipeline.withArrays (cfgs 0).spec c (V0 m c) (fun w => (dats m 0 c).arrAt w (cfgs 0).N)
          (Proc.devRef .tc main_call0_v35))
        Gen.shapeCasts_S64x64x4352_S64x64x64x68)
      Gen.slices_S64x64x64x68_S64x64x64x64_0_0_0_2 = _
  have e : Pipeline.withArrays (cfgs 0).spec c (V0 m c) (fun w => (dats m 0 c).arrAt w (cfgs 0).N)
      (Proc.devRef .tc main_call0_v35) = (dats m 0 c).arrAt 8 cfg0.N :=
    Pipeline.withArrays_arr spec0 launch0.win.arr_inj c (V0 m c) (fun w => (dats m 0 c).arrAt w cfg0.N) 8
  rw [e]

/-- A point of the grid is below 64. -/
theorem point_lt (t : Fin cfg0.N) : t.val < 64 := lt_of_lt_of_eq t.isLt N_0

/-- The reshaped and sliced assembled array at `(n, o, h, w)` is block `n` at `(0, o, h * 68 + 2 + w)`: the rows of 68
    keep their two padding columns on each side inside a block, and the slice drops them. -/
theorem result_at {α : Type} (B : Fin cfg0.N → S1x64x4352.Idx → α) (h1 : S64x64x4352.ShapeCasts S64x64x64x68)
    (h2 : S64x64x64x68.Slices ![0, 0, 0, 2] S64x64x64x64) (t : Fin cfg0.N) (n o h w : Fin 64) (hn : n.val = t.val) :
    extractStridedSlice S64x64x64x64 ![0, 0, 0, 2] (shapeCast S64x64x64x68 (assemble B) h1) h2 (ix4 n o h w)
      = B t (ix3 (0 : Fin 1) o ⟨h.val * 68 + 2 + w.val, by omega⟩) := by
  rw [tail_apply]
  exact assemble_at B t _ _ hn rfl rfl

end AnyF

section AtIdeal

variable (m : (ℓ : Loc nD τ sig) → Buf (Elt Ideal) ℓ) (ρ : Dev nD → PrngReg)

/-- If block `t` at `(0, o, h * 68 + 2 + w)` is `R` at `(t, o, h, w)`, the result buffer after the host tail is `R`. -/
theorem result_eq (R : Dev nD → S64x64x64x64.Idx → EReal)
    (hblk : ∀ (c : Dev nD) (t : Fin cfg0.N) (o h w : Fin 64),
      outsAt0 (F := Ideal) m c t (ix3 (0 : Fin 1) o ⟨h.val * 68 + 2 + w.val, by omega⟩)
        = R c (ix4 ⟨t.val, point_lt t⟩ o h w)) (c : Dev nD) :
    Pipeline.afterTail₀ cfgs (dats m) 0 (V0 m) [hostOps1] c main_v0 = R c := by
  rw [result_arr, final]
  funext j
  obtain ⟨n, o, h, w, rfl⟩ : ∃ (n o h w : Fin 64), j = ix4 n o h w := ⟨j 0, j 1, j 2, j 3, eq_ix4 j⟩
  have hn : n.val < cfg0.N := lt_of_lt_of_eq n.isLt N_0.symm
  rw [result_at (outsAt0 m c) _ _ ⟨n.val, hn⟩ n o h w rfl]
  exact hblk c ⟨n.val, hn⟩ o h w

/-- THE RUN: if every block of the region's output holds `R` on its image (at output channel `o` and flat position
    `h * 68 + 2 + w` of the block's rows of 68), every run of the program ends with the result buffer at `R` and the
    nine arguments as launched. -/
theorem run_of_blocks (R : Dev nD → S64x64x64x64.Idx → EReal)
    (hblk : ∀ (c : Dev nD) (t : Fin cfg0.N) (o h w : Fin 64),
      outsAt0 (F := Ideal) m c t (ix3 (0 : Fin 1) o ⟨h.val * 68 + 2 + w.val, by omega⟩)
        = R c (ix4 ⟨t.val, point_lt t⟩ o h w)) :
    θ_run (defs (F := Ideal)) (onTc (τ := τ) (main (F := Ideal))) ⟨m, fun _ => 0, ρ⟩ (fun r => ∀ c : Dev nD,
      r.2.mem ((c.tc : Thread nD τ).loc main_v0) = R c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v0 (Pipeline.mem_restRefs_of main_v0 (by decide) (by decide))).trans (result_eq m R hblk c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end AtIdeal

end Cert.ReferenceIdeal.RefArray

end
-- ==== Proof.Assemble.lean ====
/- The assembly of the claim. Both programs compute, image by image, one function of their nine argument arrays: the
   specification's `SepConv.result`. Given that every block the kernel writes holds that function's values (block t,
   channel o, flat position h * 64 + w: the entry (t, o, h, w)), the kernel's run ends with its result array at it; given
   the same of the reference's run, the two results are equal from memories that agree on the arguments, because the
   specification is a function of the argument arrays alone. The three frame claims are the generated frames; the
   idealization rewrote nothing. -/
import proofs.«149304_g2000302748725897_pallasbulk_1061_49_alg».proof.Defs
import proofs.«149304_g2000302748725897_pallasbulk_1061_49_alg».proof.Proof.Gen.Kernel
import proofs.«149304_g2000302748725897_pallasbulk_1061_49_alg».proof.Proof.Gen.Kernel.Frame
import proofs.«149304_g2000302748725897_pallasbulk_1061_49_alg».proof.Proof.Gen.KernelIdeal
import proofs.«149304_g2000302748725897_pallasbulk_1061_49_alg».proof.Proof.Gen.KernelIdeal.Frame
import proofs.«149304_g2000302748725897_pallasbulk_1061_49_alg».proof.Proof.Gen.ReferenceIdeal
import proofs.«149304_g2000302748725897_pallasbulk_1061_49_alg».proof.Proof.Gen.ReferenceIdeal.Frame
import proofs.«149304_g2000302748725897_pallasbulk_1061_49_alg».proof.Proof.Gen.Pre_finite_inputs
import proofs.«149304_g2000302748725897_pallasbulk_1061_49_alg».proof.Proof.Spec
import proofs.«149304_g2000302748725897_pallasbulk_1061_49_alg».proof.Proof.KerArray
import proofs.«149304_g2000302748725897_pallasbulk_1061_49_alg».proof.Proof.RefArray

noncomputable section

namespace Cert.Proof.Assemble

open Idealize.ShloMosaic Idealize.ShloMosaic.TcCoe Idealize.SL.Sem

/-- The specification's result at the nine argument arrays of the kernel's program on core c. -/
abbrev resultK (m : (ℓ : Loc Cert.KernelIdeal.nD Cert.KernelIdeal.τ Cert.KernelIdeal.sig) → Buf (Elt Ideal) ℓ) (c : Dev Cert.KernelIdeal.nD) :
    Cert.KernelIdeal.S64x64x64x64.Idx → EReal :=
  SepConv.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))

/-- The specification's result at the nine argument arrays of the reference's program on core c. -/
abbrev resultR (m : (ℓ : Loc Cert.ReferenceIdeal.nD Cert.ReferenceIdeal.τ Cert.ReferenceIdeal.sig) → Buf (Elt Ideal) ℓ) (c : Dev Cert.ReferenceIdeal.nD) :
    Cert.ReferenceIdeal.S64x64x64x64.Idx → EReal :=
  SepConv.result (m ((c.tc : Thread Cert.ReferenceIdeal.nD Cert.ReferenceIdeal.τ).loc Cert.ReferenceIdeal.main_arg0))
    (m ((c.tc : Thread Cert.ReferenceIdeal.nD Cert.ReferenceIdeal.τ).loc Cert.ReferenceIdeal.main_arg1))
    (m ((c.tc : Thread Cert.ReferenceIdeal.nD Cert.ReferenceIdeal.τ).loc Cert.ReferenceIdeal.main_arg2))
    (m ((c.tc : Thread Cert.ReferenceIdeal.nD Cert.ReferenceIdeal.τ).loc Cert.ReferenceIdeal.main_arg3))
    (m ((c.tc : Thread Cert.ReferenceIdeal.nD Cert.ReferenceIdeal.τ).loc Cert.ReferenceIdeal.main_arg4))
    (m ((c.tc : Thread Cert.ReferenceIdeal.nD Cert.ReferenceIdeal.τ).loc Cert.ReferenceIdeal.main_arg5))
    (m ((c.tc : Thread Cert.ReferenceIdeal.nD Cert.ReferenceIdeal.τ).loc Cert.ReferenceIdeal.main_arg6))
    (m ((c.tc : Thread Cert.ReferenceIdeal.nD Cert.ReferenceIdeal.τ).loc Cert.ReferenceIdeal.main_arg7))
    (m ((c.tc : Thread Cert.ReferenceIdeal.nD Cert.ReferenceIdeal.τ).loc Cert.ReferenceIdeal.main_arg8))

/-- The three programs run and leave their arguments unchanged: the generated frames. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization rewrote no operation: nothing to preserve. -/
theorem preserves : Cert.preserves_Kernel_KernelIdeal := trivial

/-- From memories that agree on the arguments the two programs' specifications agree. -/
theorem result_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    resultR m' c = resultK m c := by
  obtain ⟨h0, h1, h2, h3, h4, h5, h6, h7, h8⟩ := hagree
  show SepConv.result _ _ _ _ _ _ _ _ _ = SepConv.result _ _ _ _ _ _ _ _ _
  rw [h0, h1, h2, h3, h4, h5, h6, h7, h8]

/-- At the ideal instance, from memories agreeing on the arguments, both programs end with the specification's result
    of the kernel side's arguments and with their arguments unchanged. -/
theorem algebraic
    (hK : ∀ (m : (ℓ : Loc Cert.KernelIdeal.nD Cert.KernelIdeal.τ Cert.KernelIdeal.sig) → Buf (Elt Ideal) ℓ) (c : Dev Cert.KernelIdeal.nD)
        (t : Fin Cert.KernelIdeal.cfg0.N) (o h w : Fin 64),
      Cert.KernelIdeal.Gen.outsAt0 (F := Ideal) m c t (ValueIdx.ix3 (0 : Fin 1) o (⟨h.val * 64 + w.val, by omega⟩ : Fin 4096))
        = resultK m c (ValueIdx.ix4 (⟨t.val, Cert.KernelIdeal.KerArray.point_lt t⟩ : Fin 64) o h w))
    (hRrun : ∀ (m : (ℓ : Loc Cert.ReferenceIdeal.nD Cert.ReferenceIdeal.τ Cert.ReferenceIdeal.sig) → Buf (Elt Ideal) ℓ) (ρ : Dev Cert.ReferenceIdeal.nD → PrngReg),
      θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
        r.2.mem ((c.tc : Thread Cert.ReferenceIdeal.nD Cert.ReferenceIdeal.τ).loc Cert.ReferenceIdeal.main_v0) = resultR m c
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))) :
    Cert.algebraic_KernelIdeal_ReferenceIdeal := by
  intro m ρ m' ρ' _ hagree
  refine ⟨fun c => resultK m c, Cert.KernelIdeal.KerArray.run_of_blocks m ρ (fun c => resultK m c) (hK m), ?_⟩
  exact (θ_run Cert.ReferenceIdeal.defs _ _).mono (fun _ h c => ⟨(h c).1.trans (result_agree m m' c (hagree c)), (h c).2⟩) (hRrun m' ρ')

/-- THE CLAIM from the kernel's blocks and the reference's run. -/
theorem claim_of_kernel_blocks
    (hK : ∀ (m : (ℓ : Loc Cert.KernelIdeal.nD Cert.KernelIdeal.τ Cert.KernelIdeal.sig) → Buf (Elt Ideal) ℓ) (c : Dev Cert.KernelIdeal.nD)
        (t : Fin Cert.KernelIdeal.cfg0.N) (o h w : Fin 64),
      Cert.KernelIdeal.Gen.outsAt0 (F := Ideal) m c t (ValueIdx.ix3 (0 : Fin 1) o (⟨h.val * 64 + w.val, by omega⟩ : Fin 4096))
        = resultK m c (ValueIdx.ix4 (⟨t.val, Cert.KernelIdeal.KerArray.point_lt t⟩ : Fin 64) o h w))
    (hRrun : ∀ (m : (ℓ : Loc Cert.ReferenceIdeal.nD Cert.ReferenceIdeal.τ Cert.ReferenceIdeal.sig) → Buf (Elt Ideal) ℓ) (ρ : Dev Cert.ReferenceIdeal.nD → PrngReg),
      θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
        r.2.mem ((c.tc : Thread Cert.ReferenceIdeal.nD Cert.ReferenceIdeal.τ).loc Cert.ReferenceIdeal.main_v0) = resultR m c
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))) : Cert.Claim :=
  ⟨Cert.Kernel.Gen.facts, Cert.KernelIdeal.Gen.facts, Cert.ReferenceIdeal.Gen.facts, Cert.Pre_finite_inputs.Gen.facts,
    frame_k, frame_ki, frame_ri, preserves, algebraic hK hRrun⟩

/-- THE CLAIM from the two programs' blocks: block t of the reference, at channel o and flat position h * 68 + 2 + w of
    its rows of 68 (the two padding columns on each side are dropped after the kernel), is the same entry (t, o, h, w). -/
theorem claim_of_blocks
    (hK : ∀ (m : (ℓ : Loc Cert.KernelIdeal.nD Cert.KernelIdeal.τ Cert.KernelIdeal.sig) → Buf (Elt Ideal) ℓ) (c : Dev Cert.KernelIdeal.nD)
        (t : Fin Cert.KernelIdeal.cfg0.N) (o h w : Fin 64),
      Cert.KernelIdeal.Gen.outsAt0 (F := Ideal) m c t (ValueIdx.ix3 (0 : Fin 1) o (⟨h.val * 64 + w.val, by omega⟩ : Fin 4096))
        = resultK m c (ValueIdx.ix4 (⟨t.val, Cert.KernelIdeal.KerArray.point_lt t⟩ : Fin 64) o h w))
    (hR : ∀ (m : (ℓ : Loc Cert.ReferenceIdeal.nD Cert.ReferenceIdeal.τ Cert.ReferenceIdeal.sig) → Buf (Elt Ideal) ℓ) (c : Dev Cert.ReferenceIdeal.nD)
        (t : Fin Cert.ReferenceIdeal.cfg0.N) (o h w : Fin 64),
      Cert.ReferenceIdeal.Gen.outsAt0 (F := Ideal) m c t (ValueIdx.ix3 (0 : Fin 1) o (⟨h.val * 68 + 2 + w.val, by omega⟩ : Fin 4352))
        = resultR m c (ValueIdx.ix4 (⟨t.val, Cert.ReferenceIdeal.RefArray.point_lt t⟩ : Fin 64) o h w)) : Cert.Claim :=
  claim_of_kernel_blocks hK fun m ρ => Cert.ReferenceIdeal.RefArray.run_of_blocks m ρ (fun c => resultR m c) (hR m)

end Cert.Proof.Assemble

end
-- ==== Proof.KerSpec.lean ====
/-
  The padded flat image as the kernel builds it from ONE image block.

  The kernel receives an image as a block of 64 channels by 4096 = 64 x 64 flat positions and lays it out, zero
  padded, in a row of 4628 per channel: flat position `j` of the padded row is row `(j - 2) / 68` and column
  `(j - 2) % 68` of the 68 x 68 padded image; inside the ring it holds the image at row and column less 2, that is
  flat position `((j - 2) / 68 - 2) * 64 + ((j - 2) % 68 - 2)` of the block, and zero on the ring.
-/
import proofs.«149304_g2000302748725897_pallasbulk_1061_49_alg».proof.Proof.Spec

noncomputable section

namespace SepConv

open Idealize.ShloMosaic

/-- The padded row of channel `c` at flat position `j`, from the image block. -/
def padBlock (X : (⟨3, ![1, 64, 4096]⟩ : Shape).Idx → EReal) (c j : ℕ) : EReal :=
  if 2 ≤ j ∧ 2 ≤ (j - 2) / 68 ∧ (j - 2) / 68 < 66 ∧ 2 ≤ (j - 2) % 68 ∧ (j - 2) % 68 < 66 then
    at3 X 0 c (((j - 2) / 68 - 2) * 64 + ((j - 2) % 68 - 2))
  else 0

end SepConv

end
-- ==== Proof.KerHost.lean ====
/-
  The arrays the kernel region is handed, read at coordinates.

  Before the region is entered the program rearranges its arguments: the image is flattened over its two spatial
  axes; each of the four weight arrays (64 output channels, 64 input channels, 5 taps on the third or on the fourth
  axis, the other of the two being a unit axis) loses its unit axis, has taps and input channels exchanged and is
  flattened to a matrix of 320 columns, column `k` being tap `k / 64` of input channel `k % 64`; the two
  second-stage matrices are put side by side as one matrix of 640 columns; and each bias vector (the second-stage
  one being the sum of the two branches' biases) becomes a column. Every one of these operations reads, at each
  index of its result, its operand at one index, so each rearranged array at coordinates is an argument array at
  coordinates: the specification's `at4`, `tapsL1`, `tapsR1`, `tapsL2`, `tapsR2` and `at1`.
-/
import proofs.«149304_g2000302748725897_pallasbulk_1061_49_alg».proof.Proof.Gen.KernelIdeal.Frame
import proofs.«149304_g2000302748725897_pallasbulk_1061_49_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.KerHost

open Idealize.ShloMosaic Idealize.ShloMosaic.ValueIdx Idealize.ShloMosaic.Tactic
open Cert.KernelIdeal.Facts₀ Cert.KernelIdeal.Facts

variable (m : (ℓ : Loc nD τ sig) → Buf (Elt Ideal) ℓ) (c : Dev nD)

/-! ## Layout operations read at coordinates -/

/-- The image with its two spatial axes flattened row by row: position `q` is row `q / 64`, column `q % 64`. -/
theorem reshape_image (x : S64x64x64x64.Idx → EReal) (h : S64x64x64x64.ShapeCasts S64x64x4096)
    (n ch : Fin 64) (q : Fin 4096) :
    shapeCast S64x64x4096 x h (ix3 n ch q) = SepConv.at4 x n.val ch.val (q.val / 64) (q.val % 64) := by
  have h1 : q.val / 64 < 64 := by have := q.isLt; omega
  have h2 : q.val % 64 < 64 := Nat.mod_lt _ (by decide)
  rw [SepConv.at4_of_lt x n.isLt ch.isLt h1 h2]
  refine shapeCast_apply x h _ _ ?_
  rw [Shape.rowMajor_val_four, Shape.rowMajor_val_three]
  show ((n.val * 64 + ch.val) * 64 + q.val / 64) * 64 + q.val % 64 = (n.val * 64 + ch.val) * 4096 + q.val
  omega

/-- A weight array with its taps on the third axis, as a matrix of 320 columns: the unit axis dropped, taps and
    channels exchanged, and the two flattened tap-major. Column `k` is tap `k / 64` of channel `k % 64`. -/
theorem taps_third (w : S64x64x5x1.Idx → EReal) (h1 : S64x64x5x1.ShapeCasts S64x64x5)
    (h2 : S64x64x5.Transposes [0, 2, 1] S64x5x64) (h3 : S64x5x64.ShapeCasts S64x320) (o : Fin 64) (k : Fin 320) :
    shapeCast S64x320 (transpose S64x5x64 [0, 2, 1] (shapeCast S64x64x5 w h1) h2) h3 (ix2 o k)
      = SepConv.at4 w o.val (k.val % 64) (k.val / 64) 0 := by
  have ht : k.val / 64 < 5 := by have := k.isLt; omega
  have hc : k.val % 64 < 64 := Nat.mod_lt _ (by decide)
  rw [SepConv.at4_of_lt w o.isLt hc ht (by decide : 0 < 1)]
  refine (shapeCast_apply _ h3 _ (ix3 o ⟨k.val / 64, ht⟩ ⟨k.val % 64, hc⟩) ?_).trans ?_
  · rw [Shape.rowMajor_val_three, Shape.rowMajor_val_two]
    show (o.val * 5 + k.val / 64) * 64 + k.val % 64 = o.val * 320 + k.val
    omega
  refine (transpose_ix3_021_apply _ h2 o ⟨k.val / 64, ht⟩ ⟨k.val % 64, hc⟩).trans ?_
  refine shapeCast_apply w h1 _ _ ?_
  rw [Shape.rowMajor_val_four, Shape.rowMajor_val_three]
  show ((o.val * 64 + k.val % 64) * 5 + k.val / 64) * 1 + 0 = (o.val * 64 + k.val % 64) * 5 + k.val / 64
  omega

/-- The same for a weight array with its taps on the fourth axis. -/
theorem taps_fourth (w : S64x64x1x5.Idx → EReal) (h1 : S64x64x1x5.ShapeCasts S64x64x5)
    (h2 : S64x64x5.Transposes [0, 2, 1] S64x5x64) (h3 : S64x5x64.ShapeCasts S64x320) (o : Fin 64) (k : Fin 320) :
    shapeCast S64x320 (transpose S64x5x64 [0, 2, 1] (shapeCast S64x64x5 w h1) h2) h3 (ix2 o k)
      = SepConv.at4 w o.val (k.val % 64) 0 (k.val / 64) := by
  have ht : k.val / 64 < 5 := by have := k.isLt; omega
  have hc : k.val % 64 < 64 := Nat.mod_lt _ (by decide)
  rw [SepConv.at4_of_lt w o.isLt hc (by decide : 0 < 1) ht]
  refine (shapeCast_apply _ h3 _ (ix3 o ⟨k.val / 64, ht⟩ ⟨k.val % 64, hc⟩) ?_).trans ?_
  · rw [Shape.rowMajor_val_three, Shape.rowMajor_val_two]
    show (o.val * 5 + k.val / 64) * 64 + k.val % 64 = o.val * 320 + k.val
    omega
  refine (transpose_ix3_021_apply _ h2 o ⟨k.val / 64, ht⟩ ⟨k.val % 64, hc⟩).trans ?_
  refine shapeCast_apply w h1 _ _ ?_
  rw [Shape.rowMajor_val_four, Shape.rowMajor_val_three]
  show ((o.val * 64 + k.val % 64) * 1 + 0) * 5 + k.val / 64 = (o.val * 64 + k.val % 64) * 5 + k.val / 64
  omega

/-- A vector of 64 entries laid out as a column: row `o` is entry `o`. -/
theorem column (b : S64.Idx → EReal) (h : S64.BroadcastsInDim S64x1 (![0] : Fin 1 → Fin S64x1.rank)) (o : Fin 64)
    (z : Fin 1) : broadcastInDim S64x1 ![0] h b (ix2 o z) = SepConv.at1 b o.val := by
  rw [SepConv.at1_ix1]
  exact broadcastInDim_apply _ h b _ _ fun a => match a with | ⟨0, _⟩ => rfl

/-- Two matrices of 320 columns side by side: column `kk` is column `kk` of the first below 320, column
    `kk - 320` of the second from 320 on. -/
theorem side_by_side (x₁ x₂ : S64x320.Idx → EReal) (h : Shape.Concatenates [S64x320, S64x320] S64x640 1) (o : Fin 64)
    (kk : Fin 640) :
    concatenate S64x640 1 [⟨S64x320, x₁⟩, ⟨S64x320, x₂⟩] h (ix2 o kk)
      = if hk : kk.val < 320 then x₁ (ix2 o ⟨kk.val, hk⟩)
        else x₂ (ix2 o ⟨kk.val - 320, by have := kk.isLt; omega⟩) := by
  by_cases hk : kk.val < 320
  · rw [dif_pos hk]
    exact concatenate_pair_apply_left 1 x₁ x₂ h _ rfl _ fun b => match b with | ⟨0, _⟩ => rfl | ⟨1, _⟩ => rfl
  · rw [dif_neg hk]
    refine concatenate_pair_apply_right 1 x₁ x₂ h _ rfl rfl _ (fun b hb => ?_) ?_
    · match b with
      | ⟨0, _⟩ => rfl
      | ⟨1, _⟩ => exact absurd rfl hb
    · show kk.val - 320 + 320 = kk.val
      omega

/-! ## The arrays the kernel region finds, as terms over the argument arrays -/

/-- The image buffer is the image argument reshaped. -/
theorem image_term :
    (Gen.V m c main_call0_v39 : S64x64x4096.Idx → EReal)
      = shapeCast S64x64x4096 (m ((c.tc : Thread nD τ).loc main_arg0) : S64x64x64x64.Idx → EReal)
          shapeCasts_S64x64x64x64_S64x64x4096 := by
  show StableHlo.after Gen.hostOps0 (fun b => m (c, b)) (Proc.devRef .tc main_call0_v39) = _
  after_results_simp
  rfl

/-- The first left matrix is the second argument with its unit axis dropped, taps and channels exchanged, and
    flattened (the conversion to the narrower format is the identity on the extended reals). -/
theorem w1l_term :
    (Gen.V m c main_call0_v3 : S64x320.Idx → EReal)
      = shapeCast S64x320 (transpose S64x5x64 [0, 2, 1]
          (shapeCast S64x64x5 (m ((c.tc : Thread nD τ).loc main_arg1) : S64x64x5x1.Idx → EReal)
            shapeCasts_S64x64x5x1_S64x64x5)
          transposes_S64x64x5_S64x5x64_0_2_1) shapeCasts_S64x5x64_S64x320 := by
  show StableHlo.after Gen.hostOps0 (fun b => m (c, b)) (Proc.devRef .tc main_call0_v3) = _
  after_results_simp
  rfl

/-- The first right matrix, likewise from the sixth argument. -/
theorem w1r_term :
    (Gen.V m c main_call0_v7 : S64x320.Idx → EReal)
      = shapeCast S64x320 (transpose S64x5x64 [0, 2, 1]
          (shapeCast S64x64x5 (m ((c.tc : Thread nD τ).loc main_arg5) : S64x64x1x5.Idx → EReal)
            shapeCasts_S64x64x1x5_S64x64x5)
          transposes_S64x64x5_S64x5x64_0_2_1) shapeCasts_S64x5x64_S64x320 := by
  show StableHlo.after Gen.hostOps0 (fun b => m (c, b)) (Proc.devRef .tc main_call0_v7) = _
  after_results_simp
  rfl

/-- The second-stage matrix is the two second-stage matrices, from the fourth and the eighth argument, side by
    side. -/
theorem w2_term :
    (Gen.V m c main_call0_v16 : S64x640.Idx → EReal)
      = concatenate S64x640 1
          [⟨S64x320, shapeCast S64x320 (transpose S64x5x64 [0, 2, 1]
              (shapeCast S64x64x5 (m ((c.tc : Thread nD τ).loc main_arg3) : S64x64x1x5.Idx → EReal)
                shapeCasts_S64x64x1x5_S64x64x5)
              transposes_S64x64x5_S64x5x64_0_2_1) shapeCasts_S64x5x64_S64x320⟩,
           ⟨S64x320, shapeCast S64x320 (transpose S64x5x64 [0, 2, 1]
              (shapeCast S64x64x5 (m ((c.tc : Thread nD τ).loc main_arg7) : S64x64x5x1.Idx → EReal)
                shapeCasts_S64x64x5x1_S64x64x5)
              transposes_S64x64x5_S64x5x64_0_2_1) shapeCasts_S64x5x64_S64x320⟩]
          concatenates_S64x320_S64x320_S64x640_d1 := by
  show StableHlo.after Gen.hostOps0 (fun b => m (c, b)) (Proc.devRef .tc main_call0_v16) = _
  after_results_simp
  rfl

/-- The three bias columns. -/
theorem b1l_term :
    (Gen.V m c main_call0_v17 : S64x1.Idx → EReal)
      = broadcastInDim S64x1 ![0] bcast_S64_S64x1_0 (m ((c.tc : Thread nD τ).loc main_arg2) : S64.Idx → EReal) := by
  show StableHlo.after Gen.hostOps0 (fun b => m (c, b)) (Proc.devRef .tc main_call0_v17) = _
  after_results_simp
  rfl

theorem b1r_term :
    (Gen.V m c main_call0_v18 : S64x1.Idx → EReal)
      = broadcastInDim S64x1 ![0] bcast_S64_S64x1_0 (m ((c.tc : Thread nD τ).loc main_arg6) : S64.Idx → EReal) := by
  show StableHlo.after Gen.hostOps0 (fun b => m (c, b)) (Proc.devRef .tc main_call0_v18) = _
  after_results_simp
  rfl

theorem b2_term :
    (Gen.V m c main_call0_v20 : S64x1.Idx → EReal)
      = broadcastInDim S64x1 ![0] bcast_S64_S64x1_0
          (addf (F := Ideal) (φ := .f32) (m ((c.tc : Thread nD τ).loc main_arg4) : S64.Idx → EReal)
            (m ((c.tc : Thread nD τ).loc main_arg8) : S64.Idx → EReal)) := by
  show StableHlo.after Gen.hostOps0 (fun b => m (c, b)) (Proc.devRef .tc main_call0_v20) = _
  after_results_simp
  rfl

/-! ## The same arrays read at coordinates, in the specification's words -/

/-- The image buffer at image `n`, channel `ch`, flat position `q`. -/
theorem V_image (n ch : Fin 64) (q : Fin 4096) :
    (Gen.V m c main_call0_v39 : S64x64x4096.Idx → EReal) (ix3 n ch q)
      = SepConv.at4 (m ((c.tc : Thread nD τ).loc main_arg0) : S64x64x64x64.Idx → EReal) n.val ch.val (q.val / 64)
          (q.val % 64) :=
  (congrFun (image_term m c) (ix3 n ch q)).trans (reshape_image _ _ n ch q)

/-- The first left matrix: column `k` of row `o` is tap `k / 64` of channel `k % 64`. -/
theorem V_w1l (o : Fin 64) (k : Fin 320) :
    (Gen.V m c main_call0_v3 : S64x320.Idx → EReal) (ix2 o k)
      = SepConv.tapsL1 (m ((c.tc : Thread nD τ).loc main_arg1) : S64x64x5x1.Idx → EReal) o.val k.val :=
  (congrFun (w1l_term m c) (ix2 o k)).trans (taps_third _ _ _ _ o k)

/-- The first right matrix. -/
theorem V_w1r (o : Fin 64) (k : Fin 320) :
    (Gen.V m c main_call0_v7 : S64x320.Idx → EReal) (ix2 o k)
      = SepConv.tapsR1 (m ((c.tc : Thread nD τ).loc main_arg5) : S64x64x1x5.Idx → EReal) o.val k.val :=
  (congrFun (w1r_term m c) (ix2 o k)).trans (taps_fourth _ _ _ _ o k)

/-- The second-stage matrix: the left branch's 320 columns, then the right branch's. -/
theorem V_w2 (o : Fin 64) (kk : Fin 640) :
    (Gen.V m c main_call0_v16 : S64x640.Idx → EReal) (ix2 o kk)
      = if kk.val < 320 then
          SepConv.tapsL2 (m ((c.tc : Thread nD τ).loc main_arg3) : S64x64x1x5.Idx → EReal) o.val kk.val
        else SepConv.tapsR2 (m ((c.tc : Thread nD τ).loc main_arg7) : S64x64x5x1.Idx → EReal) o.val (kk.val - 320) := by
  refine (congrFun (w2_term m c) (ix2 o kk)).trans ((side_by_side _ _ _ o kk).trans ?_)
  by_cases hk : kk.val < 320
  · rw [dif_pos hk, if_pos hk]
    exact taps_fourth _ _ _ _ o ⟨kk.val, hk⟩
  · rw [dif_neg hk, if_neg hk]
    exact taps_third _ _ _ _ o ⟨kk.val - 320, by have := kk.isLt; omega⟩

/-- The bias columns. -/
theorem V_b1l (o : Fin 64) (z : Fin 1) :
    (Gen.V m c main_call0_v17 : S64x1.Idx → EReal) (ix2 o z)
      = SepConv.at1 (m ((c.tc : Thread nD τ).loc main_arg2) : S64.Idx → EReal) o.val :=
  (congrFun (b1l_term m c) (ix2 o z)).trans (column _ _ o z)

theorem V_b1r (o : Fin 64) (z : Fin 1) :
    (Gen.V m c main_call0_v18 : S64x1.Idx → EReal) (ix2 o z)
      = SepConv.at1 (m ((c.tc : Thread nD τ).loc main_arg6) : S64.Idx → EReal) o.val :=
  (congrFun (b1r_term m c) (ix2 o z)).trans (column _ _ o z)

theorem V_b2 (o : Fin 64) (z : Fin 1) :
    (Gen.V m c main_call0_v20 : S64x1.Idx → EReal) (ix2 o z)
      = SepConv.at1 (m ((c.tc : Thread nD τ).loc main_arg4) : S64.Idx → EReal) o.val
        + SepConv.at1 (m ((c.tc : Thread nD τ).loc main_arg8) : S64.Idx → EReal) o.val := by
  refine (congrFun (b2_term m c) (ix2 o z)).trans ((column _ _ o z).trans ?_)
  rw [SepConv.at1_ix1, SepConv.at1_ix1, SepConv.at1_ix1]
  rfl

end Cert.KernelIdeal.KerHost

end
-- ==== Proof.KerInputs.lean ====
/-
  What the kernel body is called with at a grid point, in the specification's words.

  At point `t` of the 64 points the body receives nine blocks: image `t` of the flattened image buffer, and —
  whole, at every point — the two first-stage weight matrices, the second-stage matrix of 640 columns, the three
  bias columns and the two mask rows. Each block is read off the array the region finds, and each of those arrays
  is an argument array rearranged; so, read at natural coordinates (zero outside the box), the blocks are the
  specification's functions of the argument arrays: the padded rows of image `t`, the four tap matrices (the
  second-stage pair as the first and the last 320 columns of one matrix), the bias planes as a column times a
  mask row, and the summed second-stage bias. Both sides of every equation are zero outside the box, so the
  equations hold for all naturals. The two mask rows are taken as hypotheses.
-/
import proofs.«149304_g2000302748725897_pallasbulk_1061_49_alg».proof.Proof.Gen.KernelIdeal.Frame
import proofs.«149304_g2000302748725897_pallasbulk_1061_49_alg».proof.Proof.Spec
import proofs.«149304_g2000302748725897_pallasbulk_1061_49_alg».proof.Proof.KerSpec
import proofs.«149304_g2000302748725897_pallasbulk_1061_49_alg».proof.Proof.KerHost
import Idealize.ShloMosaic.Lib.Pipeline.Value
import Idealize.ShloMosaic.Lib.ValueIdx
import Idealize.ShloMosaic.PureOps.Ideal.Laws

set_option maxRecDepth 16384

noncomputable section

namespace Cert.KernelIdeal.KerInputs

open Idealize.ShloMosaic Idealize.ShloMosaic.ValueIdx Idealize.ShloMosaic.Tactic
open Cert.KernelIdeal.Facts₀ Cert.KernelIdeal.Facts

variable (m : (ℓ : Loc nD τ sig) → Buf (Elt Ideal) ℓ) (c : Dev nD)

/-! ## The blocks the body is called with, read off the arrays the region finds

  Window 0's block at point `t` is image `t` of the image buffer; every other input window's block is its whole
  array, at every point. A block's coordinate on an axis is the window's block index there times the block's extent
  plus the coordinate inside the block; the block indices are decided once over the 64 points. -/

/-- The block indices of the nine input windows at every point. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- A point of the grid is below 64. -/
theorem point_lt (t : Fin cfg0.N) : t.val < 64 := lt_of_lt_of_eq t.isLt Gen.N_0

theorem iblk0 (t : Fin cfg0.N) (u : Fin 1) (ch : Fin 64) (q : Fin 4096) :
    (Gen.iblk m c 0 t : S1x64x4096.Idx → EReal) (ix3 u ch q)
      = (Gen.V m c main_call0_v39 : S64x64x4096.Idx → EReal) (ix3 ⟨t.val, point_lt t⟩ ch q) := by
  show (Gen.V m c main_call0_v39 : S64x64x4096.Idx → EReal) (((cfg0.win 0).blk t).view.emb (ix3 u ch q)) = _
  refine congrArg (Gen.V m c main_call0_v39 : S64x64x4096.Idx → EReal) (funext fun a => Fin.ext ?_)
  obtain ⟨e0, e1, e2, -⟩ := idx_facts t
  match a with
  | ⟨0, _⟩ => show win0_0.index t (0 : Fin 3) * 1 + 1 * u.val = t.val; have := u.isLt; omega
  | ⟨1, _⟩ => show win0_0.index t (1 : Fin 3) * 64 + 1 * ch.val = ch.val; omega
  | ⟨2, _⟩ => show win0_0.index t (2 : Fin 3) * 4096 + 1 * q.val = q.val; omega

theorem iblk1 (t : Fin cfg0.N) (o : Fin 64) (k : Fin 320) :
    (Gen.iblk m c 1 t : S64x320.Idx → EReal) (ix2 o k) = (Gen.V m c main_call0_v3 : S64x320.Idx → EReal) (ix2 o k) := by
  show (Gen.V m c main_call0_v3 : S64x320.Idx → EReal) (((cfg0.win 1).blk t).view.emb (ix2 o k)) = _
  refine congrArg (Gen.V m c main_call0_v3 : S64x320.Idx → EReal) (funext fun a => Fin.ext ?_)
  obtain ⟨-, -, -, e0, e1, -⟩ := idx_facts t
  match a with
  | ⟨0, _⟩ => show win0_1.index t (0 : Fin 2) * 64 + 1 * o.val = o.val; omega
  | ⟨1, _⟩ => show win0_1.index t (1 : Fin 2) * 320 + 1 * k.val = k.val; omega

theorem iblk2 (t : Fin cfg0.N) (o : Fin 64) (k : Fin 320) :
    (Gen.iblk m c 2 t : S64x320.Idx → EReal) (ix2 o k) = (Gen.V m c main_call0_v7 : S64x320.Idx → EReal) (ix2 o k) := by
  show (Gen.V m c main_call0_v7 : S64x320.Idx → EReal) (((cfg0.win 2).blk t).view.emb (ix2 o k)) = _
  refine congrArg (Gen.V m c main_call0_v7 : S64x320.Idx → EReal) (funext fun a => Fin.ext ?_)
  obtain ⟨-, -, -, -, -, e0, e1, -⟩ := idx_facts t
  match a with
  | ⟨0, _⟩ => show win0_2.index t (0 : Fin 2) * 64 + 1 * o.val = o.val; omega
  | ⟨1, _⟩ => show win0_2.index t (1 : Fin 2) * 320 + 1 * k.val = k.val; omega

theorem iblk3 (t : Fin cfg0.N) (o : Fin 64) (kk : Fin 640) :
    (Gen.iblk m c 3 t : S64x640.Idx → EReal) (ix2 o kk) = (Gen.V m c main_call0_v16 : S64x640.Idx → EReal) (ix2 o kk) := by
  show (Gen.V m c main_call0_v16 : S64x640.Idx → EReal) (((cfg0.win 3).blk t).view.emb (ix2 o kk)) = _
  refine congrArg (Gen.V m c main_call0_v16 : S64x640.Idx → EReal) (funext fun a => Fin.ext ?_)
  obtain ⟨-, -, -, -, -, -, -, e0, e1, -⟩ := idx_facts t
  match a with
  | ⟨0, _⟩ => show win0_3.index t (0 : Fin 2) * 64 + 1 * o.val = o.val; omega
  | ⟨1, _⟩ => show win0_3.index t (1 : Fin 2) * 640 + 1 * kk.val = kk.val; omega

theorem iblk4 (t : Fin cfg0.N) (o : Fin 64) (z : Fin 1) :
    (Gen.iblk m c 4 t : S64x1.Idx → EReal) (ix2 o z) = (Gen.V m c main_call0_v17 : S64x1.Idx → EReal) (ix2 o z) := by
  show (Gen.V m c main_call0_v17 : S64x1.Idx → EReal) (((cfg0.win 4).blk t).view.emb (ix2 o z)) = _
  refine congrArg (Gen.V m c main_call0_v17 : S64x1.Idx → EReal) (funext fun a => Fin.ext ?_)
  obtain ⟨-, -, -, -, -, -, -, -, -, e0, e1, -⟩ := idx_facts t
  match a with
  | ⟨0, _⟩ => show win0_4.index t (0 : Fin 2) * 64 + 1 * o.val = o.val; omega
  | ⟨1, _⟩ => show win0_4.index t (1 : Fin 2) * 1 + 1 * z.val = z.val; omega

theorem iblk5 (t : Fin cfg0.N) (o : Fin 64) (z : Fin 1) :
    (Gen.iblk m c 5 t : S64x1.Idx → EReal) (ix2 o z) = (Gen.V m c main_call0_v18 : S64x1.Idx → EReal) (ix2 o z) := by
  show (Gen.V m c main_call0_v18 : S64x1.Idx → EReal) (((cfg0.win 5).blk t).view.emb (ix2 o z)) = _
  refine congrArg (Gen.V m c main_call0_v18 : S64x1.Idx → EReal) (funext fun a => Fin.ext ?_)
  obtain ⟨-, -, -, -, -, -, -, -, -, -, -, e0, e1, -⟩ := idx_facts t
  match a with
  | ⟨0, _⟩ => show win0_5.index t (0 : Fin 2) * 64 + 1 * o.val = o.val; omega
  | ⟨1, _⟩ => show win0_5.index t (1 : Fin 2) * 1 + 1 * z.val = z.val; omega

theorem iblk6 (t : Fin cfg0.N) (o : Fin 64) (z : Fin 1) :
    (Gen.iblk m c 6 t : S64x1.Idx → EReal) (ix2 o z) = (Gen.V m c main_call0_v20 : S64x1.Idx → EReal) (ix2 o z) := by
  show (Gen.V m c main_call0_v20 : S64x1.Idx → EReal) (((cfg0.win 6).blk t).view.emb (ix2 o z)) = _
  refine congrArg (Gen.V m c main_call0_v20 : S64x1.Idx → EReal) (funext fun a => Fin.ext ?_)
  obtain ⟨-, -, -, -, -, -, -, -, -, -, -, -, -, e0, e1, -⟩ := idx_facts t
  match a with
  | ⟨0, _⟩ => show win0_6.index t (0 : Fin 2) * 64 + 1 * o.val = o.val; omega
  | ⟨1, _⟩ => show win0_6.index t (1 : Fin 2) * 1 + 1 * z.val = z.val; omega

theorem iblk7 (t : Fin cfg0.N) (z : Fin 1) (p : Fin 4352) :
    (Gen.iblk m c 7 t : S1x4352.Idx → EReal) (ix2 z p) = (Gen.V m c main_call0_v29 : S1x4352.Idx → EReal) (ix2 z p) := by
  show (Gen.V m c main_call0_v29 : S1x4352.Idx → EReal) (((cfg0.win 7).blk t).view.emb (ix2 z p)) = _
  refine congrArg (Gen.V m c main_call0_v29 : S1x4352.Idx → EReal) (funext fun a => Fin.ext ?_)
  obtain ⟨-, -, -, -, -, -, -, -, -, -, -, -, -, -, -, e0, e1, -⟩ := idx_facts t
  match a with
  | ⟨0, _⟩ => show win0_7.index t (0 : Fin 2) * 1 + 1 * z.val = z.val; omega
  | ⟨1, _⟩ => show win0_7.index t (1 : Fin 2) * 4352 + 1 * p.val = p.val; omega

theorem iblk8 (t : Fin cfg0.N) (z : Fin 1) (q : Fin 4624) :
    (Gen.iblk m c 8 t : S1x4624.Idx → EReal) (ix2 z q) = (Gen.V m c main_call0_v38 : S1x4624.Idx → EReal) (ix2 z q) := by
  show (Gen.V m c main_call0_v38 : S1x4624.Idx → EReal) (((cfg0.win 8).blk t).view.emb (ix2 z q)) = _
  refine congrArg (Gen.V m c main_call0_v38 : S1x4624.Idx → EReal) (funext fun a => Fin.ext ?_)
  obtain ⟨-, -, -, -, -, -, -, -, -, -, -, -, -, -, -, -, -, e0, e1⟩ := idx_facts t
  match a with
  | ⟨0, _⟩ => show win0_8.index t (0 : Fin 2) * 1 + 1 * z.val = z.val; omega
  | ⟨1, _⟩ => show win0_8.index t (1 : Fin 2) * 4624 + 1 * q.val = q.val; omega

/-! ## An array read at natural coordinates, against a function that vanishes outside the array's box -/

/-- A four-axis array read outside its box is zero. -/
theorem at4_of_not {A B C D : ℕ} (v : (⟨4, ![A, B, C, D]⟩ : Shape).Idx → EReal) {a b c d : ℕ}
    (h : ¬(a < A ∧ b < B ∧ c < C ∧ d < D)) : SepConv.at4 v a b c d = 0 := by
  unfold SepConv.at4; rw [dif_neg h]

/-- A one-axis array read outside its box is zero. -/
theorem at1_of_not {A : ℕ} (v : (⟨1, ![A]⟩ : Shape).Idx → EReal) {a : ℕ} (h : ¬a < A) : SepConv.at1 v a = 0 := by
  unfold SepConv.at1; rw [dif_neg h]

/-- A matrix whose entries are those of `f`, `f` vanishing outside the matrix's box, reads as `f` everywhere. -/
theorem at2_eq {A B : ℕ} (X : (⟨2, ![A, B]⟩ : Shape).Idx → EReal) (f : ℕ → ℕ → EReal)
    (hin : ∀ (o : Fin A) (k : Fin B), X (ix2 o k) = f o.val k.val)
    (hout : ∀ o k, ¬(o < A ∧ k < B) → f o k = 0) (o k : ℕ) : SepConv.at2 X o k = f o k := by
  by_cases h : o < A ∧ k < B
  · rw [SepConv.at2_of_lt X h.1 h.2]; exact hin ⟨o, h.1⟩ ⟨k, h.2⟩
  · rw [SepConv.at2_of_not X h, hout o k h]

/-- A column whose entries are those of `f`, `f` vanishing past its end, reads as `f` everywhere. -/
theorem column_eq {A : ℕ} (X : (⟨2, ![A, 1]⟩ : Shape).Idx → EReal) (f : ℕ → EReal)
    (hin : ∀ (o : Fin A) (z : Fin 1), X (ix2 o z) = f o.val) (hout : ∀ o, ¬o < A → f o = 0) (o : ℕ) :
    SepConv.at2 X o 0 = f o := by
  by_cases h : o < A
  · rw [SepConv.at2_of_lt X h (by decide : 0 < 1)]; exact hin ⟨o, h⟩ ⟨0, by decide⟩
  · rw [SepConv.at2_of_not X (fun hh => h hh.1), hout o h]

/-- A row whose entries are those of `f`, `f` vanishing past its end, reads as `f` everywhere. -/
theorem row_eq {B : ℕ} (X : (⟨2, ![1, B]⟩ : Shape).Idx → EReal) (f : ℕ → EReal)
    (hin : ∀ (z : Fin 1) (p : Fin B), X (ix2 z p) = f p.val) (hout : ∀ p, ¬p < B → f p = 0) (p : ℕ) :
    SepConv.at2 X 0 p = f p := by
  by_cases h : p < B
  · rw [SepConv.at2_of_lt X (by decide : 0 < 1) h]; exact hin ⟨0, by decide⟩ ⟨p, h⟩
  · rw [SepConv.at2_of_not X (fun hh => h hh.2), hout p h]

/-- The weight matrices vanish outside 64 rows and 320 columns. -/
theorem tapsL1_out (w : (⟨4, ![64, 64, 5, 1]⟩ : Shape).Idx → EReal) (o k : ℕ) (h : ¬(o < 64 ∧ k < 320)) :
    SepConv.tapsL1 w o k = 0 := by
  unfold SepConv.tapsL1; exact at4_of_not w (by omega)

theorem tapsR1_out (w : (⟨4, ![64, 64, 1, 5]⟩ : Shape).Idx → EReal) (o k : ℕ) (h : ¬(o < 64 ∧ k < 320)) :
    SepConv.tapsR1 w o k = 0 := by
  unfold SepConv.tapsR1; exact at4_of_not w (by omega)

theorem tapsL2_out (w : (⟨4, ![64, 64, 1, 5]⟩ : Shape).Idx → EReal) (o k : ℕ) (h : ¬(o < 64 ∧ k < 320)) :
    SepConv.tapsL2 w o k = 0 := by
  unfold SepConv.tapsL2; exact at4_of_not w (by omega)

theorem tapsR2_out (w : (⟨4, ![64, 64, 5, 1]⟩ : Shape).Idx → EReal) (o k : ℕ) (h : ¬(o < 64 ∧ k < 320)) :
    SepConv.tapsR2 w o k = 0 := by
  unfold SepConv.tapsR2; exact at4_of_not w (by omega)

/-- The masks vanish past their ends. -/
theorem maskW_out (p : ℕ) (h : ¬p < 4352) : SepConv.maskW p = 0 := by
  unfold SepConv.maskW; rw [if_neg (fun hh => h hh.1)]

theorem maskH_out (q : ℕ) (h : ¬q < 4624) : SepConv.maskH q = 0 := by
  unfold SepConv.maskH; rw [if_neg (fun hh => h hh.1)]

/-- The padded row built from one image block is the padded row of that image: inside the ring, flat position
    `r * 64 + s` of the block (`s < 64`) is row `r`, column `s` of the image. -/
theorem padBlock_eq (X : (⟨3, ![1, 64, 4096]⟩ : Shape).Idx → EReal) (x : (⟨4, ![64, 64, 64, 64]⟩ : Shape).Idx → EReal)
    (n : ℕ)
    (hX : ∀ (u : Fin 1) (ch : Fin 64) (q : Fin 4096),
      X (ix3 u ch q) = SepConv.at4 x n ch.val (q.val / 64) (q.val % 64)) :
    SepConv.padBlock X = SepConv.padded x n := by
  funext ch j
  unfold SepConv.padBlock SepConv.padded
  by_cases hc : 2 ≤ j ∧ 2 ≤ (j - 2) / 68 ∧ (j - 2) / 68 < 66 ∧ 2 ≤ (j - 2) % 68 ∧ (j - 2) % 68 < 66
  · rw [if_pos hc, if_pos hc]
    obtain ⟨h0, h1, h2, h3, h4⟩ := hc
    by_cases hch : ch < 64
    · have hq : ((j - 2) / 68 - 2) * 64 + ((j - 2) % 68 - 2) < 4096 := by omega
      rw [SepConv.at3_of_lt X (by decide : 0 < 1) hch hq]
      refine (hX ⟨0, by decide⟩ ⟨ch, hch⟩ ⟨_, hq⟩).trans ?_
      show SepConv.at4 x n ch ((((j - 2) / 68 - 2) * 64 + ((j - 2) % 68 - 2)) / 64)
        ((((j - 2) / 68 - 2) * 64 + ((j - 2) % 68 - 2)) % 64) = _
      have e1 : (((j - 2) / 68 - 2) * 64 + ((j - 2) % 68 - 2)) / 64 = (j - 2) / 68 - 2 := by omega
      have e2 : (((j - 2) / 68 - 2) * 64 + ((j - 2) % 68 - 2)) % 64 = (j - 2) % 68 - 2 := by omega
      rw [e1, e2]
    · rw [SepConv.at3_of_not X (fun hh => hch hh.2.1), at4_of_not x (fun hh => hch hh.2.1)]
  · rw [if_neg hc, if_neg hc]

/-- The core depends on its second-stage weights only through their first 320 columns. -/
theorem core_congr {XP XP' W1L W1L' W1R W1R' W2L W2L' W2R W2R' BL BL' BR BR' : ℕ → ℕ → EReal} {B2 B2' : ℕ → EReal}
    (h1 : XP = XP') (h2 : W1L = W1L') (h3 : W1R = W1R')
    (h4 : ∀ o k, k < 320 → W2L o k = W2L' o k) (h5 : ∀ o k, k < 320 → W2R o k = W2R' o k)
    (h6 : BL = BL') (h7 : BR = BR') (h8 : B2 = B2') (o p : ℕ) :
    SepConv.core XP W1L W1R W2L W2R BL BR B2 o p = SepConv.core XP' W1L' W1R' W2L' W2R' BL' BR' B2' o p := by
  subst h1 h2 h3 h6 h7 h8
  unfold SepConv.core SepConv.second
  have eL : ∑ k ∈ Finset.range 320, W2L o k * SepConv.haloL XP W1L BL (k % 64) (k / 64 + p)
      = ∑ k ∈ Finset.range 320, W2L' o k * SepConv.haloL XP W1L BL (k % 64) (k / 64 + p) :=
    Finset.sum_congr rfl fun k hk => by rw [h4 o k (Finset.mem_range.mp hk)]
  have eR : ∑ k ∈ Finset.range 320, W2R o k * SepConv.firstR XP W1R BR (k % 64) (k / 64 * 68 + p)
      = ∑ k ∈ Finset.range 320, W2R' o k * SepConv.firstR XP W1R BR (k % 64) (k / 64 * 68 + p) :=
    Finset.sum_congr rfl fun k hk => by rw [h5 o k (Finset.mem_range.mp hk)]
  rw [eL, eR]

/-! ## The body's inputs at point `t`, in the specification's words -/

section Inputs

variable (t : Fin cfg0.N)

/-- The padded rows the body builds from its image block are those of image `t`. -/
theorem e_img :
    SepConv.padBlock (Gen.iblk m c 0 t : S1x64x4096.Idx → EReal)
      = SepConv.padded (m ((c.tc : Thread nD τ).loc main_arg0) : S64x64x64x64.Idx → EReal) t.val :=
  padBlock_eq _ _ t.val fun u ch q =>
    (iblk0 m c t u ch q).trans (KerHost.V_image m c ⟨t.val, point_lt t⟩ ch q)

theorem e_w1l :
    SepConv.at2 (Gen.iblk m c 1 t : S64x320.Idx → EReal)
      = SepConv.tapsL1 (m ((c.tc : Thread nD τ).loc main_arg1) : S64x64x5x1.Idx → EReal) :=
  funext fun o => funext fun k =>
    at2_eq _ _ (fun o k => (iblk1 m c t o k).trans (KerHost.V_w1l m c o k)) (tapsL1_out _) o k

theorem e_w1r :
    SepConv.at2 (Gen.iblk m c 2 t : S64x320.Idx → EReal)
      = SepConv.tapsR1 (m ((c.tc : Thread nD τ).loc main_arg5) : S64x64x1x5.Idx → EReal) :=
  funext fun o => funext fun k =>
    at2_eq _ _ (fun o k => (iblk2 m c t o k).trans (KerHost.V_w1r m c o k)) (tapsR1_out _) o k

/-- The second-stage matrix's first 320 columns are the left branch's weights, -/
theorem e_w2l (o k : ℕ) (hk : k < 320) :
    SepConv.at2 (Gen.iblk m c 3 t : S64x640.Idx → EReal) o k
      = SepConv.tapsL2 (m ((c.tc : Thread nD τ).loc main_arg3) : S64x64x1x5.Idx → EReal) o k := by
  by_cases ho : o < 64
  · rw [SepConv.at2_of_lt _ ho (by omega : k < 640)]
    refine (iblk3 m c t ⟨o, ho⟩ ⟨k, by omega⟩).trans ((KerHost.V_w2 m c ⟨o, ho⟩ ⟨k, by omega⟩).trans ?_)
    exact if_pos hk
  · rw [SepConv.at2_of_not _ (fun hh => ho hh.1), tapsL2_out _ o k (fun hh => ho hh.1)]

/-- and its last 320 the right branch's. -/
theorem e_w2r (o k : ℕ) (hk : k < 320) :
    SepConv.at2 (Gen.iblk m c 3 t : S64x640.Idx → EReal) o (320 + k)
      = SepConv.tapsR2 (m ((c.tc : Thread nD τ).loc main_arg7) : S64x64x5x1.Idx → EReal) o k := by
  by_cases ho : o < 64
  · rw [SepConv.at2_of_lt _ ho (by omega : 320 + k < 640)]
    refine (iblk3 m c t ⟨o, ho⟩ ⟨320 + k, by omega⟩).trans
      ((KerHost.V_w2 m c ⟨o, ho⟩ ⟨320 + k, by omega⟩).trans ?_)
    have e : 320 + k - 320 = k := by omega
    show (if 320 + k < 320 then _ else SepConv.tapsR2 _ o (320 + k - 320)) = _
    rw [if_neg (by omega), e]
  · rw [SepConv.at2_of_not _ (fun hh => ho hh.1), tapsR2_out _ o k (fun hh => ho hh.1)]

variable (hmW : ∀ p : Fin 4352,
    (Gen.V m c main_call0_v29 : S1x4352.Idx → EReal) (ix2 (0 : Fin 1) p) = SepConv.maskW p.val)
  (hmH : ∀ q : Fin 4624,
    (Gen.V m c main_call0_v38 : S1x4624.Idx → EReal) (ix2 (0 : Fin 1) q) = SepConv.maskH q.val)

/-- The bias columns and the mask rows, each as the body reads it. -/
theorem col_b1l (o : ℕ) :
    SepConv.at2 (Gen.iblk m c 4 t : S64x1.Idx → EReal) o 0
      = SepConv.at1 (m ((c.tc : Thread nD τ).loc main_arg2) : S64.Idx → EReal) o :=
  column_eq _ _ (fun o z => (iblk4 m c t o z).trans (KerHost.V_b1l m c o z)) (fun _ h => at1_of_not _ h) o

theorem col_b1r (o : ℕ) :
    SepConv.at2 (Gen.iblk m c 5 t : S64x1.Idx → EReal) o 0
      = SepConv.at1 (m ((c.tc : Thread nD τ).loc main_arg6) : S64.Idx → EReal) o :=
  column_eq _ _ (fun o z => (iblk5 m c t o z).trans (KerHost.V_b1r m c o z)) (fun _ h => at1_of_not _ h) o

include hmW in
theorem row_maskW (p : ℕ) : SepConv.at2 (Gen.iblk m c 7 t : S1x4352.Idx → EReal) 0 p = SepConv.maskW p :=
  row_eq _ _ (fun z p => (iblk7 m c t z p).trans
    ((congrArg (fun z' : Fin 1 => (Gen.V m c main_call0_v29 : S1x4352.Idx → EReal) (ix2 z' p))
      (Subsingleton.elim z 0)).trans (hmW p))) maskW_out p

include hmH in
theorem row_maskH (q : ℕ) : SepConv.at2 (Gen.iblk m c 8 t : S1x4624.Idx → EReal) 0 q = SepConv.maskH q :=
  row_eq _ _ (fun z q => (iblk8 m c t z q).trans
    ((congrArg (fun z' : Fin 1 => (Gen.V m c main_call0_v38 : S1x4624.Idx → EReal) (ix2 z' q))
      (Subsingleton.elim z 0)).trans (hmH q))) maskH_out q

include hmW in
/-- The left first-stage bias plane: the bias column times the width mask. -/
theorem e_bl :
    (fun o p => SepConv.at2 (Gen.iblk m c 4 t : S64x1.Idx → EReal) o 0
        * SepConv.at2 (Gen.iblk m c 7 t : S1x4352.Idx → EReal) 0 p)
      = fun o p => SepConv.at1 (m ((c.tc : Thread nD τ).loc main_arg2) : S64.Idx → EReal) o * SepConv.maskW p :=
  funext fun o => funext fun p => by rw [col_b1l m c t o, row_maskW m c t hmW p]

include hmH in
/-- The right first-stage bias plane: the bias column times the height mask. -/
theorem e_br :
    (fun o q => SepConv.at2 (Gen.iblk m c 5 t : S64x1.Idx → EReal) o 0
        * SepConv.at2 (Gen.iblk m c 8 t : S1x4624.Idx → EReal) 0 q)
      = fun o q => SepConv.at1 (m ((c.tc : Thread nD τ).loc main_arg6) : S64.Idx → EReal) o * SepConv.maskH q :=
  funext fun o => funext fun q => by rw [col_b1r m c t o, row_maskH m c t hmH q]

/-- The second-stage bias: the sum of the two branches' biases. -/
theorem e_b2 :
    (fun o => SepConv.at2 (Gen.iblk m c 6 t : S64x1.Idx → EReal) o 0)
      = fun o => SepConv.at1 (m ((c.tc : Thread nD τ).loc main_arg4) : S64.Idx → EReal) o
          + SepConv.at1 (m ((c.tc : Thread nD τ).loc main_arg8) : S64.Idx → EReal) o :=
  funext fun o =>
    column_eq _ (fun o => SepConv.at1 (m ((c.tc : Thread nD τ).loc main_arg4) : S64.Idx → EReal) o
        + SepConv.at1 (m ((c.tc : Thread nD τ).loc main_arg8) : S64.Idx → EReal) o)
      (fun o z => (iblk6 m c t o z).trans (KerHost.V_b2 m c o z))
      (fun o h => by
        show SepConv.at1 _ o + SepConv.at1 _ o = 0
        rw [at1_of_not _ h, at1_of_not _ h, add_zero]) o

include hmW hmH in
/-- The core over what the body is called with at point `t` is the core of image `t` over the argument arrays. -/
theorem core_inputs (o p : ℕ) :
    SepConv.core (SepConv.padBlock (Gen.iblk m c 0 t : S1x64x4096.Idx → EReal))
        (SepConv.at2 (Gen.iblk m c 1 t : S64x320.Idx → EReal))
        (SepConv.at2 (Gen.iblk m c 2 t : S64x320.Idx → EReal))
        (fun o k => SepConv.at2 (Gen.iblk m c 3 t : S64x640.Idx → EReal) o k)
        (fun o k => SepConv.at2 (Gen.iblk m c 3 t : S64x640.Idx → EReal) o (320 + k))
        (fun o p => SepConv.at2 (Gen.iblk m c 4 t : S64x1.Idx → EReal) o 0
          * SepConv.at2 (Gen.iblk m c 7 t : S1x4352.Idx → EReal) 0 p)
        (fun o q => SepConv.at2 (Gen.iblk m c 5 t : S64x1.Idx → EReal) o 0
          * SepConv.at2 (Gen.iblk m c 8 t : S1x4624.Idx → EReal) 0 q)
        (fun o => SepConv.at2 (Gen.iblk m c 6 t : S64x1.Idx → EReal) o 0) o p
      = SepConv.core (SepConv.padded (m ((c.tc : Thread nD τ).loc main_arg0) : S64x64x64x64.Idx → EReal) t.val)
          (SepConv.tapsL1 (m ((c.tc : Thread nD τ).loc main_arg1) : S64x64x5x1.Idx → EReal))
          (SepConv.tapsR1 (m ((c.tc : Thread nD τ).loc main_arg5) : S64x64x1x5.Idx → EReal))
          (SepConv.tapsL2 (m ((c.tc : Thread nD τ).loc main_arg3) : S64x64x1x5.Idx → EReal))
          (SepConv.tapsR2 (m ((c.tc : Thread nD τ).loc main_arg7) : S64x64x5x1.Idx → EReal))
          (fun o p => SepConv.at1 (m ((c.tc : Thread nD τ).loc main_arg2) : S64.Idx → EReal) o * SepConv.maskW p)
          (fun o q => SepConv.at1 (m ((c.tc : Thread nD τ).loc main_arg6) : S64.Idx → EReal) o * SepConv.maskH q)
          (fun o => SepConv.at1 (m ((c.tc : Thread nD τ).loc main_arg4) : S64.Idx → EReal) o
            + SepConv.at1 (m ((c.tc : Thread nD τ).loc main_arg8) : S64.Idx → EReal) o) o p :=
  core_congr (e_img m c t) (e_w1l m c t) (e_w1r m c t) (e_w2l m c t) (e_w2r m c t) (e_bl m c t hmW) (e_br m c t hmH)
    (e_b2 m c t) o p

end Inputs

end Cert.KernelIdeal.KerInputs

end
-- ==== Proof.MasksK.lean ====
/-
  The two 0/1 masks as the kernel's program builds them on the host, read at a position.

  The width mask numbers the 4352 positions of the 64 x 68 grid, takes the flooring remainder by 68 (the column
  number), tests it for "at least 2 and below 66", and converts the bit to a number. The height mask does the same
  over the 4624 positions of the 68 x 68 grid with the flooring quotient by 68 (the row number). The positions are
  small non-negative 32-bit words and the divisor is positive, so the signed remainder and quotient are the natural
  ones and the sign corrections of the flooring forms never fire. Both masks are then the specification's
  `SepConv.maskW` and `SepConv.maskH`.
-/
import proofs.«149304_g2000302748725897_pallasbulk_1061_49_alg».proof.Proof.Gen.KernelIdeal.Frame
import proofs.«149304_g2000302748725897_pallasbulk_1061_49_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.IdealHost
import Idealize.ShloMosaic.Lib.Affine
import Idealize.ShloMosaic.Lib.WordArith
import Idealize.ShloMosaic.PureOps.Ideal.Laws

set_option maxRecDepth 16384
noncomputable section
namespace Cert.KernelIdeal.Masks
open Idealize.ShloMosaic Idealize.ShloMosaic.ValueIdx Idealize.ShloMosaic.Tactic

/-! ## Words

The iota entries are small non-negative 32-bit words; the divisor is the literal 68. On such words the signed
remainder and quotient are the natural ones, and the corrections the host routines add for operands of mixed sign
never fire. -/

/-- A non-negative word divided (signed) by a positive literal: the natural quotient. -/
theorem toNat_divsi (u : ArithUnit) {x : BitVec 32} (hx : 2 * x.toNat < 2 ^ 32) (k : Nat) (hk : 0 < k)
    (hk' : 2 * k < 2 ^ 32) : (IntOp.divsi u x (BitVec.ofNat 32 k)).toNat = x.toNat / k := by
  have hkN : (BitVec.ofNat 32 k).toNat = k := by rw [BitVec.toNat_ofNat]; omega
  have hm : x.msb = false := by rw [BitVec.msb_eq_false_iff_two_mul_lt]; exact hx
  have hkm : (BitVec.ofNat 32 k).msb = false := by rw [BitVec.msb_eq_false_iff_two_mul_lt]; omega
  have hpos : 0 < (BitVec.ofNat 32 k).toInt := by rw [BitVec.toInt_eq_toNat_of_lt (by omega)]; omega
  unfold IntOp.divsi
  rw [if_neg (IntOp.not_corner_of_pos hpos), BitVec.sdiv_eq, hm, hkm]
  show (x / BitVec.ofNat 32 k).toNat = _
  rw [BitVec.toNat_udiv, hkN]

/-! ## The two masks as the host operations build them -/

/-- The divisor 68 as the remainder routine takes it: a zero divisor would be replaced by one. -/
def divisorW : IVec S_ 32 :=
  select (cmpi .eq (constantI S_ 32 68#32) (constantI S_ 32 0#32)) (constantI S_ 32 1#32) (constantI S_ 32 68#32)

/-- The truncating remainder of the position by 68. -/
def sremW : IVec S4352 32 :=
  Host.remsi (iotaInDim S4352 32 0) (broadcastInDim S4352 ![] Gen.bcast_S_S4352 divisorW)

/-- The flooring remainder: the divisor is added back where the truncating remainder is not zero and its sign
    differs from the divisor's. -/
def modW : IVec S4352 32 :=
  select
    (andi
      (cmpi .ne (cmpi .slt sremW (broadcastInDim S4352 ![] Gen.bcast_S_S4352 (constantI S_ 32 0#32)))
        (broadcastInDim S4352 ![] Gen.bcast_S_S4352 (cmpi .slt divisorW (constantI S_ 32 0#32))))
      (cmpi .ne sremW (broadcastInDim S4352 ![] Gen.bcast_S_S4352 (constantI S_ 32 0#32))))
    (addi sremW (broadcastInDim S4352 ![] Gen.bcast_S_S4352 divisorW))
    sremW

/-- The width mask: one where the column number is at least 2 and below 66. -/
def maskWK : Vec Ideal S1x4352 .f32 :=
  broadcastInDim S1x4352 ![1] Gen.bcast_S4352_S1x4352_1
    (uitofp (F := Ideal) .f32
      (andi (cmpi .sge modW (broadcastInDim S4352 ![] Gen.bcast_S_S4352 (constantI S_ 32 2#32)))
        (cmpi .slt modW (broadcastInDim S4352 ![] Gen.bcast_S_S4352 (constantI S_ 32 66#32)))))

/-- The truncating quotient of the position by 68. -/
def quotH : IVec S4624 32 :=
  Host.divsi (iotaInDim S4624 32 0) (broadcastInDim S4624 ![] Gen.bcast_S_S4624 (constantI S_ 32 68#32))

/-- The truncating remainder of the position by 68. -/
def sremH : IVec S4624 32 :=
  Host.remsi (iotaInDim S4624 32 0) (broadcastInDim S4624 ![] Gen.bcast_S_S4624 (constantI S_ 32 68#32))

/-- The flooring quotient: one less than the truncating one where the operands' signs differ and the remainder is
    not zero. -/
def floorH : IVec S4624 32 :=
  select
    (andi
      (cmpi .ne (signi (iotaInDim S4624 32 0))
        (broadcastInDim S4624 ![] Gen.bcast_S_S4624 (signi (constantI S_ 32 68#32))))
      (cmpi .ne sremH (broadcastInDim S4624 ![] Gen.bcast_S_S4624 (constantI S_ 32 0#32))))
    (subi quotH (broadcastInDim S4624 ![] Gen.bcast_S_S4624 (constantI S_ 32 1#32)))
    quotH

/-- The height mask: one where the row number is at least 2 and below 66. -/
def maskHK : Vec Ideal S1x4624 .f32 :=
  broadcastInDim S1x4624 ![1] Gen.bcast_S4624_S1x4624_1
    (uitofp (F := Ideal) .f32
      (andi (cmpi .sge floorH (broadcastInDim S4624 ![] Gen.bcast_S_S4624 (constantI S_ 32 2#32)))
        (cmpi .slt floorH (broadcastInDim S4624 ![] Gen.bcast_S_S4624 (constantI S_ 32 66#32)))))

/-! ## Pointwise operations on integer vectors read at an index -/

theorem cmpi_apply {s : Shape} {w : ℕ} (p : CmpIPredicate) (x y : IVec s w) (i : s.Idx) :
    cmpi p x y i = IntOp.cmpi p (x i) (y i) := rfl
theorem andi_apply {s : Shape} {w : ℕ} (x y : IVec s w) (i : s.Idx) : andi x y i = IntOp.andi (x i) (y i) := rfl
theorem addi_apply {s : Shape} {w : ℕ} (x y : IVec s w) (i : s.Idx) : addi x y i = IntOp.addi (x i) (y i) := rfl
theorem subi_apply {s : Shape} {w : ℕ} (x y : IVec s w) (i : s.Idx) : subi x y i = IntOp.subi (x i) (y i) := rfl
theorem hostRemsi_apply {s : Shape} {w : ℕ} (x y : IVec s w) (i : s.Idx) :
    Host.remsi x y i = IntOp.remsi .host (x i) (y i) := rfl
theorem hostDivsi_apply {s : Shape} {w : ℕ} (x y : IVec s w) (i : s.Idx) :
    Host.divsi x y i = IntOp.divsi .host (x i) (y i) := rfl
theorem signi_apply {s : Shape} {w : ℕ} (x : IVec s w) (i : s.Idx) :
    signi x i = if x i = 0 then 0 else if (x i).msb then -1 else 1 := rfl
theorem uitofp_apply {s : Shape} {w : ℕ} (x : IVec s w) (i : s.Idx) :
    (uitofp (F := Ideal) .f32 x : FVec Ideal s .f32) i = (((x i).toNat : ℝ) : EReal) := rfl

/-! ## Small words as integers and as bits -/

theorem toInt_two : (2#32 : BitVec 32).toInt = 2 := by decide
theorem toInt_sixtysix : (66#32 : BitVec 32).toInt = 66 := by decide
theorem toInt_zero32 : (0#32 : BitVec 32).toInt = 0 := by decide

/-- The bit "at least 2 and below 66" of a small natural word, as an extended real. -/
theorem band_ofNat (n : ℕ) (hn : n < 2 ^ 31) :
    ((((IntOp.andi (IntOp.cmpi .sge (BitVec.ofNat 32 n) 2#32)
        (IntOp.cmpi .slt (BitVec.ofNat 32 n) 66#32)).toNat : ℕ) : ℝ) : EReal)
      = if 2 ≤ n ∧ n < 66 then 1 else 0 := by
  have hi : (BitVec.ofNat 32 n).toInt = n := WordArith.toInt_ofNat_small n hn
  by_cases h : 2 ≤ n ∧ n < 66
  · have e : IntOp.andi (IntOp.cmpi .sge (BitVec.ofNat 32 n) 2#32) (IntOp.cmpi .slt (BitVec.ofNat 32 n) 66#32)
        = 1#1 := by
      rw [IntOp.andi_eq_one, IntOp.cmpi_sge, IntOp.cmpi_slt, hi, toInt_two, toInt_sixtysix]
      omega
    rw [e, if_pos h]
    norm_num
  · have e : IntOp.andi (IntOp.cmpi .sge (BitVec.ofNat 32 n) 2#32) (IntOp.cmpi .slt (BitVec.ofNat 32 n) 66#32)
        = 0#1 := by
      apply eq_zero_of_ne_one
      rw [IntOp.andi_eq_one, IntOp.cmpi_sge, IntOp.cmpi_slt, hi, toInt_two, toInt_sixtysix]
      omega
    rw [e, if_neg h]
    norm_num

/-- The sign of a positive small word is one. -/
theorem sign_ofNat (n : ℕ) (h0 : 0 < n) (hn : n < 2 ^ 31) :
    (if BitVec.ofNat 32 n = 0 then (0 : BitVec 32) else if (BitVec.ofNat 32 n).msb then -1 else 1) = 1#32 := by
  have hN : (BitVec.ofNat 32 n).toNat = n := by rw [BitVec.toNat_ofNat]; omega
  rw [if_neg, if_neg]
  · rfl
  · rw [Bool.not_eq_true, BitVec.msb_eq_false_iff_two_mul_lt, hN]; omega
  · intro h
    have := congrArg BitVec.toNat h
    rw [hN] at this
    simp at this
    omega

/-! ## The width mask at a position -/

/-- A scalar broadcast along the 4352 positions reads the scalar. -/
theorem bcastW_apply {α : Type} (x : S_.Idx → α) (i : S4352.Idx) :
    broadcastInDim S4352 (no_index ![]) Gen.bcast_S_S4352 x i = x ix0 := broadcastInDim_scalar_apply _ x i

theorem divisorW_apply (i : S_.Idx) : divisorW i = 68#32 := by
  unfold divisorW
  rw [select_apply, cmpi_apply]
  simp only [constantI_apply]
  decide

theorem sremW_apply (p : Fin 4352) : sremW (ix1 p) = BitVec.ofNat 32 (p.val % 68) := by
  unfold sremW
  rw [hostRemsi_apply, bcastW_apply, divisorW_apply, iotaInDim_apply]
  show IntOp.remsi .host (BitVec.ofNat 32 p.val) (BitVec.ofNat 32 68) = _
  have hp := p.isLt
  apply BitVec.eq_of_toNat_eq
  rw [IntOp.toNat_remsi .host (by rw [BitVec.toNat_ofNat]; omega) 68 (by omega) (by omega), BitVec.toNat_ofNat,
    BitVec.toNat_ofNat]
  omega

theorem modW_apply (p : Fin 4352) : modW (ix1 p) = BitVec.ofNat 32 (p.val % 68) := by
  unfold modW
  rw [select_apply, andi_apply, cmpi_apply, cmpi_apply, cmpi_apply]
  simp only [bcastW_apply, constantI_apply, cmpi_apply, divisorW_apply, sremW_apply]
  have h1 : IntOp.cmpi .slt (BitVec.ofNat 32 (p.val % 68)) 0#32 = 0#1 := by
    apply eq_zero_of_ne_one
    rw [IntOp.cmpi_slt, WordArith.toInt_ofNat_small _ (by omega), toInt_zero32]
    omega
  have h2 : IntOp.cmpi .slt 68#32 0#32 = 0#1 := by decide
  rw [h1, h2]
  have h3 : IntOp.andi (IntOp.cmpi .ne (0#1) (0#1)) (IntOp.cmpi .ne (BitVec.ofNat 32 (p.val % 68)) 0#32) = 0#1 := by
    apply eq_zero_of_ne_one
    rw [IntOp.andi_eq_one, IntOp.cmpi_ne]
    exact fun h => h.1 rfl
  rw [h3, select_zero]

theorem maskWK_apply (p : Fin 4352) : maskWK (ix2 (0 : Fin 1) p) = SepConv.maskW p.val := by
  unfold maskWK
  rw [broadcastInDim_apply (k := ix1 p)]
  · rw [uitofp_apply, andi_apply, cmpi_apply, cmpi_apply]
    simp only [bcastW_apply, constantI_apply, modW_apply]
    rw [band_ofNat _ (by omega)]
    unfold SepConv.maskW
    have hp := p.isLt
    simp only [hp, true_and]
  · intro a
    match a with
    | ⟨0, _⟩ =>
      show p.val = if (4352 : ℕ) = 1 then 0 else p.val
      rw [if_neg (by decide)]

/-! ## The height mask at a position -/

/-- A scalar broadcast along the 4624 positions reads the scalar. -/
theorem bcastH_apply {α : Type} (x : S_.Idx → α) (i : S4624.Idx) :
    broadcastInDim S4624 (no_index ![]) Gen.bcast_S_S4624 x i = x ix0 := broadcastInDim_scalar_apply _ x i

theorem quotH_apply (q : Fin 4624) : quotH (ix1 q) = BitVec.ofNat 32 (q.val / 68) := by
  unfold quotH
  rw [hostDivsi_apply, bcastH_apply, constantI_apply, iotaInDim_apply]
  show IntOp.divsi .host (BitVec.ofNat 32 q.val) (BitVec.ofNat 32 68) = _
  have hq := q.isLt
  apply BitVec.eq_of_toNat_eq
  rw [toNat_divsi .host (by rw [BitVec.toNat_ofNat]; omega) 68 (by omega) (by omega), BitVec.toNat_ofNat,
    BitVec.toNat_ofNat]
  omega

theorem sremH_apply (q : Fin 4624) : sremH (ix1 q) = BitVec.ofNat 32 (q.val % 68) := by
  unfold sremH
  rw [hostRemsi_apply, bcastH_apply, constantI_apply, iotaInDim_apply]
  show IntOp.remsi .host (BitVec.ofNat 32 q.val) (BitVec.ofNat 32 68) = _
  have hq := q.isLt
  apply BitVec.eq_of_toNat_eq
  rw [IntOp.toNat_remsi .host (by rw [BitVec.toNat_ofNat]; omega) 68 (by omega) (by omega), BitVec.toNat_ofNat,
    BitVec.toNat_ofNat]
  omega

/-- The sign of a positive position is one. -/
theorem signIota_apply (q : Fin 4624) (h0 : 0 < q.val) : signi (iotaInDim S4624 32 0) (ix1 q) = 1#32 := by
  rw [signi_apply]
  show (if BitVec.ofNat 32 q.val = 0 then (0 : BitVec 32) else if (BitVec.ofNat 32 q.val).msb then -1 else 1) = 1#32
  exact sign_ofNat q.val h0 (by have := q.isLt; omega)

/-- The sign of the divisor is one. -/
theorem signDivisor_apply (i : S_.Idx) : signi (constantI S_ 32 68#32) i = 1#32 := by
  rw [signi_apply, constantI_apply]
  decide

theorem floorH_apply (q : Fin 4624) : floorH (ix1 q) = BitVec.ofNat 32 (q.val / 68) := by
  unfold floorH
  rw [select_apply, andi_apply, cmpi_apply, cmpi_apply]
  simp only [bcastH_apply, constantI_apply, sremH_apply, quotH_apply, signDivisor_apply]
  have hq := q.isLt
  have hc : IntOp.andi (IntOp.cmpi .ne (signi (iotaInDim S4624 32 0) (ix1 q)) 1#32)
      (IntOp.cmpi .ne (BitVec.ofNat 32 (q.val % 68)) 0#32) = 0#1 := by
    apply eq_zero_of_ne_one
    rw [IntOp.andi_eq_one, IntOp.cmpi_ne, IntOp.cmpi_ne]
    rintro ⟨ha, hb⟩
    by_cases h0 : q.val = 0
    · exact hb (by rw [h0])
    · exact ha (signIota_apply q (by omega))
  rw [hc, select_zero]

theorem maskHK_apply (q : Fin 4624) : maskHK (ix2 (0 : Fin 1) q) = SepConv.maskH q.val := by
  unfold maskHK
  rw [broadcastInDim_apply (k := ix1 q)]
  · rw [uitofp_apply, andi_apply, cmpi_apply, cmpi_apply]
    simp only [bcastH_apply, constantI_apply, floorH_apply]
    rw [band_ofNat _ (by have := q.isLt; omega)]
    unfold SepConv.maskH
    have hq := q.isLt
    simp only [hq, true_and]
  · intro a
    match a with
    | ⟨0, _⟩ =>
      show q.val = if (4624 : ℕ) = 1 then 0 else q.val
      rw [if_neg (by decide)]

/-! ## The buffers the kernel finds -/

variable (m : (ℓ : Loc nD τ sig) → Buf (Elt Ideal) ℓ) (c : Dev nD)

set_option maxHeartbeats 8000000 in
/-- The width-mask buffer holds the term its host operations build. -/
theorem V_maskW : (Gen.V m c main_call0_v29 : S1x4352.Idx → EReal) = maskWK := by
  show StableHlo.after Gen.hostOps0 (fun b => m (c, b)) (Proc.devRef .tc main_call0_v29) = _
  after_results_simp
  rfl

set_option maxHeartbeats 8000000 in
/-- The height-mask buffer holds the term its host operations build. -/
theorem V_maskH : (Gen.V m c main_call0_v38 : S1x4624.Idx → EReal) = maskHK := by
  show StableHlo.after Gen.hostOps0 (fun b => m (c, b)) (Proc.devRef .tc main_call0_v38) = _
  after_results_simp
  rfl

/-- The kernel's width mask is the specification's. -/
theorem maskW_kernel (p : Fin 4352) :
    (Gen.V m c main_call0_v29 : S1x4352.Idx → EReal) (ix2 (0 : Fin 1) p) = SepConv.maskW p.val := by
  rw [V_maskW]; exact maskWK_apply p

/-- The kernel's height mask is the specification's. -/
theorem maskH_kernel (q : Fin 4624) :
    (Gen.V m c main_call0_v38 : S1x4624.Idx → EReal) (ix2 (0 : Fin 1) q) = SepConv.maskH q.val := by
  rw [V_maskH]; exact maskHK_apply q

end Cert.KernelIdeal.Masks
end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.LibTileSums.lean ====
/-
  Finite sums over consecutive naturals, regrouped.

  A sum over the first `n * b` naturals can be taken in `n` consecutive blocks of `b` terms each, block `k`
  holding the naturals `b * k, …, b * k + (b - 1)`; and a sum over the first `b + b` naturals is the sum over
  its lower half plus the sum over its upper half. Both hold in any commutative additive monoid, since there a
  finite sum depends neither on the order nor on the grouping of its terms. The summand is a function of the
  natural number itself, so the statements say nothing about how the index types are spelt.
-/
import Mathlib.Algebra.BigOperators.Fin
import Mathlib.Data.Fintype.BigOperators

namespace LibTileSums

open Finset

variable {M : Type*} [AddCommMonoid M]

/-- The sum of `g` over the naturals below `n * b` is the sum, over the `n` blocks `k`, of the sum of `g`
    over the `b` naturals `b * k + j` (`j < b`) of block `k`: by induction on the number of blocks, the last
    block being split off by `Finset.sum_range_add`. -/
theorem sum_range_tiles (n b : ℕ) (g : ℕ → M) :
    ∑ i ∈ range (n * b), g i = ∑ k ∈ range n, ∑ j ∈ range b, g (b * k + j) := by
  induction n with
  | zero => simp
  | succ n ih => rw [Nat.succ_mul, sum_range_add, ih, sum_range_succ, Nat.mul_comm n b]

/-- A sum over `N = n * b` consecutive naturals, written over `Fin N`, taken in `n` blocks of `b`: the block
    index `k` runs over `range n` and the position `j` inside a block over `Fin b`, the term being `g` at the
    natural `b * k + j`. -/
theorem sum_tiles (n b N : ℕ) (hN : N = n * b) (g : ℕ → M) :
    ∑ c : Fin N, g c.val = ∑ k ∈ Finset.range n, ∑ j : Fin b, g (b * k + j.val) := by
  subst hN
  rw [Fin.sum_univ_eq_sum_range g (n * b), sum_range_tiles]
  exact sum_congr rfl fun k _ => (Fin.sum_univ_eq_sum_range (fun j => g (b * k + j)) b).symm

/-- A sum over `b + b` consecutive naturals, written over `Fin (b + b)`, is the sum over the lower half (the
    naturals `d`, `d < b`) plus the sum over the upper half (the naturals `b + d`, `d < b`). -/
theorem sum_halves (b : ℕ) (g : ℕ → M) :
    ∑ j : Fin (b + b), g j.val = ∑ d : Fin b, g d.val + ∑ d : Fin b, g (b + d.val) := by
  rw [Fin.sum_univ_add]
  simp only [Fin.val_castAdd, Fin.val_natAdd]

end LibTileSums
-- ==== Proof.KerPay.lean ====
/-
  The arithmetic of the kernel body's stores, read at an index, over variables.

  Every value the body stores is built from a handful of shapes of expression: a 64-column window of the image
  block (one row of the image, all channels); five 64-row slabs stacked into 320 rows (the five taps of a
  convolution, tap `k / 64` holding channel `k % 64` at row `k`); a product of a weight matrix with such a stack
  into a zero accumulator, which at exact arithmetic is the sum over the 320 (or 640) rows; a column of biases
  times a row mask; and a 64-column window of the final 64 x 4352 plane. Format changes are the identity at exact
  arithmetic and casts between equal shapes are the identity.
-/
import proofs.«149304_g2000302748725897_pallasbulk_1061_49_alg».proof.Proof.Gen.KernelIdeal.Skeleton
import proofs.«149304_g2000302748725897_pallasbulk_1061_49_alg».proof.Proof.Spec
import proofs.«149304_g2000302748725897_pallasbulk_1061_49_alg».proof.Proof.LibMatmulIdx
import proofs.«149304_g2000302748725897_pallasbulk_1061_49_alg».proof.Proof.LibTileSums
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KerPay

open Idealize.ShloMosaic Idealize.ShloMosaic.ValueIdx Cert.KernelIdeal Cert.KernelIdeal.Gen SepConv

/-! ## Stacks of five slabs -/

/-- Five slabs of 64 rows stacked: row `r` of the stack is row `r % 64` of slab `r / 64`. -/
theorem stack5_apply {α : Type} {N : ℕ} (f : Fin 5 → ((⟨2, ![64, N]⟩ : Shape).Idx → α))
    (h : Shape.Concatenates (([⟨⟨2, ![64, N]⟩, f 0⟩, ⟨⟨2, ![64, N]⟩, f 1⟩, ⟨⟨2, ![64, N]⟩, f 2⟩, ⟨⟨2, ![64, N]⟩, f 3⟩,
      ⟨⟨2, ![64, N]⟩, f 4⟩] : List ((s : Shape) × (s.Idx → α))).map (·.1)) ⟨2, ![320, N]⟩ 0)
    (r : Fin 320) (q : Fin N) :
    concatenate ⟨2, ![320, N]⟩ 0 [⟨⟨2, ![64, N]⟩, f 0⟩, ⟨⟨2, ![64, N]⟩, f 1⟩, ⟨⟨2, ![64, N]⟩, f 2⟩, ⟨⟨2, ![64, N]⟩, f 3⟩,
      ⟨⟨2, ![64, N]⟩, f 4⟩] h (ix2 r q)
      = f ⟨r.val / 64, by have := r.isLt; omega⟩ (ix2 ⟨r.val % 64, Nat.mod_lt _ (by norm_num)⟩ q) := by
  obtain ⟨n, hn⟩ : ∃ n : Fin 5, r.val / 64 = n.val := ⟨⟨r.val / 64, by have := r.isLt; omega⟩, rfl⟩
  have hf : (⟨r.val / 64, by have := r.isLt; omega⟩ : Fin 5) = n := Fin.ext hn
  rw [hf]
  refine concatenate_apply_piece 0 _ h (ix2 r q) n.val (by have := n.isLt; simpa using this) ⟨2, ![64, N]⟩ (f n) ?_ rfl
    (64 * n.val) ?_ (ix2 ⟨r.val % 64, Nat.mod_lt _ (by norm_num)⟩ q) ?_ ?_
  · fin_cases n <;> rfl
  · fin_cases n <;> rfl
  · intro b hb
    match b with
    | ⟨0, _⟩ => exact absurd rfl hb
    | ⟨1, _⟩ => rfl
  · show 64 * n.val + r.val % 64 = r.val
    omega

/-- A 320-row slab over five 64-row slabs: row `r` of the stack is row `r` of the first slab when `r < 320`, else row
    `(r - 320) % 64` of slab `(r - 320) / 64` of the five. -/
theorem stack6_apply {α : Type} {N : ℕ} (g : (⟨2, ![320, N]⟩ : Shape).Idx → α) (f : Fin 5 → ((⟨2, ![64, N]⟩ : Shape).Idx → α))
    (h : Shape.Concatenates (([⟨⟨2, ![320, N]⟩, g⟩, ⟨⟨2, ![64, N]⟩, f 0⟩, ⟨⟨2, ![64, N]⟩, f 1⟩, ⟨⟨2, ![64, N]⟩, f 2⟩,
      ⟨⟨2, ![64, N]⟩, f 3⟩, ⟨⟨2, ![64, N]⟩, f 4⟩] : List ((s : Shape) × (s.Idx → α))).map (·.1)) ⟨2, ![640, N]⟩ 0)
    (r : Fin 640) (q : Fin N) :
    concatenate ⟨2, ![640, N]⟩ 0 [⟨⟨2, ![320, N]⟩, g⟩, ⟨⟨2, ![64, N]⟩, f 0⟩, ⟨⟨2, ![64, N]⟩, f 1⟩, ⟨⟨2, ![64, N]⟩, f 2⟩,
      ⟨⟨2, ![64, N]⟩, f 3⟩, ⟨⟨2, ![64, N]⟩, f 4⟩] h (ix2 r q)
      = if hr : r.val < 320 then g (ix2 ⟨r.val, hr⟩ q)
        else f ⟨(r.val - 320) / 64, by have := r.isLt; omega⟩ (ix2 ⟨(r.val - 320) % 64, Nat.mod_lt _ (by norm_num)⟩ q) := by
  by_cases hr : r.val < 320
  · rw [dif_pos hr]
    refine concatenate_apply_piece 0 _ h (ix2 r q) 0 (by simp) ⟨2, ![320, N]⟩ g rfl rfl 0 rfl (ix2 ⟨r.val, hr⟩ q) ?_ ?_
    · intro b hb
      match b with
      | ⟨0, _⟩ => exact absurd rfl hb
      | ⟨1, _⟩ => rfl
    · show 0 + r.val = r.val
      omega
  · rw [dif_neg hr]
    obtain ⟨n, hn⟩ : ∃ n : Fin 5, (r.val - 320) / 64 = n.val := ⟨⟨(r.val - 320) / 64, by have := r.isLt; omega⟩, rfl⟩
    have hf : (⟨(r.val - 320) / 64, by have := r.isLt; omega⟩ : Fin 5) = n := Fin.ext hn
    rw [hf]
    refine concatenate_apply_piece 0 _ h (ix2 r q) (n.val + 1) (by have := n.isLt; simp; omega) ⟨2, ![64, N]⟩ (f n) ?_ rfl
      (320 + 64 * n.val) ?_ (ix2 ⟨(r.val - 320) % 64, Nat.mod_lt _ (by norm_num)⟩ q) ?_ ?_
    · fin_cases n <;> rfl
    · fin_cases n <;> rfl
    · intro b hb
      match b with
      | ⟨0, _⟩ => exact absurd rfl hb
      | ⟨1, _⟩ => rfl
    · show 320 + 64 * n.val + (r.val - 320) % 64 = r.val
      omega

/-! ## Layout pieces -/

/-- A column [a, 1] broadcast along the second axis reads, at (i, j), the column at (i, 0). -/
theorem bcast_col_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- One row of the image, all channels, as the body stores it into the padded scratch: the 64 columns from
    `off` of the block cast to [64, 4096]. -/
theorem row_win (X : S1x64x4096.Idx → EReal) (off : ℕ) (hoff : off + 64 ≤ 4096)
    (hc4 : S1x64x4096.ShapeCasts S64x4096) (hs : S64x4096.Slices ![0, off] S64x64)
    (hlt : FTy.bf16.bits < FTy.f32.bits) (hc : S64x64.ShapeCasts S64x64) (a b : Fin 64) :
    shapeCast S64x64 (truncf (F := Ideal) (φ := .f32) .bf16
        (extractStridedSlice S64x64 ![0, off] (shapeCast S64x4096 X hc4) hs) hlt) hc (ix2 a b)
      = at3 X 0 a.val (off + b.val) := by
  rw [shapeCast_self, truncf_apply,
    slice2_axis1_apply off _ hs a b ⟨off + b.val, by have := b.isLt; omega⟩ rfl, shapeCast_1ab_ab_apply]
  exact (at3_of_lt X (by norm_num) a.isLt _).symm

/-- A 64-column window of the final plane, as the body stores it into the output block. -/
theorem out_win (RES : S64x4352.Idx → EReal) (off : ℕ) (hoff : off + 64 ≤ 4352)
    (hs : S64x4352.Slices ![0, off] S64x64) (hc : S64x64.ShapeCasts S1x64x64) (u : Fin 1) (a b : Fin 64) :
    shapeCast S1x64x64 (extractStridedSlice S64x64 ![0, off] RES hs) hc (ix3 u a b) = at2 RES a.val (off + b.val) := by
  rw [shapeCast_ab_1ab_apply, slice2_axis1_apply off _ hs a b ⟨off + b.val, by have := b.isLt; omega⟩ rfl]
  exact (at2_of_lt RES a.isLt _).symm

/-! ## The three products -/

/-- The contraction record of a [64, K] by [K, N] product. -/
theorem sum_fin_range {M : Type*} [AddCommMonoid M] (n : ℕ) (g : ℕ → M) : ∑ k : Fin n, g k.val = ∑ k ∈ Finset.range n, g k :=
  Fin.sum_univ_eq_sum_range g n

/-- Five slabs picked by `k / 64`, each slab `n` being a function `T` shifted by `n` units of `s`. -/
theorem pick5 {N : ℕ} (f0 f1 f2 f3 f4 : (⟨2, ![64, N]⟩ : Shape).Idx → EReal) (T : ℕ → ℕ → EReal) (base s : ℕ)
    (h0 : ∀ (c : Fin 64) (q : Fin N), f0 (ix2 c q) = T c.val (base + 0 * s + q.val))
    (h1 : ∀ (c : Fin 64) (q : Fin N), f1 (ix2 c q) = T c.val (base + 1 * s + q.val))
    (h2 : ∀ (c : Fin 64) (q : Fin N), f2 (ix2 c q) = T c.val (base + 2 * s + q.val))
    (h3 : ∀ (c : Fin 64) (q : Fin N), f3 (ix2 c q) = T c.val (base + 3 * s + q.val))
    (h4 : ∀ (c : Fin 64) (q : Fin N), f4 (ix2 c q) = T c.val (base + 4 * s + q.val))
    (n : Fin 5) (c : Fin 64) (q : Fin N) :
    (![f0, f1, f2, f3, f4] n) (ix2 c q) = T c.val (base + n.val * s + q.val) := by
  fin_cases n
  · exact h0 c q
  · exact h1 c q
  · exact h2 c q
  · exact h3 c q
  · exact h4 c q

/-- First stage of the right branch: the weights times the five width taps of the padded image, plus the bias
    column times the row mask. -/
theorem yr_apply (r0 r1 r2 r3 r4 : Vec Ideal S64x4624 .bf16) (w : Vec Ideal S64x320 .bf16) (bias : Vec Ideal S64x1 .f32)
    (mask : Vec Ideal S1x4624 .f32) (XPf : ℕ → ℕ → EReal)
    (h0 : ∀ (c : Fin 64) (q : Fin 4624), r0 (ix2 c q) = XPf c.val (0 + 0 * 1 + q.val))
    (h1 : ∀ (c : Fin 64) (q : Fin 4624), r1 (ix2 c q) = XPf c.val (0 + 1 * 1 + q.val))
    (h2 : ∀ (c : Fin 64) (q : Fin 4624), r2 (ix2 c q) = XPf c.val (0 + 2 * 1 + q.val))
    (h3 : ∀ (c : Fin 64) (q : Fin 4624), r3 (ix2 c q) = XPf c.val (0 + 3 * 1 + q.val))
    (h4 : ∀ (c : Fin 64) (q : Fin 4624), r4 (ix2 c q) = XPf c.val (0 + 4 * 1 + q.val))
    (o : Fin 64) (q : Fin 4624) :
    k0_pay83 (F := Ideal) (k0_pay77 r0 r1 r2 r3 r4) w bias mask (ix2 o q)
      = (∑ k ∈ Finset.range 320, at2 w o.val k * XPf (k % 64) (k / 64 + q.val)) + at2 bias o.val 0 * at2 mask 0 q.val := by
  unfold k0_pay83 k0_pay77
  simp only [truncf_apply, addf_apply, mulf_apply, shapeCast_self]
  congr 1
  · refine (LibMatmulIdx.matmul2_apply dot_S64x320_S320x4624_S64x4624_1_0_0_1_n_n rfl rfl (fun _ _ => rfl) (fun _ _ => rfl)
      (fun _ _ => rfl) (fun _ _ => rfl) none w _ (ix2 o q)).trans ?_
    rw [← sum_fin_range 320 fun k => at2 w o.val k * XPf (k % 64) (k / 64 + q.val)]
    refine Finset.sum_congr rfl fun k _ => ?_
    show w (ix2 o k) * _ = _
    rw [at2_of_lt w o.isLt k.isLt]
    congr 1
    rw [show (ix2 (n0 := 320) (n1 := 4624) k q) = ix2 k q from rfl]
    refine (stack5_apply ![r0, r1, r2, r3, r4] _ k q).trans ?_
    refine (pick5 r0 r1 r2 r3 r4 XPf 0 1 h0 h1 h2 h3 h4 _ _ q).trans ?_
    show XPf (k.val % 64) (0 + k.val / 64 * 1 + q.val) = _
    congr 1; omega
  · rw [bcast_col_apply, broadcastTo_1b_ab_apply, at2_of_lt bias o.isLt (by norm_num : 0 < 1),
      at2_of_lt mask (by norm_num : 0 < 1) q.isLt]
    rfl

/-- One half of the left first stage: the weights times the five height taps over a run of 2176 positions. -/
theorem ylhalf_apply (a0 a1 a2 a3 a4 : Vec Ideal S64x2176 .bf16) (w : Vec Ideal S64x320 .bf16) (XPf : ℕ → ℕ → EReal) (base : ℕ)
    (ha0 : ∀ (c : Fin 64) (q : Fin 2176), a0 (ix2 c q) = XPf c.val (base + 0 * 68 + q.val))
    (ha1 : ∀ (c : Fin 64) (q : Fin 2176), a1 (ix2 c q) = XPf c.val (base + 1 * 68 + q.val))
    (ha2 : ∀ (c : Fin 64) (q : Fin 2176), a2 (ix2 c q) = XPf c.val (base + 2 * 68 + q.val))
    (ha3 : ∀ (c : Fin 64) (q : Fin 2176), a3 (ix2 c q) = XPf c.val (base + 3 * 68 + q.val))
    (ha4 : ∀ (c : Fin 64) (q : Fin 2176), a4 (ix2 c q) = XPf c.val (base + 4 * 68 + q.val))
    (o : Fin 64) (q : Fin 2176) :
    matmul (F := Ideal) (φ₁ := .bf16) (φ₂ := .bf16) dot_S64x320_S320x2176_S64x2176_1_0_0_1_n_n none w
        (concatenate S320x2176 0 [⟨S64x2176, a0⟩, ⟨S64x2176, a1⟩, ⟨S64x2176, a2⟩, ⟨S64x2176, a3⟩, ⟨S64x2176, a4⟩]
          concatenates_S64x2176_S64x2176_S64x2176_S64x2176_S64x2176_S320x2176_d0)
        (constant S64x2176 .f32 0x00000000#32) (ix2 o q)
      = ∑ k ∈ Finset.range 320, at2 w o.val k * XPf (k % 64) (base + k / 64 * 68 + q.val) := by
  refine (LibMatmulIdx.matmul2_apply dot_S64x320_S320x2176_S64x2176_1_0_0_1_n_n rfl rfl (fun _ _ => rfl) (fun _ _ => rfl)
    (fun _ _ => rfl) (fun _ _ => rfl) none w _ (ix2 o q)).trans ?_
  rw [← sum_fin_range 320 fun k => at2 w o.val k * XPf (k % 64) (base + k / 64 * 68 + q.val)]
  refine Finset.sum_congr rfl fun k _ => ?_
  show w (ix2 o k) * _ = _
  rw [at2_of_lt w o.isLt k.isLt]
  congr 1
  refine (stack5_apply ![a0, a1, a2, a3, a4] _ k q).trans ?_
  exact pick5 a0 a1 a2 a3 a4 XPf base 68 ha0 ha1 ha2 ha3 ha4 _ _ q

/-- First stage of the left branch, computed in two halves of 2176 positions set side by side: the weights times
    the five height taps of the padded image, plus the bias column times the row mask. -/
theorem yl_apply (a0 a1 a2 a3 a4 b0 b1 b2 b3 b4 : Vec Ideal S64x2176 .bf16) (w : Vec Ideal S64x320 .bf16)
    (bias : Vec Ideal S64x1 .f32) (mask : Vec Ideal S1x4352 .f32) (XPf : ℕ → ℕ → EReal)
    (ha0 : ∀ (c : Fin 64) (q : Fin 2176), a0 (ix2 c q) = XPf c.val (2 + 0 * 68 + q.val))
    (ha1 : ∀ (c : Fin 64) (q : Fin 2176), a1 (ix2 c q) = XPf c.val (2 + 1 * 68 + q.val))
    (ha2 : ∀ (c : Fin 64) (q : Fin 2176), a2 (ix2 c q) = XPf c.val (2 + 2 * 68 + q.val))
    (ha3 : ∀ (c : Fin 64) (q : Fin 2176), a3 (ix2 c q) = XPf c.val (2 + 3 * 68 + q.val))
    (ha4 : ∀ (c : Fin 64) (q : Fin 2176), a4 (ix2 c q) = XPf c.val (2 + 4 * 68 + q.val))
    (hb0 : ∀ (c : Fin 64) (q : Fin 2176), b0 (ix2 c q) = XPf c.val (2178 + 0 * 68 + q.val))
    (hb1 : ∀ (c : Fin 64) (q : Fin 2176), b1 (ix2 c q) = XPf c.val (2178 + 1 * 68 + q.val))
    (hb2 : ∀ (c : Fin 64) (q : Fin 2176), b2 (ix2 c q) = XPf c.val (2178 + 2 * 68 + q.val))
    (hb3 : ∀ (c : Fin 64) (q : Fin 2176), b3 (ix2 c q) = XPf c.val (2178 + 3 * 68 + q.val))
    (hb4 : ∀ (c : Fin 64) (q : Fin 2176), b4 (ix2 c q) = XPf c.val (2178 + 4 * 68 + q.val))
    (o : Fin 64) (p : Fin 4352) :
    k0_pay78 (F := Ideal) a0 a1 a2 a3 a4 w b0 b1 b2 b3 b4 w bias mask (ix2 o p)
      = (∑ k ∈ Finset.range 320, at2 w o.val k * XPf (k % 64) (2 + k / 64 * 68 + p.val)) + at2 bias o.val 0 * at2 mask 0 p.val := by
  unfold k0_pay78
  simp only [addf_apply, mulf_apply, shapeCast_self]
  congr 1
  · by_cases hp : p.val < 2176
    · refine (concatenate_pair_apply_left (s₁ := S64x2176) (s₂ := S64x2176) 1 _ _ _ (ix2 o p) rfl (ix2 (n0 := 64) (n1 := 2176) o ⟨p.val, hp⟩) (fun b => ?_)).trans ?_
      · match b with
        | ⟨0, _⟩ => rfl
        | ⟨1, _⟩ => rfl
      · exact ylhalf_apply a0 a1 a2 a3 a4 w XPf 2 ha0 ha1 ha2 ha3 ha4 o ⟨p.val, hp⟩
    · have hp' : p.val - 2176 < 2176 := by have := p.isLt; omega
      refine (concatenate_pair_apply_right (s₁ := S64x2176) (s₂ := S64x2176) 1 _ _ _ (ix2 o p) rfl rfl (ix2 (n0 := 64) (n1 := 2176) o ⟨p.val - 2176, hp'⟩) (fun b hb => ?_) ?_).trans ?_
      · match b with
        | ⟨0, _⟩ => rfl
        | ⟨1, _⟩ => exact absurd rfl hb
      · show p.val - 2176 + 2176 = p.val
        omega
      · refine (ylhalf_apply b0 b1 b2 b3 b4 w XPf 2178 hb0 hb1 hb2 hb3 hb4 o ⟨p.val - 2176, hp'⟩).trans ?_
        refine Finset.sum_congr rfl fun k _ => ?_
        show _ * XPf _ (2178 + k / 64 * 68 + (p.val - 2176)) = _
        congr 2; omega
  · rw [bcast_col_apply, broadcastTo_1b_ab_apply, at2_of_lt bias o.isLt (by norm_num : 0 < 1),
      at2_of_lt mask (by norm_num : 0 < 1) p.isLt]
    rfl

/-- The second stage: ONE product over 640 = 320 + 320 rows — the five width taps of the left intermediate, then
    the five height taps of the right one — plus the bias column, through the rectifier. A sum over 640 consecutive
    terms is the sum of its two halves. -/
theorem res_apply (l0 l1 l2 l3 l4 r0 r1 r2 r3 r4 : Vec Ideal S64x4352 .bf16) (w : Vec Ideal S64x640 .bf16)
    (bias : Vec Ideal S64x1 .f32) (SLf SRf : ℕ → ℕ → EReal)
    (hl0 : ∀ (c : Fin 64) (q : Fin 4352), l0 (ix2 c q) = SLf c.val (0 + 0 * 1 + q.val))
    (hl1 : ∀ (c : Fin 64) (q : Fin 4352), l1 (ix2 c q) = SLf c.val (0 + 1 * 1 + q.val))
    (hl2 : ∀ (c : Fin 64) (q : Fin 4352), l2 (ix2 c q) = SLf c.val (0 + 2 * 1 + q.val))
    (hl3 : ∀ (c : Fin 64) (q : Fin 4352), l3 (ix2 c q) = SLf c.val (0 + 3 * 1 + q.val))
    (hl4 : ∀ (c : Fin 64) (q : Fin 4352), l4 (ix2 c q) = SLf c.val (0 + 4 * 1 + q.val))
    (hr0 : ∀ (c : Fin 64) (q : Fin 4352), r0 (ix2 c q) = SRf c.val (0 + 0 * 68 + q.val))
    (hr1 : ∀ (c : Fin 64) (q : Fin 4352), r1 (ix2 c q) = SRf c.val (0 + 1 * 68 + q.val))
    (hr2 : ∀ (c : Fin 64) (q : Fin 4352), r2 (ix2 c q) = SRf c.val (0 + 2 * 68 + q.val))
    (hr3 : ∀ (c : Fin 64) (q : Fin 4352), r3 (ix2 c q) = SRf c.val (0 + 3 * 68 + q.val))
    (hr4 : ∀ (c : Fin 64) (q : Fin 4352), r4 (ix2 c q) = SRf c.val (0 + 4 * 68 + q.val))
    (o : Fin 64) (p : Fin 4352) :
    k0_pay85 (F := Ideal) (k0_pay82 l0 l1 l2 l3 l4) r0 r1 r2 r3 r4 w bias (ix2 o p)
      = leaky ((∑ k ∈ Finset.range 320, at2 w o.val k * SLf (k % 64) (k / 64 + p.val))
          + (∑ k ∈ Finset.range 320, at2 w o.val (320 + k) * SRf (k % 64) (k / 64 * 68 + p.val))
          + at2 bias o.val 0) := by
  unfold k0_pay85 k0_pay82
  simp only [select_apply, cmpf_apply, broadcast_apply, addf_apply, mulf_apply, shapeCast_self]
  have key : matmul (F := Ideal) (φ₁ := .bf16) (φ₂ := .bf16) dot_S64x640_S640x4352_S64x4352_1_0_0_1_n_n none w
        (concatenate S640x4352 0
          [⟨S320x4352, concatenate S320x4352 0 [⟨S64x4352, l0⟩, ⟨S64x4352, l1⟩, ⟨S64x4352, l2⟩, ⟨S64x4352, l3⟩, ⟨S64x4352, l4⟩]
              concatenates_S64x4352_S64x4352_S64x4352_S64x4352_S64x4352_S320x4352_d0⟩,
            ⟨S64x4352, r0⟩, ⟨S64x4352, r1⟩, ⟨S64x4352, r2⟩, ⟨S64x4352, r3⟩, ⟨S64x4352, r4⟩]
          concatenates_S320x4352_S64x4352_S64x4352_S64x4352_S64x4352_S64x4352_S640x4352_d0)
        (constant S64x4352 .f32 0x00000000#32) (ix2 o p)
      = (∑ k ∈ Finset.range 320, at2 w o.val k * SLf (k % 64) (k / 64 + p.val))
          + (∑ k ∈ Finset.range 320, at2 w o.val (320 + k) * SRf (k % 64) (k / 64 * 68 + p.val)) := by
    refine (LibMatmulIdx.matmul2_apply dot_S64x640_S640x4352_S64x4352_1_0_0_1_n_n rfl rfl (fun _ _ => rfl) (fun _ _ => rfl)
      (fun _ _ => rfl) (fun _ _ => rfl) none w _ (ix2 o p)).trans ?_
    -- every term as a function of the natural position in the 640
    have hterm : ∀ k : Fin 640, w (ix2 o k) * concatenate S640x4352 0
          [⟨S320x4352, concatenate S320x4352 0 [⟨S64x4352, l0⟩, ⟨S64x4352, l1⟩, ⟨S64x4352, l2⟩, ⟨S64x4352, l3⟩, ⟨S64x4352, l4⟩]
              concatenates_S64x4352_S64x4352_S64x4352_S64x4352_S64x4352_S320x4352_d0⟩,
            ⟨S64x4352, r0⟩, ⟨S64x4352, r1⟩, ⟨S64x4352, r2⟩, ⟨S64x4352, r3⟩, ⟨S64x4352, r4⟩]
          concatenates_S320x4352_S64x4352_S64x4352_S64x4352_S64x4352_S64x4352_S640x4352_d0 (ix2 k p)
        = (fun n : ℕ => at2 w o.val n * (if n < 320 then SLf (n % 64) (n / 64 + p.val) else SRf ((n - 320) % 64) ((n - 320) / 64 * 68 + p.val))) k.val := by
      intro k
      show _ = at2 w o.val k.val * _
      rw [at2_of_lt w o.isLt k.isLt]
      congr 1
      refine (stack6_apply _ ![r0, r1, r2, r3, r4] _ k p).trans ?_
      by_cases hk : k.val < 320
      · rw [dif_pos hk, if_pos hk]
        refine (stack5_apply ![l0, l1, l2, l3, l4] _ ⟨k.val, hk⟩ p).trans ?_
        refine (pick5 l0 l1 l2 l3 l4 SLf 0 1 hl0 hl1 hl2 hl3 hl4 _ _ p).trans ?_
        show SLf (k.val % 64) (0 + k.val / 64 * 1 + p.val) = _
        congr 1; omega
      · rw [dif_neg hk, if_neg hk]
        refine (pick5 r0 r1 r2 r3 r4 SRf 0 68 hr0 hr1 hr2 hr3 hr4 _ _ p).trans ?_
        show SRf ((k.val - 320) % 64) (0 + (k.val - 320) / 64 * 68 + p.val) = _
        congr 1; omega
    rw [Finset.sum_congr rfl fun k _ => hterm k]
    refine (LibTileSums.sum_halves 320 (fun n : ℕ => at2 w o.val n * (if n < 320 then SLf (n % 64) (n / 64 + p.val) else SRf ((n - 320) % 64) ((n - 320) / 64 * 68 + p.val)))).trans ?_
    rw [← sum_fin_range 320 fun k => at2 w o.val k * SLf (k % 64) (k / 64 + p.val),
      ← sum_fin_range 320 fun k => at2 w o.val (320 + k) * SRf (k % 64) (k / 64 * 68 + p.val)]
    refine congrArg₂ (· + ·) ?_ ?_
    · refine Finset.sum_congr rfl fun d _ => ?_
      show at2 w o.val d.val * _ = _
      rw [if_pos d.isLt]
    · refine Finset.sum_congr rfl fun d _ => ?_
      show at2 w o.val (320 + d.val) * _ = _
      rw [if_neg (by omega), show 320 + d.val - 320 = d.val by omega]
  rw [key, bcast_col_apply, at2_of_lt bias o.isLt (by norm_num : 0 < 1)]
  rfl

end Cert.KernelIdeal.KerPay

end
-- ==== Proof.LibCanonOverlay.lean ====
/-
  What a buffer holds after a whole-buffer fill has been overwritten by windows.

  The contents a list of stores leaves (the first piece of the list that holds an index gives its value there)
  are read here for a list of the form "windows, then one base piece underneath". If every window agrees, on its
  own rectangle, with one function `G` of the buffer's index, and the base piece agrees with `G` at every index no
  window holds, the contents are `G` everywhere. For two-axis buffers whose windows take all rows and a run of
  `W` consecutive columns starting at given offsets, "no window holds the index" is a statement about the column
  and the list of offsets only.
-/
import Idealize.ShloMosaic.Lib.Pipeline.Value

noncomputable section

namespace LibCanonOverlay

open Idealize.ShloMosaic Idealize.ShloMosaic.View

variable {Val : EltTy → Type} [∀ e, Nonempty (Val e)] {S : Shape} {e : EltTy}

/-- Windows over a base piece: where some window holds the index the windows alone decide, elsewhere the base. -/
theorem canon_append_single (L : List (Piece Val S e)) (base : Piece Val S e) (y : S.Idx) :
    canon (L ++ [base]) y = if ∃ p ∈ L, y ∈ p.1.set then canon L y else canon [base] y := by
  induction L with
  | nil => simp
  | cons p L ih =>
    rw [List.cons_append]
    by_cases hy : y ∈ p.1.set
    · rw [if_pos ⟨p, List.mem_cons_self, hy⟩]
      obtain ⟨x, rfl⟩ := p.1.exists_idx_of_mem hy
      obtain ⟨r, w⟩ := p
      rw [show r.idx x = r.emb x from rfl, canon_cons_emb, canon_cons_emb]
    · rw [canon_cons_of_not_mem _ _ hy, canon_cons_of_not_mem _ _ hy, ih]
      have : (∃ q ∈ p :: L, y ∈ q.1.set) ↔ ∃ q ∈ L, y ∈ q.1.set := by
        constructor
        · rintro ⟨q, hq, hyq⟩
          rcases List.mem_cons.mp hq with rfl | hq'
          · exact absurd hyq hy
          · exact ⟨q, hq', hyq⟩
        · rintro ⟨q, hq, hyq⟩
          exact ⟨q, List.mem_cons_of_mem _ hq, hyq⟩
      simp only [this]

/-- If the windows agree with `G` on their rectangles and the base agrees with `G` off all of them, the
    contents are `G`. -/
theorem canon_overlay_eq (G : S.Idx → Val e) (L : List (Piece Val S e)) (base : Piece Val S e)
    (hL : ∀ p ∈ L, ∀ x : p.1.shape.Idx, p.2 x = G (p.1.emb x))
    (hbase : ∀ y, (∀ p ∈ L, y ∉ p.1.set) → canon [base] y = G y) (y : S.Idx) :
    canon (L ++ [base]) y = G y := by
  rw [canon_append_single]
  by_cases h : ∃ p ∈ L, y ∈ p.1.set
  · rw [if_pos h]; exact canon_apply_of_pieces G L hL y h
  · rw [if_neg h]
    exact hbase y fun p hp hy => h ⟨p, hp, hy⟩

/-- The geometry of a piece of a two-axis buffer, as six numbers: offsets, sizes, strides. -/
def geo {R N : ℕ} (p : Piece Val ⟨2, ![R, N]⟩ e) : ℕ × ℕ × ℕ × ℕ × ℕ × ℕ :=
  (p.1.off 0, p.1.off 1, p.1.size 0, p.1.size 1, p.1.stride 0, p.1.stride 1)

/-- A piece taking all `R` rows and the `W` columns from `o` holds exactly the indices whose column is in that run. -/
theorem mem_of_geo {R N : ℕ} (p : Piece Val ⟨2, ![R, N]⟩ e) (o W : ℕ) (h : geo p = (0, o, R, W, 1, 1))
    (y : (⟨2, ![R, N]⟩ : Shape).Idx) : y ∈ p.1.set ↔ o ≤ (y 1).val ∧ (y 1).val < o + W := by
  simp only [geo, Prod.mk.injEq] at h
  obtain ⟨h0, h1, h2, h3, h4, h5⟩ := h
  rw [LoadRect.mem_set]
  constructor
  · intro hy
    obtain ⟨j, hj, ej⟩ := hy 1
    rw [h1, h5] at ej; rw [h3] at hj
    omega
  · intro hy a
    match a with
    | ⟨0, _⟩ =>
      refine ⟨(y 0).val, ?_, ?_⟩
      · show (y 0).val < p.1.size 0
        rw [h2]; exact (y 0).isLt
      · show ((y 0 : Fin _) : ℕ) = p.1.off 0 + p.1.stride 0 * (y 0).val
        rw [h0, h4]; omega
    | ⟨1, _⟩ =>
      refine ⟨(y 1).val - o, ?_, ?_⟩
      · show (y 1).val - o < p.1.size 1
        rw [h3]; omega
      · show ((y 1 : Fin _) : ℕ) = p.1.off 1 + p.1.stride 1 * ((y 1).val - o)
        rw [h1, h5]; omega

/-- Column windows at the offsets `offs` (all rows, `W` columns each) over a base piece: if the windows agree
    with `G` on their rectangles, and the base agrees with `G` at every index whose column lies in none of the
    runs, the contents are `G`. -/
theorem canon_windows_eq {R N : ℕ} (W : ℕ) (offs : List ℕ) (G : (⟨2, ![R, N]⟩ : Shape).Idx → Val e)
    (L : List (Piece Val ⟨2, ![R, N]⟩ e)) (base : Piece Val ⟨2, ![R, N]⟩ e)
    (hgeo : L.map geo = offs.map fun o => (0, o, R, W, 1, 1))
    (hL : ∀ p ∈ L, ∀ x : p.1.shape.Idx, p.2 x = G (p.1.emb x))
    (hbase : ∀ y : (⟨2, ![R, N]⟩ : Shape).Idx, (∀ o ∈ offs, ¬(o ≤ (y 1).val ∧ (y 1).val < o + W)) → canon [base] y = G y)
    (y : (⟨2, ![R, N]⟩ : Shape).Idx) : canon (L ++ [base]) y = G y := by
  refine canon_overlay_eq G L base hL (fun y hy => hbase y fun o ho hin => ?_) y
  have hm : (0, o, R, W, 1, 1) ∈ L.map geo := by
    rw [hgeo]; exact List.mem_map.mpr ⟨o, ho, rfl⟩
  obtain ⟨p, hp, hg⟩ := List.mem_map.mp hm
  exact hy p hp ((mem_of_geo p o W hg y).mpr hin)

/-- The same for a list given whole: its last piece is the base, the pieces before it the windows. -/
theorem canon_windows_last {R N : ℕ} (W : ℕ) (offs : List ℕ) (G : (⟨2, ![R, N]⟩ : Shape).Idx → Val e)
    (L' : List (Piece Val ⟨2, ![R, N]⟩ e)) (hne : L' ≠ [])
    (hgeo : L'.dropLast.map geo = offs.map fun o => (0, o, R, W, 1, 1))
    (hL : ∀ p ∈ L'.dropLast, ∀ x : p.1.shape.Idx, p.2 x = G (p.1.emb x))
    (hbase : ∀ y : (⟨2, ![R, N]⟩ : Shape).Idx, (∀ o ∈ offs, ¬(o ≤ (y 1).val ∧ (y 1).val < o + W)) →
      canon [L'.getLast hne] y = G y)
    (y : (⟨2, ![R, N]⟩ : Shape).Idx) : canon L' y = G y := by
  have h := canon_windows_eq W offs G L'.dropLast (L'.getLast hne) hgeo hL hbase y
  rwa [List.dropLast_append_getLast hne] at h

end LibCanonOverlay

end
-- ==== Proof.KerBlock.lean ====
/-
  What one run of the kernel body leaves in its output block.

  The body first lays the image block out, zero padded, in a scratch row of 4628 per channel (a zero fill overlaid
  by 64 row windows), then computes the left first stage in two halves of 2176 positions and keeps it, with two
  zeros before and after, in a second scratch row; the right first stage in a third; the second stage as ONE product
  over 640 = 320 + 320 rows; the rectifier; and stores the 64 valid columns of each of the 64 rows of 68 into the
  output block. Each scratch row is read back here as a function of its two coordinates — the padded image, the
  left intermediate with its halo, the right intermediate — and the final plane as `SepConv.core` of the body's
  inputs; the output block is that plane cropped: entry (channel o, image position (h, w)) is the core at flat
  position 68 h + 2 + w.
-/
import proofs.«149304_g2000302748725897_pallasbulk_1061_49_alg».proof.Proof.Gen.KernelIdeal.Frame
import proofs.«149304_g2000302748725897_pallasbulk_1061_49_alg».proof.Proof.Spec
import proofs.«149304_g2000302748725897_pallasbulk_1061_49_alg».proof.Proof.KerSpec
import proofs.«149304_g2000302748725897_pallasbulk_1061_49_alg».proof.Proof.KerPay
import proofs.«149304_g2000302748725897_pallasbulk_1061_49_alg».proof.Proof.LibCanonOverlay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KerBlock

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.KerPay SepConv

/-! ## Small facts -/

theorem hz2 : (![0, 0] : Fin 2 → ℕ) = fun _ => 0 := by funext a; fin_cases a <;> rfl
theorem hz3 : (![0, 0, 0] : Fin 3 → ℕ) = fun _ => 0 := by funext a; fin_cases a <;> rfl

/-- The bf16 zero word denotes zero. -/
theorem ofBits_zero_bf16 : Ideal.ofBits .bf16 0x0000#16 = 0 := by simp [Ideal.ofBits, Ideal.ieee]

/-- A function of the two coordinates, read through a window that starts at column `o1`: the function at the
    column shifted by `o1`. -/
theorem win_fun2 {R N A B : ℕ} (T : ℕ → ℕ → EReal) (o1 : ℕ) (inb) (c : Fin A) (q : Fin B) :
    (fun y : (⟨2, ![R, N]⟩ : Shape).Idx => T (y 0).val (y 1).val)
        ((Rect.unit (s := ⟨2, ![R, N]⟩) ![0, o1] ![A, B] inb).idx (ix2 c q)) = T c.val (o1 + q.val) := by
  show T _ _ = T _ _
  congr 1 <;> simp [LoadRect.idx_apply] <;> rfl

/-- The same for the index a store's rectangle gives its local index. -/
theorem emb_fun2 {R N : ℕ} (T : ℕ → ℕ → EReal) (o1 : ℕ) (sz : Fin 2 → ℕ) (inb) (x : (⟨2, sz⟩ : Shape).Idx) :
    (fun y : (⟨2, ![R, N]⟩ : Shape).Idx => T (y 0).val (y 1).val)
        ((Rect.unit (s := ⟨2, ![R, N]⟩) ![0, o1] sz inb).emb x) = T (x 0).val (o1 + (x 1).val) := by
  show T _ _ = T _ _
  congr 1 <;> simp [Rect.emb_apply]

/-- The padded row on the window of image row `(off - 140) / 68`: the image block's 64 positions from `off64`. -/
theorem padBlock_win (X : (⟨3, ![1, 64, 4096]⟩ : Shape).Idx → EReal) (c off off64 w : ℕ) (hw : w < 64)
    (h1 : 140 ≤ off) (h2 : (off - 140) % 68 = 0) (h3 : off64 = (off - 140) / 68 * 64) (h4 : off ≤ 4424) :
    padBlock X c (off + w) = at3 X 0 c (off64 + w) := by
  unfold padBlock
  rw [if_pos (by omega)]
  congr 1
  omega

/-- The final plane of one image as a function of the body's inputs. -/
def plane (x0 : Vec Ideal S1x64x4096 .f32) (x1 x2 : Vec Ideal S64x320 .bf16) (x3 : Vec Ideal S64x640 .bf16)
    (x4 x5 x6 : Vec Ideal S64x1 .f32) (x7 : Vec Ideal S1x4352 .f32) (x8 : Vec Ideal S1x4624 .f32) : S64x4352.Idx → EReal :=
  fun j => core (padBlock x0) (at2 x1) (at2 x2) (fun o k => at2 x3 o k) (fun o k => at2 x3 o (320 + k))
    (fun o p => at2 x4 o 0 * at2 x7 0 p) (fun o q => at2 x5 o 0 * at2 x8 0 q) (fun o => at2 x6 o 0) (j 0).val (j 1).val

/-- The output block: row `h` of the 64 x 64 image is the 64 columns from `68 h + 2` of the plane. -/
def cropped (P : S64x4352.Idx → EReal) : S1x64x4096.Idx → EReal :=
  fun y => at2 P (y 1).val ((y 2).val / 64 * 68 + 2 + (y 2).val % 64)

/-- The cropped plane at the index a row store's rectangle gives its local index. -/
theorem cropped_emb (P : S64x4352.Idx → EReal) (off3 : ℕ) (inb) (u : Fin 1) (a b : Fin 64) (off2 : ℕ)
    (h : off2 = off3 / 64 * 68 + 2) (h64 : off3 % 64 = 0) :
    cropped P ((Rect.unit (s := S1x64x4096) ![0, 0, off3] ![1, 64, 64] inb).emb (ix3 u a b)) = at2 P a.val (off2 + b.val) := by
  show at2 P _ _ = at2 P _ _
  have e1 : (((Rect.unit (s := S1x64x4096) ![0, 0, off3] ![1, 64, 64] inb).emb (ix3 u a b)) 1).val = a.val := by
    simp [Rect.emb_apply]
  have e2 : (((Rect.unit (s := S1x64x4096) ![0, 0, off3] ![1, 64, 64] inb).emb (ix3 u a b)) 2).val = off3 + b.val := by
    simp [Rect.emb_apply]
  rw [e1, e2]
  congr 1
  have := b.isLt
  omega

/-! ## What the body's stores hold -/

set_option maxHeartbeats 8000000 in
/-- Every store into the output block is the cropped plane on its rectangle. The scratch rows are read back as
    functions of their two coordinates: the padded image, the left intermediate with its halo, the right one. -/
theorem pieces_agree (c : Dev nD) (i : grid0.Coords) (arg1 : Memref sig .tc .vmem S1x64x4096 .f32) (harg1 : arg1.IsWhole) (arg2 : Memref sig .tc .vmem S64x320 .bf16) (harg2 : arg2.IsWhole) (arg3 : Memref sig .tc .vmem S64x320 .bf16) (harg3 : arg3.IsWhole) (arg4 : Memref sig .tc .vmem S64x640 .bf16) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S1x4352 .f32) (harg8 : arg8.IsWhole) (arg9 : Memref sig .tc .vmem S1x4624 .f32) (harg9 : arg9.IsWhole) (arg10 : Memref sig .tc .vmem S1x64x4096 .f32) (harg10 : arg10.IsWhole) (arg11 : Memref sig .tc .vmem S64x4628 .bf16) (harg11 : arg11.IsWhole) (arg12 : Memref sig .tc .vmem S64x4356 .bf16) (harg12 : arg12.IsWhole) (arg13 : Memref sig .tc .vmem S64x4624 .bf16) (harg13 : arg13.IsWhole)
    (x0 : Vec Ideal S1x64x4096 .f32) (x1 : Vec Ideal S64x320 .bf16) (x2 : Vec Ideal S64x320 .bf16) (x3 : Vec Ideal S64x640 .bf16) (x4 : Vec Ideal S64x1 .f32) (x5 : Vec Ideal S64x1 .f32) (x6 : Vec Ideal S64x1 .f32) (x7 : Vec Ideal S1x4352 .f32) (x8 : Vec Ideal S1x4624 .f32) :
    ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).1, ∀ x : p.1.shape.Idx,
      p.2 x = cropped (plane x0 x1 x2 x3 x4 x5 x6 x7 x8) (p.1.emb x) := by
  unfold kernelRun0_A
  dsimp only
  sl_unfold_words
  simp only [View.readCov_eq_canon', View.readAt_eq_ld, harg1.read_unread, harg2.read_unread, harg3.read_unread, harg4.read_unread, harg5.read_unread, harg6.read_unread, harg7.read_unread, harg8.read_unread, harg9.read_unread,
    View.ld_unit_zero (S := S1x64x4096) hz3, View.ld_unit_zero (S := S64x320) hz2, View.ld_unit_zero (S := S64x640) hz2, View.ld_unit_zero (S := S64x1) hz2, View.ld_unit_zero (S := S1x4352) hz2, View.ld_unit_zero (S := S1x4624) hz2]
  generalize hXP : View.canon (Val := Elt Ideal) ((⟨Rect.unit ![0, 4424] S64x64.size _, _⟩ : View.Piece (Elt Ideal) S64x4628 .bf16) :: _) = XPc
  generalize hSL : View.canon (Val := Elt Ideal) ((⟨Rect.unit ![0, 4354] S64x2.size _, _⟩ : View.Piece (Elt Ideal) S64x4356 .bf16) :: _) = SLc
  generalize hSR : View.canon (Val := Elt Ideal) [(⟨Rect.unit ![0, 0] S64x4624.size _, _⟩ : View.Piece (Elt Ideal) S64x4624 .bf16)] = SRc
  unfold k0_pay86 k0_pay87 k0_pay88 k0_pay1 k0_pay89 k0_pay98 k0_pay106 k0_pay115 k0_pay123 k0_pay132 k0_pay140 k0_pay149
    k0_pay97 k0_pay105 k0_pay114 k0_pay122 k0_pay131 k0_pay139 k0_pay148 k0_pay156
  generalize hRES : k0_pay85 (F := Ideal) _ _ _ _ _ _ _ _ = RES
  -- the padded image: 64 row windows over a zero fill
  have eXP : XPc = fun y => padBlock x0 (y 0).val (y 1).val := by
    rw [← hXP]
    funext y
    refine LibCanonOverlay.canon_windows_last (Val := Elt Ideal) (e := .bf16) (R := 64) (N := 4628) 64 ((List.range 64).map fun i => 4424 - 68 * i)
      (fun y => padBlock x0 (y 0).val (y 1).val) _ (List.cons_ne_nil _ _) ?hgeo ?hL ?hbase y
    case hgeo => rfl
    case hL =>
      simp only [List.dropLast_cons₂, List.dropLast_singleton, List.forall_mem_cons, List.not_mem_nil, IsEmpty.forall_iff,
        implies_true, _root_.and_true]
      refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
      all_goals
        intro x
        obtain ⟨a, b, rfl⟩ : ∃ (a b : Fin 64), x = ix2 a b := ⟨x 0, x 1, eq_ix2 x⟩
        refine (row_win x0 _ ?hoff _ _ _ _ a b).trans ?_
        case hoff => norm_num
        refine ((emb_fun2 (padBlock x0) _ _ _ (ix2 a b)).trans ?_).symm
        exact padBlock_win x0 a.val _ _ b.val b.isLt (by norm_num) (by norm_num) (by norm_num) (by norm_num)
    case hbase =>
      intro y hy
      simp only [List.getLast_cons (List.cons_ne_nil _ _), List.getLast_singleton]
      rw [View.canon_unit_zero hz2]
      unfold k0_pay3
      rw [shapeCast_self]
      show Ideal.ofBits .bf16 0x0000#16 = padBlock x0 (y 0).val (y 1).val
      rw [ofBits_zero_bf16]
      unfold padBlock
      rw [if_neg]
      intro hint
      refine hy (4424 - 68 * (65 - ((y 1).val - 2) / 68)) (List.mem_map.mpr ⟨65 - ((y 1).val - 2) / 68,
        List.mem_range.mpr (by omega), rfl⟩) ⟨by omega, by omega⟩
  subst eXP
  -- the left intermediate with its halo of two zeros on each side
  have eSL : SLc = fun y => (haloL (padBlock x0) (at2 x1) (fun o p => at2 x4 o 0 * at2 x7 0 p)) (y 0).val (y 1).val := by
    rw [← hSL]
    funext y
    refine View.canon_apply_of_pieces (Val := Elt Ideal) (S := S64x4356) (e := .bf16) (fun y => (haloL (padBlock x0) (at2 x1) (fun o p => at2 x4 o 0 * at2 x7 0 p)) (y 0).val (y 1).val) _ ?hL y ?hcov
    case hL =>
      simp only [List.forall_mem_cons, List.not_mem_nil, IsEmpty.forall_iff, implies_true, _root_.and_true]
      refine ⟨?_, ?_, ?_⟩
      · intro x
        obtain ⟨a, b, rfl⟩ : ∃ (a : Fin 64) (b : Fin 2), x = ix2 a b := ⟨x 0, x 1, eq_ix2 x⟩
        refine Eq.trans ?_ (emb_fun2 (haloL (padBlock x0) (at2 x1) (fun o p => at2 x4 o 0 * at2 x7 0 p)) _ _ _ (ix2 a b)).symm
        unfold k0_pay81 haloL
        rw [shapeCast_self, if_neg (by show ¬(2 ≤ 4354 + b.val ∧ 4354 + b.val < 4354); omega)]
        exact ofBits_zero_bf16
      · intro x
        obtain ⟨a, b, rfl⟩ : ∃ (a : Fin 64) (b : Fin 4352), x = ix2 a b := ⟨x 0, x 1, eq_ix2 x⟩
        refine Eq.trans ?_ (emb_fun2 (haloL (padBlock x0) (at2 x1) (fun o p => at2 x4 o 0 * at2 x7 0 p)) _ _ _ (ix2 a b)).symm
        unfold k0_pay80
        rw [shapeCast_self, truncf_apply]
        refine (yl_apply _ _ _ _ _ _ _ _ _ _ x1 x4 x7 (padBlock x0) ?_ ?_ ?_ ?_ ?_ ?_ ?_ ?_ ?_ ?_ a b).trans ?_
        all_goals first
          | (intro c q; exact win_fun2 (padBlock x0) _ _ c q)
          | (unfold haloL firstL
             rw [if_pos (by show 2 ≤ 2 + b.val ∧ 2 + b.val < 4354; have := b.isLt; omega), Nat.add_sub_cancel_left])
      · intro x
        obtain ⟨a, b, rfl⟩ : ∃ (a : Fin 64) (b : Fin 2), x = ix2 a b := ⟨x 0, x 1, eq_ix2 x⟩
        refine Eq.trans ?_ (emb_fun2 (haloL (padBlock x0) (at2 x1) (fun o p => at2 x4 o 0 * at2 x7 0 p)) _ _ _ (ix2 a b)).symm
        unfold k0_pay79 haloL
        rw [shapeCast_self, if_neg (by show ¬(2 ≤ 0 + b.val ∧ 0 + b.val < 4354); have := b.isLt; omega)]
        exact ofBits_zero_bf16
    case hcov =>
      have hy1 : (y 1).val < 4356 := (y 1).isLt
      by_cases h1 : (y 1).val < 2
      · refine ⟨_, List.mem_cons_of_mem _ (List.mem_cons_of_mem _ List.mem_cons_self), ?_⟩
        rw [Rect.mem_set_unit]
        intro a
        fin_cases a <;> simp <;> omega
      · by_cases h2 : (y 1).val < 4354
        · refine ⟨_, List.mem_cons_of_mem _ List.mem_cons_self, ?_⟩
          rw [Rect.mem_set_unit]
          intro a
          fin_cases a <;> simp <;> omega
        · refine ⟨_, List.mem_cons_self, ?_⟩
          rw [Rect.mem_set_unit]
          intro a
          fin_cases a <;> simp <;> omega
  subst eSL
  -- the right intermediate
  have eSR : SRc = fun y => (firstR (padBlock x0) (at2 x2) (fun o q => at2 x5 o 0 * at2 x8 0 q)) (y 0).val (y 1).val := by
    rw [← hSR, View.canon_unit_zero hz2]
    funext y
    obtain ⟨a, b, rfl⟩ : ∃ (a : Fin 64) (b : Fin 4624), y = ix2 a b := ⟨y 0, y 1, eq_ix2 y⟩
    unfold k0_pay84
    rw [shapeCast_self]
    refine (yr_apply _ _ _ _ _ x2 x5 x8 (padBlock x0) ?_ ?_ ?_ ?_ ?_ a b).trans ?_
    all_goals first
      | (intro c q; exact win_fun2 (padBlock x0) _ _ c q)
      | rfl
  subst eSR
  -- the plane
  have eRES : RES = plane x0 x1 x2 x3 x4 x5 x6 x7 x8 := by
    rw [← hRES]
    funext j
    obtain ⟨o, p, rfl⟩ : ∃ (o : Fin 64) (p : Fin 4352), j = ix2 o p := ⟨j 0, j 1, eq_ix2 j⟩
    refine (res_apply _ _ _ _ _ _ _ _ _ _ x3 x6 (haloL (padBlock x0) (at2 x1) (fun o p => at2 x4 o 0 * at2 x7 0 p)) (firstR (padBlock x0) (at2 x2) (fun o q => at2 x5 o 0 * at2 x8 0 q)) ?_ ?_ ?_ ?_ ?_ ?_ ?_ ?_ ?_ ?_ o p).trans ?_
    all_goals first
      | (intro c q; exact win_fun2 _ _ _ c q)
      | rfl
  subst eRES
  simp only [List.forall_mem_cons, List.not_mem_nil, IsEmpty.forall_iff, implies_true, _root_.and_true]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    intro x
    obtain ⟨u, a, b, rfl⟩ : ∃ (u : Fin 1) (a b : Fin 64), x = ix3 u a b := ⟨x 0, x 1, x 2, eq_ix3 x⟩
    refine (out_win _ _ ?_ _ _ u a b).trans (cropped_emb _ _ _ u a b _ ?_ ?_).symm <;> norm_num

/-! ## The block -/

/-- One run of the body leaves, at output channel `o` and position (h, w) of the image, the core at flat position
    `68 h + 2 + w` of the 64 x 68 grid. -/
theorem block_eq (c : Dev nD) (i : grid0.Coords) (arg1 : Memref sig .tc .vmem S1x64x4096 .f32) (harg1 : arg1.IsWhole) (arg2 : Memref sig .tc .vmem S64x320 .bf16) (harg2 : arg2.IsWhole) (arg3 : Memref sig .tc .vmem S64x320 .bf16) (harg3 : arg3.IsWhole) (arg4 : Memref sig .tc .vmem S64x640 .bf16) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S1x4352 .f32) (harg8 : arg8.IsWhole) (arg9 : Memref sig .tc .vmem S1x4624 .f32) (harg9 : arg9.IsWhole) (arg10 : Memref sig .tc .vmem S1x64x4096 .f32) (harg10 : arg10.IsWhole) (arg11 : Memref sig .tc .vmem S64x4628 .bf16) (harg11 : arg11.IsWhole) (arg12 : Memref sig .tc .vmem S64x4356 .bf16) (harg12 : arg12.IsWhole) (arg13 : Memref sig .tc .vmem S64x4624 .bf16) (harg13 : arg13.IsWhole)
    (x0 : Vec Ideal S1x64x4096 .f32) (x1 : Vec Ideal S64x320 .bf16) (x2 : Vec Ideal S64x320 .bf16) (x3 : Vec Ideal S64x640 .bf16) (x4 : Vec Ideal S64x1 .f32) (x5 : Vec Ideal S64x1 .f32) (x6 : Vec Ideal S64x1 .f32) (x7 : Vec Ideal S1x4352 .f32) (x8 : Vec Ideal S1x4624 .f32) (o h w : Fin 64) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix3 (0 : Fin 1) o ⟨h.val * 64 + w.val, by have := h.isLt; have := w.isLt; omega⟩)
      = core (padBlock x0) (at2 x1) (at2 x2) (fun o k => at2 x3 o k) (fun o k => at2 x3 o (320 + k))
          (fun o p => at2 x4 o 0 * at2 x7 0 p) (fun o q => at2 x5 o 0 * at2 x8 0 q) (fun o => at2 x6 o 0) o.val (h.val * 68 + 2 + w.val) := by
  unfold out0_A_9
  rw [View.read_writes_junk_eq_canon]
  refine (View.canon_apply_of_pieces (Val := Elt Ideal) (S := S1x64x4096) (e := .f32) (cropped (plane x0 x1 x2 x3 x4 x5 x6 x7 x8)) _
    (pieces_agree c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8) _ (cover0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 _)).trans ?_
  show at2 (plane x0 x1 x2 x3 x4 x5 x6 x7 x8) o.val ((h.val * 64 + w.val) / 64 * 68 + 2 + (h.val * 64 + w.val) % 64) = _
  have hh := h.isLt
  have hw := w.isLt
  rw [show (h.val * 64 + w.val) / 64 * 68 + 2 + (h.val * 64 + w.val) % 64 = h.val * 68 + 2 + w.val by omega,
    at2_of_lt _ o.isLt (show h.val * 68 + 2 + w.val < 4352 by omega)]
  rfl

end Cert.KernelIdeal.KerBlock

end
-- ==== Proof.KerFinal.lean ====
/-
  Every block the kernel leaves is the specification's result on that block.

  At grid point `t` the body is called with the nine input blocks of point `t`. What it leaves in the output
  block, at channel `o` and flat position `h * 64 + w`, is the core over those blocks at channel `o` and flat
  position `h * 68 + 2 + w` of the 64 x 68 grid; read in the specification's words, the blocks are the padded rows
  of image `t`, the tap matrices, the bias planes and the summed second-stage bias of the argument arrays; and the
  core over these, at that channel and position, is by definition the result at (t, o, h, w).
-/
import proofs.«149304_g2000302748725897_pallasbulk_1061_49_alg».proof.Proof.Gen.KernelIdeal.Frame
import proofs.«149304_g2000302748725897_pallasbulk_1061_49_alg».proof.Proof.Spec
import proofs.«149304_g2000302748725897_pallasbulk_1061_49_alg».proof.Proof.KerSpec
import proofs.«149304_g2000302748725897_pallasbulk_1061_49_alg».proof.Proof.KerInputs
import proofs.«149304_g2000302748725897_pallasbulk_1061_49_alg».proof.Proof.MasksK
import proofs.«149304_g2000302748725897_pallasbulk_1061_49_alg».proof.Proof.KerBlock
import Idealize.ShloMosaic.Lib.ValueIdx
import Idealize.ShloMosaic.PureOps.Ideal.Laws

set_option maxRecDepth 16384

noncomputable section

namespace Cert.KernelIdeal.KerFinal

open Idealize.ShloMosaic Idealize.ShloMosaic.ValueIdx

variable (m : (ℓ : Loc nD τ sig) → Buf (Elt Ideal) ℓ) (c : Dev nD)

/-- Block `t` of the output, at channel `o` and flat position `h * 64 + w`, is the result at (t, o, h, w). -/
theorem blocks (t : Fin cfg0.N) (o h w : Fin 64) :
    Gen.outsAt0 (F := Ideal) m c t
        (ix3 (0 : Fin 1) o (⟨h.val * 64 + w.val, by have := h.isLt; have := w.isLt; omega⟩ : Fin 4096))
      = SepConv.result (m ((c.tc : Thread nD τ).loc main_arg0) : S64x64x64x64.Idx → EReal)
          (m ((c.tc : Thread nD τ).loc main_arg1) : S64x64x5x1.Idx → EReal)
          (m ((c.tc : Thread nD τ).loc main_arg2) : S64.Idx → EReal)
          (m ((c.tc : Thread nD τ).loc main_arg3) : S64x64x1x5.Idx → EReal)
          (m ((c.tc : Thread nD τ).loc main_arg4) : S64.Idx → EReal)
          (m ((c.tc : Thread nD τ).loc main_arg5) : S64x64x1x5.Idx → EReal)
          (m ((c.tc : Thread nD τ).loc main_arg6) : S64.Idx → EReal)
          (m ((c.tc : Thread nD τ).loc main_arg7) : S64x64x5x1.Idx → EReal)
          (m ((c.tc : Thread nD τ).loc main_arg8) : S64.Idx → EReal)
          (ix4 (⟨t.val, KerInputs.point_lt t⟩ : Fin 64) o h w) := by
  unfold Gen.outsAt0
  refine (KerBlock.block_eq c (grid0.coords t) (Gen.ms0_0 t) (Gen.hs0_0 t) (Gen.ms0_1 t) (Gen.hs0_1 t) (Gen.ms0_2 t)
    (Gen.hs0_2 t) (Gen.ms0_3 t) (Gen.hs0_3 t) (Gen.ms0_4 t) (Gen.hs0_4 t) (Gen.ms0_5 t) (Gen.hs0_5 t) (Gen.ms0_6 t)
    (Gen.hs0_6 t) (Gen.ms0_7 t) (Gen.hs0_7 t) (Gen.ms0_8 t) (Gen.hs0_8 t) (Gen.ms0_9 t) (Gen.hs0_9 t) Gen.scM0_0
    (Memref.isWhole_whole _) Gen.scM0_1 (Memref.isWhole_whole _) Gen.scM0_2 (Memref.isWhole_whole _)
    (Gen.iblk m c 0 t) (Gen.iblk m c 1 t) (Gen.iblk m c 2 t) (Gen.iblk m c 3 t) (Gen.iblk m c 4 t)
    (Gen.iblk m c 5 t) (Gen.iblk m c 6 t) (Gen.iblk m c 7 t) (Gen.iblk m c 8 t) o h w).trans ?_
  exact KerInputs.core_inputs m c t (Masks.maskW_kernel m c) (Masks.maskH_kernel m c) o.val
    (h.val * 68 + 2 + w.val)

end Cert.KernelIdeal.KerFinal

end
-- ==== Proof.RefBlock.lean ====
/-
  What one run of the reference's body leaves in its output block, entry by entry.

  The body works on one image: a block of 64 channels by 4628 flat positions (the zero-padded 68 x 68 image,
  flattened, with two more zeros at each end). It forms the first stage of the left branch as a product of the
  64 x 320 weight matrix with the stack of five windows of the block (the shifts by 68 that are the five taps
  along the height), adds a bias plane, and stores the 4352 columns between two pairs of zero columns of a row
  buffer. It forms the second stage of the left branch from five windows of that buffer (the shifts by one);
  then the first stage of the right branch from five windows of the block shifted by one, plus its bias plane,
  stored over the whole row buffer; then the second stage of the right branch from five windows of the buffer
  shifted by 68. The sum of the two second stages plus the bias column goes through the leaky rectifier.

  Each product is read at an entry as the sum over the 320 contracted positions `k`, position `k` being row
  `k % 64` of window `k / 64` of the stack; each window is read at a position as the buffer at the shifted
  position; and the row buffer after its three partial stores is the stored plane with two zeros before and
  after it. Put together, the block's entry at channel `o` and position `p` is `SepConv.core` of the inputs.
-/
import proofs.«149304_g2000302748725897_pallasbulk_1061_49_alg».proof.Proof.Gen.ReferenceIdeal.Frame
import proofs.«149304_g2000302748725897_pallasbulk_1061_49_alg».proof.Proof.Spec
import proofs.«149304_g2000302748725897_pallasbulk_1061_49_alg».proof.Proof.LibMatmulIdx
import proofs.«149304_g2000302748725897_pallasbulk_1061_49_alg».proof.Proof.LibTileSums
import Idealize.ShloMosaic.Lib.Pipeline.Value
import Idealize.ShloMosaic.Lib.ValueIdx
import Idealize.ShloMosaic.Lib.ValueLayout
import Idealize.ShloMosaic.PureOps.Ideal.Laws

set_option maxRecDepth 16384
noncomputable section
namespace Cert.ReferenceIdeal.RefBlock
open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Finset

/-! ## Five stacked pieces of 64 rows, and a product with such a stack -/

/-- The stack of five 64-row matrices along the row axis, read at row `k` and column `p`: row `k % 64` of piece
    `k / 64`. The pieces' entries in column `p` are given as one function `g` of the piece number and the row. -/
theorem cat5_apply {N : ℕ} (a0 a1 a2 a3 a4 : (⟨2, ![64, N]⟩ : Shape).Idx → EReal)
    (h : Shape.Concatenates [(⟨2, ![64, N]⟩ : Shape), (⟨2, ![64, N]⟩ : Shape), (⟨2, ![64, N]⟩ : Shape), (⟨2, ![64, N]⟩ : Shape), (⟨2, ![64, N]⟩ : Shape)] ⟨2, ![320, N]⟩ 0)
    (g : ℕ → ℕ → EReal) (p : Fin N)
    (h0 : ∀ c : Fin 64, a0 (ix2 c p) = g 0 c.val) (h1 : ∀ c : Fin 64, a1 (ix2 c p) = g 1 c.val)
    (h2 : ∀ c : Fin 64, a2 (ix2 c p) = g 2 c.val) (h3 : ∀ c : Fin 64, a3 (ix2 c p) = g 3 c.val)
    (h4 : ∀ c : Fin 64, a4 (ix2 c p) = g 4 c.val) (k : Fin 320) :
    concatenate (⟨2, ![320, N]⟩ : Shape) 0 [(⟨(⟨2, ![64, N]⟩ : Shape), a0⟩ : (s : Shape) × (s.Idx → EReal)), ⟨(⟨2, ![64, N]⟩ : Shape), a1⟩, ⟨(⟨2, ![64, N]⟩ : Shape), a2⟩, ⟨(⟨2, ![64, N]⟩ : Shape), a3⟩, ⟨(⟨2, ![64, N]⟩ : Shape), a4⟩] h (ix2 k p) = g (k.val / 64) (k.val % 64) := by
  have hk := k.isLt
  have hm : k.val % 64 < 64 := Nat.mod_lt _ (by omega)
  have key : ∀ (t : ℕ) (ht : t < 5) (a : (⟨2, ![64, N]⟩ : Shape).Idx → EReal)
      (hx : [(⟨(⟨2, ![64, N]⟩ : Shape), a0⟩ : (s : Shape) × (s.Idx → EReal)), ⟨(⟨2, ![64, N]⟩ : Shape), a1⟩, ⟨(⟨2, ![64, N]⟩ : Shape), a2⟩, ⟨(⟨2, ![64, N]⟩ : Shape), a3⟩, ⟨(⟨2, ![64, N]⟩ : Shape), a4⟩][t]'(by simpa using ht) = ⟨(⟨2, ![64, N]⟩ : Shape), a⟩)
      (hpre : ((([(⟨(⟨2, ![64, N]⟩ : Shape), a0⟩ : (s : Shape) × (s.Idx → EReal)), ⟨(⟨2, ![64, N]⟩ : Shape), a1⟩, ⟨(⟨2, ![64, N]⟩ : Shape), a2⟩, ⟨(⟨2, ![64, N]⟩ : Shape), a3⟩, ⟨(⟨2, ![64, N]⟩ : Shape), a4⟩].take t).map (·.1)).map
          fun s => if h : s.rank = (⟨2, ![320, N]⟩ : Shape).rank then s.size ((0 : Fin 2).cast h.symm) else 0).sum = 64 * t)
      (hq' : k.val / 64 = t),
      concatenate (⟨2, ![320, N]⟩ : Shape) 0 [(⟨(⟨2, ![64, N]⟩ : Shape), a0⟩ : (s : Shape) × (s.Idx → EReal)), ⟨(⟨2, ![64, N]⟩ : Shape), a1⟩, ⟨(⟨2, ![64, N]⟩ : Shape), a2⟩, ⟨(⟨2, ![64, N]⟩ : Shape), a3⟩, ⟨(⟨2, ![64, N]⟩ : Shape), a4⟩] h (ix2 k p) = a (ix2 ⟨k.val % 64, hm⟩ p) := by
    intro t ht a hx hpre hq'
    refine concatenate_apply_piece (t := (⟨2, ![320, N]⟩ : Shape)) (0 : Fin 2) [(⟨(⟨2, ![64, N]⟩ : Shape), a0⟩ : (s : Shape) × (s.Idx → EReal)), ⟨(⟨2, ![64, N]⟩ : Shape), a1⟩, ⟨(⟨2, ![64, N]⟩ : Shape), a2⟩, ⟨(⟨2, ![64, N]⟩ : Shape), a3⟩, ⟨(⟨2, ![64, N]⟩ : Shape), a4⟩]
      (show Shape.Concatenates (List.map (·.1) [(⟨(⟨2, ![64, N]⟩ : Shape), a0⟩ : (s : Shape) × (s.Idx → EReal)), ⟨(⟨2, ![64, N]⟩ : Shape), a1⟩, ⟨(⟨2, ![64, N]⟩ : Shape), a2⟩, ⟨(⟨2, ![64, N]⟩ : Shape), a3⟩, ⟨(⟨2, ![64, N]⟩ : Shape), a4⟩]) (⟨2, ![320, N]⟩ : Shape) (0 : Fin 2) from h)
      (ix2 k p) t (by simpa using ht) _ a hx rfl (64 * t) hpre
      (ix2 ⟨k.val % 64, hm⟩ p) ?_ ?_
    · intro b hb
      match b with
      | ⟨0, _⟩ => exact absurd rfl hb
      | ⟨1, _⟩ => rfl
    · show 64 * t + k.val % 64 = k.val
      omega
  have hq : k.val / 64 = 0 ∨ k.val / 64 = 1 ∨ k.val / 64 = 2 ∨ k.val / 64 = 3 ∨ k.val / 64 = 4 := by omega
  rcases hq with hq' | hq' | hq' | hq' | hq'
  · rw [key 0 (by omega) a0 rfl rfl hq', hq', h0]
  · rw [key 1 (by omega) a1 rfl rfl hq', hq', h1]
  · rw [key 2 (by omega) a2 rfl rfl hq', hq', h2]
  · rw [key 3 (by omega) a3 rfl rfl hq', hq', h3]
  · rw [key 4 (by omega) a4 rfl rfl hq', hq', h4]

/-- A 64 × 320 matrix times such a stack, into the zero accumulator, at row `o` and column `p`: the sum over the
    320 contracted positions `k` of the matrix's entry times row `k % 64` of piece `k / 64`. -/
theorem mmcat_apply {N : ℕ} (D : DotDims ⟨2, ![64, 320]⟩ ⟨2, ![320, N]⟩ ⟨2, ![64, N]⟩)
    (hr : D.contr.rank = 1) (hs : D.contr.size ⟨0, by omega⟩ = 320)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (W : FVec Ideal ⟨2, ![64, 320]⟩ .f32) (a0 a1 a2 a3 a4 : (⟨2, ![64, N]⟩ : Shape).Idx → EReal)
    (h : Shape.Concatenates [(⟨2, ![64, N]⟩ : Shape), (⟨2, ![64, N]⟩ : Shape), (⟨2, ![64, N]⟩ : Shape), (⟨2, ![64, N]⟩ : Shape), (⟨2, ![64, N]⟩ : Shape)] ⟨2, ![320, N]⟩ 0)
    (g : ℕ → ℕ → EReal) (o : Fin 64) (p : Fin N)
    (h0 : ∀ c : Fin 64, a0 (ix2 c p) = g 0 c.val) (h1 : ∀ c : Fin 64, a1 (ix2 c p) = g 1 c.val)
    (h2 : ∀ c : Fin 64, a2 (ix2 c p) = g 2 c.val) (h3 : ∀ c : Fin 64, a3 (ix2 c p) = g 3 c.val)
    (h4 : ∀ c : Fin 64, a4 (ix2 c p) = g 4 c.val) :
    FloatOps.matmul (F := Ideal) (φ₁ := .f32) (φ₂ := .f32) D none W
        (concatenate (⟨2, ![320, N]⟩ : Shape) 0 [(⟨(⟨2, ![64, N]⟩ : Shape), a0⟩ : (s : Shape) × (s.Idx → EReal)), ⟨(⟨2, ![64, N]⟩ : Shape), a1⟩, ⟨(⟨2, ![64, N]⟩ : Shape), a2⟩, ⟨(⟨2, ![64, N]⟩ : Shape), a3⟩, ⟨(⟨2, ![64, N]⟩ : Shape), a4⟩] h)
        (constant (F := Ideal) ⟨2, ![64, N]⟩ .f32 0x00000000#32) (ix2 o p)
      = ∑ k ∈ range 320, SepConv.at2 W o.val k * g (k / 64) (k % 64) := by
  refine (LibMatmulIdx.matmul2_apply D hr hs hl0 hl1 hr0 hr1 none W _ (ix2 o p)).trans ?_
  rw [← Fin.sum_univ_eq_sum_range (fun k => SepConv.at2 W o.val k * g (k / 64) (k % 64)) 320]
  refine Finset.sum_congr rfl fun k _ => ?_
  show W (ix2 o k) * concatenate (⟨2, ![320, N]⟩ : Shape) 0 [(⟨(⟨2, ![64, N]⟩ : Shape), a0⟩ : (s : Shape) × (s.Idx → EReal)), ⟨(⟨2, ![64, N]⟩ : Shape), a1⟩, ⟨(⟨2, ![64, N]⟩ : Shape), a2⟩, ⟨(⟨2, ![64, N]⟩ : Shape), a3⟩, ⟨(⟨2, ![64, N]⟩ : Shape), a4⟩] h (ix2 k p) = _
  rw [cat5_apply a0 a1 a2 a3 a4 h g p h0 h1 h2 h3 h4 k, SepConv.at2_ix2]

/-! ## The two contraction records: one contracted axis of 320, rows from the left factor, columns from the right -/

theorem d52_rank : dot_S64x320_S320x4352_S64x4352_1_0_0_1_n_n.contr.rank = 1 := rfl
theorem d52_size : dot_S64x320_S320x4352_S64x4352_1_0_0_1_n_n.contr.size ⟨0, by rw [d52_rank]; exact Nat.one_pos⟩ = 320 := rfl
theorem d52_l0 (j : S64x4352.Idx) (k : dot_S64x320_S320x4352_S64x4352_1_0_0_1_n_n.contr.Idx) : (dot_S64x320_S320x4352_S64x4352_1_0_0_1_n_n.lhsIdx j k 0).val = (j 0).val := rfl
theorem d52_l1 (j : S64x4352.Idx) (k : dot_S64x320_S320x4352_S64x4352_1_0_0_1_n_n.contr.Idx) :
    (dot_S64x320_S320x4352_S64x4352_1_0_0_1_n_n.lhsIdx j k 1).val = (k ⟨0, by rw [d52_rank]; exact Nat.one_pos⟩).val :=
  DotDims.lhsIdx_val_of_single dot_S64x320_S320x4352_S64x4352_1_0_0_1_n_n (cl := 1) rfl j k
theorem d52_r0 (j : S64x4352.Idx) (k : dot_S64x320_S320x4352_S64x4352_1_0_0_1_n_n.contr.Idx) :
    (dot_S64x320_S320x4352_S64x4352_1_0_0_1_n_n.rhsIdx j k 0).val = (k ⟨0, by rw [d52_rank]; exact Nat.one_pos⟩).val :=
  DotDims.rhsIdx_val_of_single dot_S64x320_S320x4352_S64x4352_1_0_0_1_n_n (cr := 0) rfl j k
theorem d52_r1 (j : S64x4352.Idx) (k : dot_S64x320_S320x4352_S64x4352_1_0_0_1_n_n.contr.Idx) : (dot_S64x320_S320x4352_S64x4352_1_0_0_1_n_n.rhsIdx j k 1).val = (j 1).val := rfl

theorem d24_rank : dot_S64x320_S320x4624_S64x4624_1_0_0_1_n_n.contr.rank = 1 := rfl
theorem d24_size : dot_S64x320_S320x4624_S64x4624_1_0_0_1_n_n.contr.size ⟨0, by rw [d24_rank]; exact Nat.one_pos⟩ = 320 := rfl
theorem d24_l0 (j : S64x4624.Idx) (k : dot_S64x320_S320x4624_S64x4624_1_0_0_1_n_n.contr.Idx) : (dot_S64x320_S320x4624_S64x4624_1_0_0_1_n_n.lhsIdx j k 0).val = (j 0).val := rfl
theorem d24_l1 (j : S64x4624.Idx) (k : dot_S64x320_S320x4624_S64x4624_1_0_0_1_n_n.contr.Idx) :
    (dot_S64x320_S320x4624_S64x4624_1_0_0_1_n_n.lhsIdx j k 1).val = (k ⟨0, by rw [d24_rank]; exact Nat.one_pos⟩).val :=
  DotDims.lhsIdx_val_of_single dot_S64x320_S320x4624_S64x4624_1_0_0_1_n_n (cl := 1) rfl j k
theorem d24_r0 (j : S64x4624.Idx) (k : dot_S64x320_S320x4624_S64x4624_1_0_0_1_n_n.contr.Idx) :
    (dot_S64x320_S320x4624_S64x4624_1_0_0_1_n_n.rhsIdx j k 0).val = (k ⟨0, by rw [d24_rank]; exact Nat.one_pos⟩).val :=
  DotDims.rhsIdx_val_of_single dot_S64x320_S320x4624_S64x4624_1_0_0_1_n_n (cr := 0) rfl j k
theorem d24_r1 (j : S64x4624.Idx) (k : dot_S64x320_S320x4624_S64x4624_1_0_0_1_n_n.contr.Idx) : (dot_S64x320_S320x4624_S64x4624_1_0_0_1_n_n.rhsIdx j k 1).val = (j 1).val := rfl

/-! ## The four products of the body, read at an entry -/

/-- The second stage of the left branch: the left second-stage weights times the stack of five windows. -/
theorem pay6_apply (v28 v29 v30 v31 v32 : Vec Ideal S64x4352 .f32) (v34 : Vec Ideal S64x320 .f32)
    (g : ℕ → ℕ → EReal) (o : Fin 64) (p : Fin 4352)
    (h0 : ∀ c : Fin 64, v28 (ix2 c p) = g 0 c.val) (h1 : ∀ c : Fin 64, v29 (ix2 c p) = g 1 c.val) (h2 : ∀ c : Fin 64, v30 (ix2 c p) = g 2 c.val) (h3 : ∀ c : Fin 64, v31 (ix2 c p) = g 3 c.val) (h4 : ∀ c : Fin 64, v32 (ix2 c p) = g 4 c.val) :
    k0_pay6 (F := Ideal) v28 v29 v30 v31 v32 v34 (ix2 o p)
      = ∑ k ∈ range 320, SepConv.at2 v34 o.val k * g (k / 64) (k % 64) := by
  unfold k0_pay6
  rw [shapeCast_self v34 shapeCasts_S64x320_S64x320]
  exact mmcat_apply dot_S64x320_S320x4352_S64x4352_1_0_0_1_n_n d52_rank d52_size d52_l0 d52_l1 d52_r0 d52_r1 v34 v28 v29 v30 v31 v32
    concatenates_S64x4352_S64x4352_S64x4352_S64x4352_S64x4352_S320x4352_d0 g o p h0 h1 h2 h3 h4

/-- The first stage of the right branch: weights times the stack of five windows of the image, plus the bias plane. -/
theorem pay7_apply (v37 v39 v41 v43 v45 : Vec Ideal S1x64x4624 .f32) (v48 : Vec Ideal S64x320 .f32)
    (v51 : Vec Ideal S64x4624 .f32) (g : ℕ → ℕ → EReal) (o : Fin 64) (q : Fin 4624)
    (h0 : ∀ c : Fin 64, v37 (ix3 (0 : Fin 1) c q) = g 0 c.val) (h1 : ∀ c : Fin 64, v39 (ix3 (0 : Fin 1) c q) = g 1 c.val) (h2 : ∀ c : Fin 64, v41 (ix3 (0 : Fin 1) c q) = g 2 c.val) (h3 : ∀ c : Fin 64, v43 (ix3 (0 : Fin 1) c q) = g 3 c.val) (h4 : ∀ c : Fin 64, v45 (ix3 (0 : Fin 1) c q) = g 4 c.val) :
    k0_pay7 (F := Ideal) v37 v39 v41 v43 v45 v48 v51 (ix2 o q)
      = (∑ k ∈ range 320, SepConv.at2 v48 o.val k * g (k / 64) (k % 64)) + v51 (ix2 o q) := by
  unfold k0_pay7
  rw [shapeCast_self v48 shapeCasts_S64x320_S64x320, shapeCast_self v51 shapeCasts_S64x4624_S64x4624]
  refine congrArg (· + v51 (ix2 o q)) ?_
  exact mmcat_apply dot_S64x320_S320x4624_S64x4624_1_0_0_1_n_n d24_rank d24_size d24_l0 d24_l1 d24_r0 d24_r1 v48 _ _ _ _ _
    concatenates_S64x4624_S64x4624_S64x4624_S64x4624_S64x4624_S320x4624_d0 g o q
    (fun c => (shapeCast_1ab_ab_apply v37 shapeCasts_S1x64x4624_S64x4624 c q).trans (h0 c))
    (fun c => (shapeCast_1ab_ab_apply v39 shapeCasts_S1x64x4624_S64x4624 c q).trans (h1 c))
    (fun c => (shapeCast_1ab_ab_apply v41 shapeCasts_S1x64x4624_S64x4624 c q).trans (h2 c))
    (fun c => (shapeCast_1ab_ab_apply v43 shapeCasts_S1x64x4624_S64x4624 c q).trans (h3 c))
    (fun c => (shapeCast_1ab_ab_apply v45 shapeCasts_S1x64x4624_S64x4624 c q).trans (h4 c))

/-- The first stage of the left branch, likewise. -/
theorem pay4_apply (v0 v2 v4 v6 v8 : Vec Ideal S1x64x4352 .f32) (v11 : Vec Ideal S64x320 .f32)
    (v14 : Vec Ideal S64x4352 .f32) (g : ℕ → ℕ → EReal) (o : Fin 64) (p : Fin 4352)
    (h0 : ∀ c : Fin 64, v0 (ix3 (0 : Fin 1) c p) = g 0 c.val) (h1 : ∀ c : Fin 64, v2 (ix3 (0 : Fin 1) c p) = g 1 c.val) (h2 : ∀ c : Fin 64, v4 (ix3 (0 : Fin 1) c p) = g 2 c.val) (h3 : ∀ c : Fin 64, v6 (ix3 (0 : Fin 1) c p) = g 3 c.val) (h4 : ∀ c : Fin 64, v8 (ix3 (0 : Fin 1) c p) = g 4 c.val) :
    k0_pay4 (F := Ideal) v0 v2 v4 v6 v8 v11 v14 (ix2 o p)
      = (∑ k ∈ range 320, SepConv.at2 v11 o.val k * g (k / 64) (k % 64)) + v14 (ix2 o p) := by
  unfold k0_pay4
  rw [shapeCast_self _ shapeCasts_S64x4352_S64x4352, shapeCast_self v11 shapeCasts_S64x320_S64x320,
    shapeCast_self v14 shapeCasts_S64x4352_S64x4352]
  refine congrArg (· + v14 (ix2 o p)) ?_
  exact mmcat_apply dot_S64x320_S320x4352_S64x4352_1_0_0_1_n_n d52_rank d52_size d52_l0 d52_l1 d52_r0 d52_r1 v11 _ _ _ _ _
    concatenates_S64x4352_S64x4352_S64x4352_S64x4352_S64x4352_S320x4352_d0 g o p
    (fun c => (shapeCast_1ab_ab_apply v0 shapeCasts_S1x64x4352_S64x4352 c p).trans (h0 c))
    (fun c => (shapeCast_1ab_ab_apply v2 shapeCasts_S1x64x4352_S64x4352 c p).trans (h1 c))
    (fun c => (shapeCast_1ab_ab_apply v4 shapeCasts_S1x64x4352_S64x4352 c p).trans (h2 c))
    (fun c => (shapeCast_1ab_ab_apply v6 shapeCasts_S1x64x4352_S64x4352 c p).trans (h3 c))
    (fun c => (shapeCast_1ab_ab_apply v8 shapeCasts_S1x64x4352_S64x4352 c p).trans (h4 c))

/-- The block's entry: the left branch's second stage `v36`, plus the right second-stage weights times the stack
    of five windows, plus the bias column, through the leaky rectifier. -/
theorem pay2_apply (v36 : FVec Ideal S64x4352 .f32) (v57 v58 v59 v60 v61 : Vec Ideal S64x4352 .f32)
    (v63 : Vec Ideal S64x320 .f32) (v67 : Vec Ideal S64x1 .f32) (g : ℕ → ℕ → EReal) (o : Fin 64) (p : Fin 4352)
    (h0 : ∀ c : Fin 64, v57 (ix2 c p) = g 0 c.val) (h1 : ∀ c : Fin 64, v58 (ix2 c p) = g 1 c.val) (h2 : ∀ c : Fin 64, v59 (ix2 c p) = g 2 c.val) (h3 : ∀ c : Fin 64, v60 (ix2 c p) = g 3 c.val) (h4 : ∀ c : Fin 64, v61 (ix2 c p) = g 4 c.val) :
    k0_pay2 (F := Ideal) v36 v57 v58 v59 v60 v61 v63 v67 (ix3 (0 : Fin 1) o p)
      = SepConv.leaky (v36 (ix2 o p) + (∑ k ∈ range 320, SepConv.at2 v63 o.val k * g (k / 64) (k % 64))
          + v67 (ix2 o (0 : Fin 1))) := by
  unfold k0_pay2
  refine (shapeCast_ab_1ab_apply _ shapeCasts_S64x4352_S1x64x4352 (0 : Fin 1) o p).trans ?_
  show SepConv.leaky (_ + _ + _) = _
  refine congrArg SepConv.leaky ?_
  refine congrArg₂ (· + ·) (congrArg (v36 (ix2 o p) + ·) ?_) ?_
  · rw [shapeCast_self v63 shapeCasts_S64x320_S64x320]
    exact mmcat_apply dot_S64x320_S320x4352_S64x4352_1_0_0_1_n_n d52_rank d52_size d52_l0 d52_l1 d52_r0 d52_r1 v63 v57 v58 v59 v60 v61
      concatenates_S64x4352_S64x4352_S64x4352_S64x4352_S64x4352_S320x4352_d0 g o p h0 h1 h2 h3 h4
  · rw [shapeCast_self v67 shapeCasts_S64x1_S64x1]
    exact broadcastTo_apply v67 broadcasts_S64x1_S64x4352 (ix2 o p) (ix2 o (0 : Fin 1)) (fun a =>
      match a with
      | ⟨0, _⟩ => rfl
      | ⟨1, _⟩ => rfl)

/-! ## Reading the buffers -/

theorem zero2 : (![0, 0] : Fin 2 → ℕ) = fun _ => 0 := by
  funext a; match a with | ⟨0, _⟩ => rfl | ⟨1, _⟩ => rfl

theorem zero3 : (![0, 0, 0] : Fin 3 → ℕ) = fun _ => 0 := by
  funext a; match a with | ⟨0, _⟩ => rfl | ⟨1, _⟩ => rfl | ⟨2, _⟩ => rfl

/-- A window of `N` flat positions of the padded image block starting at position `t`, read at channel `c` and
    position `p`: the image at flat position `t + p`. -/
theorem readAt3_apply {N : ℕ} (arg1 : Memref sig .tc .vmem S1x64x4628 .f32) (harg1 : arg1.IsWhole)
    (x0 : Vec Ideal S1x64x4628 .f32) (t : ℕ)
    (inb : ∀ a, (![0, 0, t] : Fin 3 → ℕ) a + (![1, 64, N] : Fin 3 → ℕ) a ≤ S1x64x4628.size a) (c : Fin 64) (p : Fin N) :
    View.readAt (Elt Ideal) arg1.view (Rect.unit (s := S1x64x4628) ![0, 0, t] ![1, 64, N] inb).toLoadRect
        (harg1.unread x0) (ix3 (0 : Fin 1) c p)
      = SepConv.at3 x0 0 c.val (t + p.val) := by
  have hN : t + N ≤ 4628 := inb 2
  have hp := p.isLt
  have ht : t + p.val < 4628 := by omega
  rw [View.readAt_eq_ld, harg1.read_unread, SepConv.at3_of_lt x0 (by omega) c.isLt ht]
  show x0 _ = x0 _
  refine congrArg x0 (funext fun a => Fin.ext ?_)
  match a with
  | ⟨0, _⟩ => rfl
  | ⟨1, _⟩ => show 0 + 1 * c.val = c.val; omega
  | ⟨2, _⟩ => show t + 1 * p.val = t + p.val; omega

/-- A whole two-axis buffer loaded whole reads its contents. -/
theorem readAt2_whole {A B : ℕ} (arg : Memref sig .tc .vmem ⟨2, ![A, B]⟩ .f32) (harg : arg.IsWhole)
    (x : Vec Ideal ⟨2, ![A, B]⟩ .f32)
    (inb : ∀ a, (![0, 0] : Fin 2 → ℕ) a + (⟨2, ![A, B]⟩ : Shape).size a ≤ (⟨2, ![A, B]⟩ : Shape).size a) :
    View.readAt (Elt Ideal) arg.view (Rect.unit (s := ⟨2, ![A, B]⟩) ![0, 0] (⟨2, ![A, B]⟩ : Shape).size inb).toLoadRect
        (harg.unread x) = x := by
  rw [View.readAt_eq_ld, harg.read_unread]
  exact View.ld_unit_zero zero2 inb x

/-- Where a window of the scratch rows starting at column `t` reads: row `c`, column `t + p`. -/
theorem idx2_apply {N : ℕ} (t : ℕ)
    (inb : ∀ a, (![0, t] : Fin 2 → ℕ) a + (![64, N] : Fin 2 → ℕ) a ≤ S64x4624.size a)
    (c : Fin 64) (p : Fin N) (h : t + p.val < 4624) :
    (Rect.unit (s := S64x4624) ![0, t] ![64, N] inb).toLoadRect.idx (ix2 c p) = ix2 c ⟨t + p.val, h⟩ := by
  refine funext fun a => Fin.ext ?_
  match a with
  | ⟨0, _⟩ => show 0 + 1 * c.val = c.val; omega
  | ⟨1, _⟩ => show t + 1 * p.val = t + p.val; omega

/-- After one store of the whole scratch (whatever was stored before), a window of it reads the stored value. -/
theorem readCov_whole_apply {κ : Kind} {sp : Space} {N : ℕ} (v : View sig κ sp S64x4624 .f32)
    (inb0 : ∀ a, (![0, 0] : Fin 2 → ℕ) a + S64x4624.size a ≤ S64x4624.size a)
    (w : S64x4624.Idx → EReal) (L : List (View.Piece (Elt Ideal) S64x4624 .f32)) (t : ℕ)
    (inb : ∀ a, (![0, t] : Fin 2 → ℕ) a + (![64, N] : Fin 2 → ℕ) a ≤ S64x4624.size a)
    (c : Fin 64) (p : Fin N) (h : t + p.val < 4624) :
    v.readCov ((⟨Rect.unit ![0, 0] S64x4624.size inb0, w⟩ : View.Piece (Elt Ideal) S64x4624 .f32) :: L)
        (Rect.unit (s := S64x4624) ![0, t] ![64, N] inb).toLoadRect (ix2 c p) = w (ix2 c ⟨t + p.val, h⟩) := by
  rw [View.readCov_eq_canon', View.canon_cons_unit_zero (S := S64x4624) zero2 inb0 w L]
  beta_reduce
  rw [idx2_apply t inb c p h]

/-- The scratch rows after the three stores of the first part — zeros at columns 0 and 1, a plane `pB` of 4352
    columns from column 2, zeros at columns 4354 and 4355 — read at a column below 4356: the plane with two
    zeros put before and after it. -/
theorem halo_canon
    (inbA : ∀ a, (![0, 4354] : Fin 2 → ℕ) a + S64x2.size a ≤ S64x4624.size a)
    (inbB : ∀ a, (![0, 2] : Fin 2 → ℕ) a + S64x4352.size a ≤ S64x4624.size a)
    (inbC : ∀ a, (![0, 0] : Fin 2 → ℕ) a + S64x2.size a ≤ S64x4624.size a)
    (pA pC : S64x2.Idx → EReal) (pB : S64x4352.Idx → EReal) (H : ℕ → ℕ → EReal)
    (hA : ∀ x, pA x = 0) (hC : ∀ x, pC x = 0) (hB : ∀ (c : Fin 64) (p : Fin 4352), pB (ix2 c p) = H c.val p.val)
    (c : Fin 64) (j : ℕ) (hj : j < 4356) (hj' : j < 4624) :
    View.canon ([⟨Rect.unit ![0, 4354] S64x2.size inbA, pA⟩, ⟨Rect.unit ![0, 2] S64x4352.size inbB, pB⟩,
        ⟨Rect.unit ![0, 0] S64x2.size inbC, pC⟩] : List (View.Piece (Elt Ideal) S64x4624 .f32)) (ix2 c ⟨j, hj'⟩)
      = if 2 ≤ j ∧ j < 4354 then H c.val (j - 2) else 0 := by
  by_cases h1 : 4354 ≤ j
  · have e : (ix2 c ⟨j, hj'⟩ : S64x4624.Idx)
        = (Rect.unit (s := S64x4624) ![0, 4354] S64x2.size inbA).emb (ix2 c ⟨j - 4354, by omega⟩) := by
      refine funext fun a => Fin.ext ?_
      match a with
      | ⟨0, _⟩ => show c.val = 0 + 1 * c.val; omega
      | ⟨1, _⟩ => show j = 4354 + 1 * (j - 4354); omega
    rw [e, View.canon_cons_emb, hA, if_neg (by omega)]
  · have n1 : (ix2 c ⟨j, hj'⟩ : S64x4624.Idx) ∉ (Rect.unit (s := S64x4624) ![0, 4354] S64x2.size inbA).set := by
      intro hm
      have h' : 4354 ≤ j := ((Rect.mem_set_unit.mp hm) 1).1
      exact h1 h'
    rw [View.canon_cons_of_not_mem (⟨Rect.unit (s := S64x4624) ![0, 4354] S64x2.size inbA, pA⟩ : View.Piece (Elt Ideal) S64x4624 .f32) _ n1]
    by_cases h2 : 2 ≤ j
    · have e : (ix2 c ⟨j, hj'⟩ : S64x4624.Idx)
          = (Rect.unit (s := S64x4624) ![0, 2] S64x4352.size inbB).emb (ix2 c ⟨j - 2, by omega⟩) := by
        refine funext fun a => Fin.ext ?_
        match a with
        | ⟨0, _⟩ => show c.val = 0 + 1 * c.val; omega
        | ⟨1, _⟩ => show j = 2 + 1 * (j - 2); omega
      rw [e, View.canon_cons_emb, hB, if_pos ⟨h2, by omega⟩]
    · have n2 : (ix2 c ⟨j, hj'⟩ : S64x4624.Idx) ∉ (Rect.unit (s := S64x4624) ![0, 2] S64x4352.size inbB).set := by
        intro hm
        have h' : 2 ≤ j := ((Rect.mem_set_unit.mp hm) 1).1
        exact h2 h'
      rw [View.canon_cons_of_not_mem (⟨Rect.unit (s := S64x4624) ![0, 2] S64x4352.size inbB, pB⟩ : View.Piece (Elt Ideal) S64x4624 .f32) _ n2]
      have e : (ix2 c ⟨j, hj'⟩ : S64x4624.Idx)
          = (Rect.unit (s := S64x4624) ![0, 0] S64x2.size inbC).emb (ix2 c ⟨j, by omega⟩) := by
        refine funext fun a => Fin.ext ?_
        match a with
        | ⟨0, _⟩ => show c.val = 0 + 1 * c.val; omega
        | ⟨1, _⟩ => show j = 0 + 1 * j; omega
      rw [e, View.canon_cons_emb, hC, if_neg (by omega)]

/-- A window of 4352 columns of those scratch rows starting at column `t ≤ 4`, read at row `c`, column `p`. -/
theorem readCov_halo_apply {κ : Kind} {sp : Space} (v : View sig κ sp S64x4624 .f32)
    (inbA : ∀ a, (![0, 4354] : Fin 2 → ℕ) a + S64x2.size a ≤ S64x4624.size a)
    (inbB : ∀ a, (![0, 2] : Fin 2 → ℕ) a + S64x4352.size a ≤ S64x4624.size a)
    (inbC : ∀ a, (![0, 0] : Fin 2 → ℕ) a + S64x2.size a ≤ S64x4624.size a)
    (pA pC : S64x2.Idx → EReal) (pB : S64x4352.Idx → EReal) (H : ℕ → ℕ → EReal)
    (hA : ∀ x, pA x = 0) (hC : ∀ x, pC x = 0) (hB : ∀ (c : Fin 64) (p : Fin 4352), pB (ix2 c p) = H c.val p.val)
    (t : ℕ) (ht : t ≤ 4)
    (inb : ∀ a, (![0, t] : Fin 2 → ℕ) a + (![64, 4352] : Fin 2 → ℕ) a ≤ S64x4624.size a)
    (c : Fin 64) (p : Fin 4352) :
    v.readCov ([⟨Rect.unit ![0, 4354] S64x2.size inbA, pA⟩, ⟨Rect.unit ![0, 2] S64x4352.size inbB, pB⟩,
        ⟨Rect.unit ![0, 0] S64x2.size inbC, pC⟩] : List (View.Piece (Elt Ideal) S64x4624 .f32))
        (Rect.unit (s := S64x4624) ![0, t] ![64, 4352] inb).toLoadRect (ix2 c p)
      = if 2 ≤ t + p.val ∧ t + p.val < 4354 then H c.val (t + p.val - 2) else 0 := by
  have hp := p.isLt
  rw [View.readCov_eq_canon']
  beta_reduce
  rw [idx2_apply t inb c p (by omega)]
  exact halo_canon inbA inbB inbC pA pC pB H hA hC hB c (t + p.val) (by omega) (by omega)

/-! ## The stages over the body's inputs -/

/-- The two-column zero fills. -/
theorem pay3_zero (x : S64x2.Idx) : k0_pay3 (F := Ideal) x = 0 := by
  unfold k0_pay3
  rw [shapeCast_self]
  exact Ideal.ofBits_zero_f32

theorem pay5_zero (x : S64x2.Idx) : k0_pay5 (F := Ideal) x = 0 := by
  unfold k0_pay5
  rw [shapeCast_self]
  exact Ideal.ofBits_zero_f32

section Stages

variable (arg1 : Memref sig .tc .vmem S1x64x4628 .f32) (harg1 : arg1.IsWhole)
  (arg2 : Memref sig .tc .vmem S64x320 .f32) (harg2 : arg2.IsWhole)
  (arg3 : Memref sig .tc .vmem S64x320 .f32) (harg3 : arg3.IsWhole)
  (arg4 : Memref sig .tc .vmem S64x320 .f32) (harg4 : arg4.IsWhole)
  (arg5 : Memref sig .tc .vmem S64x320 .f32) (harg5 : arg5.IsWhole)
  (arg6 : Memref sig .tc .vmem S64x4352 .f32) (harg6 : arg6.IsWhole)
  (arg7 : Memref sig .tc .vmem S64x4624 .f32) (harg7 : arg7.IsWhole)
  (arg8 : Memref sig .tc .vmem S64x1 .f32) (harg8 : arg8.IsWhole)
  (x0 : Vec Ideal S1x64x4628 .f32) (x1 x2 x3 x4 : Vec Ideal S64x320 .f32) (x5 : Vec Ideal S64x4352 .f32)
  (x6 : Vec Ideal S64x4624 .f32) (x7 : Vec Ideal S64x1 .f32)

/-- The first stage of the left branch, from the body's loads: `firstL` of the image block, the left first-stage
    weights and the left bias plane. -/
theorem firstL_eq (c : Fin 64) (p : Fin 4352) :
    (k0_pay4 (F := Ideal) (View.readAt (Elt Ideal) arg1.view (Rect.unit (s := S1x64x4628) ![0, 0, 2] S1x64x4352.size inb_S1x64x4628_S1x64x4352_0_0_2).toLoadRect (harg1.unread x0))
      (View.readAt (Elt Ideal) arg1.view (Rect.unit (s := S1x64x4628) ![0, 0, 70] S1x64x4352.size inb_S1x64x4628_S1x64x4352_0_0_70).toLoadRect (harg1.unread x0))
      (View.readAt (Elt Ideal) arg1.view (Rect.unit (s := S1x64x4628) ![0, 0, 138] S1x64x4352.size inb_S1x64x4628_S1x64x4352_0_0_138).toLoadRect (harg1.unread x0))
      (View.readAt (Elt Ideal) arg1.view (Rect.unit (s := S1x64x4628) ![0, 0, 206] S1x64x4352.size inb_S1x64x4628_S1x64x4352_0_0_206).toLoadRect (harg1.unread x0))
      (View.readAt (Elt Ideal) arg1.view (Rect.unit (s := S1x64x4628) ![0, 0, 274] S1x64x4352.size inb_S1x64x4628_S1x64x4352_0_0_274).toLoadRect (harg1.unread x0))
      (View.readAt (Elt Ideal) arg2.view (Rect.unit (s := S64x320) ![0, 0] S64x320.size inb_S64x320_S64x320_0_0).toLoadRect (harg2.unread x1))
      (View.readAt (Elt Ideal) arg6.view (Rect.unit (s := S64x4352) ![0, 0] S64x4352.size inb_S64x4352_S64x4352_0_0).toLoadRect (harg6.unread x5))) (ix2 c p)
      = SepConv.firstL (fun ch j => SepConv.at3 x0 0 ch j) (SepConv.at2 x1) (SepConv.at2 x5) c.val p.val := by
  refine (pay4_apply _ _ _ _ _ _ _ (fun t ch => SepConv.at3 x0 0 ch (2 + t * 68 + p.val)) c p
    (fun c' => readAt3_apply arg1 harg1 x0 2 inb_S1x64x4628_S1x64x4352_0_0_2 c' p)
    (fun c' => readAt3_apply arg1 harg1 x0 70 inb_S1x64x4628_S1x64x4352_0_0_70 c' p)
    (fun c' => readAt3_apply arg1 harg1 x0 138 inb_S1x64x4628_S1x64x4352_0_0_138 c' p)
    (fun c' => readAt3_apply arg1 harg1 x0 206 inb_S1x64x4628_S1x64x4352_0_0_206 c' p)
    (fun c' => readAt3_apply arg1 harg1 x0 274 inb_S1x64x4628_S1x64x4352_0_0_274 c' p)).trans ?_
  rw [readAt2_whole arg2 harg2 x1 inb_S64x320_S64x320_0_0, readAt2_whole arg6 harg6 x5 inb_S64x4352_S64x4352_0_0,
    ← SepConv.at2_ix2 x5 c p]
  rfl

/-- The first stage of the right branch, likewise: `firstR`. -/
theorem firstR_eq (c : Fin 64) (q : Fin 4624) :
    (k0_pay7 (F := Ideal) (View.readAt (Elt Ideal) arg1.view (Rect.unit (s := S1x64x4628) ![0, 0, 0] S1x64x4624.size inb_S1x64x4628_S1x64x4624_0_0_0).toLoadRect (harg1.unread x0))
      (View.readAt (Elt Ideal) arg1.view (Rect.unit (s := S1x64x4628) ![0, 0, 1] S1x64x4624.size inb_S1x64x4628_S1x64x4624_0_0_1).toLoadRect (harg1.unread x0))
      (View.readAt (Elt Ideal) arg1.view (Rect.unit (s := S1x64x4628) ![0, 0, 2] S1x64x4624.size inb_S1x64x4628_S1x64x4624_0_0_2).toLoadRect (harg1.unread x0))
      (View.readAt (Elt Ideal) arg1.view (Rect.unit (s := S1x64x4628) ![0, 0, 3] S1x64x4624.size inb_S1x64x4628_S1x64x4624_0_0_3).toLoadRect (harg1.unread x0))
      (View.readAt (Elt Ideal) arg1.view (Rect.unit (s := S1x64x4628) ![0, 0, 4] S1x64x4624.size inb_S1x64x4628_S1x64x4624_0_0_4).toLoadRect (harg1.unread x0))
      (View.readAt (Elt Ideal) arg4.view (Rect.unit (s := S64x320) ![0, 0] S64x320.size inb_S64x320_S64x320_0_0).toLoadRect (harg4.unread x3))
      (View.readAt (Elt Ideal) arg7.view (Rect.unit (s := S64x4624) ![0, 0] S64x4624.size inb_S64x4624_S64x4624_0_0).toLoadRect (harg7.unread x6))) (ix2 c q)
      = SepConv.firstR (fun ch j => SepConv.at3 x0 0 ch j) (SepConv.at2 x3) (SepConv.at2 x6) c.val q.val := by
  refine (pay7_apply _ _ _ _ _ _ _ (fun t ch => SepConv.at3 x0 0 ch (t + q.val)) c q
    (fun c' => readAt3_apply arg1 harg1 x0 0 inb_S1x64x4628_S1x64x4624_0_0_0 c' q)
    (fun c' => readAt3_apply arg1 harg1 x0 1 inb_S1x64x4628_S1x64x4624_0_0_1 c' q)
    (fun c' => readAt3_apply arg1 harg1 x0 2 inb_S1x64x4628_S1x64x4624_0_0_2 c' q)
    (fun c' => readAt3_apply arg1 harg1 x0 3 inb_S1x64x4628_S1x64x4624_0_0_3 c' q)
    (fun c' => readAt3_apply arg1 harg1 x0 4 inb_S1x64x4628_S1x64x4624_0_0_4 c' q)).trans ?_
  rw [readAt2_whole arg4 harg4 x3 inb_S64x320_S64x320_0_0, readAt2_whole arg7 harg7 x6 inb_S64x4624_S64x4624_0_0,
    ← SepConv.at2_ix2 x6 c q]
  rfl

/-- A window of the scratch rows once the right branch's first stage has been stored over them whole. -/
theorem scratchR_apply {κ : Kind} {sp : Space} (v : View sig κ sp S64x4624 .f32) (L : List (View.Piece (Elt Ideal) S64x4624 .f32)) (t : ℕ)
    (inb : ∀ a, (![0, t] : Fin 2 → ℕ) a + (![64, 4352] : Fin 2 → ℕ) a ≤ S64x4624.size a)
    (c : Fin 64) (p : Fin 4352) (h : t + p.val < 4624) :
    v.readCov ((⟨Rect.unit (s := S64x4624) ![0, 0] S64x4624.size inb_S64x4624_S64x4624_0_0,
        k0_pay1 (F := Ideal) (k0_pay7 (F := Ideal) (View.readAt (Elt Ideal) arg1.view (Rect.unit (s := S1x64x4628) ![0, 0, 0] S1x64x4624.size inb_S1x64x4628_S1x64x4624_0_0_0).toLoadRect (harg1.unread x0))
      (View.readAt (Elt Ideal) arg1.view (Rect.unit (s := S1x64x4628) ![0, 0, 1] S1x64x4624.size inb_S1x64x4628_S1x64x4624_0_0_1).toLoadRect (harg1.unread x0))
      (View.readAt (Elt Ideal) arg1.view (Rect.unit (s := S1x64x4628) ![0, 0, 2] S1x64x4624.size inb_S1x64x4628_S1x64x4624_0_0_2).toLoadRect (harg1.unread x0))
      (View.readAt (Elt Ideal) arg1.view (Rect.unit (s := S1x64x4628) ![0, 0, 3] S1x64x4624.size inb_S1x64x4628_S1x64x4624_0_0_3).toLoadRect (harg1.unread x0))
      (View.readAt (Elt Ideal) arg1.view (Rect.unit (s := S1x64x4628) ![0, 0, 4] S1x64x4624.size inb_S1x64x4628_S1x64x4624_0_0_4).toLoadRect (harg1.unread x0))
      (View.readAt (Elt Ideal) arg4.view (Rect.unit (s := S64x320) ![0, 0] S64x320.size inb_S64x320_S64x320_0_0).toLoadRect (harg4.unread x3))
      (View.readAt (Elt Ideal) arg7.view (Rect.unit (s := S64x4624) ![0, 0] S64x4624.size inb_S64x4624_S64x4624_0_0).toLoadRect (harg7.unread x6)))⟩ : View.Piece (Elt Ideal) S64x4624 .f32) :: L)
        (Rect.unit (s := S64x4624) ![0, t] ![64, 4352] inb).toLoadRect (ix2 c p)
      = SepConv.firstR (fun ch j => SepConv.at3 x0 0 ch j) (SepConv.at2 x3) (SepConv.at2 x6) c.val (t + p.val) := by
  rw [readCov_whole_apply v inb_S64x4624_S64x4624_0_0 _ L t inb c p h]
  unfold k0_pay1
  rw [shapeCast_self]
  exact firstR_eq arg1 harg1 arg4 harg4 arg7 harg7 x0 x3 x6 c ⟨t + p.val, h⟩

/-- A window of the scratch rows after the first part's three stores: the left first stage between two zeros. -/
theorem scratchL_apply {κ : Kind} {sp : Space} (v : View sig κ sp S64x4624 .f32) (t : ℕ) (ht : t ≤ 4)
    (inb : ∀ a, (![0, t] : Fin 2 → ℕ) a + (![64, 4352] : Fin 2 → ℕ) a ≤ S64x4624.size a)
    (c : Fin 64) (p : Fin 4352) :
    v.readCov ([⟨Rect.unit (s := S64x4624) ![0, 4354] S64x2.size inb_S64x4624_S64x2_0_4354, k0_pay5 (F := Ideal)⟩,
      ⟨Rect.unit (s := S64x4624) ![0, 2] S64x4352.size inb_S64x4624_S64x4352_0_2, (k0_pay4 (F := Ideal) (View.readAt (Elt Ideal) arg1.view (Rect.unit (s := S1x64x4628) ![0, 0, 2] S1x64x4352.size inb_S1x64x4628_S1x64x4352_0_0_2).toLoadRect (harg1.unread x0))
      (View.readAt (Elt Ideal) arg1.view (Rect.unit (s := S1x64x4628) ![0, 0, 70] S1x64x4352.size inb_S1x64x4628_S1x64x4352_0_0_70).toLoadRect (harg1.unread x0))
      (View.readAt (Elt Ideal) arg1.view (Rect.unit (s := S1x64x4628) ![0, 0, 138] S1x64x4352.size inb_S1x64x4628_S1x64x4352_0_0_138).toLoadRect (harg1.unread x0))
      (View.readAt (Elt Ideal) arg1.view (Rect.unit (s := S1x64x4628) ![0, 0, 206] S1x64x4352.size inb_S1x64x4628_S1x64x4352_0_0_206).toLoadRect (harg1.unread x0))
      (View.readAt (Elt Ideal) arg1.view (Rect.unit (s := S1x64x4628) ![0, 0, 274] S1x64x4352.size inb_S1x64x4628_S1x64x4352_0_0_274).toLoadRect (harg1.unread x0))
      (View.readAt (Elt Ideal) arg2.view (Rect.unit (s := S64x320) ![0, 0] S64x320.size inb_S64x320_S64x320_0_0).toLoadRect (harg2.unread x1))
      (View.readAt (Elt Ideal) arg6.view (Rect.unit (s := S64x4352) ![0, 0] S64x4352.size inb_S64x4352_S64x4352_0_0).toLoadRect (harg6.unread x5)))⟩,
      ⟨Rect.unit (s := S64x4624) ![0, 0] S64x2.size inb_S64x4624_S64x2_0_0, k0_pay3 (F := Ideal)⟩] : List (View.Piece (Elt Ideal) S64x4624 .f32))
        (Rect.unit (s := S64x4624) ![0, t] ![64, 4352] inb).toLoadRect (ix2 c p)
      = SepConv.haloL (fun ch j => SepConv.at3 x0 0 ch j) (SepConv.at2 x1) (SepConv.at2 x5) c.val (t + p.val) := by
  refine (readCov_halo_apply v inb_S64x4624_S64x2_0_4354 inb_S64x4624_S64x4352_0_2 inb_S64x4624_S64x2_0_0 _ _ _
    (SepConv.firstL (fun ch j => SepConv.at3 x0 0 ch j) (SepConv.at2 x1) (SepConv.at2 x5)) pay5_zero pay3_zero
    (fun c' p' => firstL_eq arg1 harg1 arg2 harg2 arg6 harg6 x0 x1 x5 c' p') t ht inb c p).trans ?_
  rfl

/-- The second stage of the left branch, from the five windows of the scratch rows and the left second-stage
    weights. -/
theorem secondL_eq {κ : Kind} {sp : Space} (v : View sig κ sp S64x4624 .f32) (o : Fin 64) (p : Fin 4352) :
    k0_pay6 (F := Ideal)
      (v.readCov ([⟨Rect.unit (s := S64x4624) ![0, 4354] S64x2.size inb_S64x4624_S64x2_0_4354, k0_pay5 (F := Ideal)⟩,
      ⟨Rect.unit (s := S64x4624) ![0, 2] S64x4352.size inb_S64x4624_S64x4352_0_2, (k0_pay4 (F := Ideal) (View.readAt (Elt Ideal) arg1.view (Rect.unit (s := S1x64x4628) ![0, 0, 2] S1x64x4352.size inb_S1x64x4628_S1x64x4352_0_0_2).toLoadRect (harg1.unread x0))
      (View.readAt (Elt Ideal) arg1.view (Rect.unit (s := S1x64x4628) ![0, 0, 70] S1x64x4352.size inb_S1x64x4628_S1x64x4352_0_0_70).toLoadRect (harg1.unread x0))
      (View.readAt (Elt Ideal) arg1.view (Rect.unit (s := S1x64x4628) ![0, 0, 138] S1x64x4352.size inb_S1x64x4628_S1x64x4352_0_0_138).toLoadRect (harg1.unread x0))
      (View.readAt (Elt Ideal) arg1.view (Rect.unit (s := S1x64x4628) ![0, 0, 206] S1x64x4352.size inb_S1x64x4628_S1x64x4352_0_0_206).toLoadRect (harg1.unread x0))
      (View.readAt (Elt Ideal) arg1.view (Rect.unit (s := S1x64x4628) ![0, 0, 274] S1x64x4352.size inb_S1x64x4628_S1x64x4352_0_0_274).toLoadRect (harg1.unread x0))
      (View.readAt (Elt Ideal) arg2.view (Rect.unit (s := S64x320) ![0, 0] S64x320.size inb_S64x320_S64x320_0_0).toLoadRect (harg2.unread x1))
      (View.readAt (Elt Ideal) arg6.view (Rect.unit (s := S64x4352) ![0, 0] S64x4352.size inb_S64x4352_S64x4352_0_0).toLoadRect (harg6.unread x5)))⟩,
      ⟨Rect.unit (s := S64x4624) ![0, 0] S64x2.size inb_S64x4624_S64x2_0_0, k0_pay3 (F := Ideal)⟩] : List (View.Piece (Elt Ideal) S64x4624 .f32))
        (Rect.unit (s := S64x4624) ![0, 0] S64x4352.size inb_S64x4624_S64x4352_0_0).toLoadRect)
      (v.readCov ([⟨Rect.unit (s := S64x4624) ![0, 4354] S64x2.size inb_S64x4624_S64x2_0_4354, k0_pay5 (F := Ideal)⟩,
      ⟨Rect.unit (s := S64x4624) ![0, 2] S64x4352.size inb_S64x4624_S64x4352_0_2, (k0_pay4 (F := Ideal) (View.readAt (Elt Ideal) arg1.view (Rect.unit (s := S1x64x4628) ![0, 0, 2] S1x64x4352.size inb_S1x64x4628_S1x64x4352_0_0_2).toLoadRect (harg1.unread x0))
      (View.readAt (Elt Ideal) arg1.view (Rect.unit (s := S1x64x4628) ![0, 0, 70] S1x64x4352.size inb_S1x64x4628_S1x64x4352_0_0_70).toLoadRect (harg1.unread x0))
      (View.readAt (Elt Ideal) arg1.view (Rect.unit (s := S1x64x4628) ![0, 0, 138] S1x64x4352.size inb_S1x64x4628_S1x64x4352_0_0_138).toLoadRect (harg1.unread x0))
      (View.readAt (Elt Ideal) arg1.view (Rect.unit (s := S1x64x4628) ![0, 0, 206] S1x64x4352.size inb_S1x64x4628_S1x64x4352_0_0_206).toLoadRect (harg1.unread x0))
      (View.readAt (Elt Ideal) arg1.view (Rect.unit (s := S1x64x4628) ![0, 0, 274] S1x64x4352.size inb_S1x64x4628_S1x64x4352_0_0_274).toLoadRect (harg1.unread x0))
      (View.readAt (Elt Ideal) arg2.view (Rect.unit (s := S64x320) ![0, 0] S64x320.size inb_S64x320_S64x320_0_0).toLoadRect (harg2.unread x1))
      (View.readAt (Elt Ideal) arg6.view (Rect.unit (s := S64x4352) ![0, 0] S64x4352.size inb_S64x4352_S64x4352_0_0).toLoadRect (harg6.unread x5)))⟩,
      ⟨Rect.unit (s := S64x4624) ![0, 0] S64x2.size inb_S64x4624_S64x2_0_0, k0_pay3 (F := Ideal)⟩] : List (View.Piece (Elt Ideal) S64x4624 .f32))
        (Rect.unit (s := S64x4624) ![0, 1] S64x4352.size inb_S64x4624_S64x4352_0_1).toLoadRect)
      (v.readCov ([⟨Rect.unit (s := S64x4624) ![0, 4354] S64x2.size inb_S64x4624_S64x2_0_4354, k0_pay5 (F := Ideal)⟩,
      ⟨Rect.unit (s := S64x4624) ![0, 2] S64x4352.size inb_S64x4624_S64x4352_0_2, (k0_pay4 (F := Ideal) (View.readAt (Elt Ideal) arg1.view (Rect.unit (s := S1x64x4628) ![0, 0, 2] S1x64x4352.size inb_S1x64x4628_S1x64x4352_0_0_2).toLoadRect (harg1.unread x0))
      (View.readAt (Elt Ideal) arg1.view (Rect.unit (s := S1x64x4628) ![0, 0, 70] S1x64x4352.size inb_S1x64x4628_S1x64x4352_0_0_70).toLoadRect (harg1.unread x0))
      (View.readAt (Elt Ideal) arg1.view (Rect.unit (s := S1x64x4628) ![0, 0, 138] S1x64x4352.size inb_S1x64x4628_S1x64x4352_0_0_138).toLoadRect (harg1.unread x0))
      (View.readAt (Elt Ideal) arg1.view (Rect.unit (s := S1x64x4628) ![0, 0, 206] S1x64x4352.size inb_S1x64x4628_S1x64x4352_0_0_206).toLoadRect (harg1.unread x0))
      (View.readAt (Elt Ideal) arg1.view (Rect.unit (s := S1x64x4628) ![0, 0, 274] S1x64x4352.size inb_S1x64x4628_S1x64x4352_0_0_274).toLoadRect (harg1.unread x0))
      (View.readAt (Elt Ideal) arg2.view (Rect.unit (s := S64x320) ![0, 0] S64x320.size inb_S64x320_S64x320_0_0).toLoadRect (harg2.unread x1))
      (View.readAt (Elt Ideal) arg6.view (Rect.unit (s := S64x4352) ![0, 0] S64x4352.size inb_S64x4352_S64x4352_0_0).toLoadRect (harg6.unread x5)))⟩,
      ⟨Rect.unit (s := S64x4624) ![0, 0] S64x2.size inb_S64x4624_S64x2_0_0, k0_pay3 (F := Ideal)⟩] : List (View.Piece (Elt Ideal) S64x4624 .f32))
        (Rect.unit (s := S64x4624) ![0, 2] S64x4352.size inb_S64x4624_S64x4352_0_2).toLoadRect)
      (v.readCov ([⟨Rect.unit (s := S64x4624) ![0, 4354] S64x2.size inb_S64x4624_S64x2_0_4354, k0_pay5 (F := Ideal)⟩,
      ⟨Rect.unit (s := S64x4624) ![0, 2] S64x4352.size inb_S64x4624_S64x4352_0_2, (k0_pay4 (F := Ideal) (View.readAt (Elt Ideal) arg1.view (Rect.unit (s := S1x64x4628) ![0, 0, 2] S1x64x4352.size inb_S1x64x4628_S1x64x4352_0_0_2).toLoadRect (harg1.unread x0))
      (View.readAt (Elt Ideal) arg1.view (Rect.unit (s := S1x64x4628) ![0, 0, 70] S1x64x4352.size inb_S1x64x4628_S1x64x4352_0_0_70).toLoadRect (harg1.unread x0))
      (View.readAt (Elt Ideal) arg1.view (Rect.unit (s := S1x64x4628) ![0, 0, 138] S1x64x4352.size inb_S1x64x4628_S1x64x4352_0_0_138).toLoadRect (harg1.unread x0))
      (View.readAt (Elt Ideal) arg1.view (Rect.unit (s := S1x64x4628) ![0, 0, 206] S1x64x4352.size inb_S1x64x4628_S1x64x4352_0_0_206).toLoadRect (harg1.unread x0))
      (View.readAt (Elt Ideal) arg1.view (Rect.unit (s := S1x64x4628) ![0, 0, 274] S1x64x4352.size inb_S1x64x4628_S1x64x4352_0_0_274).toLoadRect (harg1.unread x0))
      (View.readAt (Elt Ideal) arg2.view (Rect.unit (s := S64x320) ![0, 0] S64x320.size inb_S64x320_S64x320_0_0).toLoadRect (harg2.unread x1))
      (View.readAt (Elt Ideal) arg6.view (Rect.unit (s := S64x4352) ![0, 0] S64x4352.size inb_S64x4352_S64x4352_0_0).toLoadRect (harg6.unread x5)))⟩,
      ⟨Rect.unit (s := S64x4624) ![0, 0] S64x2.size inb_S64x4624_S64x2_0_0, k0_pay3 (F := Ideal)⟩] : List (View.Piece (Elt Ideal) S64x4624 .f32))
        (Rect.unit (s := S64x4624) ![0, 3] S64x4352.size inb_S64x4624_S64x4352_0_3).toLoadRect)
      (v.readCov ([⟨Rect.unit (s := S64x4624) ![0, 4354] S64x2.size inb_S64x4624_S64x2_0_4354, k0_pay5 (F := Ideal)⟩,
      ⟨Rect.unit (s := S64x4624) ![0, 2] S64x4352.size inb_S64x4624_S64x4352_0_2, (k0_pay4 (F := Ideal) (View.readAt (Elt Ideal) arg1.view (Rect.unit (s := S1x64x4628) ![0, 0, 2] S1x64x4352.size inb_S1x64x4628_S1x64x4352_0_0_2).toLoadRect (harg1.unread x0))
      (View.readAt (Elt Ideal) arg1.view (Rect.unit (s := S1x64x4628) ![0, 0, 70] S1x64x4352.size inb_S1x64x4628_S1x64x4352_0_0_70).toLoadRect (harg1.unread x0))
      (View.readAt (Elt Ideal) arg1.view (Rect.unit (s := S1x64x4628) ![0, 0, 138] S1x64x4352.size inb_S1x64x4628_S1x64x4352_0_0_138).toLoadRect (harg1.unread x0))
      (View.readAt (Elt Ideal) arg1.view (Rect.unit (s := S1x64x4628) ![0, 0, 206] S1x64x4352.size inb_S1x64x4628_S1x64x4352_0_0_206).toLoadRect (harg1.unread x0))
      (View.readAt (Elt Ideal) arg1.view (Rect.unit (s := S1x64x4628) ![0, 0, 274] S1x64x4352.size inb_S1x64x4628_S1x64x4352_0_0_274).toLoadRect (harg1.unread x0))
      (View.readAt (Elt Ideal) arg2.view (Rect.unit (s := S64x320) ![0, 0] S64x320.size inb_S64x320_S64x320_0_0).toLoadRect (harg2.unread x1))
      (View.readAt (Elt Ideal) arg6.view (Rect.unit (s := S64x4352) ![0, 0] S64x4352.size inb_S64x4352_S64x4352_0_0).toLoadRect (harg6.unread x5)))⟩,
      ⟨Rect.unit (s := S64x4624) ![0, 0] S64x2.size inb_S64x4624_S64x2_0_0, k0_pay3 (F := Ideal)⟩] : List (View.Piece (Elt Ideal) S64x4624 .f32))
        (Rect.unit (s := S64x4624) ![0, 4] S64x4352.size inb_S64x4624_S64x4352_0_4).toLoadRect)
      (View.readAt (Elt Ideal) arg3.view (Rect.unit (s := S64x320) ![0, 0] S64x320.size inb_S64x320_S64x320_0_0).toLoadRect (harg3.unread x2)) (ix2 o p)
      = ∑ k ∈ range 320, SepConv.at2 x2 o.val k
          * SepConv.haloL (fun ch j => SepConv.at3 x0 0 ch j) (SepConv.at2 x1) (SepConv.at2 x5) (k % 64) (k / 64 + p.val) := by
  refine (pay6_apply _ _ _ _ _ _
    (fun t ch => SepConv.haloL (fun ch j => SepConv.at3 x0 0 ch j) (SepConv.at2 x1) (SepConv.at2 x5) ch (t + p.val)) o p
    (fun c' => scratchL_apply arg1 harg1 arg2 harg2 arg6 harg6 x0 x1 x5 v 0 (by omega) inb_S64x4624_S64x4352_0_0 c' p)
    (fun c' => scratchL_apply arg1 harg1 arg2 harg2 arg6 harg6 x0 x1 x5 v 1 (by omega) inb_S64x4624_S64x4352_0_1 c' p)
    (fun c' => scratchL_apply arg1 harg1 arg2 harg2 arg6 harg6 x0 x1 x5 v 2 (by omega) inb_S64x4624_S64x4352_0_2 c' p)
    (fun c' => scratchL_apply arg1 harg1 arg2 harg2 arg6 harg6 x0 x1 x5 v 3 (by omega) inb_S64x4624_S64x4352_0_3 c' p)
    (fun c' => scratchL_apply arg1 harg1 arg2 harg2 arg6 harg6 x0 x1 x5 v 4 (by omega) inb_S64x4624_S64x4352_0_4 c' p)).trans ?_
  rw [readAt2_whole arg3 harg3 x2 inb_S64x320_S64x320_0_0]

end Stages

/-! ## The block -/

/-- What one run of the body leaves in the output block, at channel `o` and flat position `p`: the core of the
    image block, the four weight matrices, the two bias planes and the bias column. -/
theorem block_eq (c : Dev nD) (i : grid0.Coords) (arg1 : Memref sig .tc .vmem S1x64x4628 .f32) (harg1 : arg1.IsWhole)
  (arg2 : Memref sig .tc .vmem S64x320 .f32) (harg2 : arg2.IsWhole)
  (arg3 : Memref sig .tc .vmem S64x320 .f32) (harg3 : arg3.IsWhole)
  (arg4 : Memref sig .tc .vmem S64x320 .f32) (harg4 : arg4.IsWhole)
  (arg5 : Memref sig .tc .vmem S64x320 .f32) (harg5 : arg5.IsWhole)
  (arg6 : Memref sig .tc .vmem S64x4352 .f32) (harg6 : arg6.IsWhole)
  (arg7 : Memref sig .tc .vmem S64x4624 .f32) (harg7 : arg7.IsWhole)
  (arg8 : Memref sig .tc .vmem S64x1 .f32) (harg8 : arg8.IsWhole)
  (arg9 : Memref sig .tc .vmem S1x64x4352 .f32) (harg9 : arg9.IsWhole)
  (arg10 : Memref sig .tc .vmem S64x4624 .f32) (harg10 : arg10.IsWhole)
  (x0 : Vec Ideal S1x64x4628 .f32) (x1 x2 x3 x4 : Vec Ideal S64x320 .f32) (x5 : Vec Ideal S64x4352 .f32)
  (x6 : Vec Ideal S64x4624 .f32) (x7 : Vec Ideal S64x1 .f32)
    (o : Fin 64) (p : Fin 4352) :
    out0_A_8 (F := Ideal) c i arg1 harg1 arg2 harg2 arg3 harg3 arg4 harg4 arg5 harg5 arg6 harg6 arg7 harg7 arg8 harg8 arg9 harg9 arg10 harg10 x0 x1 x2 x3 x4 x5 x6 x7 (ValueIdx.ix3 (0 : Fin 1) o p)
      = SepConv.core (fun ch j => SepConv.at3 x0 0 ch j) (SepConv.at2 x1) (SepConv.at2 x3) (SepConv.at2 x2) (SepConv.at2 x4)
          (SepConv.at2 x5) (SepConv.at2 x6) (fun o' => SepConv.at2 x7 o' 0) o.val p.val := by
  have hp := p.isLt
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3 x4 x5 x6 x7)]
  unfold kernelRun0_A
  dsimp only
  sl_unfold_words
  rw [View.canon_unit_zero (S := S1x64x4352) zero3]
  refine (pay2_apply _ _ _ _ _ _ _ _
    (fun t ch => SepConv.firstR (fun ch j => SepConv.at3 x0 0 ch j) (SepConv.at2 x3) (SepConv.at2 x6) ch (t * 68 + p.val)) o p
    (fun c' => scratchR_apply arg1 harg1 arg4 harg4 arg7 harg7 x0 x3 x6 arg10.view _ 0 inb_S64x4624_S64x4352_0_0 c' p (by omega))
    (fun c' => scratchR_apply arg1 harg1 arg4 harg4 arg7 harg7 x0 x3 x6 arg10.view _ 68 inb_S64x4624_S64x4352_0_68 c' p (by omega))
    (fun c' => scratchR_apply arg1 harg1 arg4 harg4 arg7 harg7 x0 x3 x6 arg10.view _ 136 inb_S64x4624_S64x4352_0_136 c' p (by omega))
    (fun c' => scratchR_apply arg1 harg1 arg4 harg4 arg7 harg7 x0 x3 x6 arg10.view _ 204 inb_S64x4624_S64x4352_0_204 c' p (by omega))
    (fun c' => scratchR_apply arg1 harg1 arg4 harg4 arg7 harg7 x0 x3 x6 arg10.view _ 272 inb_S64x4624_S64x4352_0_272 c' p (by omega))).trans ?_
  unfold SepConv.core SepConv.second
  refine congrArg SepConv.leaky (congrArg₂ (· + ·) (congrArg₂ (· + ·) ?_ ?_) ?_)
  · exact secondL_eq arg1 harg1 arg2 harg2 arg3 harg3 arg6 harg6 x0 x1 x2 x5 arg10.view o p
  · rw [readAt2_whole arg5 harg5 x4 inb_S64x320_S64x320_0_0]
  · rw [readAt2_whole arg8 harg8 x7 inb_S64x1_S64x1_0_0]
    exact (SepConv.at2_ix2 x7 o (0 : Fin 1)).symm

end Cert.ReferenceIdeal.RefBlock
end
-- ==== Proof.LibIndexEq.lean ====
/-
  An index of a one- or two-axis shape is determined by its coordinates: if the coordinates of `f` are those of
  `a` (and `b`), then `f` is the index built from them. Used to identify an index that a program spells by a
  case split on the axis with the index built from literal coordinates.
-/
import Idealize.ShloMosaic.Lib.ValueIdx

namespace LibIndexEq

open Idealize.ShloMosaic Idealize.ShloMosaic.ValueIdx

/-- A two-axis index with coordinates `a` and `b` is `ix2 a b`. -/
theorem idx2_eq {n0 n1 : ℕ} (f : (⟨2, ![n0, n1]⟩ : Shape).Idx) (a : Fin n0) (b : Fin n1)
    (h0 : (f 0).val = a.val) (h1 : (f 1).val = b.val) : f = ix2 a b :=
  funext fun d => Fin.ext (by
    match d with
    | ⟨0, _⟩ => exact h0
    | ⟨1, _⟩ => exact h1)

/-- A one-axis index with coordinate `a` is `ix1 a`. -/
theorem idx1_eq {n : ℕ} (f : (⟨1, ![n]⟩ : Shape).Idx) (a : Fin n) (h0 : (f 0).val = a.val) : f = ix1 a :=
  funext fun d => Fin.ext (by
    match d with
    | ⟨0, _⟩ => exact h0)

end LibIndexEq
-- ==== Proof.RefHost.lean ====
/-
  The arrays the kernel region finds, read at an index.

  Before the kernel is launched the host lays its operands out: the image is zero-padded by 2 on both spatial axes,
  flattened row by row and padded by 2 more zeros at each flat end; each weight array loses its unit axis, has its tap
  axis moved before its input-channel axis and is flattened to 320 columns; the second-stage biases are summed; the
  first-stage biases are multiplied by the masks of the valid columns and of the valid rows. Each theorem here reads
  one of those arrays at natural coordinates as the specification's function of the argument arrays.
-/
import proofs.«149304_g2000302748725897_pallasbulk_1061_49_alg».proof.Proof.Gen.ReferenceIdeal.Frame
import proofs.«149304_g2000302748725897_pallasbulk_1061_49_alg».proof.Proof.Spec
import proofs.«149304_g2000302748725897_pallasbulk_1061_49_alg».proof.Proof.LibIndexEq
import Idealize.ShloMosaic.Lib.Pipeline.Value
import Idealize.ShloMosaic.Lib.ValueIdx
import Idealize.ShloMosaic.Lib.ValueLayout
import Idealize.ShloMosaic.Lib.StableHlo.Run
import Idealize.ShloMosaic.Lib.KernelVsHost
import Idealize.ShloMosaic.PureOps.Ideal.Laws

set_option maxRecDepth 16384

noncomputable section

namespace Cert.ReferenceIdeal.RefHost

open Idealize.ShloMosaic Idealize.ShloMosaic.TcCoe Idealize.ShloMosaic.ValueIdx Idealize.ShloMosaic.StableHlo

variable (m : (ℓ : Loc nD τ sig) → Buf (Elt Ideal) ℓ) (c : Dev nD)

/-! ## The image

The image is padded by 2 on both spatial axes, flattened row by row, and padded by 2 at each flat end. The padding
value is the integer zero converted to a float, which is zero. -/

/-- The integer zero converted to a float is zero at every index. -/
theorem padValue_apply (i : S_.Idx) :
    (sitofp (F := Ideal) .f32 (constantI S_ 32 0#32) : S_.Idx → EReal) i = 0 :=
  sitofp_zero

/-- The padding by 2 of both spatial axes, read at an index: the image 2 in on both axes inside the 64 x 64
    square, the padding value on the ring. -/
theorem pad2d_apply (x : S64x64x64x64.Idx → EReal) (v : S_.Idx → EReal) (hv : ∀ i, v i = 0)
    (n ch : Fin 64) (a b : Fin 68) :
    pad S64x64x68x68 ![0, 0, 2, 2] ![0, 0, 2, 2] ![0, 0, 0, 0] x v
        Gen.pads_S64x64x64x64_S64x64x68x68_000_000_220_220 Gen.h_S_ (ix4 n ch a b)
      = if 2 ≤ a.val ∧ a.val < 66 ∧ 2 ≤ b.val ∧ b.val < 66 then
          SepConv.at4 x n.val ch.val (a.val - 2) (b.val - 2)
        else 0 := by
  have ha := a.isLt
  have hb := b.isLt
  by_cases h : 2 ≤ a.val ∧ a.val < 66 ∧ 2 ≤ b.val ∧ b.val < 66
  · rw [if_pos h, SepConv.at4_of_lt x n.isLt ch.isLt (by omega : a.val - 2 < 64) (by omega : b.val - 2 < 64)]
    refine pad_apply_of_inside _ _ _ x v _ _ (ix4 n ch a b)
      (ix4 n ch ⟨a.val - 2, by omega⟩ ⟨b.val - 2, by omega⟩) ?_
    intro d
    match d with
    | ⟨0, _⟩ => show n.val = 0 + n.val * (0 + 1); omega
    | ⟨1, _⟩ => show ch.val = 0 + ch.val * (0 + 1); omega
    | ⟨2, _⟩ => show a.val = 2 + (a.val - 2) * (0 + 1); omega
    | ⟨3, _⟩ => show b.val = 2 + (b.val - 2) * (0 + 1); omega
  · rw [if_neg h]
    by_cases h2 : 2 ≤ a.val ∧ a.val < 66
    · refine (pad_apply_of_not_inside _ _ _ x v _ _ (ix4 n ch a b) ⟨3, by decide⟩ ?_).trans (hv _)
      show ¬(2 ≤ b.val ∧ (b.val - 2) % (0 + 1) = 0 ∧ (b.val - 2) / (0 + 1) < 64)
      omega
    · refine (pad_apply_of_not_inside _ _ _ x v _ _ (ix4 n ch a b) ⟨2, by decide⟩ ?_).trans (hv _)
      show ¬(2 ≤ a.val ∧ (a.val - 2) % (0 + 1) = 0 ∧ (a.val - 2) / (0 + 1) < 64)
      omega

/-- The 68 x 68 grid flattened row by row: flat position `i` is row `i / 68`, column `i % 68`. -/
theorem flatten68_apply (Y : S64x64x68x68.Idx → EReal) (n ch : Fin 64) (i : Fin 4624) :
    shapeCast S64x64x4624 Y Gen.shapeCasts_S64x64x68x68_S64x64x4624 (ix3 n ch i)
      = Y (ix4 n ch ⟨i.val / 68, by have := i.isLt; omega⟩ ⟨i.val % 68, Nat.mod_lt _ (by decide)⟩) := by
  have hi := i.isLt
  refine shapeCast_apply _ _ (ix3 n ch i) _ ?_
  rw [Shape.rowMajor_val_four, Shape.rowMajor_val_three]
  show ((n.val * 64 + ch.val) * 68 + i.val / 68) * 68 + i.val % 68 = (n.val * 64 + ch.val) * 4624 + i.val
  omega

/-- The padding by 2 of the flat axis, read at an index: the row 2 in, the padding value at both ends. -/
theorem padFlat_apply (Z : S64x64x4624.Idx → EReal) (v : S_.Idx → EReal) (hv : ∀ i, v i = 0)
    (n ch : Fin 64) (j : Fin 4628) :
    pad S64x64x4628 ![0, 0, 2] ![0, 0, 2] ![0, 0, 0] Z v Gen.pads_S64x64x4624_S64x64x4628_000_000_220 Gen.h_S_
        (ix3 n ch j)
      = if h : 2 ≤ j.val ∧ j.val < 4626 then Z (ix3 n ch ⟨j.val - 2, by omega⟩) else 0 := by
  have hj := j.isLt
  by_cases h : 2 ≤ j.val ∧ j.val < 4626
  · rw [dif_pos h]
    refine pad_apply_of_inside _ _ _ Z v _ _ (ix3 n ch j) (ix3 n ch ⟨j.val - 2, by omega⟩) ?_
    intro d
    match d with
    | ⟨0, _⟩ => show n.val = 0 + n.val * (0 + 1); omega
    | ⟨1, _⟩ => show ch.val = 0 + ch.val * (0 + 1); omega
    | ⟨2, _⟩ => show j.val = 2 + (j.val - 2) * (0 + 1); omega
  · rw [dif_neg h]
    refine (pad_apply_of_not_inside _ _ _ Z v _ _ (ix3 n ch j) ⟨2, by decide⟩ ?_).trans (hv _)
    show ¬(2 ≤ j.val ∧ (j.val - 2) % (0 + 1) = 0 ∧ (j.val - 2) / (0 + 1) < 4624)
    omega

/-- The three steps composed are the specification's padded row. -/
theorem paddedRow_apply (x : S64x64x64x64.Idx → EReal) (v : S_.Idx → EReal) (hv : ∀ i, v i = 0)
    (n ch : Fin 64) (j : Fin 4628) :
    pad S64x64x4628 ![0, 0, 2] ![0, 0, 2] ![0, 0, 0]
        (shapeCast S64x64x4624
          (pad S64x64x68x68 ![0, 0, 2, 2] ![0, 0, 2, 2] ![0, 0, 0, 0] x v
            Gen.pads_S64x64x64x64_S64x64x68x68_000_000_220_220 Gen.h_S_)
          Gen.shapeCasts_S64x64x68x68_S64x64x4624)
        v Gen.pads_S64x64x4624_S64x64x4628_000_000_220 Gen.h_S_ (ix3 n ch j)
      = SepConv.padded x n.val ch.val j.val := by
  have hj := j.isLt
  rw [padFlat_apply _ v hv n ch j]
  unfold SepConv.padded
  by_cases h : 2 ≤ j.val ∧ j.val < 4626
  · rw [dif_pos h, flatten68_apply, pad2d_apply x v hv]
    show (if 2 ≤ (j.val - 2) / 68 ∧ (j.val - 2) / 68 < 66 ∧ 2 ≤ (j.val - 2) % 68 ∧ (j.val - 2) % 68 < 66 then
        SepConv.at4 x n.val ch.val ((j.val - 2) / 68 - 2) ((j.val - 2) % 68 - 2) else 0) = _
    by_cases h' : 2 ≤ (j.val - 2) / 68 ∧ (j.val - 2) / 68 < 66 ∧ 2 ≤ (j.val - 2) % 68 ∧ (j.val - 2) % 68 < 66
    · rw [if_pos h', if_pos ⟨h.1, h'⟩]
    · rw [if_neg h', if_neg fun hh => h' hh.2]
  · rw [dif_neg h, if_neg]
    omega

/-- The array the region finds as its image, as the host operations' term. -/
theorem image_term :
    (Gen.V m c main_call0_v34 : S64x64x4628.Idx → EReal)
      = pad S64x64x4628 ![0, 0, 2] ![0, 0, 2] ![0, 0, 0]
          (shapeCast S64x64x4624
            (pad S64x64x68x68 ![0, 0, 2, 2] ![0, 0, 2, 2] ![0, 0, 0, 0] (m ((c.tc : Thread nD τ).loc main_arg0))
              (sitofp (F := Ideal) .f32 (constantI S_ 32 0#32))
              Gen.pads_S64x64x64x64_S64x64x68x68_000_000_220_220 Gen.h_S_)
            Gen.shapeCasts_S64x64x68x68_S64x64x4624)
          (sitofp (F := Ideal) .f32 (constantI S_ 32 0#32))
          Gen.pads_S64x64x4624_S64x64x4628_000_000_220 Gen.h_S_ := by
  show StableHlo.after Gen.hostOps0 (fun b => m (c, b)) (Proc.devRef .tc main_call0_v34) = _
  after_results
  rfl

/-- The image the region finds is the specification's padded row of the first argument. -/
theorem V_image (n ch : Fin 64) (j : Fin 4628) :
    (Gen.V m c main_call0_v34 : S64x64x4628.Idx → EReal) (ix3 n ch j)
      = SepConv.padded (m ((c.tc : Thread nD τ).loc main_arg0)) n.val ch.val j.val :=
  (congrFun (image_term m c) (ix3 n ch j)).trans (paddedRow_apply _ _ padValue_apply n ch j)

/-! ## The four weight matrices

Each weight array is reshaped to drop its unit axis, has its last two axes exchanged, and is flattened to 320
columns. -/

/-- A weight array [64, 64, 5, 1] reshaped to [64, 64, 5], its last two axes exchanged, and flattened to 320
    columns: column `k` of row `o` is tap `k / 64` of input channel `k % 64`. -/
theorem flatten51_apply (w : S64x64x5x1.Idx → EReal) (o : Fin 64) (k : Fin 320) :
    shapeCast S64x320 (transpose S64x5x64 [0, 2, 1] (shapeCast S64x64x5 w Gen.shapeCasts_S64x64x5x1_S64x64x5)
        Gen.transposes_S64x64x5_S64x5x64_0_2_1) Gen.shapeCasts_S64x5x64_S64x320 (ix2 o k)
      = SepConv.at4 w o.val (k.val % 64) (k.val / 64) 0 := by
  have hk := k.isLt
  have ho := o.isLt
  have ht : k.val / 64 < 5 := by omega
  have hc : k.val % 64 < 64 := Nat.mod_lt _ (by decide)
  rw [SepConv.at4_of_lt w o.isLt hc ht (by decide : 0 < 1)]
  refine (shapeCast_apply _ _ (ix2 o k) (ix3 o ⟨k.val / 64, ht⟩ ⟨k.val % 64, hc⟩) ?_).trans ?_
  · rw [Shape.rowMajor_val_three, Shape.rowMajor_val_two]
    show (o.val * 5 + k.val / 64) * 64 + k.val % 64 = o.val * 320 + k.val
    omega
  refine (transpose_apply _ _ _ (ix3 o ⟨k.val / 64, ht⟩ ⟨k.val % 64, hc⟩)
    (ix3 o ⟨k.val % 64, hc⟩ ⟨k.val / 64, ht⟩) ?_).trans ?_
  · intro b
    match b with
    | ⟨0, _⟩ => rfl
    | ⟨1, _⟩ => rfl
    | ⟨2, _⟩ => rfl
  refine (shapeCast_apply _ _ (ix3 o ⟨k.val % 64, hc⟩ ⟨k.val / 64, ht⟩)
    (ix4 o ⟨k.val % 64, hc⟩ ⟨k.val / 64, ht⟩ ⟨0, by decide⟩) ?_).trans ?_
  · rw [Shape.rowMajor_val_four, Shape.rowMajor_val_three]
    show ((o.val * 64 + k.val % 64) * 5 + k.val / 64) * 1 + 0 = (o.val * 64 + k.val % 64) * 5 + k.val / 64
    omega
  rfl

/-- A weight array [64, 64, 1, 5] reshaped to [64, 64, 5], its last two axes exchanged, and flattened to 320
    columns: column `k` of row `o` is tap `k / 64` of input channel `k % 64`. -/
theorem flatten15_apply (w : S64x64x1x5.Idx → EReal) (o : Fin 64) (k : Fin 320) :
    shapeCast S64x320 (transpose S64x5x64 [0, 2, 1] (shapeCast S64x64x5 w Gen.shapeCasts_S64x64x1x5_S64x64x5)
        Gen.transposes_S64x64x5_S64x5x64_0_2_1) Gen.shapeCasts_S64x5x64_S64x320 (ix2 o k)
      = SepConv.at4 w o.val (k.val % 64) 0 (k.val / 64) := by
  have hk := k.isLt
  have ho := o.isLt
  have ht : k.val / 64 < 5 := by omega
  have hc : k.val % 64 < 64 := Nat.mod_lt _ (by decide)
  rw [SepConv.at4_of_lt w o.isLt hc (by decide : 0 < 1) ht]
  refine (shapeCast_apply _ _ (ix2 o k) (ix3 o ⟨k.val / 64, ht⟩ ⟨k.val % 64, hc⟩) ?_).trans ?_
  · rw [Shape.rowMajor_val_three, Shape.rowMajor_val_two]
    show (o.val * 5 + k.val / 64) * 64 + k.val % 64 = o.val * 320 + k.val
    omega
  refine (transpose_apply _ _ _ (ix3 o ⟨k.val / 64, ht⟩ ⟨k.val % 64, hc⟩)
    (ix3 o ⟨k.val % 64, hc⟩ ⟨k.val / 64, ht⟩) ?_).trans ?_
  · intro b
    match b with
    | ⟨0, _⟩ => rfl
    | ⟨1, _⟩ => rfl
    | ⟨2, _⟩ => rfl
  refine (shapeCast_apply _ _ (ix3 o ⟨k.val % 64, hc⟩ ⟨k.val / 64, ht⟩)
    (ix4 o ⟨k.val % 64, hc⟩ ⟨0, by decide⟩ ⟨k.val / 64, ht⟩) ?_).trans ?_
  · rw [Shape.rowMajor_val_four, Shape.rowMajor_val_three]
    show ((o.val * 64 + k.val % 64) * 1 + 0) * 5 + k.val / 64 = (o.val * 64 + k.val % 64) * 5 + k.val / 64
    omega
  rfl

/-- The array the region finds as its first-stage left weights, as the host operations' term. -/
theorem w1l_term :
    (Gen.V m c main_call0_v2 : S64x320.Idx → EReal)
      = shapeCast S64x320 (transpose S64x5x64 [0, 2, 1]
          (shapeCast S64x64x5 (m ((c.tc : Thread nD τ).loc main_arg1)) Gen.shapeCasts_S64x64x5x1_S64x64x5)
          Gen.transposes_S64x64x5_S64x5x64_0_2_1) Gen.shapeCasts_S64x5x64_S64x320 := by
  show StableHlo.after Gen.hostOps0 (fun b => m (c, b)) (Proc.devRef .tc main_call0_v2) = _
  after_results
  rfl

/-- The second-stage left weights the region finds, as the host operations' term. -/
theorem w2l_term :
    (Gen.V m c main_call0_v5 : S64x320.Idx → EReal)
      = shapeCast S64x320 (transpose S64x5x64 [0, 2, 1]
          (shapeCast S64x64x5 (m ((c.tc : Thread nD τ).loc main_arg3)) Gen.shapeCasts_S64x64x1x5_S64x64x5)
          Gen.transposes_S64x64x5_S64x5x64_0_2_1) Gen.shapeCasts_S64x5x64_S64x320 := by
  show StableHlo.after Gen.hostOps0 (fun b => m (c, b)) (Proc.devRef .tc main_call0_v5) = _
  after_results
  rfl

/-- The first-stage right weights the region finds, as the host operations' term. -/
theorem w1r_term :
    (Gen.V m c main_call0_v8 : S64x320.Idx → EReal)
      = shapeCast S64x320 (transpose S64x5x64 [0, 2, 1]
          (shapeCast S64x64x5 (m ((c.tc : Thread nD τ).loc main_arg5)) Gen.shapeCasts_S64x64x1x5_S64x64x5)
          Gen.transposes_S64x64x5_S64x5x64_0_2_1) Gen.shapeCasts_S64x5x64_S64x320 := by
  show StableHlo.after Gen.hostOps0 (fun b => m (c, b)) (Proc.devRef .tc main_call0_v8) = _
  after_results
  rfl

/-- The second-stage right weights the region finds, as the host operations' term. -/
theorem w2r_term :
    (Gen.V m c main_call0_v11 : S64x320.Idx → EReal)
      = shapeCast S64x320 (transpose S64x5x64 [0, 2, 1]
          (shapeCast S64x64x5 (m ((c.tc : Thread nD τ).loc main_arg7)) Gen.shapeCasts_S64x64x5x1_S64x64x5)
          Gen.transposes_S64x64x5_S64x5x64_0_2_1) Gen.shapeCasts_S64x5x64_S64x320 := by
  show StableHlo.after Gen.hostOps0 (fun b => m (c, b)) (Proc.devRef .tc main_call0_v11) = _
  after_results
  rfl

/-- The first-stage left weights the region finds are the taps matrix of the second argument. -/
theorem V_w1l (o : Fin 64) (k : Fin 320) :
    (Gen.V m c main_call0_v2 : S64x320.Idx → EReal) (ix2 o k)
      = SepConv.tapsL1 (m ((c.tc : Thread nD τ).loc main_arg1)) o.val k.val :=
  (congrFun (w1l_term m c) (ix2 o k)).trans (flatten51_apply _ o k)

/-- The second-stage left weights the region finds are the taps matrix of the fourth argument. -/
theorem V_w2l (o : Fin 64) (k : Fin 320) :
    (Gen.V m c main_call0_v5 : S64x320.Idx → EReal) (ix2 o k)
      = SepConv.tapsL2 (m ((c.tc : Thread nD τ).loc main_arg3)) o.val k.val :=
  (congrFun (w2l_term m c) (ix2 o k)).trans (flatten15_apply _ o k)

/-- The first-stage right weights the region finds are the taps matrix of the sixth argument. -/
theorem V_w1r (o : Fin 64) (k : Fin 320) :
    (Gen.V m c main_call0_v8 : S64x320.Idx → EReal) (ix2 o k)
      = SepConv.tapsR1 (m ((c.tc : Thread nD τ).loc main_arg5)) o.val k.val :=
  (congrFun (w1r_term m c) (ix2 o k)).trans (flatten15_apply _ o k)

/-- The second-stage right weights the region finds are the taps matrix of the eighth argument. -/
theorem V_w2r (o : Fin 64) (k : Fin 320) :
    (Gen.V m c main_call0_v11 : S64x320.Idx → EReal) (ix2 o k)
      = SepConv.tapsR2 (m ((c.tc : Thread nD τ).loc main_arg7)) o.val k.val :=
  (congrFun (w2r_term m c) (ix2 o k)).trans (flatten51_apply _ o k)

/-! ## The second-stage bias

The two second-stage biases are added and laid out as a column. -/

/-- A vector of 64 entries laid out as a column [64, 1], read at an index. -/
theorem column_apply (b : S64.Idx → EReal) (o : Fin 64) (z : Fin 1) :
    broadcastInDim S64x1 ![0] Gen.bcast_S64_S64x1_0 b (ix2 o z) = SepConv.at1 b o.val := by
  rw [SepConv.at1_ix1]
  refine broadcastInDim_apply _ _ b (ix2 o z) (ix1 o) ?_
  intro a
  match a with
  | ⟨0, _⟩ => rfl

/-- The second-stage bias column the region finds, as the host operations' term. -/
theorem b2_term :
    (Gen.V m c main_call0_v31 : S64x1.Idx → EReal)
      = broadcastInDim S64x1 ![0] Gen.bcast_S64_S64x1_0
          (addf (F := Ideal) (s := S64) (φ := .f32) (m ((c.tc : Thread nD τ).loc main_arg4))
            (m ((c.tc : Thread nD τ).loc main_arg8))) := by
  show StableHlo.after Gen.hostOps0 (fun b => m (c, b)) (Proc.devRef .tc main_call0_v31) = _
  after_results
  rfl

/-- The second-stage bias column the region finds is the sum of the fifth and the ninth arguments. -/
theorem V_b2 (o : Fin 64) (z : Fin 1) :
    (Gen.V m c main_call0_v31 : S64x1.Idx → EReal) (ix2 o z)
      = SepConv.at1 (m ((c.tc : Thread nD τ).loc main_arg4)) o.val
        + SepConv.at1 (m ((c.tc : Thread nD τ).loc main_arg8)) o.val := by
  refine (congrFun (b2_term m c) (ix2 o z)).trans ((column_apply _ o z).trans ?_)
  rw [SepConv.at1_ix1, SepConv.at1_ix1, SepConv.at1_ix1]
  rfl

/-! ## The first-stage bias planes

Each first-stage bias, laid out as a column, is repeated along the flat positions and multiplied by a mask repeated
down the 64 channels. The masks are taken here as whatever the region finds in their arrays. -/

/-- A bias column repeated along 4352 positions times a one-row mask repeated down 64 channels, at an index. -/
theorem planeL_apply (b : S64.Idx → EReal) (M : S1x4352.Idx → EReal) (o : Fin 64) (p : Fin 4352) :
    mulf (F := Ideal) (s := S64x4352) (φ := .f32)
        (broadcastInDim S64x4352 ![0, 1] Gen.bcast_S64x1_S64x4352_0_1
          (broadcastInDim S64x1 ![0] Gen.bcast_S64_S64x1_0 b))
        (broadcastInDim S64x4352 ![0, 1] Gen.bcast_S1x4352_S64x4352_0_1 M) (ix2 o p)
      = SepConv.at1 b o.val * M (ix2 (0 : Fin 1) p) := by
  show broadcastInDim S64x4352 ![0, 1] Gen.bcast_S64x1_S64x4352_0_1
        (broadcastInDim S64x1 ![0] Gen.bcast_S64_S64x1_0 b) (ix2 o p)
      * broadcastInDim S64x4352 ![0, 1] Gen.bcast_S1x4352_S64x4352_0_1 M (ix2 o p) = _
  refine congrArg₂ (· * ·) ?_ ?_
  · refine (broadcastInDim_apply _ _ _ (ix2 o p) (ix2 o (0 : Fin 1)) ?_).trans (column_apply b o 0)
    intro a
    match a with
    | ⟨0, _⟩ => rfl
    | ⟨1, _⟩ => rfl
  · refine broadcastInDim_apply _ _ M (ix2 o p) (ix2 (0 : Fin 1) p) ?_
    intro a
    match a with
    | ⟨0, _⟩ => rfl
    | ⟨1, _⟩ => rfl

/-- The same over the 4624 positions of the 68 x 68 grid. -/
theorem planeR_apply (b : S64.Idx → EReal) (M : S1x4624.Idx → EReal) (o : Fin 64) (q : Fin 4624) :
    mulf (F := Ideal) (s := S64x4624) (φ := .f32)
        (broadcastInDim S64x4624 ![0, 1] Gen.bcast_S64x1_S64x4624_0_1
          (broadcastInDim S64x1 ![0] Gen.bcast_S64_S64x1_0 b))
        (broadcastInDim S64x4624 ![0, 1] Gen.bcast_S1x4624_S64x4624_0_1 M) (ix2 o q)
      = SepConv.at1 b o.val * M (ix2 (0 : Fin 1) q) := by
  show broadcastInDim S64x4624 ![0, 1] Gen.bcast_S64x1_S64x4624_0_1
        (broadcastInDim S64x1 ![0] Gen.bcast_S64_S64x1_0 b) (ix2 o q)
      * broadcastInDim S64x4624 ![0, 1] Gen.bcast_S1x4624_S64x4624_0_1 M (ix2 o q) = _
  refine congrArg₂ (· * ·) ?_ ?_
  · refine (broadcastInDim_apply _ _ _ (ix2 o q) (ix2 o (0 : Fin 1)) ?_).trans (column_apply b o 0)
    intro a
    match a with
    | ⟨0, _⟩ => rfl
    | ⟨1, _⟩ => rfl
  · refine broadcastInDim_apply _ _ M (ix2 o q) (ix2 (0 : Fin 1) q) ?_
    intro a
    match a with
    | ⟨0, _⟩ => rfl
    | ⟨1, _⟩ => rfl

/-- The left bias plane the region finds, as the host operations' term over the mask the region finds. -/
theorem planeL_term :
    (Gen.V m c main_call0_v25 : S64x4352.Idx → EReal)
      = mulf (F := Ideal) (s := S64x4352) (φ := .f32)
          (broadcastInDim S64x4352 ![0, 1] Gen.bcast_S64x1_S64x4352_0_1
            (broadcastInDim S64x1 ![0] Gen.bcast_S64_S64x1_0 (m ((c.tc : Thread nD τ).loc main_arg2))))
          (broadcastInDim S64x4352 ![0, 1] Gen.bcast_S1x4352_S64x4352_0_1
            (Gen.V m c main_call0_v16 : S1x4352.Idx → EReal)) := by
  show StableHlo.after Gen.hostOps0 (fun b => m (c, b)) (Proc.devRef .tc main_call0_v25)
      = mulf (F := Ideal) (s := S64x4352) (φ := .f32)
          (broadcastInDim S64x4352 ![0, 1] Gen.bcast_S64x1_S64x4352_0_1
            (broadcastInDim S64x1 ![0] Gen.bcast_S64_S64x1_0 (m ((c.tc : Thread nD τ).loc main_arg2))))
          (broadcastInDim S64x4352 ![0, 1] Gen.bcast_S1x4352_S64x4352_0_1
            (StableHlo.after Gen.hostOps0 (fun b => m (c, b)) (Proc.devRef .tc main_call0_v16)))
  after_results_simp
  simp only [TRef.toBuf, TRef.ofBuf, cast_eq]

/-- The right bias plane the region finds, as the host operations' term over the mask the region finds. -/
theorem planeR_term :
    (Gen.V m c main_call0_v29 : S64x4624.Idx → EReal)
      = mulf (F := Ideal) (s := S64x4624) (φ := .f32)
          (broadcastInDim S64x4624 ![0, 1] Gen.bcast_S64x1_S64x4624_0_1
            (broadcastInDim S64x1 ![0] Gen.bcast_S64_S64x1_0 (m ((c.tc : Thread nD τ).loc main_arg6))))
          (broadcastInDim S64x4624 ![0, 1] Gen.bcast_S1x4624_S64x4624_0_1
            (Gen.V m c main_call0_v21 : S1x4624.Idx → EReal)) := by
  show StableHlo.after Gen.hostOps0 (fun b => m (c, b)) (Proc.devRef .tc main_call0_v29)
      = mulf (F := Ideal) (s := S64x4624) (φ := .f32)
          (broadcastInDim S64x4624 ![0, 1] Gen.bcast_S64x1_S64x4624_0_1
            (broadcastInDim S64x1 ![0] Gen.bcast_S64_S64x1_0 (m ((c.tc : Thread nD τ).loc main_arg6))))
          (broadcastInDim S64x4624 ![0, 1] Gen.bcast_S1x4624_S64x4624_0_1
            (StableHlo.after Gen.hostOps0 (fun b => m (c, b)) (Proc.devRef .tc main_call0_v21)))
  after_results_simp
  simp only [TRef.toBuf, TRef.ofBuf, cast_eq]

/-- The left bias plane the region finds is the third argument times the mask of the valid columns, once the mask
    array is known to hold that mask. -/
theorem V_planeL
    (hmask : ∀ p : Fin 4352,
      (Gen.V m c main_call0_v16 : S1x4352.Idx → EReal) (ix2 (0 : Fin 1) p) = SepConv.maskW p.val)
    (o : Fin 64) (p : Fin 4352) :
    (Gen.V m c main_call0_v25 : S64x4352.Idx → EReal) (ix2 o p)
      = SepConv.at1 (m ((c.tc : Thread nD τ).loc main_arg2)) o.val * SepConv.maskW p.val :=
  (congrFun (planeL_term m c) (ix2 o p)).trans
    ((planeL_apply _ _ o p).trans (congrArg (fun t => SepConv.at1 _ o.val * t) (hmask p)))

/-- The right bias plane the region finds is the seventh argument times the mask of the valid rows, once the mask
    array is known to hold that mask. -/
theorem V_planeR
    (hmask : ∀ q : Fin 4624,
      (Gen.V m c main_call0_v21 : S1x4624.Idx → EReal) (ix2 (0 : Fin 1) q) = SepConv.maskH q.val)
    (o : Fin 64) (q : Fin 4624) :
    (Gen.V m c main_call0_v29 : S64x4624.Idx → EReal) (ix2 o q)
      = SepConv.at1 (m ((c.tc : Thread nD τ).loc main_arg6)) o.val * SepConv.maskH q.val :=
  (congrFun (planeR_term m c) (ix2 o q)).trans
    ((planeR_apply _ _ o q).trans (congrArg (fun t => SepConv.at1 _ o.val * t) (hmask q)))

end Cert.ReferenceIdeal.RefHost
-- ==== Proof.RefInputs.lean ====
/-
  What the reference's body leaves at a grid point, as the specification's result.

  The reference's pipeline has eight input windows and one output window over a grid of 64 points, one per image.
  At point `t` the first window's block is image `t` of the padded, flattened image array; every other input
  window's block is its whole array. The body's value on such blocks is the specification's core of them; the
  arrays the region finds are the specification's functions of the nine arguments (the padded row, the four taps
  matrices, the first-stage biases times the two masks, the sum of the second-stage biases). Arrays read at natural
  coordinates are zero outside their boxes and so are those functions, so each input of the core is the
  corresponding function as a whole. Hence the entry of the output block at channel `o` and the flat position of
  row `h`, column `w` is the specification's result at image `t`, channel `o`, row `h`, column `w`.
-/
import proofs.«149304_g2000302748725897_pallasbulk_1061_49_alg».proof.Proof.Gen.ReferenceIdeal.Frame
import proofs.«149304_g2000302748725897_pallasbulk_1061_49_alg».proof.Proof.Spec
import proofs.«149304_g2000302748725897_pallasbulk_1061_49_alg».proof.Proof.RefBlock
import proofs.«149304_g2000302748725897_pallasbulk_1061_49_alg».proof.Proof.RefHost
import Idealize.ShloMosaic.Lib.Pipeline.Value
import Idealize.ShloMosaic.Lib.ValueIdx
import Idealize.ShloMosaic.PureOps.Ideal.Laws

set_option maxRecDepth 16384

noncomputable section

namespace Cert.ReferenceIdeal.RefInputs

open Idealize.ShloMosaic Idealize.ShloMosaic.TcCoe Idealize.ShloMosaic.ValueIdx Idealize.ShloMosaic.Tactic
open Cert.ReferenceIdeal

variable (m : (ℓ : Loc nD τ sig) → Buf (Elt Ideal) ℓ) (c : Dev nD)

/-! ## The blocks the body is called with, read off the arrays the region finds

  Window 0's block at point `t` is image `t` of the padded image array; every other input window's block is its
  whole array, at every point. A block's coordinate on an axis is the window's block index there times the block's
  extent plus the coordinate inside the block; the block indices are decided once over the 64 points. -/

/-- The block indices of the eight input windows at every point. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- A point of the grid is below 64. -/
theorem point_lt (t : Fin cfg0.N) : t.val < 64 := lt_of_lt_of_eq t.isLt Gen.N_0

theorem iblk0 (t : Fin cfg0.N) (u : Fin 1) (ch : Fin 64) (j : Fin 4628) :
    (Gen.iblk m c 0 t : S1x64x4628.Idx → EReal) (ix3 u ch j)
      = (Gen.V m c main_call0_v34 : S64x64x4628.Idx → EReal) (ix3 ⟨t.val, point_lt t⟩ ch j) := by
  show (Gen.V m c main_call0_v34 : S64x64x4628.Idx → EReal) (((cfg0.win 0).blk t).view.emb (ix3 u ch j)) = _
  refine congrArg (Gen.V m c main_call0_v34 : S64x64x4628.Idx → EReal) (funext fun d => Fin.ext ?_)
  obtain ⟨e0, e1, e2, -⟩ := idx_facts t
  match d with
  | ⟨0, _⟩ => show win0_0.index t (0 : Fin 3) * 1 + 1 * u.val = t.val; have := u.isLt; omega
  | ⟨1, _⟩ => show win0_0.index t (1 : Fin 3) * 64 + 1 * ch.val = ch.val; omega
  | ⟨2, _⟩ => show win0_0.index t (2 : Fin 3) * 4628 + 1 * j.val = j.val; omega

theorem iblk1 (t : Fin cfg0.N) (a : Fin 64) (b : Fin 320) :
    (Gen.iblk m c 1 t : S64x320.Idx → EReal) (ix2 a b) = (Gen.V m c main_call0_v2 : S64x320.Idx → EReal) (ix2 a b) := by
  show (Gen.V m c main_call0_v2 : S64x320.Idx → EReal) (((cfg0.win 1).blk t).view.emb (ix2 a b)) = _
  refine congrArg (Gen.V m c main_call0_v2 : S64x320.Idx → EReal) (funext fun d => Fin.ext ?_)
  obtain ⟨-, -, -, e0, e1, -⟩ := idx_facts t
  match d with
  | ⟨0, _⟩ => show win0_1.index t (0 : Fin 2) * 64 + 1 * a.val = a.val; omega
  | ⟨1, _⟩ => show win0_1.index t (1 : Fin 2) * 320 + 1 * b.val = b.val; omega

theorem iblk2 (t : Fin cfg0.N) (a : Fin 64) (b : Fin 320) :
    (Gen.iblk m c 2 t : S64x320.Idx → EReal) (ix2 a b) = (Gen.V m c main_call0_v5 : S64x320.Idx → EReal) (ix2 a b) := by
  show (Gen.V m c main_call0_v5 : S64x320.Idx → EReal) (((cfg0.win 2).blk t).view.emb (ix2 a b)) = _
  refine congrArg (Gen.V m c main_call0_v5 : S64x320.Idx → EReal) (funext fun d => Fin.ext ?_)
  obtain ⟨-, -, -, -, -, e0, e1, -⟩ := idx_facts t
  match d with
  | ⟨0, _⟩ => show win0_2.index t (0 : Fin 2) * 64 + 1 * a.val = a.val; omega
  | ⟨1, _⟩ => show win0_2.index t (1 : Fin 2) * 320 + 1 * b.val = b.val; omega

theorem iblk3 (t : Fin cfg0.N) (a : Fin 64) (b : Fin 320) :
    (Gen.iblk m c 3 t : S64x320.Idx → EReal) (ix2 a b) = (Gen.V m c main_call0_v8 : S64x320.Idx → EReal) (ix2 a b) := by
  show (Gen.V m c main_call0_v8 : S64x320.Idx → EReal) (((cfg0.win 3).blk t).view.emb (ix2 a b)) = _
  refine congrArg (Gen.V m c main_call0_v8 : S64x320.Idx → EReal) (funext fun d => Fin.ext ?_)
  obtain ⟨-, -, -, -, -, -, -, e0, e1, -⟩ := idx_facts t
  match d with
  | ⟨0, _⟩ => show win0_3.index t (0 : Fin 2) * 64 + 1 * a.val = a.val; omega
  | ⟨1, _⟩ => show win0_3.index t (1 : Fin 2) * 320 + 1 * b.val = b.val; omega

theorem iblk4 (t : Fin cfg0.N) (a : Fin 64) (b : Fin 320) :
    (Gen.iblk m c 4 t : S64x320.Idx → EReal) (ix2 a b) = (Gen.V m c main_call0_v11 : S64x320.Idx → EReal) (ix2 a b) := by
  show (Gen.V m c main_call0_v11 : S64x320.Idx → EReal) (((cfg0.win 4).blk t).view.emb (ix2 a b)) = _
  refine congrArg (Gen.V m c main_call0_v11 : S64x320.Idx → EReal) (funext fun d => Fin.ext ?_)
  obtain ⟨-, -, -, -, -, -, -, -, -, e0, e1, -⟩ := idx_facts t
  match d with
  | ⟨0, _⟩ => show win0_4.index t (0 : Fin 2) * 64 + 1 * a.val = a.val; omega
  | ⟨1, _⟩ => show win0_4.index t (1 : Fin 2) * 320 + 1 * b.val = b.val; omega

theorem iblk5 (t : Fin cfg0.N) (a : Fin 64) (b : Fin 4352) :
    (Gen.iblk m c 5 t : S64x4352.Idx → EReal) (ix2 a b) = (Gen.V m c main_call0_v25 : S64x4352.Idx → EReal) (ix2 a b) := by
  show (Gen.V m c main_call0_v25 : S64x4352.Idx → EReal) (((cfg0.win 5).blk t).view.emb (ix2 a b)) = _
  refine congrArg (Gen.V m c main_call0_v25 : S64x4352.Idx → EReal) (funext fun d => Fin.ext ?_)
  obtain ⟨-, -, -, -, -, -, -, -, -, -, -, e0, e1, -⟩ := idx_facts t
  match d with
  | ⟨0, _⟩ => show win0_5.index t (0 : Fin 2) * 64 + 1 * a.val = a.val; omega
  | ⟨1, _⟩ => show win0_5.index t (1 : Fin 2) * 4352 + 1 * b.val = b.val; omega

theorem iblk6 (t : Fin cfg0.N) (a : Fin 64) (b : Fin 4624) :
    (Gen.iblk m c 6 t : S64x4624.Idx → EReal) (ix2 a b) = (Gen.V m c main_call0_v29 : S64x4624.Idx → EReal) (ix2 a b) := by
  show (Gen.V m c main_call0_v29 : S64x4624.Idx → EReal) (((cfg0.win 6).blk t).view.emb (ix2 a b)) = _
  refine congrArg (Gen.V m c main_call0_v29 : S64x4624.Idx → EReal) (funext fun d => Fin.ext ?_)
  obtain ⟨-, -, -, -, -, -, -, -, -, -, -, -, -, e0, e1, -⟩ := idx_facts t
  match d with
  | ⟨0, _⟩ => show win0_6.index t (0 : Fin 2) * 64 + 1 * a.val = a.val; omega
  | ⟨1, _⟩ => show win0_6.index t (1 : Fin 2) * 4624 + 1 * b.val = b.val; omega

theorem iblk7 (t : Fin cfg0.N) (a : Fin 64) (b : Fin 1) :
    (Gen.iblk m c 7 t : S64x1.Idx → EReal) (ix2 a b) = (Gen.V m c main_call0_v31 : S64x1.Idx → EReal) (ix2 a b) := by
  show (Gen.V m c main_call0_v31 : S64x1.Idx → EReal) (((cfg0.win 7).blk t).view.emb (ix2 a b)) = _
  refine congrArg (Gen.V m c main_call0_v31 : S64x1.Idx → EReal) (funext fun d => Fin.ext ?_)
  obtain ⟨-, -, -, -, -, -, -, -, -, -, -, -, -, -, -, e0, e1⟩ := idx_facts t
  match d with
  | ⟨0, _⟩ => show win0_7.index t (0 : Fin 2) * 64 + 1 * a.val = a.val; omega
  | ⟨1, _⟩ => show win0_7.index t (1 : Fin 2) * 1 + 1 * b.val = b.val; omega

/-! ## An array read at natural coordinates, against a function that vanishes outside the array's box -/

/-- A four-axis array read outside its box is zero. -/
theorem at4_of_not {A B C D : ℕ} (v : (⟨4, ![A, B, C, D]⟩ : Shape).Idx → EReal) {a b c d : ℕ}
    (h : ¬(a < A ∧ b < B ∧ c < C ∧ d < D)) : SepConv.at4 v a b c d = 0 := by
  unfold SepConv.at4; rw [dif_neg h]

/-- A one-axis array read outside its box is zero. -/
theorem at1_of_not {A : ℕ} (v : (⟨1, ![A]⟩ : Shape).Idx → EReal) {a : ℕ} (h : ¬a < A) : SepConv.at1 v a = 0 := by
  unfold SepConv.at1; rw [dif_neg h]

/-- A matrix whose entries are those of `f`, `f` vanishing outside the matrix's box, reads as `f` everywhere. -/
theorem at2_eq {A B : ℕ} (X : (⟨2, ![A, B]⟩ : Shape).Idx → EReal) (f : ℕ → ℕ → EReal)
    (hin : ∀ (o : Fin A) (k : Fin B), X (ix2 o k) = f o.val k.val)
    (hout : ∀ o k, ¬(o < A ∧ k < B) → f o k = 0) : SepConv.at2 X = f := by
  funext o k
  by_cases h : o < A ∧ k < B
  · rw [SepConv.at2_of_lt X h.1 h.2]; exact hin ⟨o, h.1⟩ ⟨k, h.2⟩
  · rw [SepConv.at2_of_not X h, hout o k h]

/-- A column whose entries are those of `f`, `f` vanishing past its end, reads as `f` everywhere. -/
theorem column_eq {A : ℕ} (X : (⟨2, ![A, 1]⟩ : Shape).Idx → EReal) (f : ℕ → EReal)
    (hin : ∀ (o : Fin A) (z : Fin 1), X (ix2 o z) = f o.val) (hout : ∀ o, ¬o < A → f o = 0) :
    (fun o => SepConv.at2 X o 0) = f := by
  funext o
  by_cases h : o < A
  · rw [SepConv.at2_of_lt X h (by decide : 0 < 1)]; exact hin ⟨o, h⟩ ⟨0, by decide⟩
  · rw [SepConv.at2_of_not X (fun hh => h hh.1), hout o h]

/-- The weight matrices vanish outside 64 rows and 320 columns. -/
theorem tapsL1_out (w : (⟨4, ![64, 64, 5, 1]⟩ : Shape).Idx → EReal) (o k : ℕ) (h : ¬(o < 64 ∧ k < 320)) :
    SepConv.tapsL1 w o k = 0 := by
  unfold SepConv.tapsL1; exact at4_of_not w (by omega)

theorem tapsR1_out (w : (⟨4, ![64, 64, 1, 5]⟩ : Shape).Idx → EReal) (o k : ℕ) (h : ¬(o < 64 ∧ k < 320)) :
    SepConv.tapsR1 w o k = 0 := by
  unfold SepConv.tapsR1; exact at4_of_not w (by omega)

theorem tapsL2_out (w : (⟨4, ![64, 64, 1, 5]⟩ : Shape).Idx → EReal) (o k : ℕ) (h : ¬(o < 64 ∧ k < 320)) :
    SepConv.tapsL2 w o k = 0 := by
  unfold SepConv.tapsL2; exact at4_of_not w (by omega)

theorem tapsR2_out (w : (⟨4, ![64, 64, 5, 1]⟩ : Shape).Idx → EReal) (o k : ℕ) (h : ¬(o < 64 ∧ k < 320)) :
    SepConv.tapsR2 w o k = 0 := by
  unfold SepConv.tapsR2; exact at4_of_not w (by omega)

/-- A bias times the mask of the valid columns vanishes outside 64 rows and 4352 columns. -/
theorem planeL_out (b : (⟨1, ![64]⟩ : Shape).Idx → EReal) (o p : ℕ) (h : ¬(o < 64 ∧ p < 4352)) :
    SepConv.at1 b o * SepConv.maskW p = 0 := by
  by_cases ho : o < 64
  · have hp : ¬p < 4352 := fun hh => h ⟨ho, hh⟩
    unfold SepConv.maskW; rw [if_neg (fun hh => hp hh.1), mul_zero]
  · rw [at1_of_not b ho, zero_mul]

/-- A bias times the mask of the valid rows vanishes outside 64 rows and 4624 columns. -/
theorem planeR_out (b : (⟨1, ![64]⟩ : Shape).Idx → EReal) (o q : ℕ) (h : ¬(o < 64 ∧ q < 4624)) :
    SepConv.at1 b o * SepConv.maskH q = 0 := by
  by_cases ho : o < 64
  · have hq : ¬q < 4624 := fun hh => h ⟨ho, hh⟩
    unfold SepConv.maskH; rw [if_neg (fun hh => hq hh.1), mul_zero]
  · rw [at1_of_not b ho, zero_mul]

/-- The sum of two biases vanishes past row 64. -/
theorem bias2_out (b b' : (⟨1, ![64]⟩ : Shape).Idx → EReal) (o : ℕ) (h : ¬o < 64) :
    SepConv.at1 b o + SepConv.at1 b' o = 0 := by
  rw [at1_of_not b h, at1_of_not b' h, add_zero]

/-- The padded row vanishes outside 64 channels and 4628 flat positions. -/
theorem padded_out (x : (⟨4, ![64, 64, 64, 64]⟩ : Shape).Idx → EReal) (n ch j : ℕ) (h : ¬(ch < 64 ∧ j < 4628)) :
    SepConv.padded x n ch j = 0 := by
  unfold SepConv.padded
  by_cases hc : 2 ≤ j ∧ 2 ≤ (j - 2) / 68 ∧ (j - 2) / 68 < 66 ∧ 2 ≤ (j - 2) % 68 ∧ (j - 2) % 68 < 66
  · rw [if_pos hc]
    refine at4_of_not x (fun hh => h ⟨hh.2.1, ?_⟩)
    omega
  · rw [if_neg hc]

/-- The image block read at natural coordinates is the padded row of image `n`, given the block's entries. -/
theorem image_eq (X : (⟨3, ![1, 64, 4628]⟩ : Shape).Idx → EReal) (x : (⟨4, ![64, 64, 64, 64]⟩ : Shape).Idx → EReal)
    (n : ℕ) (hX : ∀ (u : Fin 1) (ch : Fin 64) (j : Fin 4628), X (ix3 u ch j) = SepConv.padded x n ch.val j.val) :
    (fun ch j => SepConv.at3 X 0 ch j) = SepConv.padded x n := by
  funext ch j
  by_cases h : ch < 64 ∧ j < 4628
  · rw [SepConv.at3_of_lt X (by decide : 0 < 1) h.1 h.2]
    exact hX ⟨0, by decide⟩ ⟨ch, h.1⟩ ⟨j, h.2⟩
  · rw [SepConv.at3_of_not X (fun hh => h hh.2), padded_out x n ch j h]

/-! ## The eight inputs of the core at a point -/

section Blocks

variable (t : Fin cfg0.N)

/-- The image block at point `t` is the padded row of image `t`. -/
theorem image_block :
    (fun ch j => SepConv.at3 (Gen.iblk m c 0 t : S1x64x4628.Idx → EReal) 0 ch j) = SepConv.padded (m ((c.tc : Thread nD τ).loc main_arg0)) t.val :=
  image_eq _ _ t.val (fun u ch j => (iblk0 m c t u ch j).trans (RefHost.V_image m c ⟨t.val, point_lt t⟩ ch j))

/-- The four weight blocks are the taps matrices. -/
theorem w1l_block : SepConv.at2 (Gen.iblk m c 1 t : S64x320.Idx → EReal) = SepConv.tapsL1 (m ((c.tc : Thread nD τ).loc main_arg1)) :=
  at2_eq _ _ (fun o k => (iblk1 m c t o k).trans (RefHost.V_w1l m c o k)) (tapsL1_out _)

theorem w2l_block : SepConv.at2 (Gen.iblk m c 2 t : S64x320.Idx → EReal) = SepConv.tapsL2 (m ((c.tc : Thread nD τ).loc main_arg3)) :=
  at2_eq _ _ (fun o k => (iblk2 m c t o k).trans (RefHost.V_w2l m c o k)) (tapsL2_out _)

theorem w1r_block : SepConv.at2 (Gen.iblk m c 3 t : S64x320.Idx → EReal) = SepConv.tapsR1 (m ((c.tc : Thread nD τ).loc main_arg5)) :=
  at2_eq _ _ (fun o k => (iblk3 m c t o k).trans (RefHost.V_w1r m c o k)) (tapsR1_out _)

theorem w2r_block : SepConv.at2 (Gen.iblk m c 4 t : S64x320.Idx → EReal) = SepConv.tapsR2 (m ((c.tc : Thread nD τ).loc main_arg7)) :=
  at2_eq _ _ (fun o k => (iblk4 m c t o k).trans (RefHost.V_w2r m c o k)) (tapsR2_out _)

/-- The two bias planes are the first-stage biases times the masks, the masks being what the region finds. -/
theorem planeL_block (hmW : ∀ (c : Dev nD) (p : Fin 4352), (Gen.V m c main_call0_v16 : S1x4352.Idx → EReal) (ix2 (0 : Fin 1) p) = SepConv.maskW p.val) :
    SepConv.at2 (Gen.iblk m c 5 t : S64x4352.Idx → EReal)
      = fun o p => SepConv.at1 (m ((c.tc : Thread nD τ).loc main_arg2)) o * SepConv.maskW p :=
  at2_eq _ _ (fun o p => (iblk5 m c t o p).trans (RefHost.V_planeL m c (hmW c) o p)) (planeL_out _)

theorem planeR_block (hmH : ∀ (c : Dev nD) (q : Fin 4624), (Gen.V m c main_call0_v21 : S1x4624.Idx → EReal) (ix2 (0 : Fin 1) q) = SepConv.maskH q.val) :
    SepConv.at2 (Gen.iblk m c 6 t : S64x4624.Idx → EReal)
      = fun o q => SepConv.at1 (m ((c.tc : Thread nD τ).loc main_arg6)) o * SepConv.maskH q :=
  at2_eq _ _ (fun o q => (iblk6 m c t o q).trans (RefHost.V_planeR m c (hmH c) o q)) (planeR_out _)

/-- The bias column is the sum of the two second-stage biases. -/
theorem bias2_block :
    (fun o => SepConv.at2 (Gen.iblk m c 7 t : S64x1.Idx → EReal) o 0)
      = fun o => SepConv.at1 (m ((c.tc : Thread nD τ).loc main_arg4)) o + SepConv.at1 (m ((c.tc : Thread nD τ).loc main_arg8)) o :=
  column_eq _ _ (fun o z => (iblk7 m c t o z).trans (RefHost.V_b2 m c o z)) (bias2_out _ _)

end Blocks

/-- The core of equal inputs. -/
theorem core_congr {XP XP' W1L W1L' W1R W1R' W2L W2L' W2R W2R' BL BL' BR BR' : ℕ → ℕ → EReal} {B2 B2' : ℕ → EReal}
    (h1 : XP = XP') (h2 : W1L = W1L') (h3 : W1R = W1R') (h4 : W2L = W2L') (h5 : W2R = W2R')
    (h6 : BL = BL') (h7 : BR = BR') (h8 : B2 = B2') (o p : ℕ) :
    SepConv.core XP W1L W1R W2L W2R BL BR B2 o p = SepConv.core XP' W1L' W1R' W2L' W2R' BL' BR' B2' o p := by
  subst h1 h2 h3 h4 h5 h6 h7 h8
  rfl

/-! ## The block a point leaves -/

/-- What the body leaves in the output block at point `t`, at channel `o` and the flat position of row `h`, column
    `w` of the image: the specification's result for image `t`. -/
theorem blocks (hmW : ∀ (c : Dev nD) (p : Fin 4352), (Gen.V m c main_call0_v16 : S1x4352.Idx → EReal) (ix2 (0 : Fin 1) p) = SepConv.maskW p.val)
    (hmH : ∀ (c : Dev nD) (q : Fin 4624), (Gen.V m c main_call0_v21 : S1x4624.Idx → EReal) (ix2 (0 : Fin 1) q) = SepConv.maskH q.val)
    (c : Dev nD) (t : Fin cfg0.N) (o h w : Fin 64) :
    Gen.outsAt0 (F := Ideal) m c t (ix3 (0 : Fin 1) o ⟨h.val * 68 + 2 + w.val, by omega⟩)
      = SepConv.result (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (ix4 ⟨t.val, point_lt t⟩ o h w) := by
  unfold Gen.outsAt0
  refine (RefBlock.block_eq c (grid0.coords t) (Gen.ms0_0 t) (Gen.hs0_0 t) (Gen.ms0_1 t) (Gen.hs0_1 t)
    (Gen.ms0_2 t) (Gen.hs0_2 t) (Gen.ms0_3 t) (Gen.hs0_3 t) (Gen.ms0_4 t) (Gen.hs0_4 t) (Gen.ms0_5 t) (Gen.hs0_5 t)
    (Gen.ms0_6 t) (Gen.hs0_6 t) (Gen.ms0_7 t) (Gen.hs0_7 t) (Gen.ms0_8 t) (Gen.hs0_8 t) Gen.scM0_0
    (Memref.isWhole_whole _) (Gen.iblk m c 0 t) (Gen.iblk m c 1 t) (Gen.iblk m c 2 t) (Gen.iblk m c 3 t)
    (Gen.iblk m c 4 t) (Gen.iblk m c 5 t) (Gen.iblk m c 6 t) (Gen.iblk m c 7 t) o
    ⟨h.val * 68 + 2 + w.val, by omega⟩).trans ?_
  unfold SepConv.result
  exact core_congr (image_block m c t) (w1l_block m c t) (w1r_block m c t) (w2l_block m c t) (w2r_block m c t)
    (planeL_block m c t hmW) (planeR_block m c t hmH) (bias2_block m c t) _ _

end Cert.ReferenceIdeal.RefInputs
end
-- ==== Proof.LibScatterConst.lean ====
/-
  A scatter that writes one constant, read at an element.

  The host's scatter is a left fold over the update positions in row-major order: each position that lands inside
  the operand overwrites the element it lands on with the body applied to that element and the update. When the
  body returns the update and every update carries the same value `c`, the order of the fold does not matter: an
  element of the result is `c` if some update position lands on it, and the operand's element if none does. The
  fold lemmas are stated for any step function that either overwrites one element or leaves the array alone.
-/
import Idealize.ShloMosaic.PureOps.ShapeOps

namespace LibScatterConst

open Idealize.ShloMosaic

section Fold

variable {ι κ α : Type} [DecidableEq ι] (step : (ι → α) → κ → ι → α) (g : κ → Option ι) (v : κ → α)
  (hsome : ∀ r n i, g n = some i → step r n = fun i' => if i' = i then v n else r i')
  (hnone : ∀ r n, g n = none → step r n = r)

include hsome hnone in
/-- A fold of steps that each overwrite the element `g n` (when there is one) with `v n`: if no position of the
    list lands on `i'`, the fold leaves the element at `i'` as it was. -/
theorem foldl_miss (i' : ι) : ∀ (L : List κ) (x : ι → α), (∀ n ∈ L, g n ≠ some i') → L.foldl step x i' = x i'
  | [], _, _ => rfl
  | n :: L, x, h => by
    rw [List.foldl_cons, foldl_miss i' L (step x n) (fun n' hn' => h n' (List.mem_cons_of_mem _ hn'))]
    cases hg : g n with
    | none => rw [hnone x n hg]
    | some i =>
      rw [hsome x n i hg]
      have hne : i' ≠ i := fun e => h n List.mem_cons_self (by rw [hg, e])
      show (if i' = i then v n else x i') = x i'
      rw [if_neg hne]

include hsome hnone in
/-- The same fold when every position carries the one value `c`: if some position of the list lands on `i'`, the
    fold leaves `c` there (whichever position wrote last). -/
theorem foldl_hit (c : α) (hv : ∀ n, v n = c) (i' : ι) :
    ∀ (L : List κ) (x : ι → α), (∃ n ∈ L, g n = some i') → L.foldl step x i' = c
  | [], _, h => by obtain ⟨n, hn, _⟩ := h; cases hn
  | n :: L, x, h => by
    rw [List.foldl_cons]
    by_cases hL : ∃ n' ∈ L, g n' = some i'
    · exact foldl_hit c hv i' L (step x n) hL
    · have hn : g n = some i' := by
        obtain ⟨n', hn', e⟩ := h
        rcases List.mem_cons.1 hn' with rfl | hmem
        · exact e
        · exact absurd ⟨n', hmem, e⟩ hL
      rw [foldl_miss step g v hsome hnone i' L (step x n) (fun n' hn' e => hL ⟨n', hn', e⟩), hsome x n i' hn]
      show (if i' = i' then v n else x i') = c
      rw [if_pos rfl, hv]

end Fold

section Scatter

variable {α : Type} {s si u : Shape} {w : ℕ} (d : ScatterDims s si u) (x : s.Idx → α) (idx : IVec si w)
  (upd : u.Idx → α) (c : α) (hupd : ∀ j, upd j = c)

include hupd in
/-- A scatter whose body returns the update and whose updates all carry `c`: an element some update position
    lands on holds `c`. -/
theorem scatter_const_hit (i' : s.Idx) (j : u.Idx) (hj : d.resultIdx? j idx = some i') :
    Host.scatter d (fun _ b => b) x idx upd i' = c := by
  unfold Host.scatter
  refine foldl_hit _ (fun n => d.resultIdx? (u.rowMajor.symm n) idx) (fun n => upd (u.rowMajor.symm n))
    (fun r n i h => by simp only [h]) (fun r n h => by simp only [h]) c (fun n => hupd _) i' _ x
    ⟨u.rowMajor j, List.mem_finRange _, ?_⟩
  show d.resultIdx? (u.rowMajor.symm (u.rowMajor j)) idx = some i'
  rw [Equiv.symm_apply_apply]; exact hj

/-- A scatter whose body returns the update: an element no update position lands on keeps the operand's value. -/
theorem scatter_const_miss (i' : s.Idx) (h : ∀ j, d.resultIdx? j idx ≠ some i') :
    Host.scatter d (fun _ b => b) x idx upd i' = x i' := by
  unfold Host.scatter
  exact foldl_miss _ (fun n => d.resultIdx? (u.rowMajor.symm n) idx) (fun n => upd (u.rowMajor.symm n))
    (fun r n i h => by simp only [h]) (fun r n h => by simp only [h]) i' _ x (fun n _ => h _)

end Scatter

end LibScatterConst
-- ==== Proof.MasksR.lean ====
/-
  The two 0/1 masks as the reference's program builds them on the host, read at a position.

  Each mask is a grid of zeros into which one block of ones is scattered at a literal start (column 2 of the
  64 x 68 grid for the width mask, row 2 of the 68 x 68 grid for the height mask), then laid out as one row. A
  scatter whose updates all carry one value, with a body that returns the update, leaves that value wherever some
  update lands and the operand elsewhere; the update (a, b) lands at the start plus (a, b). Reading the row at flat
  position p is reading the grid at row p / 68 and column p % 68, which gives the specification's
  `SepConv.maskW` and `SepConv.maskH`.
-/
import proofs.«149304_g2000302748725897_pallasbulk_1061_49_alg».proof.Proof.Gen.ReferenceIdeal.Frame
import proofs.«149304_g2000302748725897_pallasbulk_1061_49_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.IdealHost
import Idealize.ShloMosaic.PureOps.Ideal.Laws
import proofs.«149304_g2000302748725897_pallasbulk_1061_49_alg».proof.Proof.LibScatterConst

set_option maxRecDepth 16384
noncomputable section
namespace Cert.ReferenceIdeal.Masks
open Idealize.ShloMosaic Idealize.ShloMosaic.ValueIdx Idealize.ShloMosaic.Tactic

/-! ## Where the two scatters land

Both scatters have one start index, the word 2, and a two-axis update window: the width mask's window of 64 x 64
starts at column 2 of the 64 x 68 operand, the height mask's window of 64 x 68 at row 2 of the 68 x 68 operand. -/

section LandW

variable (idx : IVec S1 32) (hidx : ∀ k, idx k = 2#32) (a b : Fin 64)

theorem startW0 : scatter_S64x68_S1_S64x64_01_n_1_0.start (ix2 a b) idx (0 : Fin 2) = 0 := by
  unfold ScatterDims.start
  rw [dif_neg (by decide)]

include hidx in
theorem startW1 : scatter_S64x68_S1_S64x64_01_n_1_0.start (ix2 a b) idx (1 : Fin 2) = 2 := by
  unfold ScatterDims.start
  rw [dif_pos (by decide), hidx]
  decide

theorem windowW0 : scatter_S64x68_S1_S64x64_01_n_1_0.window (ix2 a b) (0 : Fin 2) = a.val := by
  unfold ScatterDims.window
  rw [dif_pos (by decide)]
  rfl

theorem windowW1 : scatter_S64x68_S1_S64x64_01_n_1_0.window (ix2 a b) (1 : Fin 2) = b.val := by
  unfold ScatterDims.window
  rw [dif_pos (by decide)]
  rfl

include hidx in
/-- Update (a, b) of the width mask's scatter lands on row a, column 2 + b. -/
theorem resultIdxW :
    scatter_S64x68_S1_S64x64_01_n_1_0.resultIdx? (ix2 a b) idx
      = some (ix2 a (⟨2 + b.val, by have := b.isLt; omega⟩ : Fin 68)) := by
  have ha := a.isLt
  have hb := b.isLt
  unfold ScatterDims.resultIdx?
  have hall : ∀ a' : Fin 2, 0 ≤ scatter_S64x68_S1_S64x64_01_n_1_0.start (ix2 a b) idx a'
        + scatter_S64x68_S1_S64x64_01_n_1_0.window (ix2 a b) a'
      ∧ scatter_S64x68_S1_S64x64_01_n_1_0.start (ix2 a b) idx a'
        + scatter_S64x68_S1_S64x64_01_n_1_0.window (ix2 a b) a' < S64x68.size a' := by
    refine Fin.forall_fin_two.2 ⟨?_, ?_⟩
    · rw [startW0, windowW0]
      show (0 : ℤ) ≤ 0 + (a.val : ℤ) ∧ 0 + (a.val : ℤ) < ((64 : ℕ) : ℤ)
      omega
    · rw [startW1 idx hidx, windowW1]
      show (0 : ℤ) ≤ 2 + (b.val : ℤ) ∧ 2 + (b.val : ℤ) < ((68 : ℕ) : ℤ)
      omega
  rw [dif_pos hall]
  refine congrArg some ((eq_ix2 _).trans ?_)
  congr 1
  · apply Fin.ext
    show (scatter_S64x68_S1_S64x64_01_n_1_0.start (ix2 a b) idx (0 : Fin 2)
      + scatter_S64x68_S1_S64x64_01_n_1_0.window (ix2 a b) (0 : Fin 2)).toNat = a.val
    rw [startW0, windowW0]; omega
  · apply Fin.ext
    show (scatter_S64x68_S1_S64x64_01_n_1_0.start (ix2 a b) idx (1 : Fin 2)
      + scatter_S64x68_S1_S64x64_01_n_1_0.window (ix2 a b) (1 : Fin 2)).toNat = 2 + b.val
    rw [startW1 idx hidx, windowW1]; omega

end LandW

section LandH

variable (idx : IVec S1 32) (hidx : ∀ k, idx k = 2#32) (a : Fin 64) (b : Fin 68)

include hidx in
theorem startH0 : scatter_S68x68_S1_S64x68_01_n_0_0.start (ix2 a b) idx (0 : Fin 2) = 2 := by
  unfold ScatterDims.start
  rw [dif_pos (by decide), hidx]
  decide

theorem startH1 : scatter_S68x68_S1_S64x68_01_n_0_0.start (ix2 a b) idx (1 : Fin 2) = 0 := by
  unfold ScatterDims.start
  rw [dif_neg (by decide)]

theorem windowH0 : scatter_S68x68_S1_S64x68_01_n_0_0.window (ix2 a b) (0 : Fin 2) = a.val := by
  unfold ScatterDims.window
  rw [dif_pos (by decide)]
  rfl

theorem windowH1 : scatter_S68x68_S1_S64x68_01_n_0_0.window (ix2 a b) (1 : Fin 2) = b.val := by
  unfold ScatterDims.window
  rw [dif_pos (by decide)]
  rfl

include hidx in
/-- Update (a, b) of the height mask's scatter lands on row 2 + a, column b. -/
theorem resultIdxH :
    scatter_S68x68_S1_S64x68_01_n_0_0.resultIdx? (ix2 a b) idx
      = some (ix2 (⟨2 + a.val, by have := a.isLt; omega⟩ : Fin 68) b) := by
  have ha := a.isLt
  have hb := b.isLt
  unfold ScatterDims.resultIdx?
  have hall : ∀ a' : Fin 2, 0 ≤ scatter_S68x68_S1_S64x68_01_n_0_0.start (ix2 a b) idx a'
        + scatter_S68x68_S1_S64x68_01_n_0_0.window (ix2 a b) a'
      ∧ scatter_S68x68_S1_S64x68_01_n_0_0.start (ix2 a b) idx a'
        + scatter_S68x68_S1_S64x68_01_n_0_0.window (ix2 a b) a' < S68x68.size a' := by
    refine Fin.forall_fin_two.2 ⟨?_, ?_⟩
    · rw [startH0 idx hidx, windowH0]
      show (0 : ℤ) ≤ 2 + (a.val : ℤ) ∧ 2 + (a.val : ℤ) < ((68 : ℕ) : ℤ)
      omega
    · rw [startH1, windowH1]
      show (0 : ℤ) ≤ 0 + (b.val : ℤ) ∧ 0 + (b.val : ℤ) < ((68 : ℕ) : ℤ)
      omega
  rw [dif_pos hall]
  refine congrArg some ((eq_ix2 _).trans ?_)
  congr 1
  · apply Fin.ext
    show (scatter_S68x68_S1_S64x68_01_n_0_0.start (ix2 a b) idx (0 : Fin 2)
      + scatter_S68x68_S1_S64x68_01_n_0_0.window (ix2 a b) (0 : Fin 2)).toNat = 2 + a.val
    rw [startH0 idx hidx, windowH0]; omega
  · apply Fin.ext
    show (scatter_S68x68_S1_S64x68_01_n_0_0.start (ix2 a b) idx (1 : Fin 2)
      + scatter_S68x68_S1_S64x68_01_n_0_0.window (ix2 a b) (1 : Fin 2)).toNat = b.val
    rw [startH1, windowH1]; omega

end LandH

/-! ## The two masks as the host operations build them -/

/-- The one start index of both scatters: the word 2. -/
def startIdx : IVec S1 32 := broadcastInDim S1 ![] Gen.bcast_S_S1 (constantI S_ 32 2#32)

/-- The 64 x 68 grid of the width mask: zeros, with a 64 x 64 block of ones written from column 2 on. -/
def gridW : Vec Ideal S64x68 .f32 :=
  Host.scatter scatter_S64x68_S1_S64x64_01_n_1_0 (fun _ b => b)
    (broadcastInDim S64x68 ![] Gen.bcast_S_S64x68 (constant (F := Ideal) S_ .f32 0x00000000#32))
    startIdx
    (broadcastInDim S64x64 ![] Gen.bcast_S_S64x64 (constant (F := Ideal) S_ .f32 0x3F800000#32))

/-- The width mask: the grid laid out as one row of 4352. -/
def maskWR : Vec Ideal S1x4352 .f32 := shapeCast S1x4352 gridW Gen.shapeCasts_S64x68_S1x4352

/-- The 68 x 68 grid of the height mask: zeros, with a 64 x 68 block of ones written from row 2 on. -/
def gridH : Vec Ideal S68x68 .f32 :=
  Host.scatter scatter_S68x68_S1_S64x68_01_n_0_0 (fun _ b => b)
    (broadcastInDim S68x68 ![] Gen.bcast_S_S68x68 (constant (F := Ideal) S_ .f32 0x00000000#32))
    startIdx
    (broadcastInDim S64x68 ![] Gen.bcast_S_S64x68 (constant (F := Ideal) S_ .f32 0x3F800000#32))

/-- The height mask: the grid laid out as one row of 4624. -/
def maskHR : Vec Ideal S1x4624 .f32 := shapeCast S1x4624 gridH Gen.shapeCasts_S68x68_S1x4624

theorem startIdx_apply (k : S1.Idx) : startIdx k = 2#32 := by
  unfold startIdx
  rw [broadcastInDim_scalar_apply]
  rfl

/-- A broadcast of the f32 word of one is one everywhere. -/
theorem ones_apply {T : Shape} (h : S_.BroadcastsInDim T ![]) (j : T.Idx) :
    broadcastInDim T ![] h (constant (F := Ideal) S_ .f32 0x3F800000#32) j = 1 := by
  rw [broadcastInDim_scalar_apply, constant_apply, Ideal.ofBits_one_f32]

/-- A broadcast of the f32 word of zero is zero everywhere. -/
theorem zeros_apply {T : Shape} (h : S_.BroadcastsInDim T ![]) (j : T.Idx) :
    broadcastInDim T ![] h (constant (F := Ideal) S_ .f32 0x00000000#32) j = 0 := by
  rw [broadcastInDim_scalar_apply, constant_apply, Ideal.ofBits_zero_f32]

/-- The width grid is one exactly on columns 2 to 65. -/
theorem gridW_apply (r : Fin 64) (cc : Fin 68) :
    gridW (ix2 r cc) = if 2 ≤ cc.val ∧ cc.val < 66 then 1 else 0 := by
  unfold gridW
  have hcc := cc.isLt
  by_cases h : 2 ≤ cc.val ∧ cc.val < 66
  · rw [if_pos h]
    refine LibScatterConst.scatter_const_hit _ _ _ _ 1 (ones_apply _) (ix2 r cc)
      (ix2 r (⟨cc.val - 2, by omega⟩ : Fin 64)) ?_
    rw [resultIdxW _ startIdx_apply]
    refine congrArg some ?_
    congr 1
    apply Fin.ext
    show 2 + (cc.val - 2) = cc.val
    omega
  · rw [if_neg h, LibScatterConst.scatter_const_miss, zeros_apply]
    intro j hj
    obtain ⟨a, b, rfl⟩ : ∃ (a b : Fin 64), j = ix2 a b := ⟨j 0, j 1, eq_ix2 j⟩
    rw [resultIdxW _ startIdx_apply a b] at hj
    have e : 2 + b.val = cc.val := congrArg Fin.val (congrFun (Option.some.inj hj) (1 : Fin 2))
    have hb := b.isLt
    omega

/-- The height grid is one exactly on rows 2 to 65. -/
theorem gridH_apply (r cc : Fin 68) :
    gridH (ix2 r cc) = if 2 ≤ r.val ∧ r.val < 66 then 1 else 0 := by
  unfold gridH
  have hr := r.isLt
  by_cases h : 2 ≤ r.val ∧ r.val < 66
  · rw [if_pos h]
    refine LibScatterConst.scatter_const_hit _ _ _ _ 1 (ones_apply _) (ix2 r cc)
      (ix2 (⟨r.val - 2, by omega⟩ : Fin 64) cc) ?_
    rw [resultIdxH _ startIdx_apply]
    refine congrArg some ?_
    congr 1
    apply Fin.ext
    show 2 + (r.val - 2) = r.val
    omega
  · rw [if_neg h, LibScatterConst.scatter_const_miss, zeros_apply]
    intro j hj
    obtain ⟨a, b, rfl⟩ : ∃ (a : Fin 64) (b : Fin 68), j = ix2 a b := ⟨j 0, j 1, eq_ix2 j⟩
    rw [resultIdxH _ startIdx_apply a b] at hj
    have e : 2 + a.val = r.val := congrArg Fin.val (congrFun (Option.some.inj hj) (0 : Fin 2))
    have ha := a.isLt
    omega

/-- The reference's width mask at a position is the specification's. -/
theorem maskWR_apply (p : Fin 4352) : maskWR (ix2 (0 : Fin 1) p) = SepConv.maskW p.val := by
  unfold maskWR
  have hp := p.isLt
  rw [shapeCast_apply _ _ _ (ix2 (⟨p.val / 68, by omega⟩ : Fin 64) (⟨p.val % 68, by omega⟩ : Fin 68))]
  · rw [gridW_apply]
    unfold SepConv.maskW
    simp only [hp, true_and]
  · rw [Shape.rowMajor_val_two, Shape.rowMajor_val_two]
    show p.val / 68 * 68 + p.val % 68 = 0 * 4352 + p.val
    omega

/-- The reference's height mask at a position is the specification's. -/
theorem maskHR_apply (q : Fin 4624) : maskHR (ix2 (0 : Fin 1) q) = SepConv.maskH q.val := by
  unfold maskHR
  have hq := q.isLt
  rw [shapeCast_apply _ _ _ (ix2 (⟨q.val / 68, by omega⟩ : Fin 68) (⟨q.val % 68, by omega⟩ : Fin 68))]
  · rw [gridH_apply]
    unfold SepConv.maskH
    simp only [hq, true_and]
  · rw [Shape.rowMajor_val_two, Shape.rowMajor_val_two]
    show q.val / 68 * 68 + q.val % 68 = 0 * 4624 + q.val
    omega

/-! ## The buffers the reference's region finds -/

variable (m : (ℓ : Loc nD τ sig) → Buf (Elt Ideal) ℓ) (c : Dev nD)

set_option maxHeartbeats 8000000 in
/-- The width-mask buffer holds the term its host operations build. The scattered grid is named before the two
    spellings of the term are compared, so that the scatter's fold is never opened. -/
theorem V_maskW : (Gen.V m c main_call0_v16 : S1x4352.Idx → EReal) = maskWR := by
  show StableHlo.after Gen.hostOps0 (fun b => m (c, b)) (Proc.devRef .tc main_call0_v16) = _
  after_results_simp
  generalize hG : Host.scatter scatter_S64x68_S1_S64x64_01_n_1_0 (fun _ b => b) _ _ _ = G
  have e : gridW = G := by
    rw [← hG]; unfold gridW; rfl
  unfold maskWR
  rw [e]
  rfl

set_option maxHeartbeats 8000000 in
/-- The height-mask buffer holds the term its host operations build. -/
theorem V_maskH : (Gen.V m c main_call0_v21 : S1x4624.Idx → EReal) = maskHR := by
  show StableHlo.after Gen.hostOps0 (fun b => m (c, b)) (Proc.devRef .tc main_call0_v21) = _
  after_results_simp
  generalize hG : Host.scatter scatter_S68x68_S1_S64x68_01_n_0_0 (fun _ b => b) _ _ _ = G
  have e : gridH = G := by
    rw [← hG]; unfold gridH; rfl
  unfold maskHR
  rw [e]
  rfl

/-- The reference's width mask is the specification's. -/
theorem maskW_reference (p : Fin 4352) :
    (Gen.V m c main_call0_v16 : S1x4352.Idx → EReal) (ix2 (0 : Fin 1) p) = SepConv.maskW p.val := by
  rw [V_maskW]; exact maskWR_apply p

/-- The reference's height mask is the specification's. -/
theorem maskH_reference (q : Fin 4624) :
    (Gen.V m c main_call0_v21 : S1x4624.Idx → EReal) (ix2 (0 : Fin 1) q) = SepConv.maskH q.val := by
  rw [V_maskH]; exact maskHR_apply q

end Cert.ReferenceIdeal.Masks
end
-- ==== Proof.lean ====
/-
  A block of two separable 5 x 5 convolution branches, computed by two different kernels: one function.

  An image of 64 channels and 64 x 64 positions goes through two branches that are summed. The left branch
  convolves with 5 taps along the height (64 -> 64 channels) and then with 5 taps along the width; the right
  branch along the width and then along the height; each convolution has "same" zero padding and a bias per
  output channel, and the sum goes through a leaky rectifier of slope 0.1. Proof/Spec.lean states this once, over
  plain functions: the image is zero padded to 68 x 68 and flattened, with two more zeros at each flat end, so
  that every tap is a shift of the flat position (by one along the width, by 68 along the height) and every
  convolution a sum over 320 = 5 taps x 64 channels; the first-stage biases are multiplied by a 0/1 mask that
  vanishes on the padding ring, so that the intermediate images keep exact zero padding.

  Both programs are one kernel launch over the 64 images with host operations before and after it. The reference
  pads and flattens the image on the host, builds its two masks by scattering a block of ones into zeros, keeps
  its intermediates in one scratch row used twice, adds the two second stages as two sums of 320 terms, and
  drops the padding columns on the host. The kernel builds the padded image in a scratch row (a zero fill
  overlaid by 64 row windows), builds its masks from a position counter (remainder and quotient by 68), computes
  the left first stage in two halves set side by side, takes both second stages as ONE sum of 640 terms, and
  drops the padding columns as it stores. At exact arithmetic a change of float format is the identity, and a
  sum of 640 consecutive terms is the sum of its two halves in any commutative monoid: no finiteness is needed,
  and the precondition is not used.

  The modules: Spec, KerSpec (the specification); KerPay, KerBlock (what one run of the kernel's body leaves in
  its output block), KerHost, MasksK, KerInputs (the arrays the kernel's host operations hand the body, at an
  index), KerFinal (block t of the kernel's output is the specification at image t), KerArray (from blocks to
  the output array and through the closing reshape to the program's run); RefBlock, RefHost, MasksR, RefInputs,
  RefArray the same for the reference; Assemble (the five claims from the two per-block facts). The three frame
  claims are the generated frames; the idealization rewrote nothing, so its claim is trivial.
-/
import proofs.«149304_g2000302748725897_pallasbulk_1061_49_alg».proof.Defs
import proofs.«149304_g2000302748725897_pallasbulk_1061_49_alg».proof.Proof.Assemble
import proofs.«149304_g2000302748725897_pallasbulk_1061_49_alg».proof.Proof.KerFinal
import proofs.«149304_g2000302748725897_pallasbulk_1061_49_alg».proof.Proof.RefInputs
import proofs.«149304_g2000302748725897_pallasbulk_1061_49_alg».proof.Proof.MasksR

noncomputable section

namespace Cert.Proof

open Idealize.ShloMosaic

/-- Everything the certificate claims. -/
theorem claim : Cert.Claim :=
  Assemble.claim_of_blocks
    (fun m c t o h w => Cert.KernelIdeal.KerFinal.blocks m c t o h w)
    (fun m c t o h w => Cert.ReferenceIdeal.RefInputs.blocks m (Cert.ReferenceIdeal.Masks.maskW_reference m)
      (Cert.ReferenceIdeal.Masks.maskH_reference m) c t o h w)

end Cert.Proof

end
